-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S5x128x128 : Shape := ⟨3, ![5, 128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S384 .f32) (main_arg6 : FVec F S384 .f32) (main_arg7 : FVec F S1x128 .f32) (main_arg8 : FVec F S1 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384 .f32 := Host.absf main_arg5
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x640000 32) (main_arg2 : FVec F S5x128x128 .f32) (main_arg3 : FVec F S384x128 .f32) (main_arg4 : FVec F S384x128 .f32) (main_arg5 : FVec F S384 .f32) (main_arg6 : FVec F S384 .f32) (main_arg7 : FVec F S1x128 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg2
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_v13 main_v16
-- ==== Kernel.lean ====
abbrev S50000x128 : Shape := ⟨2, ![50000, 128]⟩
abbrev S2x640000 : Shape := ⟨2, ![2, 640000]⟩
abbrev S5x128x128 : Shape := ⟨3, ![5, 128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S1x640000 : Shape := ⟨2, ![1, 640000]⟩
abbrev S640000 : Shape := ⟨1, ![640000]⟩
abbrev S128x384 : Shape := ⟨2, ![128, 384]⟩
abbrev S1x384 : Shape := ⟨2, ![1, 384]⟩
abbrev S1x128x128 : Shape := ⟨3, ![1, 128, 128]⟩
abbrev S128x128 : Shape := ⟨2, ![128, 128]⟩
abbrev S1000x128 : Shape := ⟨2, ![1000, 128]⟩
abbrev S_ : Shape := ⟨0, ![]⟩
abbrev S640000x1 : Shape := ⟨2, ![640000, 1]⟩
abbrev S640000x128 : Shape := ⟨2, ![640000, 128]⟩
abbrev S1000x384 : Shape := ⟨2, ![1000, 384]⟩
abbrev S128 : Shape := ⟨1, ![128]⟩
abbrev S2 : Shape := ⟨1, ![2]⟩
abbrev S50000x1 : Shape := ⟨2, ![50000, 1]⟩

abbrev nBuf : Space → Nat
  | .hbm => 119
  | .vmem => 81
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S5x128x128, .f32⟩
  | .hbm, ⟨3, _⟩ => ⟨S384x128, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S1x128, .f32⟩
  | .hbm, ⟨8, _⟩ => ⟨S1, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S128x384, .f32⟩
  | .hbm, ⟨14, _⟩ => ⟨S128x384, .f32⟩
  | .hbm, ⟨15, _⟩ => ⟨S1x384, .f32⟩
  | .hbm, ⟨16, _⟩ => ⟨S1x384, .f32⟩
  | .hbm, ⟨17, _⟩ => ⟨S1x128x128, .f32⟩
  | .hbm, ⟨18, _⟩ => ⟨S128x128, .f32⟩
  | .hbm, ⟨19, _⟩ => ⟨S50000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S50000x128, .f32⟩
  | .hbm, ⟨31, _⟩ => ⟨S640000x1, .i32⟩
  | .hbm, ⟨32, _⟩ => ⟨S50000x128, .f32⟩
  | .hbm, ⟨33, _⟩ => ⟨S50000x128, .f32⟩
  | .hbm, ⟨34, _⟩ => ⟨S1x128x128, .f32⟩
  | .hbm, ⟨35, _⟩ => ⟨S128x128, .f32⟩
  | .hbm, ⟨36, _⟩ => ⟨S50000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S50000x128, .f32⟩
  | .hbm, ⟨48, _⟩ => ⟨S640000x1, .i32⟩
  | .hbm, ⟨49, _⟩ => ⟨S50000x128, .f32⟩
  | .hbm, ⟨50, _⟩ => ⟨S50000x128, .f32⟩
  | .hbm, ⟨51, _⟩ => ⟨S1x128x128, .f32⟩
  | .hbm, ⟨52, _⟩ => ⟨S128x128, .f32⟩
  | .hbm, ⟨53, _⟩ => ⟨S50000x128, .f32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S640000x128, .f32⟩
  | .hbm, ⟨63, _⟩ => ⟨S_, .f32⟩
  | .hbm, ⟨64, _⟩ => ⟨S50000x128, .f32⟩
  | .hbm, ⟨65, _⟩ => ⟨S640000x1, .i32⟩
  | .hbm, ⟨66, _⟩ => ⟨S50000x128, .f32⟩
  | .hbm, ⟨67, _⟩ => ⟨S50000x128, .f32⟩
  | .hbm, ⟨68, _⟩ => ⟨S1x128x128, .f32⟩
  | .hbm, ⟨69, _⟩ => ⟨S128x128, .f32⟩
  | .hbm, ⟨70, _⟩ => ⟨S50000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S_, .f32⟩
  | .hbm, ⟨81, _⟩ => ⟨S50000x128, .f32⟩
  | .hbm, ⟨82, _⟩ => ⟨S640000x1, .i32⟩
  | .hbm, ⟨83, _⟩ => ⟨S50000x128, .f32⟩
  | .hbm, ⟨84, _⟩ => ⟨S50000x128, .f32⟩
  | .hbm, ⟨85, _⟩ => ⟨S1x128x128, .f32⟩
  | .hbm, ⟨86, _⟩ => ⟨S128x128, .f32⟩
  | .hbm, ⟨87, _⟩ => ⟨S50000x128, .f32⟩
  | .hbm, ⟨88, _⟩ => ⟨S_, .i32⟩
  | .hbm, ⟨89, _⟩ => ⟨S640000, .i32⟩
  | .hbm, ⟨90, _⟩ => ⟨S640000, .i1⟩
  | .hbm, ⟨91, _⟩ => ⟨S_, .i32⟩
  | .hbm, ⟨92, _⟩ => ⟨S640000, .i32⟩
  | .hbm, ⟨93, _⟩ => ⟨S640000, .i32⟩
  | .hbm, ⟨94, _⟩ => ⟨S640000, .i32⟩
  | .hbm, ⟨95, _⟩ => ⟨S640000x1, .i32⟩
  | .hbm, ⟨96, _⟩ => ⟨S640000x128, .f32⟩
  | .hbm, ⟨97, _⟩ => ⟨S_, .f32⟩
  | .hbm, ⟨98, _⟩ => ⟨S50000x128, .f32⟩
  | .hbm, ⟨99, _⟩ => ⟨S640000x1, .i32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S128x128, .f32⟩
  | .hbm, ⟨104, _⟩ => ⟨S128, .f32⟩
  | .hbm, ⟨105, _⟩ => ⟨S_, .i32⟩
  | .hbm, ⟨106, _⟩ => ⟨S1, .i32⟩
  | .hbm, ⟨107, _⟩ => ⟨S128x128, .f32⟩
  | .hbm, ⟨108, _⟩ => ⟨S_, .f32⟩
  | .hbm, ⟨109, _⟩ => ⟨S1x128, .f32⟩
  | .hbm, ⟨110, _⟩ => ⟨S_, .f32⟩
  | .hbm, ⟨111, _⟩ => ⟨S_, .i32⟩
  | .hbm, ⟨112, _⟩ => ⟨S1, .i32⟩
  | .hbm, ⟨113, _⟩ => ⟨S_, .i32⟩
  | .hbm, ⟨114, _⟩ => ⟨S1, .i32⟩
  | .hbm, ⟨115, _⟩ => ⟨S2, .i32⟩
  | .hbm, ⟨116, _⟩ => ⟨S1x128, .f32⟩
  | .hbm, ⟨117, _⟩ => ⟨S50000x128, .f32⟩
  | .hbm, ⟨118, _⟩ => ⟨S50000x1, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S128x384, .f32⟩
  | .local _ .vmem, ⟨10, _⟩ => ⟨S128x384, .f32⟩
  | .local _ .vmem, ⟨11, _⟩ => ⟨S1x384, .f32⟩
  | .local _ .vmem, ⟨12, _⟩ => ⟨S1x384, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S128x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S128x384, .f32⟩
  | .local _ .vmem, ⟨25, _⟩ => ⟨S128x384, .f32⟩
  | .local _ .vmem, ⟨26, _⟩ => ⟨S1x384, .f32⟩
  | .local _ .vmem, ⟨27, _⟩ => ⟨S1x384, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S128x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S1000x128, .f32⟩
  | .local _ .vmem, ⟨39, _⟩ => ⟨S128x384, .f32⟩
  | .local _ .vmem, ⟨40, _⟩ => ⟨S128x384, .f32⟩
  | .local _ .vmem, ⟨41, _⟩ => ⟨S1x384, .f32⟩
  | .local _ .vmem, ⟨42, _⟩ => ⟨S1x384, .f32⟩
  | .local _ .vmem, ⟨43, _⟩ => ⟨S1000x128, .f32⟩
  | .local _ .vmem, ⟨44, _⟩ => ⟨S1000x128, .f32⟩
  | .local _ .vmem, ⟨45, _⟩ => ⟨S1000x128, .f32⟩
  | .local _ .vmem, ⟨46, _⟩ => ⟨S1000x128, .f32⟩
  | .local _ .vmem, ⟨47, _⟩ => ⟨S128x128, .f32⟩
  | .local _ .vmem, ⟨48, _⟩ => ⟨S1000x128, .f32⟩
  | .local _ .vmem, ⟨49, _⟩ => ⟨S1000x128, .f32⟩
  | .local _ .vmem, ⟨50, _⟩ => ⟨S1000x128, .f32⟩
  | .local _ .vmem, ⟨51, _⟩ => ⟨S1000x128, .f32⟩
  | .local _ .vmem, ⟨52, _⟩ => ⟨S1000x128, .f32⟩
  | .local _ .vmem, ⟨53, _⟩ => ⟨S1000x128, .f32⟩
  | .local _ .vmem, ⟨54, _⟩ => ⟨S128x384, .f32⟩
  | .local _ .vmem, ⟨55, _⟩ => ⟨S128x384, .f32⟩
  | .local _ .vmem, ⟨56, _⟩ => ⟨S1x384, .f32⟩
  | .local _ .vmem, ⟨57, _⟩ => ⟨S1x384, .f32⟩
  | .local _ .vmem, ⟨58, _⟩ => ⟨S1000x128, .f32⟩
  | .local _ .vmem, ⟨59, _⟩ => ⟨S1000x128, .f32⟩
  | .local _ .vmem, ⟨60, _⟩ => ⟨S1000x128, .f32⟩
  | .local _ .vmem, ⟨61, _⟩ => ⟨S1000x128, .f32⟩
  | .local _ .vmem, ⟨62, _⟩ => ⟨S128x128, .f32⟩
  | .local _ .vmem, ⟨63, _⟩ => ⟨S1000x128, .f32⟩
  | .local _ .vmem, ⟨64, _⟩ => ⟨S1000x128, .f32⟩
  | .local _ .vmem, ⟨65, _⟩ => ⟨S1000x128, .f32⟩
  | .local _ .vmem, ⟨66, _⟩ => ⟨S1000x128, .f32⟩
  | .local _ .vmem, ⟨67, _⟩ => ⟨S1000x128, .f32⟩
  | .local _ .vmem, ⟨68, _⟩ => ⟨S1000x128, .f32⟩
  | .local _ .vmem, ⟨69, _⟩ => ⟨S128x384, .f32⟩
  | .local _ .vmem, ⟨70, _⟩ => ⟨S128x384, .f32⟩
  | .local _ .vmem, ⟨71, _⟩ => ⟨S1x384, .f32⟩
  | .local _ .vmem, ⟨72, _⟩ => ⟨S1x384, .f32⟩
  | .local _ .vmem, ⟨73, _⟩ => ⟨S1000x128, .f32⟩
  | .local _ .vmem, ⟨74, _⟩ => ⟨S1000x128, .f32⟩
  | .local _ .vmem, ⟨75, _⟩ => ⟨S1000x128, .f32⟩
  | .local _ .vmem, ⟨76, _⟩ => ⟨S1000x128, .f32⟩
  | .local _ .vmem, ⟨77, _⟩ => ⟨S128x128, .f32⟩
  | .local _ .vmem, ⟨78, _⟩ => ⟨S1x128, .f32⟩
  | .local _ .vmem, ⟨79, _⟩ => ⟨S1000x128, .f32⟩
  | .local _ .vmem, ⟨80, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_7 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_10 : Ref sig .tc := ⟨.hbm, 88, rfl⟩
abbrev main_v67 : Ref sig .tc := ⟨.hbm, 89, rfl⟩
abbrev main_v68 : Ref sig .tc := ⟨.hbm, 90, rfl⟩
abbrev main_c_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_c_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_c_16 : Ref sig .tc := ⟨.hbm, 111, rfl⟩
abbrev main_v84 : Ref sig .tc := ⟨.hbm, 112, rfl⟩
abbrev main_c_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc9_stg6_0 : Ref sig .tc := ⟨.vmem, 73, rfl⟩
abbrev cc9_stg6_1 : Ref sig .tc := ⟨.vmem, 74, rfl⟩
abbrev cc10_stg0_0 : Ref sig .tc := ⟨.vmem, 75, rfl⟩
abbrev cc10_stg0_1 : Ref sig .tc := ⟨.vmem, 76, rfl⟩
abbrev cc10_stg1_0 : Ref sig .tc := ⟨.vmem, 77, rfl⟩
abbrev cc10_stg2_0 : Ref sig .tc := ⟨.vmem, 78, rfl⟩
abbrev cc10_stg3_0 : Ref sig .tc := ⟨.vmem, 79, rfl⟩
abbrev cc10_stg3_1 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem6_0 : DmaSem sig := 73
abbrev cc9_sem6_1 : DmaSem sig := 74
abbrev cc10_sem0_0 : DmaSem sig := 75
abbrev cc10_sem0_1 : DmaSem sig := 76
abbrev cc10_sem1_0 : DmaSem sig := 77
abbrev cc10_sem2_0 : DmaSem sig := 78
abbrev cc10_sem3_0 : DmaSem sig := 79
abbrev cc10_sem3_1 : DmaSem sig := 80

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x384 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x384 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x384 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x384 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x384 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x384 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x384 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x384 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S1000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S1000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S384x128_S128x384_1_0 : S384x128.Transposes [1, 0] S128x384
  shapeCasts_S384_S1x384 : S384.ShapeCasts S1x384
  slices_S5x128x128_S1x128x128_0_0_0 : S5x128x128.Slices ![0, 0, 0] S1x128x128
  shapeCasts_S1x128x128_S128x128 : S1x128x128.ShapeCasts S128x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  shapeCasts_S1000x128_S1000x128 : S1000x128.ShapeCasts S1000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  slices_S5x128x128_S1x128x128_1_0_0 : S5x128x128.Slices ![1, 0, 0] S1x128x128
  slices_S5x128x128_S1x128x128_2_0_0 : S5x128x128.Slices ![2, 0, 0] S1x128x128
  slices_S5x128x128_S1x128x128_3_0_0 : S5x128x128.Slices ![3, 0, 0] S1x128x128
  slices_S5x128x128_S1x128x128_4_0_0 : S5x128x128.Slices ![4, 0, 0] S1x128x128
  bcast_S_S128x128 : S_.BroadcastsInDim S128x128 (![] : Fin 0 → Fin S128x128.rank)
  shapeCasts_S1x128_S128 : S1x128.ShapeCasts S128
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S50000x128_S50000x1_0_0 : S50000x128.Slices ![0, 0] S50000x1
  dot_S1000x128_S128x128_S1000x128_1_0_0_1_n_n_wf : DotDims.WF S1000x128 S128x128 S1000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S1000x128_S128x384_S1000x384_1_0_0_1_n_n_wf : DotDims.WF S1000x128 S128x384 S1000x384 [1] [0] [0] [1] [] []
  scatter_S128x128_S1_S128_0_1_1_0_wf : ScatterDims.WF S128x128 S1 S128 [0] [1] [1] 0
  scatter_S1x128_S2_S__n_01_01_0_wf : ScatterDims.WF S1x128 S2 S_ [] [0, 1] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S50000x128.size a
  hwx1_6 : ∀ i : grid1.Coords, EltTy.bits .f32 = 32 ∨ (Rect.block (s := S50000x128) S1000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .f32 = 32 ∨ (Rect.block (s := S50000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S50000x128.size a
  hwx3_6 : ∀ i : grid3.Coords, EltTy.bits .f32 = 32 ∨ (Rect.block (s := S50000x128) S1000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S50000x128.size a
  hwx4_2 : ∀ i : grid4.Coords, EltTy.bits .f32 = 32 ∨ (Rect.block (s := S50000x128) S1000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S50000x128.size a
  hwx5_1 : ∀ i : grid5.Coords, EltTy.bits .f32 = 32 ∨ (Rect.block (s := S50000x128) S1000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x384.size a ≤ S128x384.size a
  hwx5_2 : ∀ i : grid5.Coords, EltTy.bits .f32 = 32 ∨ (Rect.block (s := S128x384) S128x384.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x384.size a ≤ S1x384.size a
  hwx5_4 : ∀ i : grid5.Coords, EltTy.bits .f32 = 32 ∨ (Rect.block (s := S1x384) S1x384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x384.size a ≤ S1x384.size a
  hwx5_5 : ∀ i : grid5.Coords, EltTy.bits .f32 = 32 ∨ (Rect.block (s := S1x384) S1x384.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x128.size a ≤ S50000x128.size a
  hwx5_6 : ∀ i : grid5.Coords, EltTy.bits .f32 = 32 ∨ (Rect.block (s := S50000x128) S1000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S50000x128.size a
  hwx6_0 : ∀ i : grid6.Coords, EltTy.bits .f32 = 32 ∨ (Rect.block (s := S50000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x128.size a ≤ S50000x128.size a
  hwx6_2 : ∀ i : grid6.Coords, EltTy.bits .f32 = 32 ∨ (Rect.block (s := S50000x128) S1000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S50000x128.size a
  hwx7_0 : ∀ i : grid7.Coords, EltTy.bits .f32 = 32 ∨ (Rect.block (s := S50000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x128.size a ≤ S50000x128.size a
  hwx7_1 : ∀ i : grid7.Coords, EltTy.bits .f32 = 32 ∨ (Rect.block (s := S50000x128) S1000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x384.size a ≤ S128x384.size a
  hwx7_2 : ∀ i : grid7.Coords, EltTy.bits .f32 = 32 ∨ (Rect.block (s := S128x384) S128x384.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x384.size a ≤ S128x384.size a
  hwx7_3 : ∀ i : grid7.Coords, EltTy.bits .f32 = 32 ∨ (Rect.block (s := S128x384) S128x384.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x384.size a ≤ S1x384.size a
  hwx7_4 : ∀ i : grid7.Coords, EltTy.bits .f32 = 32 ∨ (Rect.block (s := S1x384) S1x384.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x384.size a ≤ S1x384.size a
  hwx7_5 : ∀ i : grid7.Coords, EltTy.bits .f32 = 32 ∨ (Rect.block (s := S1x384) S1x384.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x128.size a ≤ S50000x128.size a
  hwx7_6 : ∀ i : grid7.Coords, EltTy.bits .f32 = 32 ∨ (Rect.block (s := S50000x128) S1000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x128.size a ≤ S50000x128.size a
  hwx8_0 : ∀ i : grid8.Coords, EltTy.bits .f32 = 32 ∨ (Rect.block (s := S50000x128) S1000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x128.size a ≤ S50000x128.size a
  hwx8_2 : ∀ i : grid8.Coords, EltTy.bits .f32 = 32 ∨ (Rect.block (s := S50000x128) S1000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1000x128.size a ≤ S50000x128.size a
  hwx9_0 : ∀ i : grid9.Coords, EltTy.bits .f32 = 32 ∨ (Rect.block (s := S50000x128) S1000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1000x128.size a ≤ S50000x128.size a
  hwx9_1 : ∀ i : grid9.Coords, EltTy.bits .f32 = 32 ∨ (Rect.block (s := S50000x128) S1000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x384.size a ≤ S128x384.size a
  hwx9_2 : ∀ i : grid9.Coords, EltTy.bits .f32 = 32 ∨ (Rect.block (s := S128x384) S128x384.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x384.size a ≤ S128x384.size a
  hwx9_3 : ∀ i : grid9.Coords, EltTy.bits .f32 = 32 ∨ (Rect.block (s := S128x384) S128x384.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x384.size a ≤ S1x384.size a
  hwx9_4 : ∀ i : grid9.Coords, EltTy.bits .f32 = 32 ∨ (Rect.block (s := S1x384) S1x384.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x384.size a ≤ S1x384.size a
  hwx9_5 : ∀ i : grid9.Coords, EltTy.bits .f32 = 32 ∨ (Rect.block (s := S1x384) S1x384.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1000x128.size a ≤ S50000x128.size a
  hwx9_6 : ∀ i : grid9.Coords, EltTy.bits .f32 = 32 ∨ (Rect.block (s := S50000x128) S1000x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x128.size a ≤ S50000x128.size a
  hwx10_0 : ∀ i : grid10.Coords, EltTy.bits .f32 = 32 ∨ (Rect.block (s := S50000x128) S1000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1000x128.size a ≤ S50000x128.size a
  hwx10_3 : ∀ i : grid10.Coords, EltTy.bits .f32 = 32 ∨ (Rect.block (s := S50000x128) S1000x128.size (cc10_transform_3 i) (hinb10_3 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def scatter_S128x128_S1_S128_0_1_1_0 : ScatterDims S128x128 S1 S128 where
  updateWindowDims := [0]
  insertedWindowDims := [1]
  scatterDimsToOperandDims := [1]
  indexVectorDim := 0
  wf := scatter_S128x128_S1_S128_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S1000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v35) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v48) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S128x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v6) S1x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v7) S1x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v49) S1000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v49) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v51) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S1000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v62) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v49) S1000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v4) S128x384.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v5) S128x384.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v6) S1x384.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v7) S1x384.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v63) S1000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v63) S1000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v65) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v66) S1000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v76) S1000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v63) S1000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v4) S128x384.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v5) S128x384.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v6) S1x384.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v7) S1x384.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v77) S1000x128.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v77) S1000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v81) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v87) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v88) S1000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S5x128x128 : Shape := ⟨3, ![5, 128, 128]⟩
abbrev S384x128 : Shape := ⟨2, ![384, 128]⟩
abbrev S384 : Shape := ⟨1, ![384]⟩
abbrev S1x128 : Shape := ⟨2, ![1, 128]⟩
abbrev S1 : Shape := ⟨1, ![1]⟩
abbrev S1x640000 : Shape := ⟨2, ![1, 640000]⟩
abbrev S640000 : Shape := ⟨1, ![640000]⟩
abbrev S1x128x128 : Shape := ⟨3, ![1, 128, 128]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩
abbrev S128x384 : Shape := ⟨2, ![128, 384]⟩
abbrev S50000x384 : Shape := ⟨2, ![50000, 384]⟩
abbrev S1x384 : Shape := ⟨2, ![1, 384]⟩
abbrev S128x1 : Shape := ⟨2, ![128, 1]⟩
abbrev S50000x1 : Shape := ⟨2, ![50000, 1]⟩
abbrev S1x1 : Shape := ⟨2, ![1, 1]⟩

abbrev nBuf : Space → Nat
  | .hbm => 316
  | .vmem => 0
  | .smem => 0
  | _ => 0

abbrev hbmTy0_0 (i : Nat) : BufTy := match i % 128 with
  | 0 => ⟨S50000x128, .f32⟩
  | 1 => ⟨S2x640000, .i32⟩
  | 2 => ⟨S5x128x128, .f32⟩
  | 3 => ⟨S384x128, .f32⟩
  | 4 => ⟨S384x128, .f32⟩
  | 5 => ⟨S384, .f32⟩
  | 6 => ⟨S384, .f32⟩
  | 7 => ⟨S1x128, .f32⟩
  | 8 => ⟨S1, .f32⟩
  | 9 => ⟨S1x640000, .i32⟩
  | 10 => ⟨S640000, .i32⟩
  | 11 => ⟨S1x640000, .i32⟩
  | 12 => ⟨S640000, .i32⟩
  | 13 => ⟨S1x128x128, .f32⟩
  | 14 => ⟨S128x128, .f32⟩
  | 15 => ⟨S50000x128, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x128, .f32⟩
  | 25 => ⟨S_, .f32⟩
  | 26 => ⟨S50000x128, .f32⟩
  | 27 => ⟨S640000x1, .i32⟩
  | 28 => ⟨S50000x128, .f32⟩
  | 29 => ⟨S128x384, .f32⟩
  | 30 => ⟨S50000x384, .f32⟩
  | 31 => ⟨S1x384, .f32⟩
  | 32 => ⟨S50000x384, .f32⟩
  | 33 => ⟨S50000x384, .f32⟩
  | 34 => ⟨S128x384, .f32⟩
  | 35 => ⟨S50000x384, .f32⟩
  | 36 => ⟨S1x384, .f32⟩
  | 37 => ⟨S50000x384, .f32⟩
  | 38 => ⟨S50000x384, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S50000x128, .f32⟩
  | 71 => ⟨S50000x128, .f32⟩
  | 72 => ⟨S1x128x128, .f32⟩
  | 73 => ⟨S128x128, .f32⟩
  | 74 => ⟨S50000x128, .f32⟩
  | 75 => ⟨S_, .i32⟩
  | 76 => ⟨S640000, .i32⟩
  | 77 => ⟨S640000, .i1⟩
  | 78 => ⟨S_, .i32⟩
  | 79 => ⟨S640000, .i32⟩
  | 80 => ⟨S640000, .i32⟩
  | 81 => ⟨S640000, .i32⟩
  | 82 => ⟨S640000x1, .i32⟩
  | 83 => ⟨S640000x128, .f32⟩
  | 84 => ⟨S_, .f32⟩
  | 85 => ⟨S50000x128, .f32⟩
  | 86 => ⟨S640000x1, .i32⟩
  | 87 => ⟨S50000x128, .f32⟩
  | 88 => ⟨S128x384, .f32⟩
  | 89 => ⟨S50000x384, .f32⟩
  | 90 => ⟨S1x384, .f32⟩
  | 91 => ⟨S50000x384, .f32⟩
  | 92 => ⟨S50000x384, .f32⟩
  | 93 => ⟨S128x384, .f32⟩
  | 94 => ⟨S50000x384, .f32⟩
  | 95 => ⟨S1x384, .f32⟩
  | 96 => ⟨S50000x384, .f32⟩
  | 97 => ⟨S50000x384, .f32⟩
  | 98 => ⟨S50000x128, .f32⟩
  | 99 => ⟨S50000x128, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128x128, .f32⟩
  | 4 => ⟨S128x128, .f32⟩
  | 5 => ⟨S50000x128, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x128, .f32⟩
  | 15 => ⟨S_, .f32⟩
  | 16 => ⟨S50000x128, .f32⟩
  | 17 => ⟨S640000x1, .i32⟩
  | 18 => ⟨S50000x128, .f32⟩
  | 19 => ⟨S128x384, .f32⟩
  | 20 => ⟨S50000x384, .f32⟩
  | 21 => ⟨S1x384, .f32⟩
  | 22 => ⟨S50000x384, .f32⟩
  | 23 => ⟨S50000x384, .f32⟩
  | 24 => ⟨S128x384, .f32⟩
  | 25 => ⟨S50000x384, .f32⟩
  | 26 => ⟨S1x384, .f32⟩
  | 27 => ⟨S50000x384, .f32⟩
  | 28 => ⟨S50000x384, .f32⟩
  | 29 => ⟨S50000x128, .f32⟩
  | 30 => ⟨S50000x128, .f32⟩
  | 31 => ⟨S50000x128, .f32⟩
  | 32 => ⟨S50000x128, .f32⟩
  | 33 => ⟨S50000x128, .f32⟩
  | 34 => ⟨S50000x128, .f32⟩
  | 35 => ⟨S50000x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S50000x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S50000x128, .f32⟩
  | 61 => ⟨S50000x128, .f32⟩
  | 62 => ⟨S1x128x128, .f32⟩
  | 63 => ⟨S128x128, .f32⟩
  | 64 => ⟨S50000x128, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000x128, .f32⟩
  | 74 => ⟨S_, .f32⟩
  | 75 => ⟨S50000x128, .f32⟩
  | 76 => ⟨S640000x1, .i32⟩
  | 77 => ⟨S50000x128, .f32⟩
  | 78 => ⟨S128x384, .f32⟩
  | 79 => ⟨S50000x384, .f32⟩
  | 80 => ⟨S1x384, .f32⟩
  | 81 => ⟨S50000x384, .f32⟩
  | 82 => ⟨S50000x384, .f32⟩
  | 83 => ⟨S128x384, .f32⟩
  | 84 => ⟨S50000x384, .f32⟩
  | 85 => ⟨S1x384, .f32⟩
  | 86 => ⟨S50000x384, .f32⟩
  | 87 => ⟨S50000x384, .f32⟩
  | 88 => ⟨S50000x128, .f32⟩
  | 89 => ⟨S50000x128, .f32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x128, .f32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S_, .i32⟩
  | 125 => ⟨S640000, .i32⟩
  | 126 => ⟨S640000, .i1⟩
  | 127 => ⟨S_, .i32⟩
  | _ => ⟨S50000x128, .f32⟩

abbrev hbmTy0_2 (i : Nat) : BufTy := match i % 128 with
  | 0 => ⟨S640000, .i32⟩
  | 1 => ⟨S640000, .i32⟩
  | 2 => ⟨S640000, .i32⟩
  | 3 => ⟨S640000x1, .i32⟩
  | 4 => ⟨S640000x128, .f32⟩
  | 5 => ⟨S_, .f32⟩
  | 6 => ⟨S50000x128, .f32⟩
  | 7 => ⟨S640000x1, .i32⟩
  | 8 => ⟨S50000x128, .f32⟩
  | 9 => ⟨S128x384, .f32⟩
  | 10 => ⟨S50000x384, .f32⟩
  | 11 => ⟨S1x384, .f32⟩
  | 12 => ⟨S50000x384, .f32⟩
  | 13 => ⟨S50000x384, .f32⟩
  | 14 => ⟨S128x384, .f32⟩
  | 15 => ⟨S50000x384, .f32⟩
  | 16 => ⟨S1x384, .f32⟩
  | 17 => ⟨S50000x384, .f32⟩
  | 18 => ⟨S50000x384, .f32⟩
  | 19 => ⟨S50000x128, .f32⟩
  | 20 => ⟨S50000x128, .f32⟩
  | 21 => ⟨S50000x128, .f32⟩
  | 22 => ⟨S50000x128, .f32⟩
  | 23 => ⟨S50000x128, .f32⟩
  | 24 => ⟨S50000x128, .f32⟩
  | 25 => ⟨S50000x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S128x1, .f32⟩
  | 56 => ⟨S50000x1, .f32⟩
  | 57 => ⟨S1x1, .f32⟩
  | 58 => ⟨S50000x1, .f32⟩
  | 59 => ⟨S50000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_6 : Ref sig .tc := ⟨.hbm, 75, rfl⟩
abbrev main_v58 : Ref sig .tc := ⟨.hbm, 76, rfl⟩
abbrev main_v59 : Ref sig .tc := ⟨.hbm, 77, rfl⟩
abbrev main_c_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_9 : Ref sig .tc := ⟨.hbm, 107, rfl⟩
abbrev main_v87 : Ref sig .tc := ⟨.hbm, 108, rfl⟩
abbrev main_v88 : Ref sig .tc := ⟨.hbm, 109, rfl⟩
abbrev main_cst_10 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_11 : Ref sig .tc := ⟨.hbm, 116, rfl⟩
abbrev main_v94 : Ref sig .tc := ⟨.hbm, 117, rfl⟩
abbrev main_v95 : Ref sig .tc := ⟨.hbm, 118, rfl⟩
abbrev main_cst_12 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_13 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_c_14 : Ref sig .tc := ⟨.hbm, 134, rfl⟩
abbrev main_v109 : Ref sig .tc := ⟨.hbm, 135, rfl⟩
abbrev main_v110 : Ref sig .tc := ⟨.hbm, 136, rfl⟩
abbrev main_c_15 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_16 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_17 : Ref sig .tc := ⟨.hbm, 166, rfl⟩
abbrev main_v138 : Ref sig .tc := ⟨.hbm, 167, rfl⟩
abbrev main_v139 : Ref sig .tc := ⟨.hbm, 168, rfl⟩
abbrev main_cst_18 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_19 : Ref sig .tc := ⟨.hbm, 175, rfl⟩
abbrev main_v145 : Ref sig .tc := ⟨.hbm, 176, rfl⟩
abbrev main_v146 : Ref sig .tc := ⟨.hbm, 177, rfl⟩
abbrev main_cst_20 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_cst_21 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_c_22 : Ref sig .tc := ⟨.hbm, 193, rfl⟩
abbrev main_v160 : Ref sig .tc := ⟨.hbm, 194, rfl⟩
abbrev main_v161 : Ref sig .tc := ⟨.hbm, 195, rfl⟩
abbrev main_c_23 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_cst_24 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_cst_25 : Ref sig .tc := ⟨.hbm, 225, rfl⟩
abbrev main_v189 : Ref sig .tc := ⟨.hbm, 226, rfl⟩
abbrev main_v190 : Ref sig .tc := ⟨.hbm, 227, rfl⟩
abbrev main_cst_26 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_cst_27 : Ref sig .tc := ⟨.hbm, 234, rfl⟩
abbrev main_v196 : Ref sig .tc := ⟨.hbm, 235, rfl⟩
abbrev main_v197 : Ref sig .tc := ⟨.hbm, 236, rfl⟩
abbrev main_cst_28 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_cst_29 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_c_30 : Ref sig .tc := ⟨.hbm, 252, rfl⟩
abbrev main_v211 : Ref sig .tc := ⟨.hbm, 253, rfl⟩
abbrev main_v212 : Ref sig .tc := ⟨.hbm, 254, rfl⟩
abbrev main_c_31 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_cst_32 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_cst_33 : Ref sig .tc := ⟨.hbm, 284, rfl⟩
abbrev main_v240 : Ref sig .tc := ⟨.hbm, 285, rfl⟩
abbrev main_v241 : Ref sig .tc := ⟨.hbm, 286, rfl⟩
abbrev main_cst_34 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_cst_35 : Ref sig .tc := ⟨.hbm, 293, rfl⟩
abbrev main_v247 : Ref sig .tc := ⟨.hbm, 294, rfl⟩
abbrev main_v248 : Ref sig .tc := ⟨.hbm, 295, rfl⟩
abbrev main_cst_36 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_cst_37 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_call0_cst : Ref sig .tc := ⟨.hbm, 308, rfl⟩
abbrev main_call0_v0 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S5x128x128_S1x128x128_0_0_0 : S5x128x128.Slices ![0, 0, 0] S1x128x128
  shapeCasts_S1x128x128_S128x128 : S1x128x128.ShapeCasts S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S5x128x128_S1x128x128_1_0_0 : S5x128x128.Slices ![1, 0, 0] S1x128x128
  slices_S5x128x128_S1x128x128_2_0_0 : S5x128x128.Slices ![2, 0, 0] S1x128x128
  slices_S5x128x128_S1x128x128_3_0_0 : S5x128x128.Slices ![3, 0, 0] S1x128x128
  slices_S5x128x128_S1x128x128_4_0_0 : S5x128x128.Slices ![4, 0, 0] S1x128x128
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x384_S50000x384_1_0_0_1_n_n_wf : DotDims.WF S50000x128 S128x384 S50000x384 [1] [0] [0] [1] [] []
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The idealized kernel program's run, with the result buffer kept in the post.

  The program is eleven kernel regions among twelve stretches of host operations. Its buffer contents at each
  boundary are a fold from the launch memory: a stretch applies its operations, a region replaces its windows'
  arrays by what its write-backs leave. The last boundary's contents are `Gen.W23 m ρ c`. Every weakly fair
  execution terminates, nothing faulting, with every unscoped buffer at those contents; stated here for the
  result buffer `main_v89` and for the nine arguments, which end as launched.
-/
import proofs.«121637_j32624571580955_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and
    the argument arrays as launched. -/
theorem run : θ_run defs (onTc (τ := τ) (main (F := F))) ⟨m, fun _ => 0, ρ⟩ (fun r => ∀ c : Dev nD,
      r.2.mem ((c.tc : Thread nD τ).loc main_v89) = W23 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v89 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c)⟩)

end Cert.KernelIdeal.KRun

end
-- ==== Proof.Arr.lean ====
/-
  The computation both programs perform, stated once, array by array, in the reference's own operations.

  Five rounds of a gated graph layer over node features h : [50000, 128]:
    m   = h · W_k                                   (one 128 × 128 matrix per round)
    agg = Σ over edges (s → d) of m[s], added into row d   (a gather of source rows, then a scatter-add by target)
    gi  = agg · w_ihᵀ + b_ih,   gh = h · w_hhᵀ + b_hh     (three gates of width 128 each, side by side)
    r   = σ(gi_r + gh_r),  z = σ(gi_z + gh_z),  n = tanh(gi_n + r · gh_n)
    h'  = (1 − z) · n + z · h
  and a head  out = max(h, 0) · lin_wᵀ + lin_b : [50000, 1].
  Every function below is a plain composition of whole-array operations; nothing here is proved.
-/
import proofs.«121637_j32624571580955_1_alg».proof.Proof.Gen.ReferenceIdeal

noncomputable section

namespace Cert.Arr

open Idealize.ShloMosaic Cert.ReferenceIdeal Cert.ReferenceIdeal.Gen

variable {F : FTy → Type} [FloatOps F]

/-- Row 0 of the edge list: the source node of each edge. -/
def srcRow (e : IVec S2x640000 32) : IVec S640000 32 :=
  shapeCast _ (extractStridedSlice S1x640000 ![0, 0] e slices_S2x640000_S1x640000_0_0) shapeCasts_S1x640000_S640000

/-- Row 1 of the edge list: the target node of each edge. -/
def dstRow (e : IVec S2x640000 32) : IVec S640000 32 :=
  shapeCast _ (extractStridedSlice S1x640000 ![1, 0] e slices_S2x640000_S1x640000_1_0) shapeCasts_S1x640000_S640000

/-- The source indices as the gather takes them: a negative index counts from the end (50000 is added), one column. -/
def gatherIdx (e : IVec S2x640000 32) : IVec S640000x1 32 :=
  broadcastInDim S640000x1 ![0] bcast_S640000_S640000x1_0
    (select (cmpi .slt (srcRow e) (broadcastInDim S640000 ![] bcast_S_S640000 (constantI S_ 32 0#32)))
      (addi (srcRow e) (broadcastInDim S640000 ![] bcast_S_S640000 (constantI S_ 32 50000#32))) (srcRow e))

/-- The target indices as the scatter takes them, one column. -/
def scatterIdx (e : IVec S2x640000 32) : IVec S640000x1 32 :=
  broadcastInDim S640000x1 ![0] bcast_S640000_S640000x1_0 (dstRow e)

/-- The all-zero feature array the sums start from. -/
def zeros : FVec F S50000x128 .f32 := broadcastInDim S50000x128 ![] bcast_S_S50000x128 (constant S_ .f32 0x00000000#32)

/-- The all-one feature array. -/
def ones : FVec F S50000x128 .f32 := broadcastInDim S50000x128 ![] bcast_S_S50000x128 (constant S_ .f32 0x3F800000#32)

/-- Sum over incoming edges: row d of the result is the sum of the rows m[s] over the edges s → d. -/
def seg (e : IVec S2x640000 32) (msg : FVec F S50000x128 .f32) : FVec F S50000x128 .f32 :=
  Host.scatterAdd scatter_S50000x128_S640000x1_S640000x128_1_0_0_1 zeros (scatterIdx e)
    (Host.gather gather_S50000x128_S640000x1_S640000x128_1_0_n_n_0_1_1128 msg (gatherIdx e))

/-- The round's 128 × 128 matrix, cut out of the stack of five. -/
def W0 (w : FVec F S5x128x128 .f32) : FVec F S128x128 .f32 :=
  shapeCast _ (extractStridedSlice S1x128x128 ![0, 0, 0] w slices_S5x128x128_S1x128x128_0_0_0) shapeCasts_S1x128x128_S128x128
def W1 (w : FVec F S5x128x128 .f32) : FVec F S128x128 .f32 :=
  shapeCast _ (extractStridedSlice S1x128x128 ![1, 0, 0] w slices_S5x128x128_S1x128x128_1_0_0) shapeCasts_S1x128x128_S128x128
def W2 (w : FVec F S5x128x128 .f32) : FVec F S128x128 .f32 :=
  shapeCast _ (extractStridedSlice S1x128x128 ![2, 0, 0] w slices_S5x128x128_S1x128x128_2_0_0) shapeCasts_S1x128x128_S128x128
def W3 (w : FVec F S5x128x128 .f32) : FVec F S128x128 .f32 :=
  shapeCast _ (extractStridedSlice S1x128x128 ![3, 0, 0] w slices_S5x128x128_S1x128x128_3_0_0) shapeCasts_S1x128x128_S128x128
def W4 (w : FVec F S5x128x128 .f32) : FVec F S128x128 .f32 :=
  shapeCast _ (extractStridedSlice S1x128x128 ![4, 0, 0] w slices_S5x128x128_S1x128x128_4_0_0) shapeCasts_S1x128x128_S128x128

/-- The messages: every node's features times the round's matrix. -/
def lin (h : FVec F S50000x128 .f32) (W : FVec F S128x128 .f32) : FVec F S50000x128 .f32 :=
  Host.dotGeneral dot_S50000x128_S128x128_S50000x128_1_0_0_1_n_n none h W

/-- A gate weight as the product takes it: transposed to [128, 384]. -/
def wT (a : FVec F S384x128 .f32) : FVec F S128x384 .f32 := transpose S128x384 [1, 0] a transposes_S384x128_S128x384_1_0

/-- The three gate pre-activations side by side: u · wT + b, the bias repeated down the rows. -/
def gates (u : FVec F S50000x128 .f32) (wt : FVec F S128x384 .f32) (b : FVec F S384 .f32) : FVec F S50000x384 .f32 :=
  addf (Host.dotGeneral dot_S50000x128_S128x384_S50000x384_1_0_0_1_n_n none u wt)
    (broadcastInDim S50000x384 ![0, 1] bcast_S1x384_S50000x384_0_1 (broadcastInDim S1x384 ![1] bcast_S384_S1x384_1 b))

/-- Columns 0–127, 128–255, 256–383 of a gate array. -/
def gR (g : FVec F S50000x384 .f32) : FVec F S50000x128 .f32 := extractStridedSlice S50000x128 ![0, 0] g slices_S50000x384_S50000x128_0_0
def gZ (g : FVec F S50000x384 .f32) : FVec F S50000x128 .f32 := extractStridedSlice S50000x128 ![0, 128] g slices_S50000x384_S50000x128_0_128
def gN (g : FVec F S50000x384 .f32) : FVec F S50000x128 .f32 := extractStridedSlice S50000x128 ![0, 256] g slices_S50000x384_S50000x128_0_256

/-- The logistic function spelt as the reference spells it: 1 / (1 + e^(−x)). -/
def sig (x : FVec F S50000x128 .f32) : FVec F S50000x128 .f32 := Host.divf ones (addf ones (Host.exp (Host.negf x)))

/-- The gated update from the two gate arrays and the old features. -/
def cellA (gi gh : FVec F S50000x384 .f32) (h : FVec F S50000x128 .f32) : FVec F S50000x128 .f32 :=
  addf (mulf (subf ones (sig (addf (gZ gi) (gZ gh))))
        (Host.tanh (addf (gN gi) (mulf (sig (addf (gR gi) (gR gh))) (gN gh)))))
    (mulf (sig (addf (gZ gi) (gZ gh))) h)

/-- One gated update of all nodes from the aggregated messages and the old features. -/
def gru (agg h : FVec F S50000x128 .f32) (a3 a4 : FVec F S384x128 .f32) (a5 a6 : FVec F S384 .f32) : FVec F S50000x128 .f32 :=
  cellA (gates agg (wT a3) a5) (gates h (wT a4) a6) h

/-- One round. -/
def layer (e : IVec S2x640000 32) (a3 a4 : FVec F S384x128 .f32) (a5 a6 : FVec F S384 .f32)
    (W : FVec F S128x128 .f32) (h : FVec F S50000x128 .f32) : FVec F S50000x128 .f32 :=
  gru (seg e (lin h W)) h a3 a4 a5 a6

/-- The head: the positive part of the features times the one output row, plus the output bias. -/
def head (h : FVec F S50000x128 .f32) (a7 : FVec F S1x128 .f32) (a8 : FVec F S1 .f32) : FVec F S50000x1 .f32 :=
  addf (Host.dotGeneral dot_S50000x128_S128x1_S50000x1_1_0_0_1_n_n none (maximumf h zeros)
      (transpose S128x1 [1, 0] a7 transposes_S1x128_S128x1_1_0))
    (broadcastInDim S50000x1 ![0, 1] bcast_S1x1_S50000x1_0_1 (broadcastInDim S1x1 ![1] bcast_S1_S1x1_1 a8))

/-- The features after the five rounds. -/
def feats (x : FVec F S50000x128 .f32) (e : IVec S2x640000 32) (w : FVec F S5x128x128 .f32)
    (a3 a4 : FVec F S384x128 .f32) (a5 a6 : FVec F S384 .f32) : FVec F S50000x128 .f32 :=
  layer e a3 a4 a5 a6 (W4 w) (layer e a3 a4 a5 a6 (W3 w) (layer e a3 a4 a5 a6 (W2 w) (layer e a3 a4 a5 a6 (W1 w)
    (layer e a3 a4 a5 a6 (W0 w) x))))

/-- The whole result. -/
def res (x : FVec F S50000x128 .f32) (e : IVec S2x640000 32) (w : FVec F S5x128x128 .f32)
    (a3 a4 : FVec F S384x128 .f32) (a5 a6 : FVec F S384 .f32) (a7 : FVec F S1x128 .f32) (a8 : FVec F S1 .f32) : FVec F S50000x1 .f32 :=
  head (feats x e w a3 a4 a5 a6) a7 a8

end Cert.Arr

end
-- ==== Proof.KBase.lean ====
/-
  What the first stretch of host operations leaves for the regions: the two rows of the edge list, the two gate
  weights transposed, the two gate biases as rows, and the first round's matrix — each a function of the launch
  contents of one argument, named here in the specification's own terms.
-/
import proofs.«121637_j32624571580955_1_alg».proof.Proof.Gen.KernelIdeal.Frame
import proofs.«121637_j32624571580955_1_alg».proof.Proof.Arr
import Idealize.ShloMosaic.PureOps.Ideal

set_option maxRecDepth 16384

noncomputable section

namespace Cert.KernelIdeal.KBase

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The nine argument arrays as launched, typed as the specification takes them. -/
abbrev aX : FVec Ideal Cert.ReferenceIdeal.S50000x128 .f32 := m ((c.tc : Thread nD τ).loc main_arg0)
abbrev aE : IVec Cert.ReferenceIdeal.S2x640000 32 := m ((c.tc : Thread nD τ).loc main_arg1)
abbrev aW : FVec Ideal Cert.ReferenceIdeal.S5x128x128 .f32 := m ((c.tc : Thread nD τ).loc main_arg2)
abbrev a3 : FVec Ideal Cert.ReferenceIdeal.S384x128 .f32 := m ((c.tc : Thread nD τ).loc main_arg3)
abbrev a4 : FVec Ideal Cert.ReferenceIdeal.S384x128 .f32 := m ((c.tc : Thread nD τ).loc main_arg4)
abbrev a5 : FVec Ideal Cert.ReferenceIdeal.S384 .f32 := m ((c.tc : Thread nD τ).loc main_arg5)
abbrev a6 : FVec Ideal Cert.ReferenceIdeal.S384 .f32 := m ((c.tc : Thread nD τ).loc main_arg6)
abbrev a7 : FVec Ideal Cert.ReferenceIdeal.S1x128 .f32 := m ((c.tc : Thread nD τ).loc main_arg7)
abbrev a8 : FVec Ideal Cert.ReferenceIdeal.S1 .f32 := m ((c.tc : Thread nD τ).loc main_arg8)

theorem b_v1 : W1 m ρ c (Proc.devRef .tc main_v1) = Cert.Arr.srcRow (aE m c) := by
  show StableHlo.after hostOps0 (W0 m ρ c) (Proc.devRef .tc main_v1) = _
  after_results
  rfl
theorem b_v3 : W1 m ρ c (Proc.devRef .tc main_v3) = Cert.Arr.dstRow (aE m c) := by
  show StableHlo.after hostOps0 (W0 m ρ c) (Proc.devRef .tc main_v3) = _
  after_results
  rfl
theorem b_v4 : W1 m ρ c (Proc.devRef .tc main_v4) = Cert.Arr.wT (F := Ideal) (a3 m c) := by
  show StableHlo.after hostOps0 (W0 m ρ c) (Proc.devRef .tc main_v4) = _
  after_results
  rfl
theorem b_v5 : W1 m ρ c (Proc.devRef .tc main_v5) = Cert.Arr.wT (F := Ideal) (a4 m c) := by
  show StableHlo.after hostOps0 (W0 m ρ c) (Proc.devRef .tc main_v5) = _
  after_results
  rfl
theorem b_v6 : W1 m ρ c (Proc.devRef .tc main_v6)
    = (shapeCast S1x384 (m ((c.tc : Thread nD τ).loc main_arg5) : FVec Ideal S384 .f32) shapeCasts_S384_S1x384 : FVec Ideal S1x384 .f32) := by
  show StableHlo.after hostOps0 (W0 m ρ c) (Proc.devRef .tc main_v6) = _
  after_results
  rfl
theorem b_v7 : W1 m ρ c (Proc.devRef .tc main_v7)
    = (shapeCast S1x384 (m ((c.tc : Thread nD τ).loc main_arg6) : FVec Ideal S384 .f32) shapeCasts_S384_S1x384 : FVec Ideal S1x384 .f32) := by
  show StableHlo.after hostOps0 (W0 m ρ c) (Proc.devRef .tc main_v7) = _
  after_results
  rfl
theorem b_v9 : W1 m ρ c (Proc.devRef .tc main_v9) = Cert.Arr.W0 (F := Ideal) (aW m c) := by
  show StableHlo.after hostOps0 (W0 m ρ c) (Proc.devRef .tc main_v9) = _
  after_results
  rfl

end Cert.KernelIdeal.KBase

end
-- ==== Proof.Cell.lean ====
/-
  The scalar specification of one gated update: from the six gate pre-activations of a feature and its old value,
    r = σ(gir + ghr),  z = σ(giz + ghz),  n = tanh(gin + r · ghn),  new = (1 − z) · n + z · old,
  over the extended reals; and a gate pre-activation itself, a row of features against a column of the weight matrix
  plus the bias of that column.
-/
import Idealize.ShloMosaic.PureOps.Ideal
import Idealize.ShloMosaic.Lib.ValueIdx

noncomputable section

open scoped BigOperators

namespace Cert.Cell

open Idealize.ShloMosaic Idealize.ShloMosaic.ValueIdx

/-- the value 1 -/
abbrev one : Ideal .f32 := FloatOps.ofBits (F := Ideal) .f32 0x3F800000#32
/-- the value 0 -/
abbrev zero : Ideal .f32 := FloatOps.ofBits (F := Ideal) .f32 0x00000000#32

/-- the gated update of one feature from its six gate pre-activations and its old value -/
def upd (gir giz gin ghr ghz ghn hv : Ideal .f32) : Ideal .f32 :=
  FloatOps.addf (FloatOps.mulf (FloatOps.subf one (FloatOps.logistic (FloatOps.addf giz ghz)))
      (FloatOps.tanh (FloatOps.addf gin (FloatOps.mulf (FloatOps.logistic (FloatOps.addf gir ghr)) ghn))))
    (FloatOps.mulf (FloatOps.logistic (FloatOps.addf giz ghz)) hv)

/-- a gate pre-activation of row `p` at gate column `q`: the row of `x` against column `q` of the [128, 384] weight
    `w`, plus the bias row's entry at `q` -/
def gate {n : Nat} (x : FVec Ideal ⟨2, ![n, 128]⟩ .f32) (w : FVec Ideal ⟨2, ![128, 384]⟩ .f32)
    (b : FVec Ideal ⟨2, ![1, 384]⟩ .f32) (p : Fin n) (q : Fin 384) : Ideal .f32 :=
  (∑ k : Fin 128, x (ix2 p k) * w (ix2 k q)) + b (ix2 (0 : Fin 1) q)

theorem gate_def {n : Nat} (x : FVec Ideal ⟨2, ![n, 128]⟩ .f32) (w : FVec Ideal ⟨2, ![128, 384]⟩ .f32)
    (b : FVec Ideal ⟨2, ![1, 384]⟩ .f32) (p : Fin n) (q : Fin 384) :
    gate x w b p q = (∑ k : Fin 128, x (ix2 p k) * w (ix2 k q)) + b (ix2 (0 : Fin 1) q) := rfl

end Cert.Cell

end
-- ==== Proof.PayDot.lean ====
/-
  A plain matrix product read at an index. For the dimension numbers of an [m, k] by [k, n] product (contract the left
  operand's axis 1 with the right operand's axis 0, no batch axis) the operand indices at output index (a, b) and
  contraction coordinate c are (a, c) and (c, b); so the accelerator's product into a zero accumulator, and the host's
  product, are both the sum over c of A(a, c) · B(c, b) on the extended reals.
-/
import Idealize.ShloMosaic.PureOps.Ideal.Laws
import Idealize.ShloMosaic.Lib.ValueIdx

noncomputable section

open scoped BigOperators

namespace Cert.PayDot

open Idealize.ShloMosaic Idealize.ShloMosaic.ValueIdx

variable {m k n : Nat} {φ₁ φ₂ : FTy}

/-- the left operand's index at output (a, b), contraction coordinate c, is (a, c) -/
theorem plain_lhsIdx (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact hc

/-- the right operand's index at output (a, b), contraction coordinate c, is (c, b) -/
theorem plain_rhsIdx (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax; apply Fin.ext
  match ax with
  | ⟨0, _⟩ => simp [DotDims.rhsIdx, DotDims.plain]; exact hc
  | ⟨1, _⟩ => simp [DotDims.rhsIdx, DotDims.plain]; rfl

/-- the accelerator's product into the zero accumulator, at (a, b): the sum of the products along the contraction -/
theorem matmul_plain_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  refine (Ideal.matmul_constant_zero_apply _ prec A B (ix2 a b)).trans ?_
  rw [← Equiv.sum_comp (contrEquiv1 (DotDims.plain m k n) k rfl rfl).symm]
  exact Finset.sum_congr rfl fun c _ => by rw [plain_lhsIdx, plain_rhsIdx]

/-- the host's product at (a, b): the same sum -/
theorem dotGeneral_plain_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  refine (Ideal.dotGeneral_apply _ prec .single A B (ix2 a b)).trans ?_
  rw [← Equiv.sum_comp (contrEquiv1 (DotDims.plain m k n) k rfl rfl).symm]
  exact Finset.sum_congr rfl fun c _ => by rw [plain_lhsIdx, plain_rhsIdx]

end Cert.PayDot

end
-- ==== Proof.PayLin.lean ====
/-
  The message kernel's arithmetic at an index: a block of 1000 rows of features times the round's 128 × 128 matrix is,
  at row p and column j, the sum over k of v0(p, k) · v2(k, j). The narrowing of the operands to sixteen bits is the
  identity on the extended reals, the reshape to the same shape is the identity, and the product accumulates into zero.
-/
import proofs.«121637_j32624571580955_1_alg».proof.Proof.Gen.KernelIdeal.Skeleton
import proofs.«121637_j32624571580955_1_alg».proof.Proof.Cell
import proofs.«121637_j32624571580955_1_alg».proof.Proof.PayDot
import Idealize.ShloMosaic.Lib.Pipeline.Value

noncomputable section

open scoped BigOperators

namespace Cert.Pay

open Idealize.ShloMosaic Idealize.ShloMosaic.ValueIdx
open Cert.KernelIdeal Cert.KernelIdeal.Gen

/-- the 1000 × 128 by 128 × 128 product's dimension numbers are the plain product's -/
theorem dot128_plain : dot_S1000x128_S128x128_S1000x128_1_0_0_1_n_n = DotDims.plain 1000 128 128 := rfl

/-- the message kernel's block at (p, j) -/
theorem pay_lin (v0 : Vec Ideal S1000x128 .f32) (v2 : Vec Ideal S128x128 .f32) (p : Fin 1000) (j : Fin 128) :
    k0_pay1 (F := Ideal) v0 v2 (ix2 p j) = ∑ k : Fin 128, v0 (ix2 p k) * v2 (ix2 k j) := by
  unfold k0_pay1
  rw [shapeCast_self]
  exact Cert.PayDot.matmul_plain_apply _ dot128_plain none _ _ p j

end Cert.Pay

end
-- ==== Proof.PayLin2.lean ====
/-
  The later rounds' message kernels at an index. They differ from the first round's only by a reshape of the feature
  block to its own shape, which is the identity; so at row p and column j the block is again
  the sum over k of v0(p, k) · v3(k, j).
-/
import proofs.«121637_j32624571580955_1_alg».proof.Proof.PayLin

noncomputable section

open scoped BigOperators

namespace Cert.Pay

open Idealize.ShloMosaic Idealize.ShloMosaic.ValueIdx
open Cert.KernelIdeal Cert.KernelIdeal.Gen

/-- the second round's message kernel is the first round's on the reshaped block -/
theorem k2_eq_k0 (v0 : Vec Ideal S1000x128 .f32) (v3 : Vec Ideal S128x128 .f32) :
    k2_pay1 (F := Ideal) v0 v3 = k0_pay1 (F := Ideal) (shapeCast S1000x128 v0 shapeCasts_S1000x128_S1000x128) v3 := rfl

/-- the second round's message kernel's block at (p, j) -/
theorem pay_lin2 (v0 : Vec Ideal S1000x128 .f32) (v3 : Vec Ideal S128x128 .f32) (p : Fin 1000) (j : Fin 128) :
    k2_pay1 (F := Ideal) v0 v3 (ix2 p j) = ∑ k : Fin 128, v0 (ix2 p k) * v3 (ix2 k j) := by
  rw [k2_eq_k0, shapeCast_self]
  exact pay_lin v0 v3 p j

/-- the third, fourth and fifth rounds' message kernels are the second round's -/
theorem k4_eq : @k4_pay1 Ideal _ = @k2_pay1 Ideal _ := rfl
theorem k6_eq : @k6_pay1 Ideal _ = @k2_pay1 Ideal _ := rfl
theorem k8_eq : @k8_pay1 Ideal _ = @k2_pay1 Ideal _ := rfl

end Cert.Pay

end
-- ==== Proof.ArrAtLin.lean ====
/-
  The reference's message array at an index: every node's features times the round's 128 × 128 matrix is, at node n and
  column j, the sum over k of h(n, k) · W(k, j).
-/
import proofs.«121637_j32624571580955_1_alg».proof.Proof.Arr
import proofs.«121637_j32624571580955_1_alg».proof.Proof.Cell
import proofs.«121637_j32624571580955_1_alg».proof.Proof.PayDot

noncomputable section

open scoped BigOperators

namespace Cert.ArrAt

open Idealize.ShloMosaic Idealize.ShloMosaic.ValueIdx
open Cert.ReferenceIdeal Cert.ReferenceIdeal.Gen

/-- the messages at (n, j) -/
theorem lin_apply (h : FVec Ideal S50000x128 .f32) (W : FVec Ideal S128x128 .f32) (n : Fin 50000) (j : Fin 128) :
    Cert.Arr.lin (F := Ideal) h W (ix2 n j) = ∑ k : Fin 128, h (ix2 n k) * W (ix2 k j) :=
  Cert.PayDot.dotGeneral_plain_apply _ rfl none h W n j

end Cert.ArrAt

end
-- ==== Proof.KLinCore.lean ====
/-
  A block of rows of a matrix product is the product of the block of rows.

  The message kernel works on 1000 rows of the features at a time: block T of its output is the 1000 × 128 product of
  rows T·1000 … T·1000 + 999 of the features with the round's 128 × 128 matrix. Row n = T·1000 + p of the whole
  product h · W is Σ_k h[n, k] · W[k, j], which is the same sum over the block's row p.
-/
import proofs.«121637_j32624571580955_1_alg».proof.Proof.Gen.KernelIdeal.Frame
import proofs.«121637_j32624571580955_1_alg».proof.Proof.Arr
import proofs.«121637_j32624571580955_1_alg».proof.Proof.PayLin
import proofs.«121637_j32624571580955_1_alg».proof.Proof.PayLin2
import proofs.«121637_j32624571580955_1_alg».proof.Proof.ArrAtLin
import Idealize.ShloMosaic.Lib.ValueIdx
import Idealize.ShloMosaic.Lib.Pipeline.Value

set_option maxRecDepth 16384

noncomputable section

namespace Cert.KernelIdeal.KLin

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- For any body payload `pay` that is the plain product at every index: on block T of the rows, it is the
    whole product's rows T·1000 … -/
theorem blk_lin (pay : Vec Ideal S1000x128 .f32 → Vec Ideal S128x128 .f32 → FVec Ideal S1000x128 .f32)
    (hpay : ∀ (v0 : Vec Ideal S1000x128 .f32) (v2 : Vec Ideal S128x128 .f32) (p : Fin 1000) (j : Fin 128),
      pay v0 v2 (ix2 p j) = ∑ k : Fin 128, v0 (ix2 p k) * v2 (ix2 k j))
    (h : FVec Ideal Cert.ReferenceIdeal.S50000x128 .f32) (W : FVec Ideal Cert.ReferenceIdeal.S128x128 .f32)
    (x0 : Vec Ideal S1000x128 .f32) (x1 : Vec Ideal S128x128 .f32) (T : Nat) (hT : T < 50)
    (hx0 : ∀ (p : Fin 1000) (k : Fin 128), x0 (ix2 p k) = h (ix2 ⟨T * 1000 + p.val, by omega⟩ k))
    (hx1 : ∀ (k j : Fin 128), x1 (ix2 k j) = W (ix2 k j))
    (p : Fin 1000) (j : Fin 128) :
    pay x0 x1 (ix2 p j) = Cert.Arr.lin (F := Ideal) h W (ix2 ⟨T * 1000 + p.val, by omega⟩ j) := by
  rw [hpay, Cert.ArrAt.lin_apply]
  exact Finset.sum_congr rfl fun k _ => by rw [hx0, hx1]

end Cert.KernelIdeal.KLin

end
-- ==== Proof.KLin0.lean ====
/-
  The message kernel of region 0: after its fifty grid points the output array holds the whole product of the
  features it found in `main_arg0` with the matrix it found in `main_v9`.

  Point t fetches rows t·1000 … t·1000 + 999 of the features and the whole matrix, and writes back that block of
  rows of the product; the fifty blocks tile the 50000 rows, so the array ends at the product.
-/
import proofs.«121637_j32624571580955_1_alg».proof.Proof.Gen.KernelIdeal.Frame
import proofs.«121637_j32624571580955_1_alg».proof.Proof.Arr
import proofs.«121637_j32624571580955_1_alg».proof.Proof.KLinCore
import Idealize.ShloMosaic.Lib.ValueIdx
import Idealize.ShloMosaic.Lib.Pipeline.Value

set_option maxRecDepth 16384

noncomputable section

namespace Cert.KernelIdeal.KLin0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KLin

variable (V : (c : Dev nD) → (b : Ref sig .tc) → Buf (Elt Ideal) ((c : Thread nD τ).loc b))

/-- The three windows' block indices at point t: the features' and the output's block is (t, 0), the matrix's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed (c : Dev nD) (t : Fin cfg0.N) :
    (dat0 (F := Ideal) V c).flushed 2 t
      = ((cfg0.win 2).blk t).view.read (Elt Ideal) (Cert.Arr.lin (F := Ideal) (V c main_arg0) (V c main_v9)) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x128) hz]
  funext y
  show k0_pay1 (iblk0 V c 0 t) (iblk0 V c 1 t) y
      = Cert.Arr.lin (F := Ideal) (V c main_arg0) (V c main_v9) (((cfg0.win 2).blk t).view.emb y)
  obtain ⟨e0, e1, e2, e3, e4, e5⟩ := idx_facts t
  have ht : t.val < 50 := Nat.lt_of_lt_of_eq t.isLt N_0
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg0.win 2).blk t).view.emb y = ix2 (n0 := 50000) (n1 := 128) ⟨t.val * 1000 + (y 0).val, by omega⟩ (y 1) := by
    funext a; apply Fin.ext
    match a with
    | ⟨0, _⟩ => show win0_2.index t (0 : Fin 2) * 1000 + 1 * (y 0).val = t.val * 1000 + (y 0).val; omega
    | ⟨1, _⟩ => show win0_2.index t (1 : Fin 2) * 128 + 1 * (y 1).val = (y 1).val; omega
  rw [hemb]
  have key := blk_lin (k0_pay1 (F := Ideal)) (fun v0 v2 p j => Cert.Pay.pay_lin v0 v2 p j)
    (V c main_arg0) (V c main_v9) (iblk0 V c 0 t) (iblk0 V c 1 t) t.val ht
    (fun p k => by
      show V c main_arg0 (((cfg0.win 0).blk t).view.emb (ix2 p k)) = _
      refine congrArg _ ?_
      funext a; apply Fin.ext
      match a with
      | ⟨0, _⟩ => show win0_0.index t (0 : Fin 2) * 1000 + 1 * p.val = t.val * 1000 + p.val; omega
      | ⟨1, _⟩ => show win0_0.index t (1 : Fin 2) * 128 + 1 * k.val = k.val; omega)
    (fun k j => by
      show V c main_v9 (((cfg0.win 1).blk t).view.emb (ix2 k j)) = _
      refine congrArg _ ?_
      funext a; apply Fin.ext
      match a with
      | ⟨0, _⟩ => show win0_1.index t (0 : Fin 2) * 128 + 1 * k.val = k.val; omega
      | ⟨1, _⟩ => show win0_1.index t (1 : Fin 2) * 128 + 1 * j.val = j.val; omega)
    (y 0) (y 1)
  rw [← hy] at key
  exact key

/-- An index of the output array is in point t's block iff its row is among the block's thousand rows. -/
theorem mem_blk (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v10).slice (win0_2.rect t)).set ↔ _
  rw [View.set_slice_whole, Rect.mem_set_unit]
  exact Iff.rfl

/-- Row r lies in the block of point r / 1000: the fifty blocks cover the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 50 := N_0
  refine ⟨⟨(i 0).val / 1000, by rw [hN]; omega⟩, flush0_2 _, ?_⟩
  rw [mem_blk]
  obtain ⟨e0, e1, e2, e3, e4, e5⟩ := idx_facts ⟨(i 0).val / 1000, by rw [hN]; omega⟩
  intro a
  match a with
  | ⟨0, _⟩ => show win0_2.index _ (0 : Fin 2) * 1000 ≤ (i 0).val ∧ (i 0).val < win0_2.index _ (0 : Fin 2) * 1000 + 1000; rw [e4]; show (i 0).val / 1000 * 1000 ≤ _ ∧ _ < (i 0).val / 1000 * 1000 + 1000; omega
  | ⟨1, _⟩ => show win0_2.index _ (1 : Fin 2) * 128 ≤ (i 1).val ∧ (i 1).val < win0_2.index _ (1 : Fin 2) * 128 + 128; rw [e5]; omega

/-- The output array after the region: the whole product. -/
theorem final (c : Dev nD) :
    (dat0 (F := Ideal) V c).arrAt 2 cfg0.N = Cert.Arr.lin (F := Ideal) (V c main_arg0) (V c main_v9) :=
  (dat0 V c).arrAt_eq_of_cover 2 _ (fun t _ => flushed V c t) (cover)

end Cert.KernelIdeal.KLin0

end
-- ==== Proof.PayGru.lean ====
/-
  The update kernel's arithmetic at an index. On a block of 1000 rows the kernel forms the two gate arrays
    gi = agg · w_ih + b_ih,   gh = h · w_hh + b_hh        ([1000, 384] each; the bias row repeated down the rows),
  cuts each into its three gates of width 128 (columns j, j + 128, j + 256 for feature j), and applies the gated update.
  At row p and feature j the result is therefore the scalar update of the six gate pre-activations and the old value;
  each pre-activation is the row of the operand against the gate's weight column plus the gate's bias.
-/
import proofs.«121637_j32624571580955_1_alg».proof.Proof.Gen.KernelIdeal.Skeleton
import proofs.«121637_j32624571580955_1_alg».proof.Proof.Cell
import proofs.«121637_j32624571580955_1_alg».proof.Proof.PayDot
import Idealize.ShloMosaic.Lib.Pipeline.Value
import Idealize.ShloMosaic.Lib.ValueLayout

noncomputable section

open scoped BigOperators

namespace Cert.Pay

open Idealize.ShloMosaic Idealize.ShloMosaic.ValueIdx
open Cert.KernelIdeal Cert.KernelIdeal.Gen

/-- the 1000 × 128 by 128 × 384 product's dimension numbers are the plain product's -/
theorem dot384_plain : dot_S1000x128_S128x384_S1000x384_1_0_0_1_n_n = DotDims.plain 1000 128 384 := rfl

/-- a gate array of a block as the kernel forms it: the rows against the weight (both narrowed to sixteen bits, which
    changes nothing on the extended reals), accumulated from zero, plus the bias row repeated down the rows -/
def gatesBlk (x : FVec Ideal S1000x128 .f32) (w : FVec Ideal S128x384 .f32) (b : FVec Ideal S1x384 .f32) :
    FVec Ideal S1000x384 .f32 :=
  addf (matmul dot_S1000x128_S128x384_S1000x384_1_0_0_1_n_n none (truncf .bf16 x bitsLt_bf16_f32)
      (truncf .bf16 (shapeCast S128x384 w shapeCasts_S128x384_S128x384) bitsLt_bf16_f32)
      (constant S1000x384 .f32 0x00000000#32))
    (broadcastTo S1000x384 (shapeCast S1x384 b shapeCasts_S1x384_S1x384) broadcasts_S1x384_S1000x384)

/-- the gate array at (p, q) is the gate pre-activation of row p at column q -/
theorem gatesBlk_apply (x : FVec Ideal S1000x128 .f32) (w : FVec Ideal S128x384 .f32) (b : FVec Ideal S1x384 .f32)
    (p : Fin 1000) (q : Fin 384) : gatesBlk x w b (ix2 p q) = Cert.Cell.gate x w b p q := by
  unfold gatesBlk
  rw [shapeCast_self, shapeCast_self, addf_apply, Cert.Cell.gate_def]
  refine congrArg₂ (· + ·) ?_ ?_
  · exact Cert.PayDot.matmul_plain_apply _ dot384_plain none _ _ p q
  · exact broadcastTo_1b_ab_apply b broadcasts_S1x384_S1000x384 p q

/-- a cut of width 128 from column o of a gate array, at (p, j), is the array at (p, j + o) -/
theorem cut_apply (o : Nat) (X : FVec Ideal S1000x384 .f32) (h : S1000x384.Slices ![0, o] S1000x128)
    (p : Fin 1000) (j : Fin 128) (hq : j.val + o < 384) :
    extractStridedSlice S1000x128 ![0, o] X h (ix2 p j) = X (ix2 p ⟨j.val + o, hq⟩) :=
  slice2_axis1_apply o X h p j ⟨j.val + o, hq⟩ (Nat.add_comm _ _)

/-- the update kernel's block at (p, j) -/
theorem pay_gru (v0 v3 : Vec Ideal S1000x128 .f32) (v5 v8 : Vec Ideal S128x384 .f32) (v12 v17 : Vec Ideal S1x384 .f32)
    (v37 : Vec Ideal S1000x128 .f32) (p : Fin 1000) (j : Fin 128) :
    k1_pay1 (F := Ideal) v0 v3 v5 v8 v12 v17 v37 (ix2 p j) =
      Cert.Cell.upd (Cert.Cell.gate v0 v5 v12 p ⟨j.val, by omega⟩) (Cert.Cell.gate v0 v5 v12 p ⟨j.val + 128, by omega⟩)
        (Cert.Cell.gate v0 v5 v12 p ⟨j.val + 256, by omega⟩)
        (Cert.Cell.gate v3 v8 v17 p ⟨j.val, by omega⟩) (Cert.Cell.gate v3 v8 v17 p ⟨j.val + 128, by omega⟩)
        (Cert.Cell.gate v3 v8 v17 p ⟨j.val + 256, by omega⟩) (v37 (ix2 p j)) := by
  have h1 : k1_pay1 (F := Ideal) v0 v3 v5 v8 v12 v17 v37 (ix2 p j) =
      Cert.Cell.upd
        (extractStridedSlice S1000x128 ![0, 0] (gatesBlk (shapeCast S1000x128 v0 shapeCasts_S1000x128_S1000x128) v5 v12)
          slices_S1000x384_o0_0_S1000x128 (ix2 p j))
        (extractStridedSlice S1000x128 ![0, 128] (gatesBlk (shapeCast S1000x128 v0 shapeCasts_S1000x128_S1000x128) v5 v12)
          slices_S1000x384_o0_128_S1000x128 (ix2 p j))
        (extractStridedSlice S1000x128 ![0, 256] (gatesBlk (shapeCast S1000x128 v0 shapeCasts_S1000x128_S1000x128) v5 v12)
          slices_S1000x384_o0_256_S1000x128 (ix2 p j))
        (extractStridedSlice S1000x128 ![0, 0] (gatesBlk v3 v8 v17) slices_S1000x384_o0_0_S1000x128 (ix2 p j))
        (extractStridedSlice S1000x128 ![0, 128] (gatesBlk v3 v8 v17) slices_S1000x384_o0_128_S1000x128 (ix2 p j))
        (extractStridedSlice S1000x128 ![0, 256] (gatesBlk v3 v8 v17) slices_S1000x384_o0_256_S1000x128 (ix2 p j))
        (v37 (ix2 p j)) := rfl
  rw [h1, shapeCast_self]
  rw [cut_apply 0 _ _ p j (by omega), cut_apply 128 _ _ p j (by omega), cut_apply 256 _ _ p j (by omega),
    cut_apply 0 _ _ p j (by omega), cut_apply 128 _ _ p j (by omega), cut_apply 256 _ _ p j (by omega)]
  simp only [gatesBlk_apply]
  rfl

end Cert.Pay

end
-- ==== Proof.PayGru3.lean ====
/-
  The later rounds' update kernels at an index. They differ from the first round's only by reshapes of the old-feature
  blocks to their own shape, which are the identity; so at row p and feature j the block is again the scalar update of
  the six gate pre-activations and the old value.
-/
import proofs.«121637_j32624571580955_1_alg».proof.Proof.PayGru

noncomputable section

open scoped BigOperators

namespace Cert.Pay

open Idealize.ShloMosaic Idealize.ShloMosaic.ValueIdx
open Cert.KernelIdeal Cert.KernelIdeal.Gen

/-- the second round's update kernel is the first round's on the reshaped blocks -/
theorem k3_eq_k1 (v0 v3 : Vec Ideal S1000x128 .f32) (v6 v9 : Vec Ideal S128x384 .f32) (v13 v18 : Vec Ideal S1x384 .f32)
    (v38 : Vec Ideal S1000x128 .f32) :
    k3_pay1 (F := Ideal) v0 v3 v6 v9 v13 v18 v38 =
      k1_pay1 (F := Ideal) v0 (shapeCast S1000x128 v3 shapeCasts_S1000x128_S1000x128) v6 v9 v13 v18
        (shapeCast S1000x128 v38 shapeCasts_S1000x128_S1000x128) := rfl

/-- the second round's update kernel's block at (p, j) -/
theorem pay_gru3 (v0 v3 : Vec Ideal S1000x128 .f32) (v6 v9 : Vec Ideal S128x384 .f32) (v13 v18 : Vec Ideal S1x384 .f32)
    (v38 : Vec Ideal S1000x128 .f32) (p : Fin 1000) (j : Fin 128) :
    k3_pay1 (F := Ideal) v0 v3 v6 v9 v13 v18 v38 (ix2 p j) =
      Cert.Cell.upd (Cert.Cell.gate v0 v6 v13 p ⟨j.val, by omega⟩) (Cert.Cell.gate v0 v6 v13 p ⟨j.val + 128, by omega⟩)
        (Cert.Cell.gate v0 v6 v13 p ⟨j.val + 256, by omega⟩)
        (Cert.Cell.gate v3 v9 v18 p ⟨j.val, by omega⟩) (Cert.Cell.gate v3 v9 v18 p ⟨j.val + 128, by omega⟩)
        (Cert.Cell.gate v3 v9 v18 p ⟨j.val + 256, by omega⟩) (v38 (ix2 p j)) := by
  rw [k3_eq_k1, shapeCast_self, shapeCast_self]
  exact pay_gru v0 v3 v6 v9 v13 v18 v38 p j

/-- the third, fourth and fifth rounds' update kernels are the second round's -/
theorem k5_eq : @k5_pay1 Ideal _ = @k3_pay1 Ideal _ := rfl
theorem k7_eq : @k7_pay1 Ideal _ = @k3_pay1 Ideal _ := rfl
theorem k9_eq : @k9_pay1 Ideal _ = @k3_pay1 Ideal _ := rfl

end Cert.Pay

end
-- ==== Proof.ArrAtGates.lean ====
/-
  The reference's gate arrays at an index. The three gate pre-activations side by side, u · wT + b with the bias repeated
  down the rows, are at node n and gate column q the row of u against column q of wT plus b(q); the transposed weight at
  (k, q) is the weight at (q, k).
-/
import proofs.«121637_j32624571580955_1_alg».proof.Proof.Arr
import proofs.«121637_j32624571580955_1_alg».proof.Proof.Cell
import proofs.«121637_j32624571580955_1_alg».proof.Proof.PayDot
import Idealize.ShloMosaic.Lib.Pipeline.Value
import Idealize.ShloMosaic.Lib.ValueLayout

noncomputable section

open scoped BigOperators

namespace Cert.ArrAt

open Idealize.ShloMosaic Idealize.ShloMosaic.ValueIdx
open Cert.ReferenceIdeal Cert.ReferenceIdeal.Gen

/-- the bias, made a row and repeated down the rows, at (n, q) is b(q) -/
theorem biasRows_apply (b : FVec Ideal S384 .f32) (n : Fin 50000) (q : Fin 384) :
    broadcastInDim S50000x384 ![0, 1] bcast_S1x384_S50000x384_0_1 (broadcastInDim S1x384 ![1] bcast_S384_S1x384_1 b) (ix2 n q)
      = b (ix1 q) := by
  refine (broadcastInDim_apply _ _ _ (ix2 n q) (ix2 (0 : Fin 1) q) fun a => ?_).trans ?_
  · match a with
    | ⟨0, _⟩ => rfl
    | ⟨1, _⟩ => rfl
  · refine broadcastInDim_apply _ _ b (ix2 (0 : Fin 1) q) (ix1 q) fun a => ?_
    match a with
    | ⟨0, _⟩ => rfl

/-- the gate pre-activations at (n, q) -/
theorem gates_apply (u : FVec Ideal S50000x128 .f32) (wt : FVec Ideal S128x384 .f32) (b : FVec Ideal S384 .f32)
    (n : Fin 50000) (q : Fin 384) :
    Cert.Arr.gates (F := Ideal) u wt b (ix2 n q) = (∑ k : Fin 128, u (ix2 n k) * wt (ix2 k q)) + b (ix1 q) := by
  unfold Cert.Arr.gates
  rw [addf_apply]
  exact congrArg₂ (· + ·) (Cert.PayDot.dotGeneral_plain_apply _ rfl none u wt n q) (biasRows_apply b n q)

/-- the transposed gate weight at (k, q) is the weight at (q, k) -/
theorem wT_apply (a : FVec Ideal S384x128 .f32) (k : Fin 128) (q : Fin 384) :
    Cert.Arr.wT (F := Ideal) a (ix2 k q) = a (ix2 q k) :=
  transpose_ix2_apply a transposes_S384x128_S128x384_1_0 k q

end Cert.ArrAt

end
-- ==== Proof.ArrAtCell.lean ====
/-
  The reference's gated update at an index. The reference spells the logistic function 1 / (1 + e^(−x)) with the all-one
  array; the word of that array's entries denotes 1, so the spelling is the logistic function. The three gates of a gate
  array are its columns j, j + 128, j + 256. Hence the whole-array update at node n and feature j is the scalar update of
  the six gate entries and the old value.
-/
import proofs.«121637_j32624571580955_1_alg».proof.Proof.Arr
import proofs.«121637_j32624571580955_1_alg».proof.Proof.Cell
import Idealize.ShloMosaic.PureOps.IdealRules
import Idealize.ShloMosaic.Lib.Pipeline.Value
import Idealize.ShloMosaic.Lib.ValueLayout

noncomputable section

open scoped BigOperators

namespace Cert.ArrAt

open Idealize.ShloMosaic Idealize.ShloMosaic.ValueIdx
open Cert.ReferenceIdeal Cert.ReferenceIdeal.Gen

/-- the word of 1.0 denotes the extended real 1 -/
theorem one_eq : Cert.Cell.one = (1 : EReal) := IdealRules.sign_bit.ideal_onePat .f32

/-- the reference's spelling of the logistic function, at an index, is the logistic function of the entry -/
theorem sig_apply (x : FVec Ideal S50000x128 .f32) (i : S50000x128.Idx) :
    Cert.Arr.sig (F := Ideal) x i = FloatOps.logistic (x i) := by
  show Ideal.div Cert.Cell.one (Cert.Cell.one + Ideal.exp (-(x i))) = Ideal.logistic (x i)
  rw [one_eq]
  rfl

/-- a cut of width 128 from column o of a gate array, at (n, j), is the array at (n, j + o) -/
theorem cut_apply (o : Nat) (X : FVec Ideal S50000x384 .f32) (h : S50000x384.Slices ![0, o] S50000x128)
    (n : Fin 50000) (j : Fin 128) (hq : j.val + o < 384) :
    extractStridedSlice S50000x128 ![0, o] X h (ix2 n j) = X (ix2 n ⟨j.val + o, hq⟩) :=
  slice2_axis1_apply o X h n j ⟨j.val + o, hq⟩ (Nat.add_comm _ _)

theorem gR_apply (g : FVec Ideal S50000x384 .f32) (n : Fin 50000) (j : Fin 128) :
    Cert.Arr.gR (F := Ideal) g (ix2 n j) = g (ix2 n ⟨j.val, by omega⟩) :=
  cut_apply 0 g _ n j (by omega)
theorem gZ_apply (g : FVec Ideal S50000x384 .f32) (n : Fin 50000) (j : Fin 128) :
    Cert.Arr.gZ (F := Ideal) g (ix2 n j) = g (ix2 n ⟨j.val + 128, by omega⟩) :=
  cut_apply 128 g _ n j (by omega)
theorem gN_apply (g : FVec Ideal S50000x384 .f32) (n : Fin 50000) (j : Fin 128) :
    Cert.Arr.gN (F := Ideal) g (ix2 n j) = g (ix2 n ⟨j.val + 256, by omega⟩) :=
  cut_apply 256 g _ n j (by omega)

/-- the gated update at (n, j) -/
theorem cellA_apply (gi gh : FVec Ideal S50000x384 .f32) (h : FVec Ideal S50000x128 .f32) (n : Fin 50000) (j : Fin 128) :
    Cert.Arr.cellA (F := Ideal) gi gh h (ix2 n j) =
      Cert.Cell.upd (gi (ix2 n ⟨j.val, by omega⟩)) (gi (ix2 n ⟨j.val + 128, by omega⟩)) (gi (ix2 n ⟨j.val + 256, by omega⟩))
        (gh (ix2 n ⟨j.val, by omega⟩)) (gh (ix2 n ⟨j.val + 128, by omega⟩)) (gh (ix2 n ⟨j.val + 256, by omega⟩)) (h (ix2 n j)) := by
  have h1 : Cert.Arr.cellA (F := Ideal) gi gh h (ix2 n j) =
      FloatOps.addf (FloatOps.mulf (FloatOps.subf Cert.Cell.one
            (Cert.Arr.sig (F := Ideal) (addf (Cert.Arr.gZ gi) (Cert.Arr.gZ gh)) (ix2 n j)))
          (FloatOps.tanh (FloatOps.addf (Cert.Arr.gN gi (ix2 n j))
            (FloatOps.mulf (Cert.Arr.sig (F := Ideal) (addf (Cert.Arr.gR gi) (Cert.Arr.gR gh)) (ix2 n j)) (Cert.Arr.gN gh (ix2 n j))))))
        (FloatOps.mulf (Cert.Arr.sig (F := Ideal) (addf (Cert.Arr.gZ gi) (Cert.Arr.gZ gh)) (ix2 n j)) (h (ix2 n j))) := rfl
  rw [h1, sig_apply, sig_apply, addf_apply, addf_apply, gR_apply, gR_apply, gZ_apply, gZ_apply, gN_apply, gN_apply]
  rfl

end Cert.ArrAt

end
-- ==== Proof.KGruCore.lean ====
/-
  A block of rows of the gated update is the gated update of the block of rows.

  The update of node n uses only row n of the aggregated messages and of the old features: each of its six gate
  pre-activations is that row against a column of a transposed gate weight, plus a bias entry. So the update kernel,
  working on 1000 rows at a time, computes on block T exactly rows T·1000 … T·1000 + 999 of the whole-array update.
-/
import proofs.«121637_j32624571580955_1_alg».proof.Proof.Gen.KernelIdeal.Frame
import proofs.«121637_j32624571580955_1_alg».proof.Proof.Arr
import proofs.«121637_j32624571580955_1_alg».proof.Proof.PayGru
import proofs.«121637_j32624571580955_1_alg».proof.Proof.PayGru3
import proofs.«121637_j32624571580955_1_alg».proof.Proof.ArrAtGates
import proofs.«121637_j32624571580955_1_alg».proof.Proof.ArrAtCell
import Idealize.ShloMosaic.Lib.ValueIdx
import Idealize.ShloMosaic.Lib.Pipeline.Value

set_option maxRecDepth 16384

noncomputable section

namespace Cert.KernelIdeal.KGru

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- One gate pre-activation: the block's row p against gate column q is the whole array's row T·1000 + p against it. -/
theorem gate_eq (T : Nat) (hT : T < 50) (x : Vec Ideal S1000x128 .f32) (u : FVec Ideal Cert.ReferenceIdeal.S50000x128 .f32)
    (xw : Vec Ideal S128x384 .f32) (wt : FVec Ideal Cert.ReferenceIdeal.S128x384 .f32)
    (xb : Vec Ideal S1x384 .f32) (b : FVec Ideal Cert.ReferenceIdeal.S384 .f32)
    (hxu : ∀ (p : Fin 1000) (k : Fin 128), x (ix2 p k) = u (ix2 ⟨T * 1000 + p.val, by omega⟩ k))
    (hw : ∀ (k : Fin 128) (q : Fin 384), xw (ix2 k q) = wt (ix2 k q))
    (hb : ∀ q : Fin 384, xb (ix2 (0 : Fin 1) q) = b (ix1 q)) (p : Fin 1000) (q : Fin 384) :
    Cert.Cell.gate x xw xb p q = Cert.Arr.gates (F := Ideal) u wt b (ix2 ⟨T * 1000 + p.val, by omega⟩ q) := by
  rw [Cert.Cell.gate_def, Cert.ArrAt.gates_apply, hb]
  refine congrArg (· + b (ix1 q)) ?_
  exact Finset.sum_congr rfl fun k _ => by rw [hxu, hw]

/-- For any body payload `pay` that is the gated update at every index of a block: on block T it is rows T·1000 … of
    the whole-array update. -/
theorem blk_gru
    (pay : Vec Ideal S1000x128 .f32 → Vec Ideal S1000x128 .f32 → Vec Ideal S128x384 .f32 → Vec Ideal S128x384 .f32 →
      Vec Ideal S1x384 .f32 → Vec Ideal S1x384 .f32 → Vec Ideal S1000x128 .f32 → FVec Ideal S1000x128 .f32)
    (hpay : ∀ (v0 v3 : Vec Ideal S1000x128 .f32) (v5 v8 : Vec Ideal S128x384 .f32) (v12 v17 : Vec Ideal S1x384 .f32)
      (v37 : Vec Ideal S1000x128 .f32) (p : Fin 1000) (j : Fin 128),
      pay v0 v3 v5 v8 v12 v17 v37 (ix2 p j) =
        Cert.Cell.upd (Cert.Cell.gate v0 v5 v12 p ⟨j.val, by omega⟩) (Cert.Cell.gate v0 v5 v12 p ⟨j.val + 128, by omega⟩)
          (Cert.Cell.gate v0 v5 v12 p ⟨j.val + 256, by omega⟩)
          (Cert.Cell.gate v3 v8 v17 p ⟨j.val, by omega⟩) (Cert.Cell.gate v3 v8 v17 p ⟨j.val + 128, by omega⟩)
          (Cert.Cell.gate v3 v8 v17 p ⟨j.val + 256, by omega⟩) (v37 (ix2 p j)))
    (agg h : FVec Ideal Cert.ReferenceIdeal.S50000x128 .f32) (w3t w4t : FVec Ideal Cert.ReferenceIdeal.S128x384 .f32)
    (b5 b6 : FVec Ideal Cert.ReferenceIdeal.S384 .f32)
    (x0 x1 : Vec Ideal S1000x128 .f32) (x2 x3 : Vec Ideal S128x384 .f32) (x4 x5 : Vec Ideal S1x384 .f32) (T : Nat) (hT : T < 50)
    (hx0 : ∀ (p : Fin 1000) (k : Fin 128), x0 (ix2 p k) = agg (ix2 ⟨T * 1000 + p.val, by omega⟩ k))
    (hx1 : ∀ (p : Fin 1000) (k : Fin 128), x1 (ix2 p k) = h (ix2 ⟨T * 1000 + p.val, by omega⟩ k))
    (hx2 : ∀ (k : Fin 128) (q : Fin 384), x2 (ix2 k q) = w3t (ix2 k q))
    (hx3 : ∀ (k : Fin 128) (q : Fin 384), x3 (ix2 k q) = w4t (ix2 k q))
    (hx4 : ∀ q : Fin 384, x4 (ix2 (0 : Fin 1) q) = b5 (ix1 q))
    (hx5 : ∀ q : Fin 384, x5 (ix2 (0 : Fin 1) q) = b6 (ix1 q))
    (p : Fin 1000) (j : Fin 128) :
    pay x0 x1 x2 x3 x4 x5 x1 (ix2 p j)
      = Cert.Arr.cellA (F := Ideal) (Cert.Arr.gates agg w3t b5) (Cert.Arr.gates h w4t b6) h (ix2 ⟨T * 1000 + p.val, by omega⟩ j) := by
  rw [hpay, Cert.ArrAt.cellA_apply]
  rw [gate_eq T hT x0 agg x2 w3t x4 b5 hx0 hx2 hx4 p ⟨j.val, by omega⟩,
    gate_eq T hT x0 agg x2 w3t x4 b5 hx0 hx2 hx4 p ⟨j.val + 128, by omega⟩,
    gate_eq T hT x0 agg x2 w3t x4 b5 hx0 hx2 hx4 p ⟨j.val + 256, by omega⟩,
    gate_eq T hT x1 h x3 w4t x5 b6 hx1 hx3 hx5 p ⟨j.val, by omega⟩,
    gate_eq T hT x1 h x3 w4t x5 b6 hx1 hx3 hx5 p ⟨j.val + 128, by omega⟩,
    gate_eq T hT x1 h x3 w4t x5 b6 hx1 hx3 hx5 p ⟨j.val + 256, by omega⟩, hx1]

end Cert.KernelIdeal.KGru

end
-- ==== Proof.KGru1.lean ====
/-
  The update kernel of region 1: after its fifty grid points the output array holds the whole-array gated update of
  the aggregated messages it found in `main_v20` and the old features it found in `main_arg0`, with the transposed gate
  weights in `main_v4`, `main_v5` and the bias rows in `main_v6`, `main_v7`.

  Point t fetches rows t·1000 … t·1000 + 999 of the messages and of the features, and the weights and biases whole, and
  writes back that block of rows of the update; the fifty blocks tile the 50000 rows.
-/
import proofs.«121637_j32624571580955_1_alg».proof.Proof.Gen.KernelIdeal.Frame
import proofs.«121637_j32624571580955_1_alg».proof.Proof.Arr
import proofs.«121637_j32624571580955_1_alg».proof.Proof.KGruCore
import Idealize.ShloMosaic.Lib.ValueIdx
import Idealize.ShloMosaic.Lib.Pipeline.Value

set_option maxRecDepth 16384

noncomputable section

namespace Cert.KernelIdeal.KGru1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KGru

variable (V : (c : Dev nD) → (b : Ref sig .tc) → Buf (Elt Ideal) ((c : Thread nD τ).loc b))

/-- The seven windows' block indices at point t: (t, 0) for the messages, the features and the output, (0, 0) for the
    weights and the biases. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the whole-array update (the bias rows given as vectors b5, b6). -/
theorem flushed (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) (t : Fin cfg1.N) :
    (dat1 (F := Ideal) V c).flushed 6 t
      = ((cfg1.win 6).blk t).view.read (Elt Ideal)
          (Cert.Arr.cellA (F := Ideal) (Cert.Arr.gates (V c main_v20) (V c main_v4) b5) (Cert.Arr.gates (V c main_arg0) (V c main_v5) b6) (V c main_arg0)) := by
  show (cfg1.win 6).cut (grid1.coords t) ((dat1 V c).after 6 t) = _
  rw [after1_6]
  unfold out1_6
  rw [View.canon_unit_zero hz]
  simp only [View.ld_unit_zero (S := S1000x128) hz, View.ld_unit_zero (S := S128x384) hz, View.ld_unit_zero (S := S1x384) hz]
  funext y
  show k1_pay1 (iblk1 V c 0 t) (iblk1 V c 1 t) (iblk1 V c 2 t) (iblk1 V c 3 t) (iblk1 V c 4 t) (iblk1 V c 5 t) (iblk1 V c 1 t) y
      = Cert.Arr.cellA (F := Ideal) (Cert.Arr.gates (V c main_v20) (V c main_v4) b5) (Cert.Arr.gates (V c main_arg0) (V c main_v5) b6) (V c main_arg0)
          (((cfg1.win 6).blk t).view.emb y)
  obtain ⟨e00, e01, e10, e11, e20, e21, e30, e31, e40, e41, e50, e51, e60, e61⟩ := idx_facts t
  have ht : t.val < 50 := Nat.lt_of_lt_of_eq t.isLt N_1
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg1.win 6).blk t).view.emb y = ix2 (n0 := 50000) (n1 := 128) ⟨t.val * 1000 + (y 0).val, by omega⟩ (y 1) := by
    funext a; apply Fin.ext
    match a with
    | ⟨0, _⟩ => show win1_6.index t (0 : Fin 2) * 1000 + 1 * (y 0).val = t.val * 1000 + (y 0).val; omega
    | ⟨1, _⟩ => show win1_6.index t (1 : Fin 2) * 128 + 1 * (y 1).val = (y 1).val; omega
  rw [hemb]
  have key := blk_gru (k1_pay1 (F := Ideal)) (fun v0 v3 v5 v8 v12 v17 v37 p j => Cert.Pay.pay_gru v0 v3 v5 v8 v12 v17 v37 p j)
    (V c main_v20) (V c main_arg0) (V c main_v4) (V c main_v5) b5 b6
    (iblk1 V c 0 t) (iblk1 V c 1 t) (iblk1 V c 2 t) (iblk1 V c 3 t) (iblk1 V c 4 t) (iblk1 V c 5 t) t.val ht
    (fun p k => by
      show V c main_v20 (((cfg1.win 0).blk t).view.emb (ix2 p k)) = _
      refine congrArg _ ?_
      funext a; apply Fin.ext
      match a with
      | ⟨0, _⟩ => show win1_0.index t (0 : Fin 2) * 1000 + 1 * p.val = t.val * 1000 + p.val; omega
      | ⟨1, _⟩ => show win1_0.index t (1 : Fin 2) * 128 + 1 * k.val = k.val; omega)
    (fun p k => by
      show V c main_arg0 (((cfg1.win 1).blk t).view.emb (ix2 p k)) = _
      refine congrArg _ ?_
      funext a; apply Fin.ext
      match a with
      | ⟨0, _⟩ => show win1_1.index t (0 : Fin 2) * 1000 + 1 * p.val = t.val * 1000 + p.val; omega
      | ⟨1, _⟩ => show win1_1.index t (1 : Fin 2) * 128 + 1 * k.val = k.val; omega)
    (fun k q => by
      show V c main_v4 (((cfg1.win 2).blk t).view.emb (ix2 k q)) = _
      refine congrArg _ ?_
      funext a; apply Fin.ext
      match a with
      | ⟨0, _⟩ => show win1_2.index t (0 : Fin 2) * 128 + 1 * k.val = k.val; omega
      | ⟨1, _⟩ => show win1_2.index t (1 : Fin 2) * 384 + 1 * q.val = q.val; omega)
    (fun k q => by
      show V c main_v5 (((cfg1.win 3).blk t).view.emb (ix2 k q)) = _
      refine congrArg _ ?_
      funext a; apply Fin.ext
      match a with
      | ⟨0, _⟩ => show win1_3.index t (0 : Fin 2) * 128 + 1 * k.val = k.val; omega
      | ⟨1, _⟩ => show win1_3.index t (1 : Fin 2) * 384 + 1 * q.val = q.val; omega)
    (fun q => by
      refine Eq.trans ?_ (hb5 q)
      show V c main_v6 (((cfg1.win 4).blk t).view.emb (ix2 (0 : Fin 1) q)) = _
      refine congrArg _ ?_
      funext a; apply Fin.ext
      match a with
      | ⟨0, _⟩ => show win1_4.index t (0 : Fin 2) * 1 + 1 * 0 = 0; omega
      | ⟨1, _⟩ => show win1_4.index t (1 : Fin 2) * 384 + 1 * q.val = q.val; omega)
    (fun q => by
      refine Eq.trans ?_ (hb6 q)
      show V c main_v7 (((cfg1.win 5).blk t).view.emb (ix2 (0 : Fin 1) q)) = _
      refine congrArg _ ?_
      funext a; apply Fin.ext
      match a with
      | ⟨0, _⟩ => show win1_5.index t (0 : Fin 2) * 1 + 1 * 0 = 0; omega
      | ⟨1, _⟩ => show win1_5.index t (1 : Fin 2) * 384 + 1 * q.val = q.val; omega)
    (y 0) (y 1)
  rw [← hy] at key
  exact key

/-- An index of the output array is in point t's block iff its row is among the block's thousand rows. -/
theorem mem_blk (t : Fin cfg1.N) (i : S50000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v21).slice (win1_6.rect t)).set ↔ _
  rw [View.set_slice_whole, Rect.mem_set_unit]
  exact Iff.rfl

/-- Row r lies in the block of point r / 1000: the fifty blocks cover the array. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 50 := N_1
  refine ⟨⟨(i 0).val / 1000, by rw [hN]; omega⟩, flush1_6 _, ?_⟩
  rw [mem_blk]
  obtain ⟨e00, e01, e10, e11, e20, e21, e30, e31, e40, e41, e50, e51, e60, e61⟩ := idx_facts ⟨(i 0).val / 1000, by rw [hN]; omega⟩
  intro a
  match a with
  | ⟨0, _⟩ => show win1_6.index _ (0 : Fin 2) * 1000 ≤ (i 0).val ∧ (i 0).val < win1_6.index _ (0 : Fin 2) * 1000 + 1000; rw [e60]; show (i 0).val / 1000 * 1000 ≤ _ ∧ _ < (i 0).val / 1000 * 1000 + 1000; omega
  | ⟨1, _⟩ => show win1_6.index _ (1 : Fin 2) * 128 ≤ (i 1).val ∧ (i 1).val < win1_6.index _ (1 : Fin 2) * 128 + 128; rw [e61]; omega

/-- The output array after the region: the whole-array gated update. -/
theorem final (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) :
    (dat1 (F := Ideal) V c).arrAt 6 cfg1.N
      = Cert.Arr.cellA (F := Ideal) (Cert.Arr.gates (V c main_v20) (V c main_v4) b5) (Cert.Arr.gates (V c main_arg0) (V c main_v5) b6) (V c main_arg0) :=
  (dat1 V c).arrAt_eq_of_cover 6 _ (fun t _ => flushed V c b5 b6 hb5 hb6 t) (cover)

end Cert.KernelIdeal.KGru1

end
-- ==== Proof.KKeepTac.lean ====
/-
  A stretch of host operations leaves a buffer alone when none of its operations writes it: decided operation by
  operation, each operation's one result buffer being a different reference.
-/
import proofs.«121637_j32624571580955_1_alg».proof.Proof.Gen.KernelIdeal.Frame

namespace Cert.KernelIdeal.KKeep

open Idealize.ShloMosaic

/-- `host_keep ops`: closes `StableHlo.after ops W b = W b` for a literal stretch `ops` that does not write `b`. -/
macro "host_keep" ops:ident : tactic => `(tactic|
  (refine StableHlo.after_of_forall_not_mem _ _ (List.forall_iff_forall_mem.mp ?_)
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

end Cert.KernelIdeal.KKeep
-- ==== Proof.KKeepE.lean ====
/-
  Buffers that a stretch of host operations does not write, and buffers that a kernel region only reads, keep their
  contents across it. For each buffer followed here: one step per boundary it survives, and the composed statement
  from the boundary where it is last written.
-/
import proofs.«121637_j32624571580955_1_alg».proof.Proof.KKeepTac

set_option maxRecDepth 16384

noncomputable section

namespace Cert.KernelIdeal.KKeep

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg) (c : Dev nD)

theorem st2_main_v1 : W2 m ρ c (Proc.devRef .tc main_v1) = W1 m ρ c (Proc.devRef .tc main_v1) :=
  W2_of_ne m ρ c main_v1 (by decide)
theorem st3_main_v1 : W3 m ρ c (Proc.devRef .tc main_v1) = W2 m ρ c (Proc.devRef .tc main_v1) :=
  by host_keep hostOps1
theorem st4_main_v1 : W4 m ρ c (Proc.devRef .tc main_v1) = W3 m ρ c (Proc.devRef .tc main_v1) :=
  W4_of_ne m ρ c main_v1 (by decide)
theorem st5_main_v1 : W5 m ρ c (Proc.devRef .tc main_v1) = W4 m ρ c (Proc.devRef .tc main_v1) :=
  by host_keep hostOps2
theorem st6_main_v1 : W6 m ρ c (Proc.devRef .tc main_v1) = W5 m ρ c (Proc.devRef .tc main_v1) :=
  W6_of_ne m ρ c main_v1 (by decide)
theorem st7_main_v1 : W7 m ρ c (Proc.devRef .tc main_v1) = W6 m ρ c (Proc.devRef .tc main_v1) :=
  by host_keep hostOps3
theorem st8_main_v1 : W8 m ρ c (Proc.devRef .tc main_v1) = W7 m ρ c (Proc.devRef .tc main_v1) :=
  W8_of_ne m ρ c main_v1 (by decide)
theorem st9_main_v1 : W9 m ρ c (Proc.devRef .tc main_v1) = W8 m ρ c (Proc.devRef .tc main_v1) :=
  by host_keep hostOps4
theorem st10_main_v1 : W10 m ρ c (Proc.devRef .tc main_v1) = W9 m ρ c (Proc.devRef .tc main_v1) :=
  W10_of_ne m ρ c main_v1 (by decide)
theorem st11_main_v1 : W11 m ρ c (Proc.devRef .tc main_v1) = W10 m ρ c (Proc.devRef .tc main_v1) :=
  by host_keep hostOps5
theorem st12_main_v1 : W12 m ρ c (Proc.devRef .tc main_v1) = W11 m ρ c (Proc.devRef .tc main_v1) :=
  W12_of_ne m ρ c main_v1 (by decide)
theorem st13_main_v1 : W13 m ρ c (Proc.devRef .tc main_v1) = W12 m ρ c (Proc.devRef .tc main_v1) :=
  by host_keep hostOps6
theorem st14_main_v1 : W14 m ρ c (Proc.devRef .tc main_v1) = W13 m ρ c (Proc.devRef .tc main_v1) :=
  W14_of_ne m ρ c main_v1 (by decide)
theorem st15_main_v1 : W15 m ρ c (Proc.devRef .tc main_v1) = W14 m ρ c (Proc.devRef .tc main_v1) :=
  by host_keep hostOps7
theorem st16_main_v1 : W16 m ρ c (Proc.devRef .tc main_v1) = W15 m ρ c (Proc.devRef .tc main_v1) :=
  W16_of_ne m ρ c main_v1 (by decide)
theorem st17_main_v1 : W17 m ρ c (Proc.devRef .tc main_v1) = W16 m ρ c (Proc.devRef .tc main_v1) :=
  by host_keep hostOps8
theorem st18_main_v1 : W18 m ρ c (Proc.devRef .tc main_v1) = W17 m ρ c (Proc.devRef .tc main_v1) :=
  W18_of_ne m ρ c main_v1 (by decide)
theorem at2_main_v1 : W2 m ρ c (Proc.devRef .tc main_v1) = W1 m ρ c (Proc.devRef .tc main_v1) :=
  st2_main_v1 m ρ c
theorem at3_main_v1 : W3 m ρ c (Proc.devRef .tc main_v1) = W1 m ρ c (Proc.devRef .tc main_v1) :=
  (st3_main_v1 m ρ c).trans (at2_main_v1 m ρ c)
theorem at4_main_v1 : W4 m ρ c (Proc.devRef .tc main_v1) = W1 m ρ c (Proc.devRef .tc main_v1) :=
  (st4_main_v1 m ρ c).trans (at3_main_v1 m ρ c)
theorem at5_main_v1 : W5 m ρ c (Proc.devRef .tc main_v1) = W1 m ρ c (Proc.devRef .tc main_v1) :=
  (st5_main_v1 m ρ c).trans (at4_main_v1 m ρ c)
theorem at6_main_v1 : W6 m ρ c (Proc.devRef .tc main_v1) = W1 m ρ c (Proc.devRef .tc main_v1) :=
  (st6_main_v1 m ρ c).trans (at5_main_v1 m ρ c)
theorem at7_main_v1 : W7 m ρ c (Proc.devRef .tc main_v1) = W1 m ρ c (Proc.devRef .tc main_v1) :=
  (st7_main_v1 m ρ c).trans (at6_main_v1 m ρ c)
theorem at8_main_v1 : W8 m ρ c (Proc.devRef .tc main_v1) = W1 m ρ c (Proc.devRef .tc main_v1) :=
  (st8_main_v1 m ρ c).trans (at7_main_v1 m ρ c)
theorem at9_main_v1 : W9 m ρ c (Proc.devRef .tc main_v1) = W1 m ρ c (Proc.devRef .tc main_v1) :=
  (st9_main_v1 m ρ c).trans (at8_main_v1 m ρ c)
theorem at10_main_v1 : W10 m ρ c (Proc.devRef .tc main_v1) = W1 m ρ c (Proc.devRef .tc main_v1) :=
  (st10_main_v1 m ρ c).trans (at9_main_v1 m ρ c)
theorem at11_main_v1 : W11 m ρ c (Proc.devRef .tc main_v1) = W1 m ρ c (Proc.devRef .tc main_v1) :=
  (st11_main_v1 m ρ c).trans (at10_main_v1 m ρ c)
theorem at12_main_v1 : W12 m ρ c (Proc.devRef .tc main_v1) = W1 m ρ c (Proc.devRef .tc main_v1) :=
  (st12_main_v1 m ρ c).trans (at11_main_v1 m ρ c)
theorem at13_main_v1 : W13 m ρ c (Proc.devRef .tc main_v1) = W1 m ρ c (Proc.devRef .tc main_v1) :=
  (st13_main_v1 m ρ c).trans (at12_main_v1 m ρ c)
theorem at14_main_v1 : W14 m ρ c (Proc.devRef .tc main_v1) = W1 m ρ c (Proc.devRef .tc main_v1) :=
  (st14_main_v1 m ρ c).trans (at13_main_v1 m ρ c)
theorem at15_main_v1 : W15 m ρ c (Proc.devRef .tc main_v1) = W1 m ρ c (Proc.devRef .tc main_v1) :=
  (st15_main_v1 m ρ c).trans (at14_main_v1 m ρ c)
theorem at16_main_v1 : W16 m ρ c (Proc.devRef .tc main_v1) = W1 m ρ c (Proc.devRef .tc main_v1) :=
  (st16_main_v1 m ρ c).trans (at15_main_v1 m ρ c)
theorem at17_main_v1 : W17 m ρ c (Proc.devRef .tc main_v1) = W1 m ρ c (Proc.devRef .tc main_v1) :=
  (st17_main_v1 m ρ c).trans (at16_main_v1 m ρ c)
theorem at18_main_v1 : W18 m ρ c (Proc.devRef .tc main_v1) = W1 m ρ c (Proc.devRef .tc main_v1) :=
  (st18_main_v1 m ρ c).trans (at17_main_v1 m ρ c)

theorem st2_main_v3 : W2 m ρ c (Proc.devRef .tc main_v3) = W1 m ρ c (Proc.devRef .tc main_v3) :=
  W2_of_ne m ρ c main_v3 (by decide)
theorem st3_main_v3 : W3 m ρ c (Proc.devRef .tc main_v3) = W2 m ρ c (Proc.devRef .tc main_v3) :=
  by host_keep hostOps1
theorem st4_main_v3 : W4 m ρ c (Proc.devRef .tc main_v3) = W3 m ρ c (Proc.devRef .tc main_v3) :=
  W4_of_ne m ρ c main_v3 (by decide)
theorem st5_main_v3 : W5 m ρ c (Proc.devRef .tc main_v3) = W4 m ρ c (Proc.devRef .tc main_v3) :=
  by host_keep hostOps2
theorem st6_main_v3 : W6 m ρ c (Proc.devRef .tc main_v3) = W5 m ρ c (Proc.devRef .tc main_v3) :=
  W6_of_ne m ρ c main_v3 (by decide)
theorem st7_main_v3 : W7 m ρ c (Proc.devRef .tc main_v3) = W6 m ρ c (Proc.devRef .tc main_v3) :=
  by host_keep hostOps3
theorem st8_main_v3 : W8 m ρ c (Proc.devRef .tc main_v3) = W7 m ρ c (Proc.devRef .tc main_v3) :=
  W8_of_ne m ρ c main_v3 (by decide)
theorem st9_main_v3 : W9 m ρ c (Proc.devRef .tc main_v3) = W8 m ρ c (Proc.devRef .tc main_v3) :=
  by host_keep hostOps4
theorem st10_main_v3 : W10 m ρ c (Proc.devRef .tc main_v3) = W9 m ρ c (Proc.devRef .tc main_v3) :=
  W10_of_ne m ρ c main_v3 (by decide)
theorem st11_main_v3 : W11 m ρ c (Proc.devRef .tc main_v3) = W10 m ρ c (Proc.devRef .tc main_v3) :=
  by host_keep hostOps5
theorem st12_main_v3 : W12 m ρ c (Proc.devRef .tc main_v3) = W11 m ρ c (Proc.devRef .tc main_v3) :=
  W12_of_ne m ρ c main_v3 (by decide)
theorem st13_main_v3 : W13 m ρ c (Proc.devRef .tc main_v3) = W12 m ρ c (Proc.devRef .tc main_v3) :=
  by host_keep hostOps6
theorem st14_main_v3 : W14 m ρ c (Proc.devRef .tc main_v3) = W13 m ρ c (Proc.devRef .tc main_v3) :=
  W14_of_ne m ρ c main_v3 (by decide)
theorem st15_main_v3 : W15 m ρ c (Proc.devRef .tc main_v3) = W14 m ρ c (Proc.devRef .tc main_v3) :=
  by host_keep hostOps7
theorem st16_main_v3 : W16 m ρ c (Proc.devRef .tc main_v3) = W15 m ρ c (Proc.devRef .tc main_v3) :=
  W16_of_ne m ρ c main_v3 (by decide)
theorem st17_main_v3 : W17 m ρ c (Proc.devRef .tc main_v3) = W16 m ρ c (Proc.devRef .tc main_v3) :=
  by host_keep hostOps8
theorem st18_main_v3 : W18 m ρ c (Proc.devRef .tc main_v3) = W17 m ρ c (Proc.devRef .tc main_v3) :=
  W18_of_ne m ρ c main_v3 (by decide)
theorem at2_main_v3 : W2 m ρ c (Proc.devRef .tc main_v3) = W1 m ρ c (Proc.devRef .tc main_v3) :=
  st2_main_v3 m ρ c
theorem at3_main_v3 : W3 m ρ c (Proc.devRef .tc main_v3) = W1 m ρ c (Proc.devRef .tc main_v3) :=
  (st3_main_v3 m ρ c).trans (at2_main_v3 m ρ c)
theorem at4_main_v3 : W4 m ρ c (Proc.devRef .tc main_v3) = W1 m ρ c (Proc.devRef .tc main_v3) :=
  (st4_main_v3 m ρ c).trans (at3_main_v3 m ρ c)
theorem at5_main_v3 : W5 m ρ c (Proc.devRef .tc main_v3) = W1 m ρ c (Proc.devRef .tc main_v3) :=
  (st5_main_v3 m ρ c).trans (at4_main_v3 m ρ c)
theorem at6_main_v3 : W6 m ρ c (Proc.devRef .tc main_v3) = W1 m ρ c (Proc.devRef .tc main_v3) :=
  (st6_main_v3 m ρ c).trans (at5_main_v3 m ρ c)
theorem at7_main_v3 : W7 m ρ c (Proc.devRef .tc main_v3) = W1 m ρ c (Proc.devRef .tc main_v3) :=
  (st7_main_v3 m ρ c).trans (at6_main_v3 m ρ c)
theorem at8_main_v3 : W8 m ρ c (Proc.devRef .tc main_v3) = W1 m ρ c (Proc.devRef .tc main_v3) :=
  (st8_main_v3 m ρ c).trans (at7_main_v3 m ρ c)
theorem at9_main_v3 : W9 m ρ c (Proc.devRef .tc main_v3) = W1 m ρ c (Proc.devRef .tc main_v3) :=
  (st9_main_v3 m ρ c).trans (at8_main_v3 m ρ c)
theorem at10_main_v3 : W10 m ρ c (Proc.devRef .tc main_v3) = W1 m ρ c (Proc.devRef .tc main_v3) :=
  (st10_main_v3 m ρ c).trans (at9_main_v3 m ρ c)
theorem at11_main_v3 : W11 m ρ c (Proc.devRef .tc main_v3) = W1 m ρ c (Proc.devRef .tc main_v3) :=
  (st11_main_v3 m ρ c).trans (at10_main_v3 m ρ c)
theorem at12_main_v3 : W12 m ρ c (Proc.devRef .tc main_v3) = W1 m ρ c (Proc.devRef .tc main_v3) :=
  (st12_main_v3 m ρ c).trans (at11_main_v3 m ρ c)
theorem at13_main_v3 : W13 m ρ c (Proc.devRef .tc main_v3) = W1 m ρ c (Proc.devRef .tc main_v3) :=
  (st13_main_v3 m ρ c).trans (at12_main_v3 m ρ c)
theorem at14_main_v3 : W14 m ρ c (Proc.devRef .tc main_v3) = W1 m ρ c (Proc.devRef .tc main_v3) :=
  (st14_main_v3 m ρ c).trans (at13_main_v3 m ρ c)
theorem at15_main_v3 : W15 m ρ c (Proc.devRef .tc main_v3) = W1 m ρ c (Proc.devRef .tc main_v3) :=
  (st15_main_v3 m ρ c).trans (at14_main_v3 m ρ c)
theorem at16_main_v3 : W16 m ρ c (Proc.devRef .tc main_v3) = W1 m ρ c (Proc.devRef .tc main_v3) :=
  (st16_main_v3 m ρ c).trans (at15_main_v3 m ρ c)
theorem at17_main_v3 : W17 m ρ c (Proc.devRef .tc main_v3) = W1 m ρ c (Proc.devRef .tc main_v3) :=
  (st17_main_v3 m ρ c).trans (at16_main_v3 m ρ c)
theorem at18_main_v3 : W18 m ρ c (Proc.devRef .tc main_v3) = W1 m ρ c (Proc.devRef .tc main_v3) :=
  (st18_main_v3 m ρ c).trans (at17_main_v3 m ρ c)

end Cert.KernelIdeal.KKeep

end
-- ==== Proof.KKeepW.lean ====
/-
  Buffers that a stretch of host operations does not write, and buffers that a kernel region only reads, keep their
  contents across it. For each buffer followed here: one step per boundary it survives, and the composed statement
  from the boundary where it is last written.
-/
import proofs.«121637_j32624571580955_1_alg».proof.Proof.KKeepTac

set_option maxRecDepth 16384

noncomputable section

namespace Cert.KernelIdeal.KKeep

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg) (c : Dev nD)

theorem st2_main_v4 : W2 m ρ c (Proc.devRef .tc main_v4) = W1 m ρ c (Proc.devRef .tc main_v4) :=
  W2_of_ne m ρ c main_v4 (by decide)
theorem st3_main_v4 : W3 m ρ c (Proc.devRef .tc main_v4) = W2 m ρ c (Proc.devRef .tc main_v4) :=
  by host_keep hostOps1
theorem st4_main_v4 : W4 m ρ c (Proc.devRef .tc main_v4) = W3 m ρ c (Proc.devRef .tc main_v4) :=
  (W4_arr m ρ c 2).trans (((dat1 (V3 m ρ) c).arrAt_in 2 rfl _).trans (A_eq1 (V3 m ρ) c 2))
theorem st5_main_v4 : W5 m ρ c (Proc.devRef .tc main_v4) = W4 m ρ c (Proc.devRef .tc main_v4) :=
  by host_keep hostOps2
theorem st6_main_v4 : W6 m ρ c (Proc.devRef .tc main_v4) = W5 m ρ c (Proc.devRef .tc main_v4) :=
  W6_of_ne m ρ c main_v4 (by decide)
theorem st7_main_v4 : W7 m ρ c (Proc.devRef .tc main_v4) = W6 m ρ c (Proc.devRef .tc main_v4) :=
  by host_keep hostOps3
theorem st8_main_v4 : W8 m ρ c (Proc.devRef .tc main_v4) = W7 m ρ c (Proc.devRef .tc main_v4) :=
  (W8_arr m ρ c 2).trans (((dat3 (V7 m ρ) c).arrAt_in 2 rfl _).trans (A_eq3 (V7 m ρ) c 2))
theorem st9_main_v4 : W9 m ρ c (Proc.devRef .tc main_v4) = W8 m ρ c (Proc.devRef .tc main_v4) :=
  by host_keep hostOps4
theorem st10_main_v4 : W10 m ρ c (Proc.devRef .tc main_v4) = W9 m ρ c (Proc.devRef .tc main_v4) :=
  W10_of_ne m ρ c main_v4 (by decide)
theorem st11_main_v4 : W11 m ρ c (Proc.devRef .tc main_v4) = W10 m ρ c (Proc.devRef .tc main_v4) :=
  by host_keep hostOps5
theorem st12_main_v4 : W12 m ρ c (Proc.devRef .tc main_v4) = W11 m ρ c (Proc.devRef .tc main_v4) :=
  (W12_arr m ρ c 2).trans (((dat5 (V11 m ρ) c).arrAt_in 2 rfl _).trans (A_eq5 (V11 m ρ) c 2))
theorem st13_main_v4 : W13 m ρ c (Proc.devRef .tc main_v4) = W12 m ρ c (Proc.devRef .tc main_v4) :=
  by host_keep hostOps6
theorem st14_main_v4 : W14 m ρ c (Proc.devRef .tc main_v4) = W13 m ρ c (Proc.devRef .tc main_v4) :=
  W14_of_ne m ρ c main_v4 (by decide)
theorem st15_main_v4 : W15 m ρ c (Proc.devRef .tc main_v4) = W14 m ρ c (Proc.devRef .tc main_v4) :=
  by host_keep hostOps7
theorem st16_main_v4 : W16 m ρ c (Proc.devRef .tc main_v4) = W15 m ρ c (Proc.devRef .tc main_v4) :=
  (W16_arr m ρ c 2).trans (((dat7 (V15 m ρ) c).arrAt_in 2 rfl _).trans (A_eq7 (V15 m ρ) c 2))
theorem st17_main_v4 : W17 m ρ c (Proc.devRef .tc main_v4) = W16 m ρ c (Proc.devRef .tc main_v4) :=
  by host_keep hostOps8
theorem st18_main_v4 : W18 m ρ c (Proc.devRef .tc main_v4) = W17 m ρ c (Proc.devRef .tc main_v4) :=
  W18_of_ne m ρ c main_v4 (by decide)
theorem st19_main_v4 : W19 m ρ c (Proc.devRef .tc main_v4) = W18 m ρ c (Proc.devRef .tc main_v4) :=
  by host_keep hostOps9
theorem at2_main_v4 : W2 m ρ c (Proc.devRef .tc main_v4) = W1 m ρ c (Proc.devRef .tc main_v4) :=
  st2_main_v4 m ρ c
theorem at3_main_v4 : W3 m ρ c (Proc.devRef .tc main_v4) = W1 m ρ c (Proc.devRef .tc main_v4) :=
  (st3_main_v4 m ρ c).trans (at2_main_v4 m ρ c)
theorem at4_main_v4 : W4 m ρ c (Proc.devRef .tc main_v4) = W1 m ρ c (Proc.devRef .tc main_v4) :=
  (st4_main_v4 m ρ c).trans (at3_main_v4 m ρ c)
theorem at5_main_v4 : W5 m ρ c (Proc.devRef .tc main_v4) = W1 m ρ c (Proc.devRef .tc main_v4) :=
  (st5_main_v4 m ρ c).trans (at4_main_v4 m ρ c)
theorem at6_main_v4 : W6 m ρ c (Proc.devRef .tc main_v4) = W1 m ρ c (Proc.devRef .tc main_v4) :=
  (st6_main_v4 m ρ c).trans (at5_main_v4 m ρ c)
theorem at7_main_v4 : W7 m ρ c (Proc.devRef .tc main_v4) = W1 m ρ c (Proc.devRef .tc main_v4) :=
  (st7_main_v4 m ρ c).trans (at6_main_v4 m ρ c)
theorem at8_main_v4 : W8 m ρ c (Proc.devRef .tc main_v4) = W1 m ρ c (Proc.devRef .tc main_v4) :=
  (st8_main_v4 m ρ c).trans (at7_main_v4 m ρ c)
theorem at9_main_v4 : W9 m ρ c (Proc.devRef .tc main_v4) = W1 m ρ c (Proc.devRef .tc main_v4) :=
  (st9_main_v4 m ρ c).trans (at8_main_v4 m ρ c)
theorem at10_main_v4 : W10 m ρ c (Proc.devRef .tc main_v4) = W1 m ρ c (Proc.devRef .tc main_v4) :=
  (st10_main_v4 m ρ c).trans (at9_main_v4 m ρ c)
theorem at11_main_v4 : W11 m ρ c (Proc.devRef .tc main_v4) = W1 m ρ c (Proc.devRef .tc main_v4) :=
  (st11_main_v4 m ρ c).trans (at10_main_v4 m ρ c)
theorem at12_main_v4 : W12 m ρ c (Proc.devRef .tc main_v4) = W1 m ρ c (Proc.devRef .tc main_v4) :=
  (st12_main_v4 m ρ c).trans (at11_main_v4 m ρ c)
theorem at13_main_v4 : W13 m ρ c (Proc.devRef .tc main_v4) = W1 m ρ c (Proc.devRef .tc main_v4) :=
  (st13_main_v4 m ρ c).trans (at12_main_v4 m ρ c)
theorem at14_main_v4 : W14 m ρ c (Proc.devRef .tc main_v4) = W1 m ρ c (Proc.devRef .tc main_v4) :=
  (st14_main_v4 m ρ c).trans (at13_main_v4 m ρ c)
theorem at15_main_v4 : W15 m ρ c (Proc.devRef .tc main_v4) = W1 m ρ c (Proc.devRef .tc main_v4) :=
  (st15_main_v4 m ρ c).trans (at14_main_v4 m ρ c)
theorem at16_main_v4 : W16 m ρ c (Proc.devRef .tc main_v4) = W1 m ρ c (Proc.devRef .tc main_v4) :=
  (st16_main_v4 m ρ c).trans (at15_main_v4 m ρ c)
theorem at17_main_v4 : W17 m ρ c (Proc.devRef .tc main_v4) = W1 m ρ c (Proc.devRef .tc main_v4) :=
  (st17_main_v4 m ρ c).trans (at16_main_v4 m ρ c)
theorem at18_main_v4 : W18 m ρ c (Proc.devRef .tc main_v4) = W1 m ρ c (Proc.devRef .tc main_v4) :=
  (st18_main_v4 m ρ c).trans (at17_main_v4 m ρ c)
theorem at19_main_v4 : W19 m ρ c (Proc.devRef .tc main_v4) = W1 m ρ c (Proc.devRef .tc main_v4) :=
  (st19_main_v4 m ρ c).trans (at18_main_v4 m ρ c)

theorem st2_main_v5 : W2 m ρ c (Proc.devRef .tc main_v5) = W1 m ρ c (Proc.devRef .tc main_v5) :=
  W2_of_ne m ρ c main_v5 (by decide)
theorem st3_main_v5 : W3 m ρ c (Proc.devRef .tc main_v5) = W2 m ρ c (Proc.devRef .tc main_v5) :=
  by host_keep hostOps1
theorem st4_main_v5 : W4 m ρ c (Proc.devRef .tc main_v5) = W3 m ρ c (Proc.devRef .tc main_v5) :=
  (W4_arr m ρ c 3).trans (((dat1 (V3 m ρ) c).arrAt_in 3 rfl _).trans (A_eq1 (V3 m ρ) c 3))
theorem st5_main_v5 : W5 m ρ c (Proc.devRef .tc main_v5) = W4 m ρ c (Proc.devRef .tc main_v5) :=
  by host_keep hostOps2
theorem st6_main_v5 : W6 m ρ c (Proc.devRef .tc main_v5) = W5 m ρ c (Proc.devRef .tc main_v5) :=
  W6_of_ne m ρ c main_v5 (by decide)
theorem st7_main_v5 : W7 m ρ c (Proc.devRef .tc main_v5) = W6 m ρ c (Proc.devRef .tc main_v5) :=
  by host_keep hostOps3
theorem st8_main_v5 : W8 m ρ c (Proc.devRef .tc main_v5) = W7 m ρ c (Proc.devRef .tc main_v5) :=
  (W8_arr m ρ c 3).trans (((dat3 (V7 m ρ) c).arrAt_in 3 rfl _).trans (A_eq3 (V7 m ρ) c 3))
theorem st9_main_v5 : W9 m ρ c (Proc.devRef .tc main_v5) = W8 m ρ c (Proc.devRef .tc main_v5) :=
  by host_keep hostOps4
theorem st10_main_v5 : W10 m ρ c (Proc.devRef .tc main_v5) = W9 m ρ c (Proc.devRef .tc main_v5) :=
  W10_of_ne m ρ c main_v5 (by decide)
theorem st11_main_v5 : W11 m ρ c (Proc.devRef .tc main_v5) = W10 m ρ c (Proc.devRef .tc main_v5) :=
  by host_keep hostOps5
theorem st12_main_v5 : W12 m ρ c (Proc.devRef .tc main_v5) = W11 m ρ c (Proc.devRef .tc main_v5) :=
  (W12_arr m ρ c 3).trans (((dat5 (V11 m ρ) c).arrAt_in 3 rfl _).trans (A_eq5 (V11 m ρ) c 3))
theorem st13_main_v5 : W13 m ρ c (Proc.devRef .tc main_v5) = W12 m ρ c (Proc.devRef .tc main_v5) :=
  by host_keep hostOps6
theorem st14_main_v5 : W14 m ρ c (Proc.devRef .tc main_v5) = W13 m ρ c (Proc.devRef .tc main_v5) :=
  W14_of_ne m ρ c main_v5 (by decide)
theorem st15_main_v5 : W15 m ρ c (Proc.devRef .tc main_v5) = W14 m ρ c (Proc.devRef .tc main_v5) :=
  by host_keep hostOps7
theorem st16_main_v5 : W16 m ρ c (Proc.devRef .tc main_v5) = W15 m ρ c (Proc.devRef .tc main_v5) :=
  (W16_arr m ρ c 3).trans (((dat7 (V15 m ρ) c).arrAt_in 3 rfl _).trans (A_eq7 (V15 m ρ) c 3))
theorem st17_main_v5 : W17 m ρ c (Proc.devRef .tc main_v5) = W16 m ρ c (Proc.devRef .tc main_v5) :=
  by host_keep hostOps8
theorem st18_main_v5 : W18 m ρ c (Proc.devRef .tc main_v5) = W17 m ρ c (Proc.devRef .tc main_v5) :=
  W18_of_ne m ρ c main_v5 (by decide)
theorem st19_main_v5 : W19 m ρ c (Proc.devRef .tc main_v5) = W18 m ρ c (Proc.devRef .tc main_v5) :=
  by host_keep hostOps9
theorem at2_main_v5 : W2 m ρ c (Proc.devRef .tc main_v5) = W1 m ρ c (Proc.devRef .tc main_v5) :=
  st2_main_v5 m ρ c
theorem at3_main_v5 : W3 m ρ c (Proc.devRef .tc main_v5) = W1 m ρ c (Proc.devRef .tc main_v5) :=
  (st3_main_v5 m ρ c).trans (at2_main_v5 m ρ c)
theorem at4_main_v5 : W4 m ρ c (Proc.devRef .tc main_v5) = W1 m ρ c (Proc.devRef .tc main_v5) :=
  (st4_main_v5 m ρ c).trans (at3_main_v5 m ρ c)
theorem at5_main_v5 : W5 m ρ c (Proc.devRef .tc main_v5) = W1 m ρ c (Proc.devRef .tc main_v5) :=
  (st5_main_v5 m ρ c).trans (at4_main_v5 m ρ c)
theorem at6_main_v5 : W6 m ρ c (Proc.devRef .tc main_v5) = W1 m ρ c (Proc.devRef .tc main_v5) :=
  (st6_main_v5 m ρ c).trans (at5_main_v5 m ρ c)
theorem at7_main_v5 : W7 m ρ c (Proc.devRef .tc main_v5) = W1 m ρ c (Proc.devRef .tc main_v5) :=
  (st7_main_v5 m ρ c).trans (at6_main_v5 m ρ c)
theorem at8_main_v5 : W8 m ρ c (Proc.devRef .tc main_v5) = W1 m ρ c (Proc.devRef .tc main_v5) :=
  (st8_main_v5 m ρ c).trans (at7_main_v5 m ρ c)
theorem at9_main_v5 : W9 m ρ c (Proc.devRef .tc main_v5) = W1 m ρ c (Proc.devRef .tc main_v5) :=
  (st9_main_v5 m ρ c).trans (at8_main_v5 m ρ c)
theorem at10_main_v5 : W10 m ρ c (Proc.devRef .tc main_v5) = W1 m ρ c (Proc.devRef .tc main_v5) :=
  (st10_main_v5 m ρ c).trans (at9_main_v5 m ρ c)
theorem at11_main_v5 : W11 m ρ c (Proc.devRef .tc main_v5) = W1 m ρ c (Proc.devRef .tc main_v5) :=
  (st11_main_v5 m ρ c).trans (at10_main_v5 m ρ c)
theorem at12_main_v5 : W12 m ρ c (Proc.devRef .tc main_v5) = W1 m ρ c (Proc.devRef .tc main_v5) :=
  (st12_main_v5 m ρ c).trans (at11_main_v5 m ρ c)
theorem at13_main_v5 : W13 m ρ c (Proc.devRef .tc main_v5) = W1 m ρ c (Proc.devRef .tc main_v5) :=
  (st13_main_v5 m ρ c).trans (at12_main_v5 m ρ c)
theorem at14_main_v5 : W14 m ρ c (Proc.devRef .tc main_v5) = W1 m ρ c (Proc.devRef .tc main_v5) :=
  (st14_main_v5 m ρ c).trans (at13_main_v5 m ρ c)
theorem at15_main_v5 : W15 m ρ c (Proc.devRef .tc main_v5) = W1 m ρ c (Proc.devRef .tc main_v5) :=
  (st15_main_v5 m ρ c).trans (at14_main_v5 m ρ c)
theorem at16_main_v5 : W16 m ρ c (Proc.devRef .tc main_v5) = W1 m ρ c (Proc.devRef .tc main_v5) :=
  (st16_main_v5 m ρ c).trans (at15_main_v5 m ρ c)
theorem at17_main_v5 : W17 m ρ c (Proc.devRef .tc main_v5) = W1 m ρ c (Proc.devRef .tc main_v5) :=
  (st17_main_v5 m ρ c).trans (at16_main_v5 m ρ c)
theorem at18_main_v5 : W18 m ρ c (Proc.devRef .tc main_v5) = W1 m ρ c (Proc.devRef .tc main_v5) :=
  (st18_main_v5 m ρ c).trans (at17_main_v5 m ρ c)
theorem at19_main_v5 : W19 m ρ c (Proc.devRef .tc main_v5) = W1 m ρ c (Proc.devRef .tc main_v5) :=
  (st19_main_v5 m ρ c).trans (at18_main_v5 m ρ c)

end Cert.KernelIdeal.KKeep

end
-- ==== Proof.KKeepB.lean ====
/-
  Buffers that a stretch of host operations does not write, and buffers that a kernel region only reads, keep their
  contents across it. For each buffer followed here: one step per boundary it survives, and the composed statement
  from the boundary where it is last written.
-/
import proofs.«121637_j32624571580955_1_alg».proof.Proof.KKeepTac

set_option maxRecDepth 16384

noncomputable section

namespace Cert.KernelIdeal.KKeep

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg) (c : Dev nD)

theorem st2_main_v6 : W2 m ρ c (Proc.devRef .tc main_v6) = W1 m ρ c (Proc.devRef .tc main_v6) :=
  W2_of_ne m ρ c main_v6 (by decide)
theorem st3_main_v6 : W3 m ρ c (Proc.devRef .tc main_v6) = W2 m ρ c (Proc.devRef .tc main_v6) :=
  by host_keep hostOps1
theorem st4_main_v6 : W4 m ρ c (Proc.devRef .tc main_v6) = W3 m ρ c (Proc.devRef .tc main_v6) :=
  (W4_arr m ρ c 4).trans (((dat1 (V3 m ρ) c).arrAt_in 4 rfl _).trans (A_eq1 (V3 m ρ) c 4))
theorem st5_main_v6 : W5 m ρ c (Proc.devRef .tc main_v6) = W4 m ρ c (Proc.devRef .tc main_v6) :=
  by host_keep hostOps2
theorem st6_main_v6 : W6 m ρ c (Proc.devRef .tc main_v6) = W5 m ρ c (Proc.devRef .tc main_v6) :=
  W6_of_ne m ρ c main_v6 (by decide)
theorem st7_main_v6 : W7 m ρ c (Proc.devRef .tc main_v6) = W6 m ρ c (Proc.devRef .tc main_v6) :=
  by host_keep hostOps3
theorem st8_main_v6 : W8 m ρ c (Proc.devRef .tc main_v6) = W7 m ρ c (Proc.devRef .tc main_v6) :=
  (W8_arr m ρ c 4).trans (((dat3 (V7 m ρ) c).arrAt_in 4 rfl _).trans (A_eq3 (V7 m ρ) c 4))
theorem st9_main_v6 : W9 m ρ c (Proc.devRef .tc main_v6) = W8 m ρ c (Proc.devRef .tc main_v6) :=
  by host_keep hostOps4
theorem st10_main_v6 : W10 m ρ c (Proc.devRef .tc main_v6) = W9 m ρ c (Proc.devRef .tc main_v6) :=
  W10_of_ne m ρ c main_v6 (by decide)
theorem st11_main_v6 : W11 m ρ c (Proc.devRef .tc main_v6) = W10 m ρ c (Proc.devRef .tc main_v6) :=
  by host_keep hostOps5
theorem st12_main_v6 : W12 m ρ c (Proc.devRef .tc main_v6) = W11 m ρ c (Proc.devRef .tc main_v6) :=
  (W12_arr m ρ c 4).trans (((dat5 (V11 m ρ) c).arrAt_in 4 rfl _).trans (A_eq5 (V11 m ρ) c 4))
theorem st13_main_v6 : W13 m ρ c (Proc.devRef .tc main_v6) = W12 m ρ c (Proc.devRef .tc main_v6) :=
  by host_keep hostOps6
theorem st14_main_v6 : W14 m ρ c (Proc.devRef .tc main_v6) = W13 m ρ c (Proc.devRef .tc main_v6) :=
  W14_of_ne m ρ c main_v6 (by decide)
theorem st15_main_v6 : W15 m ρ c (Proc.devRef .tc main_v6) = W14 m ρ c (Proc.devRef .tc main_v6) :=
  by host_keep hostOps7
theorem st16_main_v6 : W16 m ρ c (Proc.devRef .tc main_v6) = W15 m ρ c (Proc.devRef .tc main_v6) :=
  (W16_arr m ρ c 4).trans (((dat7 (V15 m ρ) c).arrAt_in 4 rfl _).trans (A_eq7 (V15 m ρ) c 4))
theorem st17_main_v6 : W17 m ρ c (Proc.devRef .tc main_v6) = W16 m ρ c (Proc.devRef .tc main_v6) :=
  by host_keep hostOps8
theorem st18_main_v6 : W18 m ρ c (Proc.devRef .tc main_v6) = W17 m ρ c (Proc.devRef .tc main_v6) :=
  W18_of_ne m ρ c main_v6 (by decide)
theorem st19_main_v6 : W19 m ρ c (Proc.devRef .tc main_v6) = W18 m ρ c (Proc.devRef .tc main_v6) :=
  by host_keep hostOps9
theorem at2_main_v6 : W2 m ρ c (Proc.devRef .tc main_v6) = W1 m ρ c (Proc.devRef .tc main_v6) :=
  st2_main_v6 m ρ c
theorem at3_main_v6 : W3 m ρ c (Proc.devRef .tc main_v6) = W1 m ρ c (Proc.devRef .tc main_v6) :=
  (st3_main_v6 m ρ c).trans (at2_main_v6 m ρ c)
theorem at4_main_v6 : W4 m ρ c (Proc.devRef .tc main_v6) = W1 m ρ c (Proc.devRef .tc main_v6) :=
  (st4_main_v6 m ρ c).trans (at3_main_v6 m ρ c)
theorem at5_main_v6 : W5 m ρ c (Proc.devRef .tc main_v6) = W1 m ρ c (Proc.devRef .tc main_v6) :=
  (st5_main_v6 m ρ c).trans (at4_main_v6 m ρ c)
theorem at6_main_v6 : W6 m ρ c (Proc.devRef .tc main_v6) = W1 m ρ c (Proc.devRef .tc main_v6) :=
  (st6_main_v6 m ρ c).trans (at5_main_v6 m ρ c)
theorem at7_main_v6 : W7 m ρ c (Proc.devRef .tc main_v6) = W1 m ρ c (Proc.devRef .tc main_v6) :=
  (st7_main_v6 m ρ c).trans (at6_main_v6 m ρ c)
theorem at8_main_v6 : W8 m ρ c (Proc.devRef .tc main_v6) = W1 m ρ c (Proc.devRef .tc main_v6) :=
  (st8_main_v6 m ρ c).trans (at7_main_v6 m ρ c)
theorem at9_main_v6 : W9 m ρ c (Proc.devRef .tc main_v6) = W1 m ρ c (Proc.devRef .tc main_v6) :=
  (st9_main_v6 m ρ c).trans (at8_main_v6 m ρ c)
theorem at10_main_v6 : W10 m ρ c (Proc.devRef .tc main_v6) = W1 m ρ c (Proc.devRef .tc main_v6) :=
  (st10_main_v6 m ρ c).trans (at9_main_v6 m ρ c)
theorem at11_main_v6 : W11 m ρ c (Proc.devRef .tc main_v6) = W1 m ρ c (Proc.devRef .tc main_v6) :=
  (st11_main_v6 m ρ c).trans (at10_main_v6 m ρ c)
theorem at12_main_v6 : W12 m ρ c (Proc.devRef .tc main_v6) = W1 m ρ c (Proc.devRef .tc main_v6) :=
  (st12_main_v6 m ρ c).trans (at11_main_v6 m ρ c)
theorem at13_main_v6 : W13 m ρ c (Proc.devRef .tc main_v6) = W1 m ρ c (Proc.devRef .tc main_v6) :=
  (st13_main_v6 m ρ c).trans (at12_main_v6 m ρ c)
theorem at14_main_v6 : W14 m ρ c (Proc.devRef .tc main_v6) = W1 m ρ c (Proc.devRef .tc main_v6) :=
  (st14_main_v6 m ρ c).trans (at13_main_v6 m ρ c)
theorem at15_main_v6 : W15 m ρ c (Proc.devRef .tc main_v6) = W1 m ρ c (Proc.devRef .tc main_v6) :=
  (st15_main_v6 m ρ c).trans (at14_main_v6 m ρ c)
theorem at16_main_v6 : W16 m ρ c (Proc.devRef .tc main_v6) = W1 m ρ c (Proc.devRef .tc main_v6) :=
  (st16_main_v6 m ρ c).trans (at15_main_v6 m ρ c)
theorem at17_main_v6 : W17 m ρ c (Proc.devRef .tc main_v6) = W1 m ρ c (Proc.devRef .tc main_v6) :=
  (st17_main_v6 m ρ c).trans (at16_main_v6 m ρ c)
theorem at18_main_v6 : W18 m ρ c (Proc.devRef .tc main_v6) = W1 m ρ c (Proc.devRef .tc main_v6) :=
  (st18_main_v6 m ρ c).trans (at17_main_v6 m ρ c)
theorem at19_main_v6 : W19 m ρ c (Proc.devRef .tc main_v6) = W1 m ρ c (Proc.devRef .tc main_v6) :=
  (st19_main_v6 m ρ c).trans (at18_main_v6 m ρ c)

theorem st2_main_v7 : W2 m ρ c (Proc.devRef .tc main_v7) = W1 m ρ c (Proc.devRef .tc main_v7) :=
  W2_of_ne m ρ c main_v7 (by decide)
theorem st3_main_v7 : W3 m ρ c (Proc.devRef .tc main_v7) = W2 m ρ c (Proc.devRef .tc main_v7) :=
  by host_keep hostOps1
theorem st4_main_v7 : W4 m ρ c (Proc.devRef .tc main_v7) = W3 m ρ c (Proc.devRef .tc main_v7) :=
  (W4_arr m ρ c 5).trans (((dat1 (V3 m ρ) c).arrAt_in 5 rfl _).trans (A_eq1 (V3 m ρ) c 5))
theorem st5_main_v7 : W5 m ρ c (Proc.devRef .tc main_v7) = W4 m ρ c (Proc.devRef .tc main_v7) :=
  by host_keep hostOps2
theorem st6_main_v7 : W6 m ρ c (Proc.devRef .tc main_v7) = W5 m ρ c (Proc.devRef .tc main_v7) :=
  W6_of_ne m ρ c main_v7 (by decide)
theorem st7_main_v7 : W7 m ρ c (Proc.devRef .tc main_v7) = W6 m ρ c (Proc.devRef .tc main_v7) :=
  by host_keep hostOps3
theorem st8_main_v7 : W8 m ρ c (Proc.devRef .tc main_v7) = W7 m ρ c (Proc.devRef .tc main_v7) :=
  (W8_arr m ρ c 5).trans (((dat3 (V7 m ρ) c).arrAt_in 5 rfl _).trans (A_eq3 (V7 m ρ) c 5))
theorem st9_main_v7 : W9 m ρ c (Proc.devRef .tc main_v7) = W8 m ρ c (Proc.devRef .tc main_v7) :=
  by host_keep hostOps4
theorem st10_main_v7 : W10 m ρ c (Proc.devRef .tc main_v7) = W9 m ρ c (Proc.devRef .tc main_v7) :=
  W10_of_ne m ρ c main_v7 (by decide)
theorem st11_main_v7 : W11 m ρ c (Proc.devRef .tc main_v7) = W10 m ρ c (Proc.devRef .tc main_v7) :=
  by host_keep hostOps5
theorem st12_main_v7 : W12 m ρ c (Proc.devRef .tc main_v7) = W11 m ρ c (Proc.devRef .tc main_v7) :=
  (W12_arr m ρ c 5).trans (((dat5 (V11 m ρ) c).arrAt_in 5 rfl _).trans (A_eq5 (V11 m ρ) c 5))
theorem st13_main_v7 : W13 m ρ c (Proc.devRef .tc main_v7) = W12 m ρ c (Proc.devRef .tc main_v7) :=
  by host_keep hostOps6
theorem st14_main_v7 : W14 m ρ c (Proc.devRef .tc main_v7) = W13 m ρ c (Proc.devRef .tc main_v7) :=
  W14_of_ne m ρ c main_v7 (by decide)
theorem st15_main_v7 : W15 m ρ c (Proc.devRef .tc main_v7) = W14 m ρ c (Proc.devRef .tc main_v7) :=
  by host_keep hostOps7
theorem st16_main_v7 : W16 m ρ c (Proc.devRef .tc main_v7) = W15 m ρ c (Proc.devRef .tc main_v7) :=
  (W16_arr m ρ c 5).trans (((dat7 (V15 m ρ) c).arrAt_in 5 rfl _).trans (A_eq7 (V15 m ρ) c 5))
theorem st17_main_v7 : W17 m ρ c (Proc.devRef .tc main_v7) = W16 m ρ c (Proc.devRef .tc main_v7) :=
  by host_keep hostOps8
theorem st18_main_v7 : W18 m ρ c (Proc.devRef .tc main_v7) = W17 m ρ c (Proc.devRef .tc main_v7) :=
  W18_of_ne m ρ c main_v7 (by decide)
theorem st19_main_v7 : W19 m ρ c (Proc.devRef .tc main_v7) = W18 m ρ c (Proc.devRef .tc main_v7) :=
  by host_keep hostOps9
theorem at2_main_v7 : W2 m ρ c (Proc.devRef .tc main_v7) = W1 m ρ c (Proc.devRef .tc main_v7) :=
  st2_main_v7 m ρ c
theorem at3_main_v7 : W3 m ρ c (Proc.devRef .tc main_v7) = W1 m ρ c (Proc.devRef .tc main_v7) :=
  (st3_main_v7 m ρ c).trans (at2_main_v7 m ρ c)
theorem at4_main_v7 : W4 m ρ c (Proc.devRef .tc main_v7) = W1 m ρ c (Proc.devRef .tc main_v7) :=
  (st4_main_v7 m ρ c).trans (at3_main_v7 m ρ c)
theorem at5_main_v7 : W5 m ρ c (Proc.devRef .tc main_v7) = W1 m ρ c (Proc.devRef .tc main_v7) :=
  (st5_main_v7 m ρ c).trans (at4_main_v7 m ρ c)
theorem at6_main_v7 : W6 m ρ c (Proc.devRef .tc main_v7) = W1 m ρ c (Proc.devRef .tc main_v7) :=
  (st6_main_v7 m ρ c).trans (at5_main_v7 m ρ c)
theorem at7_main_v7 : W7 m ρ c (Proc.devRef .tc main_v7) = W1 m ρ c (Proc.devRef .tc main_v7) :=
  (st7_main_v7 m ρ c).trans (at6_main_v7 m ρ c)
theorem at8_main_v7 : W8 m ρ c (Proc.devRef .tc main_v7) = W1 m ρ c (Proc.devRef .tc main_v7) :=
  (st8_main_v7 m ρ c).trans (at7_main_v7 m ρ c)
theorem at9_main_v7 : W9 m ρ c (Proc.devRef .tc main_v7) = W1 m ρ c (Proc.devRef .tc main_v7) :=
  (st9_main_v7 m ρ c).trans (at8_main_v7 m ρ c)
theorem at10_main_v7 : W10 m ρ c (Proc.devRef .tc main_v7) = W1 m ρ c (Proc.devRef .tc main_v7) :=
  (st10_main_v7 m ρ c).trans (at9_main_v7 m ρ c)
theorem at11_main_v7 : W11 m ρ c (Proc.devRef .tc main_v7) = W1 m ρ c (Proc.devRef .tc main_v7) :=
  (st11_main_v7 m ρ c).trans (at10_main_v7 m ρ c)
theorem at12_main_v7 : W12 m ρ c (Proc.devRef .tc main_v7) = W1 m ρ c (Proc.devRef .tc main_v7) :=
  (st12_main_v7 m ρ c).trans (at11_main_v7 m ρ c)
theorem at13_main_v7 : W13 m ρ c (Proc.devRef .tc main_v7) = W1 m ρ c (Proc.devRef .tc main_v7) :=
  (st13_main_v7 m ρ c).trans (at12_main_v7 m ρ c)
theorem at14_main_v7 : W14 m ρ c (Proc.devRef .tc main_v7) = W1 m ρ c (Proc.devRef .tc main_v7) :=
  (st14_main_v7 m ρ c).trans (at13_main_v7 m ρ c)
theorem at15_main_v7 : W15 m ρ c (Proc.devRef .tc main_v7) = W1 m ρ c (Proc.devRef .tc main_v7) :=
  (st15_main_v7 m ρ c).trans (at14_main_v7 m ρ c)
theorem at16_main_v7 : W16 m ρ c (Proc.devRef .tc main_v7) = W1 m ρ c (Proc.devRef .tc main_v7) :=
  (st16_main_v7 m ρ c).trans (at15_main_v7 m ρ c)
theorem at17_main_v7 : W17 m ρ c (Proc.devRef .tc main_v7) = W1 m ρ c (Proc.devRef .tc main_v7) :=
  (st17_main_v7 m ρ c).trans (at16_main_v7 m ρ c)
theorem at18_main_v7 : W18 m ρ c (Proc.devRef .tc main_v7) = W1 m ρ c (Proc.devRef .tc main_v7) :=
  (st18_main_v7 m ρ c).trans (at17_main_v7 m ρ c)
theorem at19_main_v7 : W19 m ρ c (Proc.devRef .tc main_v7) = W1 m ρ c (Proc.devRef .tc main_v7) :=
  (st19_main_v7 m ρ c).trans (at18_main_v7 m ρ c)

end Cert.KernelIdeal.KKeep

end
-- ==== Proof.KKeepA.lean ====
/-
  Buffers that a stretch of host operations does not write, and buffers that a kernel region only reads, keep their
  contents across it. For each buffer followed here: one step per boundary it survives, and the composed statement
  from the boundary where it is last written.
-/
import proofs.«121637_j32624571580955_1_alg».proof.Proof.KKeepTac

set_option maxRecDepth 16384

noncomputable section

namespace Cert.KernelIdeal.KKeep

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg) (c : Dev nD)

theorem st1_main_arg2 : W1 m ρ c (Proc.devRef .tc main_arg2) = W0 m ρ c (Proc.devRef .tc main_arg2) :=
  by host_keep hostOps0
theorem st2_main_arg2 : W2 m ρ c (Proc.devRef .tc main_arg2) = W1 m ρ c (Proc.devRef .tc main_arg2) :=
  W2_of_ne m ρ c main_arg2 (by decide)
theorem st3_main_arg2 : W3 m ρ c (Proc.devRef .tc main_arg2) = W2 m ρ c (Proc.devRef .tc main_arg2) :=
  by host_keep hostOps1
theorem st4_main_arg2 : W4 m ρ c (Proc.devRef .tc main_arg2) = W3 m ρ c (Proc.devRef .tc main_arg2) :=
  W4_of_ne m ρ c main_arg2 (by decide)
theorem st5_main_arg2 : W5 m ρ c (Proc.devRef .tc main_arg2) = W4 m ρ c (Proc.devRef .tc main_arg2) :=
  by host_keep hostOps2
theorem st6_main_arg2 : W6 m ρ c (Proc.devRef .tc main_arg2) = W5 m ρ c (Proc.devRef .tc main_arg2) :=
  W6_of_ne m ρ c main_arg2 (by decide)
theorem st7_main_arg2 : W7 m ρ c (Proc.devRef .tc main_arg2) = W6 m ρ c (Proc.devRef .tc main_arg2) :=
  by host_keep hostOps3
theorem st8_main_arg2 : W8 m ρ c (Proc.devRef .tc main_arg2) = W7 m ρ c (Proc.devRef .tc main_arg2) :=
  W8_of_ne m ρ c main_arg2 (by decide)
theorem st9_main_arg2 : W9 m ρ c (Proc.devRef .tc main_arg2) = W8 m ρ c (Proc.devRef .tc main_arg2) :=
  by host_keep hostOps4
theorem st10_main_arg2 : W10 m ρ c (Proc.devRef .tc main_arg2) = W9 m ρ c (Proc.devRef .tc main_arg2) :=
  W10_of_ne m ρ c main_arg2 (by decide)
theorem st11_main_arg2 : W11 m ρ c (Proc.devRef .tc main_arg2) = W10 m ρ c (Proc.devRef .tc main_arg2) :=
  by host_keep hostOps5
theorem st12_main_arg2 : W12 m ρ c (Proc.devRef .tc main_arg2) = W11 m ρ c (Proc.devRef .tc main_arg2) :=
  W12_of_ne m ρ c main_arg2 (by decide)
theorem st13_main_arg2 : W13 m ρ c (Proc.devRef .tc main_arg2) = W12 m ρ c (Proc.devRef .tc main_arg2) :=
  by host_keep hostOps6
theorem st14_main_arg2 : W14 m ρ c (Proc.devRef .tc main_arg2) = W13 m ρ c (Proc.devRef .tc main_arg2) :=
  W14_of_ne m ρ c main_arg2 (by decide)
theorem st15_main_arg2 : W15 m ρ c (Proc.devRef .tc main_arg2) = W14 m ρ c (Proc.devRef .tc main_arg2) :=
  by host_keep hostOps7
theorem st16_main_arg2 : W16 m ρ c (Proc.devRef .tc main_arg2) = W15 m ρ c (Proc.devRef .tc main_arg2) :=
  W16_of_ne m ρ c main_arg2 (by decide)
theorem at1_main_arg2 : W1 m ρ c (Proc.devRef .tc main_arg2) = W0 m ρ c (Proc.devRef .tc main_arg2) :=
  st1_main_arg2 m ρ c
theorem at2_main_arg2 : W2 m ρ c (Proc.devRef .tc main_arg2) = W0 m ρ c (Proc.devRef .tc main_arg2) :=
  (st2_main_arg2 m ρ c).trans (at1_main_arg2 m ρ c)
theorem at3_main_arg2 : W3 m ρ c (Proc.devRef .tc main_arg2) = W0 m ρ c (Proc.devRef .tc main_arg2) :=
  (st3_main_arg2 m ρ c).trans (at2_main_arg2 m ρ c)
theorem at4_main_arg2 : W4 m ρ c (Proc.devRef .tc main_arg2) = W0 m ρ c (Proc.devRef .tc main_arg2) :=
  (st4_main_arg2 m ρ c).trans (at3_main_arg2 m ρ c)
theorem at5_main_arg2 : W5 m ρ c (Proc.devRef .tc main_arg2) = W0 m ρ c (Proc.devRef .tc main_arg2) :=
  (st5_main_arg2 m ρ c).trans (at4_main_arg2 m ρ c)
theorem at6_main_arg2 : W6 m ρ c (Proc.devRef .tc main_arg2) = W0 m ρ c (Proc.devRef .tc main_arg2) :=
  (st6_main_arg2 m ρ c).trans (at5_main_arg2 m ρ c)
theorem at7_main_arg2 : W7 m ρ c (Proc.devRef .tc main_arg2) = W0 m ρ c (Proc.devRef .tc main_arg2) :=
  (st7_main_arg2 m ρ c).trans (at6_main_arg2 m ρ c)
theorem at8_main_arg2 : W8 m ρ c (Proc.devRef .tc main_arg2) = W0 m ρ c (Proc.devRef .tc main_arg2) :=
  (st8_main_arg2 m ρ c).trans (at7_main_arg2 m ρ c)
theorem at9_main_arg2 : W9 m ρ c (Proc.devRef .tc main_arg2) = W0 m ρ c (Proc.devRef .tc main_arg2) :=
  (st9_main_arg2 m ρ c).trans (at8_main_arg2 m ρ c)
theorem at10_main_arg2 : W10 m ρ c (Proc.devRef .tc main_arg2) = W0 m ρ c (Proc.devRef .tc main_arg2) :=
  (st10_main_arg2 m ρ c).trans (at9_main_arg2 m ρ c)
theorem at11_main_arg2 : W11 m ρ c (Proc.devRef .tc main_arg2) = W0 m ρ c (Proc.devRef .tc main_arg2) :=
  (st11_main_arg2 m ρ c).trans (at10_main_arg2 m ρ c)
theorem at12_main_arg2 : W12 m ρ c (Proc.devRef .tc main_arg2) = W0 m ρ c (Proc.devRef .tc main_arg2) :=
  (st12_main_arg2 m ρ c).trans (at11_main_arg2 m ρ c)
theorem at13_main_arg2 : W13 m ρ c (Proc.devRef .tc main_arg2) = W0 m ρ c (Proc.devRef .tc main_arg2) :=
  (st13_main_arg2 m ρ c).trans (at12_main_arg2 m ρ c)
theorem at14_main_arg2 : W14 m ρ c (Proc.devRef .tc main_arg2) = W0 m ρ c (Proc.devRef .tc main_arg2) :=
  (st14_main_arg2 m ρ c).trans (at13_main_arg2 m ρ c)
theorem at15_main_arg2 : W15 m ρ c (Proc.devRef .tc main_arg2) = W0 m ρ c (Proc.devRef .tc main_arg2) :=
  (st15_main_arg2 m ρ c).trans (at14_main_arg2 m ρ c)
theorem at16_main_arg2 : W16 m ρ c (Proc.devRef .tc main_arg2) = W0 m ρ c (Proc.devRef .tc main_arg2) :=
  (st16_main_arg2 m ρ c).trans (at15_main_arg2 m ρ c)

theorem st1_main_arg7 : W1 m ρ c (Proc.devRef .tc main_arg7) = W0 m ρ c (Proc.devRef .tc main_arg7) :=
  by host_keep hostOps0
theorem st2_main_arg7 : W2 m ρ c (Proc.devRef .tc main_arg7) = W1 m ρ c (Proc.devRef .tc main_arg7) :=
  W2_of_ne m ρ c main_arg7 (by decide)
theorem st3_main_arg7 : W3 m ρ c (Proc.devRef .tc main_arg7) = W2 m ρ c (Proc.devRef .tc main_arg7) :=
  by host_keep hostOps1
theorem st4_main_arg7 : W4 m ρ c (Proc.devRef .tc main_arg7) = W3 m ρ c (Proc.devRef .tc main_arg7) :=
  W4_of_ne m ρ c main_arg7 (by decide)
theorem st5_main_arg7 : W5 m ρ c (Proc.devRef .tc main_arg7) = W4 m ρ c (Proc.devRef .tc main_arg7) :=
  by host_keep hostOps2
theorem st6_main_arg7 : W6 m ρ c (Proc.devRef .tc main_arg7) = W5 m ρ c (Proc.devRef .tc main_arg7) :=
  W6_of_ne m ρ c main_arg7 (by decide)
theorem st7_main_arg7 : W7 m ρ c (Proc.devRef .tc main_arg7) = W6 m ρ c (Proc.devRef .tc main_arg7) :=
  by host_keep hostOps3
theorem st8_main_arg7 : W8 m ρ c (Proc.devRef .tc main_arg7) = W7 m ρ c (Proc.devRef .tc main_arg7) :=
  W8_of_ne m ρ c main_arg7 (by decide)
theorem st9_main_arg7 : W9 m ρ c (Proc.devRef .tc main_arg7) = W8 m ρ c (Proc.devRef .tc main_arg7) :=
  by host_keep hostOps4
theorem st10_main_arg7 : W10 m ρ c (Proc.devRef .tc main_arg7) = W9 m ρ c (Proc.devRef .tc main_arg7) :=
  W10_of_ne m ρ c main_arg7 (by decide)
theorem st11_main_arg7 : W11 m ρ c (Proc.devRef .tc main_arg7) = W10 m ρ c (Proc.devRef .tc main_arg7) :=
  by host_keep hostOps5
theorem st12_main_arg7 : W12 m ρ c (Proc.devRef .tc main_arg7) = W11 m ρ c (Proc.devRef .tc main_arg7) :=
  W12_of_ne m ρ c main_arg7 (by decide)
theorem st13_main_arg7 : W13 m ρ c (Proc.devRef .tc main_arg7) = W12 m ρ c (Proc.devRef .tc main_arg7) :=
  by host_keep hostOps6
theorem st14_main_arg7 : W14 m ρ c (Proc.devRef .tc main_arg7) = W13 m ρ c (Proc.devRef .tc main_arg7) :=
  W14_of_ne m ρ c main_arg7 (by decide)
theorem st15_main_arg7 : W15 m ρ c (Proc.devRef .tc main_arg7) = W14 m ρ c (Proc.devRef .tc main_arg7) :=
  by host_keep hostOps7
theorem st16_main_arg7 : W16 m ρ c (Proc.devRef .tc main_arg7) = W15 m ρ c (Proc.devRef .tc main_arg7) :=
  W16_of_ne m ρ c main_arg7 (by decide)
theorem st17_main_arg7 : W17 m ρ c (Proc.devRef .tc main_arg7) = W16 m ρ c (Proc.devRef .tc main_arg7) :=
  by host_keep hostOps8
theorem st18_main_arg7 : W18 m ρ c (Proc.devRef .tc main_arg7) = W17 m ρ c (Proc.devRef .tc main_arg7) :=
  W18_of_ne m ρ c main_arg7 (by decide)
theorem st19_main_arg7 : W19 m ρ c (Proc.devRef .tc main_arg7) = W18 m ρ c (Proc.devRef .tc main_arg7) :=
  by host_keep hostOps9
theorem st20_main_arg7 : W20 m ρ c (Proc.devRef .tc main_arg7) = W19 m ρ c (Proc.devRef .tc main_arg7) :=
  W20_of_ne m ρ c main_arg7 (by decide)
theorem at1_main_arg7 : W1 m ρ c (Proc.devRef .tc main_arg7) = W0 m ρ c (Proc.devRef .tc main_arg7) :=
  st1_main_arg7 m ρ c
theorem at2_main_arg7 : W2 m ρ c (Proc.devRef .tc main_arg7) = W0 m ρ c (Proc.devRef .tc main_arg7) :=
  (st2_main_arg7 m ρ c).trans (at1_main_arg7 m ρ c)
theorem at3_main_arg7 : W3 m ρ c (Proc.devRef .tc main_arg7) = W0 m ρ c (Proc.devRef .tc main_arg7) :=
  (st3_main_arg7 m ρ c).trans (at2_main_arg7 m ρ c)
theorem at4_main_arg7 : W4 m ρ c (Proc.devRef .tc main_arg7) = W0 m ρ c (Proc.devRef .tc main_arg7) :=
  (st4_main_arg7 m ρ c).trans (at3_main_arg7 m ρ c)
theorem at5_main_arg7 : W5 m ρ c (Proc.devRef .tc main_arg7) = W0 m ρ c (Proc.devRef .tc main_arg7) :=
  (st5_main_arg7 m ρ c).trans (at4_main_arg7 m ρ c)
theorem at6_main_arg7 : W6 m ρ c (Proc.devRef .tc main_arg7) = W0 m ρ c (Proc.devRef .tc main_arg7) :=
  (st6_main_arg7 m ρ c).trans (at5_main_arg7 m ρ c)
theorem at7_main_arg7 : W7 m ρ c (Proc.devRef .tc main_arg7) = W0 m ρ c (Proc.devRef .tc main_arg7) :=
  (st7_main_arg7 m ρ c).trans (at6_main_arg7 m ρ c)
theorem at8_main_arg7 : W8 m ρ c (Proc.devRef .tc main_arg7) = W0 m ρ c (Proc.devRef .tc main_arg7) :=
  (st8_main_arg7 m ρ c).trans (at7_main_arg7 m ρ c)
theorem at9_main_arg7 : W9 m ρ c (Proc.devRef .tc main_arg7) = W0 m ρ c (Proc.devRef .tc main_arg7) :=
  (st9_main_arg7 m ρ c).trans (at8_main_arg7 m ρ c)
theorem at10_main_arg7 : W10 m ρ c (Proc.devRef .tc main_arg7) = W0 m ρ c (Proc.devRef .tc main_arg7) :=
  (st10_main_arg7 m ρ c).trans (at9_main_arg7 m ρ c)
theorem at11_main_arg7 : W11 m ρ c (Proc.devRef .tc main_arg7) = W0 m ρ c (Proc.devRef .tc main_arg7) :=
  (st11_main_arg7 m ρ c).trans (at10_main_arg7 m ρ c)
theorem at12_main_arg7 : W12 m ρ c (Proc.devRef .tc main_arg7) = W0 m ρ c (Proc.devRef .tc main_arg7) :=
  (st12_main_arg7 m ρ c).trans (at11_main_arg7 m ρ c)
theorem at13_main_arg7 : W13 m ρ c (Proc.devRef .tc main_arg7) = W0 m ρ c (Proc.devRef .tc main_arg7) :=
  (st13_main_arg7 m ρ c).trans (at12_main_arg7 m ρ c)
theorem at14_main_arg7 : W14 m ρ c (Proc.devRef .tc main_arg7) = W0 m ρ c (Proc.devRef .tc main_arg7) :=
  (st14_main_arg7 m ρ c).trans (at13_main_arg7 m ρ c)
theorem at15_main_arg7 : W15 m ρ c (Proc.devRef .tc main_arg7) = W0 m ρ c (Proc.devRef .tc main_arg7) :=
  (st15_main_arg7 m ρ c).trans (at14_main_arg7 m ρ c)
theorem at16_main_arg7 : W16 m ρ c (Proc.devRef .tc main_arg7) = W0 m ρ c (Proc.devRef .tc main_arg7) :=
  (st16_main_arg7 m ρ c).trans (at15_main_arg7 m ρ c)
theorem at17_main_arg7 : W17 m ρ c (Proc.devRef .tc main_arg7) = W0 m ρ c (Proc.devRef .tc main_arg7) :=
  (st17_main_arg7 m ρ c).trans (at16_main_arg7 m ρ c)
theorem at18_main_arg7 : W18 m ρ c (Proc.devRef .tc main_arg7) = W0 m ρ c (Proc.devRef .tc main_arg7) :=
  (st18_main_arg7 m ρ c).trans (at17_main_arg7 m ρ c)
theorem at19_main_arg7 : W19 m ρ c (Proc.devRef .tc main_arg7) = W0 m ρ c (Proc.devRef .tc main_arg7) :=
  (st19_main_arg7 m ρ c).trans (at18_main_arg7 m ρ c)
theorem at20_main_arg7 : W20 m ρ c (Proc.devRef .tc main_arg7) = W0 m ρ c (Proc.devRef .tc main_arg7) :=
  (st20_main_arg7 m ρ c).trans (at19_main_arg7 m ρ c)

theorem st1_main_arg8 : W1 m ρ c (Proc.devRef .tc main_arg8) = W0 m ρ c (Proc.devRef .tc main_arg8) :=
  by host_keep hostOps0
theorem st2_main_arg8 : W2 m ρ c (Proc.devRef .tc main_arg8) = W1 m ρ c (Proc.devRef .tc main_arg8) :=
  W2_of_ne m ρ c main_arg8 (by decide)
theorem st3_main_arg8 : W3 m ρ c (Proc.devRef .tc main_arg8) = W2 m ρ c (Proc.devRef .tc main_arg8) :=
  by host_keep hostOps1
theorem st4_main_arg8 : W4 m ρ c (Proc.devRef .tc main_arg8) = W3 m ρ c (Proc.devRef .tc main_arg8) :=
  W4_of_ne m ρ c main_arg8 (by decide)
theorem st5_main_arg8 : W5 m ρ c (Proc.devRef .tc main_arg8) = W4 m ρ c (Proc.devRef .tc main_arg8) :=
  by host_keep hostOps2
theorem st6_main_arg8 : W6 m ρ c (Proc.devRef .tc main_arg8) = W5 m ρ c (Proc.devRef .tc main_arg8) :=
  W6_of_ne m ρ c main_arg8 (by decide)
theorem st7_main_arg8 : W7 m ρ c (Proc.devRef .tc main_arg8) = W6 m ρ c (Proc.devRef .tc main_arg8) :=
  by host_keep hostOps3
theorem st8_main_arg8 : W8 m ρ c (Proc.devRef .tc main_arg8) = W7 m ρ c (Proc.devRef .tc main_arg8) :=
  W8_of_ne m ρ c main_arg8 (by decide)
theorem st9_main_arg8 : W9 m ρ c (Proc.devRef .tc main_arg8) = W8 m ρ c (Proc.devRef .tc main_arg8) :=
  by host_keep hostOps4
theorem st10_main_arg8 : W10 m ρ c (Proc.devRef .tc main_arg8) = W9 m ρ c (Proc.devRef .tc main_arg8) :=
  W10_of_ne m ρ c main_arg8 (by decide)
theorem st11_main_arg8 : W11 m ρ c (Proc.devRef .tc main_arg8) = W10 m ρ c (Proc.devRef .tc main_arg8) :=
  by host_keep hostOps5
theorem st12_main_arg8 : W12 m ρ c (Proc.devRef .tc main_arg8) = W11 m ρ c (Proc.devRef .tc main_arg8) :=
  W12_of_ne m ρ c main_arg8 (by decide)
theorem st13_main_arg8 : W13 m ρ c (Proc.devRef .tc main_arg8) = W12 m ρ c (Proc.devRef .tc main_arg8) :=
  by host_keep hostOps6
theorem st14_main_arg8 : W14 m ρ c (Proc.devRef .tc main_arg8) = W13 m ρ c (Proc.devRef .tc main_arg8) :=
  W14_of_ne m ρ c main_arg8 (by decide)
theorem st15_main_arg8 : W15 m ρ c (Proc.devRef .tc main_arg8) = W14 m ρ c (Proc.devRef .tc main_arg8) :=
  by host_keep hostOps7
theorem st16_main_arg8 : W16 m ρ c (Proc.devRef .tc main_arg8) = W15 m ρ c (Proc.devRef .tc main_arg8) :=
  W16_of_ne m ρ c main_arg8 (by decide)
theorem st17_main_arg8 : W17 m ρ c (Proc.devRef .tc main_arg8) = W16 m ρ c (Proc.devRef .tc main_arg8) :=
  by host_keep hostOps8
theorem st18_main_arg8 : W18 m ρ c (Proc.devRef .tc main_arg8) = W17 m ρ c (Proc.devRef .tc main_arg8) :=
  W18_of_ne m ρ c main_arg8 (by decide)
theorem st19_main_arg8 : W19 m ρ c (Proc.devRef .tc main_arg8) = W18 m ρ c (Proc.devRef .tc main_arg8) :=
  by host_keep hostOps9
theorem st20_main_arg8 : W20 m ρ c (Proc.devRef .tc main_arg8) = W19 m ρ c (Proc.devRef .tc main_arg8) :=
  W20_of_ne m ρ c main_arg8 (by decide)
theorem at1_main_arg8 : W1 m ρ c (Proc.devRef .tc main_arg8) = W0 m ρ c (Proc.devRef .tc main_arg8) :=
  st1_main_arg8 m ρ c
theorem at2_main_arg8 : W2 m ρ c (Proc.devRef .tc main_arg8) = W0 m ρ c (Proc.devRef .tc main_arg8) :=
  (st2_main_arg8 m ρ c).trans (at1_main_arg8 m ρ c)
theorem at3_main_arg8 : W3 m ρ c (Proc.devRef .tc main_arg8) = W0 m ρ c (Proc.devRef .tc main_arg8) :=
  (st3_main_arg8 m ρ c).trans (at2_main_arg8 m ρ c)
theorem at4_main_arg8 : W4 m ρ c (Proc.devRef .tc main_arg8) = W0 m ρ c (Proc.devRef .tc main_arg8) :=
  (st4_main_arg8 m ρ c).trans (at3_main_arg8 m ρ c)
theorem at5_main_arg8 : W5 m ρ c (Proc.devRef .tc main_arg8) = W0 m ρ c (Proc.devRef .tc main_arg8) :=
  (st5_main_arg8 m ρ c).trans (at4_main_arg8 m ρ c)
theorem at6_main_arg8 : W6 m ρ c (Proc.devRef .tc main_arg8) = W0 m ρ c (Proc.devRef .tc main_arg8) :=
  (st6_main_arg8 m ρ c).trans (at5_main_arg8 m ρ c)
theorem at7_main_arg8 : W7 m ρ c (Proc.devRef .tc main_arg8) = W0 m ρ c (Proc.devRef .tc main_arg8) :=
  (st7_main_arg8 m ρ c).trans (at6_main_arg8 m ρ c)
theorem at8_main_arg8 : W8 m ρ c (Proc.devRef .tc main_arg8) = W0 m ρ c (Proc.devRef .tc main_arg8) :=
  (st8_main_arg8 m ρ c).trans (at7_main_arg8 m ρ c)
theorem at9_main_arg8 : W9 m ρ c (Proc.devRef .tc main_arg8) = W0 m ρ c (Proc.devRef .tc main_arg8) :=
  (st9_main_arg8 m ρ c).trans (at8_main_arg8 m ρ c)
theorem at10_main_arg8 : W10 m ρ c (Proc.devRef .tc main_arg8) = W0 m ρ c (Proc.devRef .tc main_arg8) :=
  (st10_main_arg8 m ρ c).trans (at9_main_arg8 m ρ c)
theorem at11_main_arg8 : W11 m ρ c (Proc.devRef .tc main_arg8) = W0 m ρ c (Proc.devRef .tc main_arg8) :=
  (st11_main_arg8 m ρ c).trans (at10_main_arg8 m ρ c)
theorem at12_main_arg8 : W12 m ρ c (Proc.devRef .tc main_arg8) = W0 m ρ c (Proc.devRef .tc main_arg8) :=
  (st12_main_arg8 m ρ c).trans (at11_main_arg8 m ρ c)
theorem at13_main_arg8 : W13 m ρ c (Proc.devRef .tc main_arg8) = W0 m ρ c (Proc.devRef .tc main_arg8) :=
  (st13_main_arg8 m ρ c).trans (at12_main_arg8 m ρ c)
theorem at14_main_arg8 : W14 m ρ c (Proc.devRef .tc main_arg8) = W0 m ρ c (Proc.devRef .tc main_arg8) :=
  (st14_main_arg8 m ρ c).trans (at13_main_arg8 m ρ c)
theorem at15_main_arg8 : W15 m ρ c (Proc.devRef .tc main_arg8) = W0 m ρ c (Proc.devRef .tc main_arg8) :=
  (st15_main_arg8 m ρ c).trans (at14_main_arg8 m ρ c)
theorem at16_main_arg8 : W16 m ρ c (Proc.devRef .tc main_arg8) = W0 m ρ c (Proc.devRef .tc main_arg8) :=
  (st16_main_arg8 m ρ c).trans (at15_main_arg8 m ρ c)
theorem at17_main_arg8 : W17 m ρ c (Proc.devRef .tc main_arg8) = W0 m ρ c (Proc.devRef .tc main_arg8) :=
  (st17_main_arg8 m ρ c).trans (at16_main_arg8 m ρ c)
theorem at18_main_arg8 : W18 m ρ c (Proc.devRef .tc main_arg8) = W0 m ρ c (Proc.devRef .tc main_arg8) :=
  (st18_main_arg8 m ρ c).trans (at17_main_arg8 m ρ c)
theorem at19_main_arg8 : W19 m ρ c (Proc.devRef .tc main_arg8) = W0 m ρ c (Proc.devRef .tc main_arg8) :=
  (st19_main_arg8 m ρ c).trans (at18_main_arg8 m ρ c)
theorem at20_main_arg8 : W20 m ρ c (Proc.devRef .tc main_arg8) = W0 m ρ c (Proc.devRef .tc main_arg8) :=
  (st20_main_arg8 m ρ c).trans (at19_main_arg8 m ρ c)

end Cert.KernelIdeal.KKeep

end
-- ==== Proof.KKeepH.lean ====
/-
  Buffers that a stretch of host operations does not write, and buffers that a kernel region only reads, keep their
  contents across it. For each buffer followed here: one step per boundary it survives, and the composed statement
  from the boundary where it is last written.
-/
import proofs.«121637_j32624571580955_1_alg».proof.Proof.KKeepTac

set_option maxRecDepth 16384

noncomputable section

namespace Cert.KernelIdeal.KKeep

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg) (c : Dev nD)

theorem st1_main_arg0 : W1 m ρ c (Proc.devRef .tc main_arg0) = W0 m ρ c (Proc.devRef .tc main_arg0) :=
  by host_keep hostOps0
theorem st2_main_arg0 : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem st3_main_arg0 : W3 m ρ c (Proc.devRef .tc main_arg0) = W2 m ρ c (Proc.devRef .tc main_arg0) :=
  by host_keep hostOps1
theorem at1_main_arg0 : W1 m ρ c (Proc.devRef .tc main_arg0) = W0 m ρ c (Proc.devRef .tc main_arg0) :=
  st1_main_arg0 m ρ c
theorem at2_main_arg0 : W2 m ρ c (Proc.devRef .tc main_arg0) = W0 m ρ c (Proc.devRef .tc main_arg0) :=
  (st2_main_arg0 m ρ c).trans (at1_main_arg0 m ρ c)
theorem at3_main_arg0 : W3 m ρ c (Proc.devRef .tc main_arg0) = W0 m ρ c (Proc.devRef .tc main_arg0) :=
  (st3_main_arg0 m ρ c).trans (at2_main_arg0 m ρ c)

theorem st5_main_v21 : W5 m ρ c (Proc.devRef .tc main_v21) = W4 m ρ c (Proc.devRef .tc main_v21) :=
  by host_keep hostOps2
theorem st6_main_v21 : W6 m ρ c (Proc.devRef .tc main_v21) = W5 m ρ c (Proc.devRef .tc main_v21) :=
  (W6_arr m ρ c 0).trans (((dat2 (V5 m ρ) c).arrAt_in 0 rfl _).trans (A_eq2 (V5 m ρ) c 0))
theorem st7_main_v21 : W7 m ρ c (Proc.devRef .tc main_v21) = W6 m ρ c (Proc.devRef .tc main_v21) :=
  by host_keep hostOps3
theorem at5_main_v21 : W5 m ρ c (Proc.devRef .tc main_v21) = W4 m ρ c (Proc.devRef .tc main_v21) :=
  st5_main_v21 m ρ c
theorem at6_main_v21 : W6 m ρ c (Proc.devRef .tc main_v21) = W4 m ρ c (Proc.devRef .tc main_v21) :=
  (st6_main_v21 m ρ c).trans (at5_main_v21 m ρ c)
theorem at7_main_v21 : W7 m ρ c (Proc.devRef .tc main_v21) = W4 m ρ c (Proc.devRef .tc main_v21) :=
  (st7_main_v21 m ρ c).trans (at6_main_v21 m ρ c)

theorem st9_main_v35 : W9 m ρ c (Proc.devRef .tc main_v35) = W8 m ρ c (Proc.devRef .tc main_v35) :=
  by host_keep hostOps4
theorem st10_main_v35 : W10 m ρ c (Proc.devRef .tc main_v35) = W9 m ρ c (Proc.devRef .tc main_v35) :=
  (W10_arr m ρ c 0).trans (((dat4 (V9 m ρ) c).arrAt_in 0 rfl _).trans (A_eq4 (V9 m ρ) c 0))
theorem st11_main_v35 : W11 m ρ c (Proc.devRef .tc main_v35) = W10 m ρ c (Proc.devRef .tc main_v35) :=
  by host_keep hostOps5
theorem at9_main_v35 : W9 m ρ c (Proc.devRef .tc main_v35) = W8 m ρ c (Proc.devRef .tc main_v35) :=
  st9_main_v35 m ρ c
theorem at10_main_v35 : W10 m ρ c (Proc.devRef .tc main_v35) = W8 m ρ c (Proc.devRef .tc main_v35) :=
  (st10_main_v35 m ρ c).trans (at9_main_v35 m ρ c)
theorem at11_main_v35 : W11 m ρ c (Proc.devRef .tc main_v35) = W8 m ρ c (Proc.devRef .tc main_v35) :=
  (st11_main_v35 m ρ c).trans (at10_main_v35 m ρ c)

theorem st13_main_v49 : W13 m ρ c (Proc.devRef .tc main_v49) = W12 m ρ c (Proc.devRef .tc main_v49) :=
  by host_keep hostOps6
theorem st14_main_v49 : W14 m ρ c (Proc.devRef .tc main_v49) = W13 m ρ c (Proc.devRef .tc main_v49) :=
  (W14_arr m ρ c 0).trans (((dat6 (V13 m ρ) c).arrAt_in 0 rfl _).trans (A_eq6 (V13 m ρ) c 0))
theorem st15_main_v49 : W15 m ρ c (Proc.devRef .tc main_v49) = W14 m ρ c (Proc.devRef .tc main_v49) :=
  by host_keep hostOps7
theorem at13_main_v49 : W13 m ρ c (Proc.devRef .tc main_v49) = W12 m ρ c (Proc.devRef .tc main_v49) :=
  st13_main_v49 m ρ c
theorem at14_main_v49 : W14 m ρ c (Proc.devRef .tc main_v49) = W12 m ρ c (Proc.devRef .tc main_v49) :=
  (st14_main_v49 m ρ c).trans (at13_main_v49 m ρ c)
theorem at15_main_v49 : W15 m ρ c (Proc.devRef .tc main_v49) = W12 m ρ c (Proc.devRef .tc main_v49) :=
  (st15_main_v49 m ρ c).trans (at14_main_v49 m ρ c)

theorem st17_main_v63 : W17 m ρ c (Proc.devRef .tc main_v63) = W16 m ρ c (Proc.devRef .tc main_v63) :=
  by host_keep hostOps8
theorem st18_main_v63 : W18 m ρ c (Proc.devRef .tc main_v63) = W17 m ρ c (Proc.devRef .tc main_v63) :=
  (W18_arr m ρ c 0).trans (((dat8 (V17 m ρ) c).arrAt_in 0 rfl _).trans (A_eq8 (V17 m ρ) c 0))
theorem st19_main_v63 : W19 m ρ c (Proc.devRef .tc main_v63) = W18 m ρ c (Proc.devRef .tc main_v63) :=
  by host_keep hostOps9
theorem at17_main_v63 : W17 m ρ c (Proc.devRef .tc main_v63) = W16 m ρ c (Proc.devRef .tc main_v63) :=
  st17_main_v63 m ρ c
theorem at18_main_v63 : W18 m ρ c (Proc.devRef .tc main_v63) = W16 m ρ c (Proc.devRef .tc main_v63) :=
  (st18_main_v63 m ρ c).trans (at17_main_v63 m ρ c)
theorem at19_main_v63 : W19 m ρ c (Proc.devRef .tc main_v63) = W16 m ρ c (Proc.devRef .tc main_v63) :=
  (st19_main_v63 m ρ c).trans (at18_main_v63 m ρ c)

theorem st21_main_v77 : W21 m ρ c (Proc.devRef .tc main_v77) = W20 m ρ c (Proc.devRef .tc main_v77) :=
  by host_keep hostOps10
theorem at21_main_v77 : W21 m ρ c (Proc.devRef .tc main_v77) = W20 m ρ c (Proc.devRef .tc main_v77) :=
  st21_main_v77 m ρ c

end Cert.KernelIdeal.KKeep

end
-- ==== Proof.PayPadLayout.lean ====
/-
  Two layout readings of the host code around the kernels: a flat bias of 384 entries viewed as one row reads, at
  (0, q), its entry q; and the first column cut out of the padded result reads, at (n, 0), the padded result at (n, 0).
-/
import proofs.«121637_j32624571580955_1_alg».proof.Proof.Gen.KernelIdeal
import Idealize.ShloMosaic.Lib.ValueIdx
import Idealize.ShloMosaic.Lib.Pipeline.Value
import Idealize.ShloMosaic.Lib.ValueLayout

noncomputable section

namespace Cert.Pay

open Idealize.ShloMosaic Idealize.ShloMosaic.ValueIdx
open Cert.KernelIdeal Cert.KernelIdeal.Gen

/-- the flat bias viewed as one row, at (0, q) -/
theorem biasRow_apply (a : FVec Ideal S384 .f32) (q : Fin 384) :
    (shapeCast S1x384 a shapeCasts_S384_S1x384 : FVec Ideal S1x384 .f32) (ix2 (0 : Fin 1) q) = a (ix1 q) :=
  shapeCast_a_1a_apply a shapeCasts_S384_S1x384 (0 : Fin 1) q

/-- the first column of the padded result, at (n, 0) -/
theorem col0_apply (X : FVec Ideal S50000x128 .f32) (n : Fin 50000) :
    extractStridedSlice S50000x1 ![0, 0] X slices_S50000x128_S50000x1_0_0 (ix2 n (0 : Fin 1)) = X (ix2 n (0 : Fin 128)) :=
  slice2_axis1_apply 0 X slices_S50000x128_S50000x1_0_0 n (0 : Fin 1) (0 : Fin 128) rfl

end Cert.Pay

end
-- ==== Proof.KRound0.lean ====
/-
  Round 1 of the kernel program (regions 0 and 1 and the host operations between them) computes one round of the
  specification: if the features enter the round as H, they leave it as `Cert.Arr.layer … H`.

  The message region leaves H · W_0; the host gather and scatter-add turn it into the sums over incoming edges, with
  the edge rows left by the first stretch; the update region leaves the gated update of those sums and H, with the gate
  weights and biases left by the first stretch.
-/
import proofs.«121637_j32624571580955_1_alg».proof.Proof.KBase
import proofs.«121637_j32624571580955_1_alg».proof.Proof.KLin0
import proofs.«121637_j32624571580955_1_alg».proof.Proof.KGru1
import proofs.«121637_j32624571580955_1_alg».proof.Proof.KKeepE
import proofs.«121637_j32624571580955_1_alg».proof.Proof.KKeepW
import proofs.«121637_j32624571580955_1_alg».proof.Proof.KKeepB
import proofs.«121637_j32624571580955_1_alg».proof.Proof.KKeepA
import proofs.«121637_j32624571580955_1_alg».proof.Proof.KKeepH
import proofs.«121637_j32624571580955_1_alg».proof.Proof.PayPadLayout

set_option maxRecDepth 16384

noncomputable section

namespace Cert.KernelIdeal.KRound0

open Cert.KernelIdeal Cert.KernelIdeal.Gen Cert.KernelIdeal.KBase Cert.KernelIdeal.KKeep
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The round's matrix as its message region finds it. -/
theorem wk_in : W1 m ρ c (Proc.devRef .tc main_v9) = Cert.Arr.W0 (F := Ideal) (aW m c) := b_v9 m ρ c

/-- The messages after the message region. -/
theorem msgs (H : FVec Ideal Cert.ReferenceIdeal.S50000x128 .f32) (hH : W0 m ρ c (Proc.devRef .tc main_arg0) = H) :
    W2 m ρ c (Proc.devRef .tc main_v10) = Cert.Arr.lin (F := Ideal) H (Cert.Arr.W0 (aW m c)) := by
  have h1 : W1 m ρ c (Proc.devRef .tc main_arg0) = H := (at1_main_arg0 m ρ c).trans hH
  have e := (W2_arr m ρ c 2).trans (Cert.KernelIdeal.KLin0.final (V1 m ρ) c)
  have h1' : V1 m ρ c main_arg0 = H := h1
  have w1' : V1 m ρ c main_v9 = Cert.Arr.W0 (F := Ideal) (aW m c) := wk_in m ρ c
  rw [h1', w1'] at e
  exact e

set_option maxHeartbeats 4000000 in
/-- The sums over incoming edges after the host gather and scatter-add. -/
theorem sums (H : FVec Ideal Cert.ReferenceIdeal.S50000x128 .f32) (hH : W0 m ρ c (Proc.devRef .tc main_arg0) = H) :
    W3 m ρ c (Proc.devRef .tc main_v20) = Cert.Arr.seg (F := Ideal) (aE m c) (Cert.Arr.lin H (Cert.Arr.W0 (aW m c))) := by
  have e1 : W2 m ρ c (Proc.devRef .tc main_v1) = Cert.Arr.srcRow (aE m c) := (at2_main_v1 m ρ c).trans (b_v1 m ρ c)
  have e3 : W2 m ρ c (Proc.devRef .tc main_v3) = Cert.Arr.dstRow (aE m c) := (at2_main_v3 m ρ c).trans (b_v3 m ρ c)
  have em := msgs m ρ c H hH
  show StableHlo.after hostOps1 (W2 m ρ c) (Proc.devRef .tc main_v20) = _
  after_results_simp
  rw [e1, e3, em]
  rfl

/-- The features after the round. -/
theorem step (H : FVec Ideal Cert.ReferenceIdeal.S50000x128 .f32) (hH : W0 m ρ c (Proc.devRef .tc main_arg0) = H) :
    W4 m ρ c (Proc.devRef .tc main_v21)
      = Cert.Arr.layer (F := Ideal) (aE m c) (a3 m c) (a4 m c) (a5 m c) (a6 m c) (Cert.Arr.W0 (aW m c)) H := by
  have v6 : W3 m ρ c (Proc.devRef .tc main_v6) = _ := (at3_main_v6 m ρ c).trans (b_v6 m ρ c)
  have v7 : W3 m ρ c (Proc.devRef .tc main_v7) = _ := (at3_main_v7 m ρ c).trans (b_v7 m ρ c)
  have hb5 : ∀ q : Fin 384, V3 m ρ c main_v6 (ix2 (0 : Fin 1) q) = a5 m c (ix1 q) := fun q => by
    show W3 m ρ c (Proc.devRef .tc main_v6) (ix2 (0 : Fin 1) q) = _
    rw [v6]; exact Cert.Pay.biasRow_apply _ q
  have hb6 : ∀ q : Fin 384, V3 m ρ c main_v7 (ix2 (0 : Fin 1) q) = a6 m c (ix1 q) := fun q => by
    show W3 m ρ c (Proc.devRef .tc main_v7) (ix2 (0 : Fin 1) q) = _
    rw [v7]; exact Cert.Pay.biasRow_apply _ q
  have e := (W4_arr m ρ c 6).trans (Cert.KernelIdeal.KGru1.final (V3 m ρ) c (a5 m c) (a6 m c) hb5 hb6)
  have g1 : V3 m ρ c main_v20 = Cert.Arr.seg (F := Ideal) (aE m c) (Cert.Arr.lin H (Cert.Arr.W0 (aW m c))) := sums m ρ c H hH
  have g2 : V3 m ρ c main_arg0 = H := (at3_main_arg0 m ρ c).trans hH
  have g3 : V3 m ρ c main_v4 = Cert.Arr.wT (F := Ideal) (a3 m c) := (at3_main_v4 m ρ c).trans (b_v4 m ρ c)
  have g4 : V3 m ρ c main_v5 = Cert.Arr.wT (F := Ideal) (a4 m c) := (at3_main_v5 m ρ c).trans (b_v5 m ρ c)
  rw [g1, g2, g3, g4] at e
  exact e

end Cert.KernelIdeal.KRound0

end
-- ==== Proof.KLin2.lean ====
/-
  The message kernel of region 2: after its fifty grid points the output array holds the whole product of the
  features it found in `main_v21` with the matrix it found in `main_v23`.

  Point t fetches rows t·1000 … t·1000 + 999 of the features and the whole matrix, and writes back that block of
  rows of the product; the fifty blocks tile the 50000 rows, so the array ends at the product.
-/
import proofs.«121637_j32624571580955_1_alg».proof.Proof.Gen.KernelIdeal.Frame
import proofs.«121637_j32624571580955_1_alg».proof.Proof.Arr
import proofs.«121637_j32624571580955_1_alg».proof.Proof.KLinCore
import Idealize.ShloMosaic.Lib.ValueIdx
import Idealize.ShloMosaic.Lib.Pipeline.Value

set_option maxRecDepth 16384

noncomputable section

namespace Cert.KernelIdeal.KLin2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KLin

variable (V : (c : Dev nD) → (b : Ref sig .tc) → Buf (Elt Ideal) ((c : Thread nD τ).loc b))

/-- The three windows' block indices at point t: the features' and the output's block is (t, 0), the matrix's (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed (c : Dev nD) (t : Fin cfg2.N) :
    (dat2 (F := Ideal) V c).flushed 2 t
      = ((cfg2.win 2).blk t).view.read (Elt Ideal) (Cert.Arr.lin (F := Ideal) (V c main_v21) (V c main_v23)) := by
  show (cfg2.win 2).cut (grid2.coords t) ((dat2 V c).after 2 t) = _
  rw [after2_2]
  unfold out2_2
  rw [View.canon_unit_zero hz]
  simp only [View.ld_unit_zero (S := S1000x128) hz, View.ld_unit_zero (S := S128x128) hz]
  funext y
  show k2_pay1 (iblk2 V c 0 t) (iblk2 V c 1 t) y
      = Cert.Arr.lin (F := Ideal) (V c main_v21) (V c main_v23) (((cfg2.win 2).blk t).view.emb y)
  obtain ⟨e0, e1, e2, e3, e4, e5⟩ := idx_facts t
  have ht : t.val < 50 := Nat.lt_of_lt_of_eq t.isLt N_2
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg2.win 2).blk t).view.emb y = ix2 (n0 := 50000) (n1 := 128) ⟨t.val * 1000 + (y 0).val, by omega⟩ (y 1) := by
    funext a; apply Fin.ext
    match a with
    | ⟨0, _⟩ => show win2_2.index t (0 : Fin 2) * 1000 + 1 * (y 0).val = t.val * 1000 + (y 0).val; omega
    | ⟨1, _⟩ => show win2_2.index t (1 : Fin 2) * 128 + 1 * (y 1).val = (y 1).val; omega
  rw [hemb]
  have key := blk_lin (k2_pay1 (F := Ideal)) (fun v0 v2 p j => Cert.Pay.pay_lin2 v0 v2 p j)
    (V c main_v21) (V c main_v23) (iblk2 V c 0 t) (iblk2 V c 1 t) t.val ht
    (fun p k => by
      show V c main_v21 (((cfg2.win 0).blk t).view.emb (ix2 p k)) = _
      refine congrArg _ ?_
      funext a; apply Fin.ext
      match a with
      | ⟨0, _⟩ => show win2_0.index t (0 : Fin 2) * 1000 + 1 * p.val = t.val * 1000 + p.val; omega
      | ⟨1, _⟩ => show win2_0.index t (1 : Fin 2) * 128 + 1 * k.val = k.val; omega)
    (fun k j => by
      show V c main_v23 (((cfg2.win 1).blk t).view.emb (ix2 k j)) = _
      refine congrArg _ ?_
      funext a; apply Fin.ext
      match a with
      | ⟨0, _⟩ => show win2_1.index t (0 : Fin 2) * 128 + 1 * k.val = k.val; omega
      | ⟨1, _⟩ => show win2_1.index t (1 : Fin 2) * 128 + 1 * j.val = j.val; omega)
    (y 0) (y 1)
  rw [← hy] at key
  exact key

/-- An index of the output array is in point t's block iff its row is among the block's thousand rows. -/
theorem mem_blk (t : Fin cfg2.N) (i : S50000x128.Idx) :
    i ∈ ((cfg2.win 2).blk t).view.set ↔ ∀ a : Fin 2, win2_2.index t a * S1000x128.size a ≤ (i a).val ∧ (i a).val < win2_2.index t a * S1000x128.size a + S1000x128.size a := by
  show i ∈ ((View.whole main_v24).slice (win2_2.rect t)).set ↔ _
  rw [View.set_slice_whole, Rect.mem_set_unit]
  exact Iff.rfl

/-- Row r lies in the block of point r / 1000: the fifty blocks cover the array. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 50 := N_2
  refine ⟨⟨(i 0).val / 1000, by rw [hN]; omega⟩, flush2_2 _, ?_⟩
  rw [mem_blk]
  obtain ⟨e0, e1, e2, e3, e4, e5⟩ := idx_facts ⟨(i 0).val / 1000, by rw [hN]; omega⟩
  intro a
  match a with
  | ⟨0, _⟩ => show win2_2.index _ (0 : Fin 2) * 1000 ≤ (i 0).val ∧ (i 0).val < win2_2.index _ (0 : Fin 2) * 1000 + 1000; rw [e4]; show (i 0).val / 1000 * 1000 ≤ _ ∧ _ < (i 0).val / 1000 * 1000 + 1000; omega
  | ⟨1, _⟩ => show win2_2.index _ (1 : Fin 2) * 128 ≤ (i 1).val ∧ (i 1).val < win2_2.index _ (1 : Fin 2) * 128 + 128; rw [e5]; omega

/-- The output array after the region: the whole product. -/
theorem final (c : Dev nD) :
    (dat2 (F := Ideal) V c).arrAt 2 cfg2.N = Cert.Arr.lin (F := Ideal) (V c main_v21) (V c main_v23) :=
  (dat2 V c).arrAt_eq_of_cover 2 _ (fun t _ => flushed V c t) (cover)

end Cert.KernelIdeal.KLin2

end
-- ==== Proof.KGru3.lean ====
/-
  The update kernel of region 3: after its fifty grid points the output array holds the whole-array gated update of
  the aggregated messages it found in `main_v34` and the old features it found in `main_v21`, with the transposed gate
  weights in `main_v4`, `main_v5` and the bias rows in `main_v6`, `main_v7`.

  Point t fetches rows t·1000 … t·1000 + 999 of the messages and of the features, and the weights and biases whole, and
  writes back that block of rows of the update; the fifty blocks tile the 50000 rows.
-/
import proofs.«121637_j32624571580955_1_alg».proof.Proof.Gen.KernelIdeal.Frame
import proofs.«121637_j32624571580955_1_alg».proof.Proof.Arr
import proofs.«121637_j32624571580955_1_alg».proof.Proof.KGruCore
import Idealize.ShloMosaic.Lib.ValueIdx
import Idealize.ShloMosaic.Lib.Pipeline.Value

set_option maxRecDepth 16384

noncomputable section

namespace Cert.KernelIdeal.KGru3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KGru

variable (V : (c : Dev nD) → (b : Ref sig .tc) → Buf (Elt Ideal) ((c : Thread nD τ).loc b))

/-- The seven windows' block indices at point t: (t, 0) for the messages, the features and the output, (0, 0) for the
    weights and the biases. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point t writes back is block t of the whole-array update (the bias rows given as vectors b5, b6). -/
theorem flushed (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) (t : Fin cfg3.N) :
    (dat3 (F := Ideal) V c).flushed 6 t
      = ((cfg3.win 6).blk t).view.read (Elt Ideal)
          (Cert.Arr.cellA (F := Ideal) (Cert.Arr.gates (V c main_v34) (V c main_v4) b5) (Cert.Arr.gates (V c main_v21) (V c main_v5) b6) (V c main_v21)) := by
  show (cfg3.win 6).cut (grid3.coords t) ((dat3 V c).after 6 t) = _
  rw [after3_6]
  unfold out3_6
  rw [View.canon_unit_zero hz]
  simp only [View.ld_unit_zero (S := S1000x128) hz, View.ld_unit_zero (S := S128x384) hz, View.ld_unit_zero (S := S1x384) hz]
  funext y
  show k3_pay1 (iblk3 V c 0 t) (iblk3 V c 1 t) (iblk3 V c 2 t) (iblk3 V c 3 t) (iblk3 V c 4 t) (iblk3 V c 5 t) (iblk3 V c 1 t) y
      = Cert.Arr.cellA (F := Ideal) (Cert.Arr.gates (V c main_v34) (V c main_v4) b5) (Cert.Arr.gates (V c main_v21) (V c main_v5) b6) (V c main_v21)
          (((cfg3.win 6).blk t).view.emb y)
  obtain ⟨e00, e01, e10, e11, e20, e21, e30, e31, e40, e41, e50, e51, e60, e61⟩ := idx_facts t
  have ht : t.val < 50 := Nat.lt_of_lt_of_eq t.isLt N_3
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg3.win 6).blk t).view.emb y = ix2 (n0 := 50000) (n1 := 128) ⟨t.val * 1000 + (y 0).val, by omega⟩ (y 1) := by
    funext a; apply Fin.ext
    match a with
    | ⟨0, _⟩ => show win3_6.index t (0 : Fin 2) * 1000 + 1 * (y 0).val = t.val * 1000 + (y 0).val; omega
    | ⟨1, _⟩ => show win3_6.index t (1 : Fin 2) * 128 + 1 * (y 1).val = (y 1).val; omega
  rw [hemb]
  have key := blk_gru (k3_pay1 (F := Ideal)) (fun v0 v3 v5 v8 v12 v17 v37 p j => Cert.Pay.pay_gru3 v0 v3 v5 v8 v12 v17 v37 p j)
    (V c main_v34) (V c main_v21) (V c main_v4) (V c main_v5) b5 b6
    (iblk3 V c 0 t) (iblk3 V c 1 t) (iblk3 V c 2 t) (iblk3 V c 3 t) (iblk3 V c 4 t) (iblk3 V c 5 t) t.val ht
    (fun p k => by
      show V c main_v34 (((cfg3.win 0).blk t).view.emb (ix2 p k)) = _
      refine congrArg _ ?_
      funext a; apply Fin.ext
      match a with
      | ⟨0, _⟩ => show win3_0.index t (0 : Fin 2) * 1000 + 1 * p.val = t.val * 1000 + p.val; omega
      | ⟨1, _⟩ => show win3_0.index t (1 : Fin 2) * 128 + 1 * k.val = k.val; omega)
    (fun p k => by
      show V c main_v21 (((cfg3.win 1).blk t).view.emb (ix2 p k)) = _
      refine congrArg _ ?_
      funext a; apply Fin.ext
      match a with
      | ⟨0, _⟩ => show win3_1.index t (0 : Fin 2) * 1000 + 1 * p.val = t.val * 1000 + p.val; omega
      | ⟨1, _⟩ => show win3_1.index t (1 : Fin 2) * 128 + 1 * k.val = k.val; omega)
    (fun k q => by
      show V c main_v4 (((cfg3.win 2).blk t).view.emb (ix2 k q)) = _
      refine congrArg _ ?_
      funext a; apply Fin.ext
      match a with
      | ⟨0, _⟩ => show win3_2.index t (0 : Fin 2) * 128 + 1 * k.val = k.val; omega
      | ⟨1, _⟩ => show win3_2.index t (1 : Fin 2) * 384 + 1 * q.val = q.val; omega)
    (fun k q => by
      show V c main_v5 (((cfg3.win 3).blk t).view.emb (ix2 k q)) = _
      refine congrArg _ ?_
      funext a; apply Fin.ext
      match a with
      | ⟨0, _⟩ => show win3_3.index t (0 : Fin 2) * 128 + 1 * k.val = k.val; omega
      | ⟨1, _⟩ => show win3_3.index t (1 : Fin 2) * 384 + 1 * q.val = q.val; omega)
    (fun q => by
      refine Eq.trans ?_ (hb5 q)
      show V c main_v6 (((cfg3.win 4).blk t).view.emb (ix2 (0 : Fin 1) q)) = _
      refine congrArg _ ?_
      funext a; apply Fin.ext
      match a with
      | ⟨0, _⟩ => show win3_4.index t (0 : Fin 2) * 1 + 1 * 0 = 0; omega
      | ⟨1, _⟩ => show win3_4.index t (1 : Fin 2) * 384 + 1 * q.val = q.val; omega)
    (fun q => by
      refine Eq.trans ?_ (hb6 q)
      show V c main_v7 (((cfg3.win 5).blk t).view.emb (ix2 (0 : Fin 1) q)) = _
      refine congrArg _ ?_
      funext a; apply Fin.ext
      match a with
      | ⟨0, _⟩ => show win3_5.index t (0 : Fin 2) * 1 + 1 * 0 = 0; omega
      | ⟨1, _⟩ => show win3_5.index t (1 : Fin 2) * 384 + 1 * q.val = q.val; omega)
    (y 0) (y 1)
  rw [← hy] at key
  exact key

/-- An index of the output array is in point t's block iff its row is among the block's thousand rows. -/
theorem mem_blk (t : Fin cfg3.N) (i : S50000x128.Idx) :
    i ∈ ((cfg3.win 6).blk t).view.set ↔ ∀ a : Fin 2, win3_6.index t a * S1000x128.size a ≤ (i a).val ∧ (i a).val < win3_6.index t a * S1000x128.size a + S1000x128.size a := by
  show i ∈ ((View.whole main_v35).slice (win3_6.rect t)).set ↔ _
  rw [View.set_slice_whole, Rect.mem_set_unit]
  exact Iff.rfl

/-- Row r lies in the block of point r / 1000: the fifty blocks cover the array. -/
theorem cover (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 50 := N_3
  refine ⟨⟨(i 0).val / 1000, by rw [hN]; omega⟩, flush3_6 _, ?_⟩
  rw [mem_blk]
  obtain ⟨e00, e01, e10, e11, e20, e21, e30, e31, e40, e41, e50, e51, e60, e61⟩ := idx_facts ⟨(i 0).val / 1000, by rw [hN]; omega⟩
  intro a
  match a with
  | ⟨0, _⟩ => show win3_6.index _ (0 : Fin 2) * 1000 ≤ (i 0).val ∧ (i 0).val < win3_6.index _ (0 : Fin 2) * 1000 + 1000; rw [e60]; show (i 0).val / 1000 * 1000 ≤ _ ∧ _ < (i 0).val / 1000 * 1000 + 1000; omega
  | ⟨1, _⟩ => show win3_6.index _ (1 : Fin 2) * 128 ≤ (i 1).val ∧ (i 1).val < win3_6.index _ (1 : Fin 2) * 128 + 128; rw [e61]; omega

/-- The output array after the region: the whole-array gated update. -/
theorem final (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) :
    (dat3 (F := Ideal) V c).arrAt 6 cfg3.N
      = Cert.Arr.cellA (F := Ideal) (Cert.Arr.gates (V c main_v34) (V c main_v4) b5) (Cert.Arr.gates (V c main_v21) (V c main_v5) b6) (V c main_v21) :=
  (dat3 V c).arrAt_eq_of_cover 6 _ (fun t _ => flushed V c b5 b6 hb5 hb6 t) (cover)

end Cert.KernelIdeal.KGru3

end
-- ==== Proof.KRound1.lean ====
/-
  Round 2 of the kernel program (regions 2 and 3 and the host operations between them) computes one round of the
  specification: if the features enter the round as H, they leave it as `Cert.Arr.layer … H`.

  The message region leaves H · W_1; the host gather and scatter-add turn it into the sums over incoming edges, with
  the edge rows left by the first stretch; the update region leaves the gated update of those sums and H, with the gate
  weights and biases left by the first stretch.
-/
import proofs.«121637_j32624571580955_1_alg».proof.Proof.KBase
import proofs.«121637_j32624571580955_1_alg».proof.Proof.KLin2
import proofs.«121637_j32624571580955_1_alg».proof.Proof.KGru3
import proofs.«121637_j32624571580955_1_alg».proof.Proof.KKeepE
import proofs.«121637_j32624571580955_1_alg».proof.Proof.KKeepW
import proofs.«121637_j32624571580955_1_alg».proof.Proof.KKeepB
import proofs.«121637_j32624571580955_1_alg».proof.Proof.KKeepA
import proofs.«121637_j32624571580955_1_alg».proof.Proof.KKeepH
import proofs.«121637_j32624571580955_1_alg».proof.Proof.PayPadLayout

set_option maxRecDepth 16384

noncomputable section

namespace Cert.KernelIdeal.KRound1

open Cert.KernelIdeal Cert.KernelIdeal.Gen Cert.KernelIdeal.KBase Cert.KernelIdeal.KKeep
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The round's matrix as its message region finds it. -/
theorem wk_in : W5 m ρ c (Proc.devRef .tc main_v23) = Cert.Arr.W1 (F := Ideal) (aW m c) := by
    show StableHlo.after hostOps2 (W4 m ρ c) (Proc.devRef .tc main_v23) = _
    after_results
    rw [at4_main_arg2 m ρ c]
    rfl

/-- The messages after the message region. -/
theorem msgs (H : FVec Ideal Cert.ReferenceIdeal.S50000x128 .f32) (hH : W4 m ρ c (Proc.devRef .tc main_v21) = H) :
    W6 m ρ c (Proc.devRef .tc main_v24) = Cert.Arr.lin (F := Ideal) H (Cert.Arr.W1 (aW m c)) := by
  have h1 : W5 m ρ c (Proc.devRef .tc main_v21) = H := (at5_main_v21 m ρ c).trans hH
  have e := (W6_arr m ρ c 2).trans (Cert.KernelIdeal.KLin2.final (V5 m ρ) c)
  have h1' : V5 m ρ c main_v21 = H := h1
  have w1' : V5 m ρ c main_v23 = Cert.Arr.W1 (F := Ideal) (aW m c) := wk_in m ρ c
  rw [h1', w1'] at e
  exact e

set_option maxHeartbeats 4000000 in
/-- The sums over incoming edges after the host gather and scatter-add. -/
theorem sums (H : FVec Ideal Cert.ReferenceIdeal.S50000x128 .f32) (hH : W4 m ρ c (Proc.devRef .tc main_v21) = H) :
    W7 m ρ c (Proc.devRef .tc main_v34) = Cert.Arr.seg (F := Ideal) (aE m c) (Cert.Arr.lin H (Cert.Arr.W1 (aW m c))) := by
  have e1 : W6 m ρ c (Proc.devRef .tc main_v1) = Cert.Arr.srcRow (aE m c) := (at6_main_v1 m ρ c).trans (b_v1 m ρ c)
  have e3 : W6 m ρ c (Proc.devRef .tc main_v3) = Cert.Arr.dstRow (aE m c) := (at6_main_v3 m ρ c).trans (b_v3 m ρ c)
  have em := msgs m ρ c H hH
  show StableHlo.after hostOps3 (W6 m ρ c) (Proc.devRef .tc main_v34) = _
  after_results_simp
  rw [e1, e3, em]
  rfl

/-- The features after the round. -/
theorem step (H : FVec Ideal Cert.ReferenceIdeal.S50000x128 .f32) (hH : W4 m ρ c (Proc.devRef .tc main_v21) = H) :
    W8 m ρ c (Proc.devRef .tc main_v35)
      = Cert.Arr.layer (F := Ideal) (aE m c) (a3 m c) (a4 m c) (a5 m c) (a6 m c) (Cert.Arr.W1 (aW m c)) H := by
  have v6 : W7 m ρ c (Proc.devRef .tc main_v6) = _ := (at7_main_v6 m ρ c).trans (b_v6 m ρ c)
  have v7 : W7 m ρ c (Proc.devRef .tc main_v7) = _ := (at7_main_v7 m ρ c).trans (b_v7 m ρ c)
  have hb5 : ∀ q : Fin 384, V7 m ρ c main_v6 (ix2 (0 : Fin 1) q) = a5 m c (ix1 q) := fun q => by
    show W7 m ρ c (Proc.devRef .tc main_v6) (ix2 (0 : Fin 1) q) = _
    rw [v6]; exact Cert.Pay.biasRow_apply _ q
  have hb6 : ∀ q : Fin 384, V7 m ρ c main_v7 (ix2 (0 : Fin 1) q) = a6 m c (ix1 q) := fun q => by
    show W7 m ρ c (Proc.devRef .tc main_v7) (ix2 (0 : Fin 1) q) = _
    rw [v7]; exact Cert.Pay.biasRow_apply _ q
  have e := (W8_arr m ρ c 6).trans (Cert.KernelIdeal.KGru3.final (V7 m ρ) c (a5 m c) (a6 m c) hb5 hb6)
  have g1 : V7 m ρ c main_v34 = Cert.Arr.seg (F := Ideal) (aE m c) (Cert.Arr.lin H (Cert.Arr.W1 (aW m c))) := sums m ρ c H hH
  have g2 : V7 m ρ c main_v21 = H := (at7_main_v21 m ρ c).trans hH
  have g3 : V7 m ρ c main_v4 = Cert.Arr.wT (F := Ideal) (a3 m c) := (at7_main_v4 m ρ c).trans (b_v4 m ρ c)
  have g4 : V7 m ρ c main_v5 = Cert.Arr.wT (F := Ideal) (a4 m c) := (at7_main_v5 m ρ c).trans (b_v5 m ρ c)
  rw [g1, g2, g3, g4] at e
  exact e

end Cert.KernelIdeal.KRound1

end
-- ==== Proof.KLin4.lean ====
/-
  The message kernel of region 4: after its fifty grid points the output array holds the whole product of the
  features it found in `main_v35` with the matrix it found in `main_v37`.

  Point t fetches rows t·1000 … t·1000 + 999 of the features and the whole matrix, and writes back that block of
  rows of the product; the fifty blocks tile the 50000 rows, so the array ends at the product.
-/
import proofs.«121637_j32624571580955_1_alg».proof.Proof.Gen.KernelIdeal.Frame
import proofs.«121637_j32624571580955_1_alg».proof.Proof.Arr
import proofs.«121637_j32624571580955_1_alg».proof.Proof.KLinCore
import Idealize.ShloMosaic.Lib.ValueIdx
import Idealize.ShloMosaic.Lib.Pipeline.Value

set_option maxRecDepth 16384

noncomputable section

namespace Cert.KernelIdeal.KLin4

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KLin

variable (V : (c : Dev nD) → (b : Ref sig .tc) → Buf (Elt Ideal) ((c : Thread nD τ).loc b))

/-- The three windows' block indices at point t: the features' and the output's block is (t, 0), the matrix's (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product. -/
theorem flushed (c : Dev nD) (t : Fin cfg4.N) :
    (dat4 (F := Ideal) V c).flushed 2 t
      = ((cfg4.win 2).blk t).view.read (Elt Ideal) (Cert.Arr.lin (F := Ideal) (V c main_v35) (V c main_v37)) := by
  show (cfg4.win 2).cut (grid4.coords t) ((dat4 V c).after 2 t) = _
  rw [after4_2]
  unfold out4_2
  rw [View.canon_unit_zero hz]
  simp only [View.ld_unit_zero (S := S1000x128) hz, View.ld_unit_zero (S := S128x128) hz]
  funext y
  show k4_pay1 (iblk4 V c 0 t) (iblk4 V c 1 t) y
      = Cert.Arr.lin (F := Ideal) (V c main_v35) (V c main_v37) (((cfg4.win 2).blk t).view.emb y)
  obtain ⟨e0, e1, e2, e3, e4, e5⟩ := idx_facts t
  have ht : t.val < 50 := Nat.lt_of_lt_of_eq t.isLt N_4
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg4.win 2).blk t).view.emb y = ix2 (n0 := 50000) (n1 := 128) ⟨t.val * 1000 + (y 0).val, by omega⟩ (y 1) := by
    funext a; apply Fin.ext
    match a with
    | ⟨0, _⟩ => show win4_2.index t (0 : Fin 2) * 1000 + 1 * (y 0).val = t.val * 1000 + (y 0).val; omega
    | ⟨1, _⟩ => show win4_2.index t (1 : Fin 2) * 128 + 1 * (y 1).val = (y 1).val; omega
  rw [hemb]
  have key := blk_lin (k4_pay1 (F := Ideal)) (fun v0 v2 p j => by rw [Cert.Pay.k4_eq]; exact Cert.Pay.pay_lin2 v0 v2 p j)
    (V c main_v35) (V c main_v37) (iblk4 V c 0 t) (iblk4 V c 1 t) t.val ht
    (fun p k => by
      show V c main_v35 (((cfg4.win 0).blk t).view.emb (ix2 p k)) = _
      refine congrArg _ ?_
      funext a; apply Fin.ext
      match a with
      | ⟨0, _⟩ => show win4_0.index t (0 : Fin 2) * 1000 + 1 * p.val = t.val * 1000 + p.val; omega
      | ⟨1, _⟩ => show win4_0.index t (1 : Fin 2) * 128 + 1 * k.val = k.val; omega)
    (fun k j => by
      show V c main_v37 (((cfg4.win 1).blk t).view.emb (ix2 k j)) = _
      refine congrArg _ ?_
      funext a; apply Fin.ext
      match a with
      | ⟨0, _⟩ => show win4_1.index t (0 : Fin 2) * 128 + 1 * k.val = k.val; omega
      | ⟨1, _⟩ => show win4_1.index t (1 : Fin 2) * 128 + 1 * j.val = j.val; omega)
    (y 0) (y 1)
  rw [← hy] at key
  exact key

/-- An index of the output array is in point t's block iff its row is among the block's thousand rows. -/
theorem mem_blk (t : Fin cfg4.N) (i : S50000x128.Idx) :
    i ∈ ((cfg4.win 2).blk t).view.set ↔ ∀ a : Fin 2, win4_2.index t a * S1000x128.size a ≤ (i a).val ∧ (i a).val < win4_2.index t a * S1000x128.size a + S1000x128.size a := by
  show i ∈ ((View.whole main_v38).slice (win4_2.rect t)).set ↔ _
  rw [View.set_slice_whole, Rect.mem_set_unit]
  exact Iff.rfl

/-- Row r lies in the block of point r / 1000: the fifty blocks cover the array. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 50 := N_4
  refine ⟨⟨(i 0).val / 1000, by rw [hN]; omega⟩, flush4_2 _, ?_⟩
  rw [mem_blk]
  obtain ⟨e0, e1, e2, e3, e4, e5⟩ := idx_facts ⟨(i 0).val / 1000, by rw [hN]; omega⟩
  intro a
  match a with
  | ⟨0, _⟩ => show win4_2.index _ (0 : Fin 2) * 1000 ≤ (i 0).val ∧ (i 0).val < win4_2.index _ (0 : Fin 2) * 1000 + 1000; rw [e4]; show (i 0).val / 1000 * 1000 ≤ _ ∧ _ < (i 0).val / 1000 * 1000 + 1000; omega
  | ⟨1, _⟩ => show win4_2.index _ (1 : Fin 2) * 128 ≤ (i 1).val ∧ (i 1).val < win4_2.index _ (1 : Fin 2) * 128 + 128; rw [e5]; omega

/-- The output array after the region: the whole product. -/
theorem final (c : Dev nD) :
    (dat4 (F := Ideal) V c).arrAt 2 cfg4.N = Cert.Arr.lin (F := Ideal) (V c main_v35) (V c main_v37) :=
  (dat4 V c).arrAt_eq_of_cover 2 _ (fun t _ => flushed V c t) (cover)

end Cert.KernelIdeal.KLin4

end
-- ==== Proof.KGru5.lean ====
/-
  The update kernel of region 5: after its fifty grid points the output array holds the whole-array gated update of
  the aggregated messages it found in `main_v48` and the old features it found in `main_v35`, with the transposed gate
  weights in `main_v4`, `main_v5` and the bias rows in `main_v6`, `main_v7`.

  Point t fetches rows t·1000 … t·1000 + 999 of the messages and of the features, and the weights and biases whole, and
  writes back that block of rows of the update; the fifty blocks tile the 50000 rows.
-/
import proofs.«121637_j32624571580955_1_alg».proof.Proof.Gen.KernelIdeal.Frame
import proofs.«121637_j32624571580955_1_alg».proof.Proof.Arr
import proofs.«121637_j32624571580955_1_alg».proof.Proof.KGruCore
import Idealize.ShloMosaic.Lib.ValueIdx
import Idealize.ShloMosaic.Lib.Pipeline.Value

set_option maxRecDepth 16384

noncomputable section

namespace Cert.KernelIdeal.KGru5

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KGru

variable (V : (c : Dev nD) → (b : Ref sig .tc) → Buf (Elt Ideal) ((c : Thread nD τ).loc b))

/-- The seven windows' block indices at point t: (t, 0) for the messages, the features and the output, (0, 0) for the
    weights and the biases. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What point t writes back is block t of the whole-array update (the bias rows given as vectors b5, b6). -/
theorem flushed (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) (t : Fin cfg5.N) :
    (dat5 (F := Ideal) V c).flushed 6 t
      = ((cfg5.win 6).blk t).view.read (Elt Ideal)
          (Cert.Arr.cellA (F := Ideal) (Cert.Arr.gates (V c main_v48) (V c main_v4) b5) (Cert.Arr.gates (V c main_v35) (V c main_v5) b6) (V c main_v35)) := by
  show (cfg5.win 6).cut (grid5.coords t) ((dat5 V c).after 6 t) = _
  rw [after5_6]
  unfold out5_6
  rw [View.canon_unit_zero hz]
  simp only [View.ld_unit_zero (S := S1000x128) hz, View.ld_unit_zero (S := S128x384) hz, View.ld_unit_zero (S := S1x384) hz]
  funext y
  show k5_pay1 (iblk5 V c 0 t) (iblk5 V c 1 t) (iblk5 V c 2 t) (iblk5 V c 3 t) (iblk5 V c 4 t) (iblk5 V c 5 t) (iblk5 V c 1 t) y
      = Cert.Arr.cellA (F := Ideal) (Cert.Arr.gates (V c main_v48) (V c main_v4) b5) (Cert.Arr.gates (V c main_v35) (V c main_v5) b6) (V c main_v35)
          (((cfg5.win 6).blk t).view.emb y)
  obtain ⟨e00, e01, e10, e11, e20, e21, e30, e31, e40, e41, e50, e51, e60, e61⟩ := idx_facts t
  have ht : t.val < 50 := Nat.lt_of_lt_of_eq t.isLt N_5
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg5.win 6).blk t).view.emb y = ix2 (n0 := 50000) (n1 := 128) ⟨t.val * 1000 + (y 0).val, by omega⟩ (y 1) := by
    funext a; apply Fin.ext
    match a with
    | ⟨0, _⟩ => show win5_6.index t (0 : Fin 2) * 1000 + 1 * (y 0).val = t.val * 1000 + (y 0).val; omega
    | ⟨1, _⟩ => show win5_6.index t (1 : Fin 2) * 128 + 1 * (y 1).val = (y 1).val; omega
  rw [hemb]
  have key := blk_gru (k5_pay1 (F := Ideal)) (fun v0 v3 v5 v8 v12 v17 v37 p j => by rw [Cert.Pay.k5_eq]; exact Cert.Pay.pay_gru3 v0 v3 v5 v8 v12 v17 v37 p j)
    (V c main_v48) (V c main_v35) (V c main_v4) (V c main_v5) b5 b6
    (iblk5 V c 0 t) (iblk5 V c 1 t) (iblk5 V c 2 t) (iblk5 V c 3 t) (iblk5 V c 4 t) (iblk5 V c 5 t) t.val ht
    (fun p k => by
      show V c main_v48 (((cfg5.win 0).blk t).view.emb (ix2 p k)) = _
      refine congrArg _ ?_
      funext a; apply Fin.ext
      match a with
      | ⟨0, _⟩ => show win5_0.index t (0 : Fin 2) * 1000 + 1 * p.val = t.val * 1000 + p.val; omega
      | ⟨1, _⟩ => show win5_0.index t (1 : Fin 2) * 128 + 1 * k.val = k.val; omega)
    (fun p k => by
      show V c main_v35 (((cfg5.win 1).blk t).view.emb (ix2 p k)) = _
      refine congrArg _ ?_
      funext a; apply Fin.ext
      match a with
      | ⟨0, _⟩ => show win5_1.index t (0 : Fin 2) * 1000 + 1 * p.val = t.val * 1000 + p.val; omega
      | ⟨1, _⟩ => show win5_1.index t (1 : Fin 2) * 128 + 1 * k.val = k.val; omega)
    (fun k q => by
      show V c main_v4 (((cfg5.win 2).blk t).view.emb (ix2 k q)) = _
      refine congrArg _ ?_
      funext a; apply Fin.ext
      match a with
      | ⟨0, _⟩ => show win5_2.index t (0 : Fin 2) * 128 + 1 * k.val = k.val; omega
      | ⟨1, _⟩ => show win5_2.index t (1 : Fin 2) * 384 + 1 * q.val = q.val; omega)
    (fun k q => by
      show V c main_v5 (((cfg5.win 3).blk t).view.emb (ix2 k q)) = _
      refine congrArg _ ?_
      funext a; apply Fin.ext
      match a with
      | ⟨0, _⟩ => show win5_3.index t (0 : Fin 2) * 128 + 1 * k.val = k.val; omega
      | ⟨1, _⟩ => show win5_3.index t (1 : Fin 2) * 384 + 1 * q.val = q.val; omega)
    (fun q => by
      refine Eq.trans ?_ (hb5 q)
      show V c main_v6 (((cfg5.win 4).blk t).view.emb (ix2 (0 : Fin 1) q)) = _
      refine congrArg _ ?_
      funext a; apply Fin.ext
      match a with
      | ⟨0, _⟩ => show win5_4.index t (0 : Fin 2) * 1 + 1 * 0 = 0; omega
      | ⟨1, _⟩ => show win5_4.index t (1 : Fin 2) * 384 + 1 * q.val = q.val; omega)
    (fun q => by
      refine Eq.trans ?_ (hb6 q)
      show V c main_v7 (((cfg5.win 5).blk t).view.emb (ix2 (0 : Fin 1) q)) = _
      refine congrArg _ ?_
      funext a; apply Fin.ext
      match a with
      | ⟨0, _⟩ => show win5_5.index t (0 : Fin 2) * 1 + 1 * 0 = 0; omega
      | ⟨1, _⟩ => show win5_5.index t (1 : Fin 2) * 384 + 1 * q.val = q.val; omega)
    (y 0) (y 1)
  rw [← hy] at key
  exact key

/-- An index of the output array is in point t's block iff its row is among the block's thousand rows. -/
theorem mem_blk (t : Fin cfg5.N) (i : S50000x128.Idx) :
    i ∈ ((cfg5.win 6).blk t).view.set ↔ ∀ a : Fin 2, win5_6.index t a * S1000x128.size a ≤ (i a).val ∧ (i a).val < win5_6.index t a * S1000x128.size a + S1000x128.size a := by
  show i ∈ ((View.whole main_v49).slice (win5_6.rect t)).set ↔ _
  rw [View.set_slice_whole, Rect.mem_set_unit]
  exact Iff.rfl

/-- Row r lies in the block of point r / 1000: the fifty blocks cover the array. -/
theorem cover (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 50 := N_5
  refine ⟨⟨(i 0).val / 1000, by rw [hN]; omega⟩, flush5_6 _, ?_⟩
  rw [mem_blk]
  obtain ⟨e00, e01, e10, e11, e20, e21, e30, e31, e40, e41, e50, e51, e60, e61⟩ := idx_facts ⟨(i 0).val / 1000, by rw [hN]; omega⟩
  intro a
  match a with
  | ⟨0, _⟩ => show win5_6.index _ (0 : Fin 2) * 1000 ≤ (i 0).val ∧ (i 0).val < win5_6.index _ (0 : Fin 2) * 1000 + 1000; rw [e60]; show (i 0).val / 1000 * 1000 ≤ _ ∧ _ < (i 0).val / 1000 * 1000 + 1000; omega
  | ⟨1, _⟩ => show win5_6.index _ (1 : Fin 2) * 128 ≤ (i 1).val ∧ (i 1).val < win5_6.index _ (1 : Fin 2) * 128 + 128; rw [e61]; omega

/-- The output array after the region: the whole-array gated update. -/
theorem final (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) :
    (dat5 (F := Ideal) V c).arrAt 6 cfg5.N
      = Cert.Arr.cellA (F := Ideal) (Cert.Arr.gates (V c main_v48) (V c main_v4) b5) (Cert.Arr.gates (V c main_v35) (V c main_v5) b6) (V c main_v35) :=
  (dat5 V c).arrAt_eq_of_cover 6 _ (fun t _ => flushed V c b5 b6 hb5 hb6 t) (cover)

end Cert.KernelIdeal.KGru5

end
-- ==== Proof.KRound2.lean ====
/-
  Round 3 of the kernel program (regions 4 and 5 and the host operations between them) computes one round of the
  specification: if the features enter the round as H, they leave it as `Cert.Arr.layer … H`.

  The message region leaves H · W_2; the host gather and scatter-add turn it into the sums over incoming edges, with
  the edge rows left by the first stretch; the update region leaves the gated update of those sums and H, with the gate
  weights and biases left by the first stretch.
-/
import proofs.«121637_j32624571580955_1_alg».proof.Proof.KBase
import proofs.«121637_j32624571580955_1_alg».proof.Proof.KLin4
import proofs.«121637_j32624571580955_1_alg».proof.Proof.KGru5
import proofs.«121637_j32624571580955_1_alg».proof.Proof.KKeepE
import proofs.«121637_j32624571580955_1_alg».proof.Proof.KKeepW
import proofs.«121637_j32624571580955_1_alg».proof.Proof.KKeepB
import proofs.«121637_j32624571580955_1_alg».proof.Proof.KKeepA
import proofs.«121637_j32624571580955_1_alg».proof.Proof.KKeepH
import proofs.«121637_j32624571580955_1_alg».proof.Proof.PayPadLayout

set_option maxRecDepth 16384

noncomputable section

namespace Cert.KernelIdeal.KRound2

open Cert.KernelIdeal Cert.KernelIdeal.Gen Cert.KernelIdeal.KBase Cert.KernelIdeal.KKeep
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The round's matrix as its message region finds it. -/
theorem wk_in : W9 m ρ c (Proc.devRef .tc main_v37) = Cert.Arr.W2 (F := Ideal) (aW m c) := by
    show StableHlo.after hostOps4 (W8 m ρ c) (Proc.devRef .tc main_v37) = _
    after_results
    rw [at8_main_arg2 m ρ c]
    rfl

/-- The messages after the message region. -/
theorem msgs (H : FVec Ideal Cert.ReferenceIdeal.S50000x128 .f32) (hH : W8 m ρ c (Proc.devRef .tc main_v35) = H) :
    W10 m ρ c (Proc.devRef .tc main_v38) = Cert.Arr.lin (F := Ideal) H (Cert.Arr.W2 (aW m c)) := by
  have h1 : W9 m ρ c (Proc.devRef .tc main_v35) = H := (at9_main_v35 m ρ c).trans hH
  have e := (W10_arr m ρ c 2).trans (Cert.KernelIdeal.KLin4.final (V9 m ρ) c)
  have h1' : V9 m ρ c main_v35 = H := h1
  have w1' : V9 m ρ c main_v37 = Cert.Arr.W2 (F := Ideal) (aW m c) := wk_in m ρ c
  rw [h1', w1'] at e
  exact e

set_option maxHeartbeats 4000000 in
/-- The sums over incoming edges after the host gather and scatter-add. -/
theorem sums (H : FVec Ideal Cert.ReferenceIdeal.S50000x128 .f32) (hH : W8 m ρ c (Proc.devRef .tc main_v35) = H) :
    W11 m ρ c (Proc.devRef .tc main_v48) = Cert.Arr.seg (F := Ideal) (aE m c) (Cert.Arr.lin H (Cert.Arr.W2 (aW m c))) := by
  have e1 : W10 m ρ c (Proc.devRef .tc main_v1) = Cert.Arr.srcRow (aE m c) := (at10_main_v1 m ρ c).trans (b_v1 m ρ c)
  have e3 : W10 m ρ c (Proc.devRef .tc main_v3) = Cert.Arr.dstRow (aE m c) := (at10_main_v3 m ρ c).trans (b_v3 m ρ c)
  have em := msgs m ρ c H hH
  show StableHlo.after hostOps5 (W10 m ρ c) (Proc.devRef .tc main_v48) = _
  after_results_simp
  rw [e1, e3, em]
  rfl

/-- The features after the round. -/
theorem step (H : FVec Ideal Cert.ReferenceIdeal.S50000x128 .f32) (hH : W8 m ρ c (Proc.devRef .tc main_v35) = H) :
    W12 m ρ c (Proc.devRef .tc main_v49)
      = Cert.Arr.layer (F := Ideal) (aE m c) (a3 m c) (a4 m c) (a5 m c) (a6 m c) (Cert.Arr.W2 (aW m c)) H := by
  have v6 : W11 m ρ c (Proc.devRef .tc main_v6) = _ := (at11_main_v6 m ρ c).trans (b_v6 m ρ c)
  have v7 : W11 m ρ c (Proc.devRef .tc main_v7) = _ := (at11_main_v7 m ρ c).trans (b_v7 m ρ c)
  have hb5 : ∀ q : Fin 384, V11 m ρ c main_v6 (ix2 (0 : Fin 1) q) = a5 m c (ix1 q) := fun q => by
    show W11 m ρ c (Proc.devRef .tc main_v6) (ix2 (0 : Fin 1) q) = _
    rw [v6]; exact Cert.Pay.biasRow_apply _ q
  have hb6 : ∀ q : Fin 384, V11 m ρ c main_v7 (ix2 (0 : Fin 1) q) = a6 m c (ix1 q) := fun q => by
    show W11 m ρ c (Proc.devRef .tc main_v7) (ix2 (0 : Fin 1) q) = _
    rw [v7]; exact Cert.Pay.biasRow_apply _ q
  have e := (W12_arr m ρ c 6).trans (Cert.KernelIdeal.KGru5.final (V11 m ρ) c (a5 m c) (a6 m c) hb5 hb6)
  have g1 : V11 m ρ c main_v48 = Cert.Arr.seg (F := Ideal) (aE m c) (Cert.Arr.lin H (Cert.Arr.W2 (aW m c))) := sums m ρ c H hH
  have g2 : V11 m ρ c main_v35 = H := (at11_main_v35 m ρ c).trans hH
  have g3 : V11 m ρ c main_v4 = Cert.Arr.wT (F := Ideal) (a3 m c) := (at11_main_v4 m ρ c).trans (b_v4 m ρ c)
  have g4 : V11 m ρ c main_v5 = Cert.Arr.wT (F := Ideal) (a4 m c) := (at11_main_v5 m ρ c).trans (b_v5 m ρ c)
  rw [g1, g2, g3, g4] at e
  exact e

end Cert.KernelIdeal.KRound2

end
-- ==== Proof.KLin6.lean ====
/-
  The message kernel of region 6: after its fifty grid points the output array holds the whole product of the
  features it found in `main_v49` with the matrix it found in `main_v51`.

  Point t fetches rows t·1000 … t·1000 + 999 of the features and the whole matrix, and writes back that block of
  rows of the product; the fifty blocks tile the 50000 rows, so the array ends at the product.
-/
import proofs.«121637_j32624571580955_1_alg».proof.Proof.Gen.KernelIdeal.Frame
import proofs.«121637_j32624571580955_1_alg».proof.Proof.Arr
import proofs.«121637_j32624571580955_1_alg».proof.Proof.KLinCore
import Idealize.ShloMosaic.Lib.ValueIdx
import Idealize.ShloMosaic.Lib.Pipeline.Value

set_option maxRecDepth 16384

noncomputable section

namespace Cert.KernelIdeal.KLin6

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KLin

variable (V : (c : Dev nD) → (b : Ref sig .tc) → Buf (Elt Ideal) ((c : Thread nD τ).loc b))

/-- The three windows' block indices at point t: the features' and the output's block is (t, 0), the matrix's (0, 0). -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole product. -/
theorem flushed (c : Dev nD) (t : Fin cfg6.N) :
    (dat6 (F := Ideal) V c).flushed 2 t
      = ((cfg6.win 2).blk t).view.read (Elt Ideal) (Cert.Arr.lin (F := Ideal) (V c main_v49) (V c main_v51)) := by
  show (cfg6.win 2).cut (grid6.coords t) ((dat6 V c).after 2 t) = _
  rw [after6_2]
  unfold out6_2
  rw [View.canon_unit_zero hz]
  simp only [View.ld_unit_zero (S := S1000x128) hz, View.ld_unit_zero (S := S128x128) hz]
  funext y
  show k6_pay1 (iblk6 V c 0 t) (iblk6 V c 1 t) y
      = Cert.Arr.lin (F := Ideal) (V c main_v49) (V c main_v51) (((cfg6.win 2).blk t).view.emb y)
  obtain ⟨e0, e1, e2, e3, e4, e5⟩ := idx_facts t
  have ht : t.val < 50 := Nat.lt_of_lt_of_eq t.isLt N_6
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg6.win 2).blk t).view.emb y = ix2 (n0 := 50000) (n1 := 128) ⟨t.val * 1000 + (y 0).val, by omega⟩ (y 1) := by
    funext a; apply Fin.ext
    match a with
    | ⟨0, _⟩ => show win6_2.index t (0 : Fin 2) * 1000 + 1 * (y 0).val = t.val * 1000 + (y 0).val; omega
    | ⟨1, _⟩ => show win6_2.index t (1 : Fin 2) * 128 + 1 * (y 1).val = (y 1).val; omega
  rw [hemb]
  have key := blk_lin (k6_pay1 (F := Ideal)) (fun v0 v2 p j => by rw [Cert.Pay.k6_eq]; exact Cert.Pay.pay_lin2 v0 v2 p j)
    (V c main_v49) (V c main_v51) (iblk6 V c 0 t) (iblk6 V c 1 t) t.val ht
    (fun p k => by
      show V c main_v49 (((cfg6.win 0).blk t).view.emb (ix2 p k)) = _
      refine congrArg _ ?_
      funext a; apply Fin.ext
      match a with
      | ⟨0, _⟩ => show win6_0.index t (0 : Fin 2) * 1000 + 1 * p.val = t.val * 1000 + p.val; omega
      | ⟨1, _⟩ => show win6_0.index t (1 : Fin 2) * 128 + 1 * k.val = k.val; omega)
    (fun k j => by
      show V c main_v51 (((cfg6.win 1).blk t).view.emb (ix2 k j)) = _
      refine congrArg _ ?_
      funext a; apply Fin.ext
      match a with
      | ⟨0, _⟩ => show win6_1.index t (0 : Fin 2) * 128 + 1 * k.val = k.val; omega
      | ⟨1, _⟩ => show win6_1.index t (1 : Fin 2) * 128 + 1 * j.val = j.val; omega)
    (y 0) (y 1)
  rw [← hy] at key
  exact key

/-- An index of the output array is in point t's block iff its row is among the block's thousand rows. -/
theorem mem_blk (t : Fin cfg6.N) (i : S50000x128.Idx) :
    i ∈ ((cfg6.win 2).blk t).view.set ↔ ∀ a : Fin 2, win6_2.index t a * S1000x128.size a ≤ (i a).val ∧ (i a).val < win6_2.index t a * S1000x128.size a + S1000x128.size a := by
  show i ∈ ((View.whole main_v52).slice (win6_2.rect t)).set ↔ _
  rw [View.set_slice_whole, Rect.mem_set_unit]
  exact Iff.rfl

/-- Row r lies in the block of point r / 1000: the fifty blocks cover the array. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 50 := N_6
  refine ⟨⟨(i 0).val / 1000, by rw [hN]; omega⟩, flush6_2 _, ?_⟩
  rw [mem_blk]
  obtain ⟨e0, e1, e2, e3, e4, e5⟩ := idx_facts ⟨(i 0).val / 1000, by rw [hN]; omega⟩
  intro a
  match a with
  | ⟨0, _⟩ => show win6_2.index _ (0 : Fin 2) * 1000 ≤ (i 0).val ∧ (i 0).val < win6_2.index _ (0 : Fin 2) * 1000 + 1000; rw [e4]; show (i 0).val / 1000 * 1000 ≤ _ ∧ _ < (i 0).val / 1000 * 1000 + 1000; omega
  | ⟨1, _⟩ => show win6_2.index _ (1 : Fin 2) * 128 ≤ (i 1).val ∧ (i 1).val < win6_2.index _ (1 : Fin 2) * 128 + 128; rw [e5]; omega

/-- The output array after the region: the whole product. -/
theorem final (c : Dev nD) :
    (dat6 (F := Ideal) V c).arrAt 2 cfg6.N = Cert.Arr.lin (F := Ideal) (V c main_v49) (V c main_v51) :=
  (dat6 V c).arrAt_eq_of_cover 2 _ (fun t _ => flushed V c t) (cover)

end Cert.KernelIdeal.KLin6

end
-- ==== Proof.KGru7.lean ====
/-
  The update kernel of region 7: after its fifty grid points the output array holds the whole-array gated update of
  the aggregated messages it found in `main_v62` and the old features it found in `main_v49`, with the transposed gate
  weights in `main_v4`, `main_v5` and the bias rows in `main_v6`, `main_v7`.

  Point t fetches rows t·1000 … t·1000 + 999 of the messages and of the features, and the weights and biases whole, and
  writes back that block of rows of the update; the fifty blocks tile the 50000 rows.
-/
import proofs.«121637_j32624571580955_1_alg».proof.Proof.Gen.KernelIdeal.Frame
import proofs.«121637_j32624571580955_1_alg».proof.Proof.Arr
import proofs.«121637_j32624571580955_1_alg».proof.Proof.KGruCore
import Idealize.ShloMosaic.Lib.ValueIdx
import Idealize.ShloMosaic.Lib.Pipeline.Value

set_option maxRecDepth 16384

noncomputable section

namespace Cert.KernelIdeal.KGru7

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KGru

variable (V : (c : Dev nD) → (b : Ref sig .tc) → Buf (Elt Ideal) ((c : Thread nD τ).loc b))

/-- The seven windows' block indices at point t: (t, 0) for the messages, the features and the output, (0, 0) for the
    weights and the biases. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- What point t writes back is block t of the whole-array update (the bias rows given as vectors b5, b6). -/
theorem flushed (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) (t : Fin cfg7.N) :
    (dat7 (F := Ideal) V c).flushed 6 t
      = ((cfg7.win 6).blk t).view.read (Elt Ideal)
          (Cert.Arr.cellA (F := Ideal) (Cert.Arr.gates (V c main_v62) (V c main_v4) b5) (Cert.Arr.gates (V c main_v49) (V c main_v5) b6) (V c main_v49)) := by
  show (cfg7.win 6).cut (grid7.coords t) ((dat7 V c).after 6 t) = _
  rw [after7_6]
  unfold out7_6
  rw [View.canon_unit_zero hz]
  simp only [View.ld_unit_zero (S := S1000x128) hz, View.ld_unit_zero (S := S128x384) hz, View.ld_unit_zero (S := S1x384) hz]
  funext y
  show k7_pay1 (iblk7 V c 0 t) (iblk7 V c 1 t) (iblk7 V c 2 t) (iblk7 V c 3 t) (iblk7 V c 4 t) (iblk7 V c 5 t) (iblk7 V c 1 t) y
      = Cert.Arr.cellA (F := Ideal) (Cert.Arr.gates (V c main_v62) (V c main_v4) b5) (Cert.Arr.gates (V c main_v49) (V c main_v5) b6) (V c main_v49)
          (((cfg7.win 6).blk t).view.emb y)
  obtain ⟨e00, e01, e10, e11, e20, e21, e30, e31, e40, e41, e50, e51, e60, e61⟩ := idx_facts t
  have ht : t.val < 50 := Nat.lt_of_lt_of_eq t.isLt N_7
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg7.win 6).blk t).view.emb y = ix2 (n0 := 50000) (n1 := 128) ⟨t.val * 1000 + (y 0).val, by omega⟩ (y 1) := by
    funext a; apply Fin.ext
    match a with
    | ⟨0, _⟩ => show win7_6.index t (0 : Fin 2) * 1000 + 1 * (y 0).val = t.val * 1000 + (y 0).val; omega
    | ⟨1, _⟩ => show win7_6.index t (1 : Fin 2) * 128 + 1 * (y 1).val = (y 1).val; omega
  rw [hemb]
  have key := blk_gru (k7_pay1 (F := Ideal)) (fun v0 v3 v5 v8 v12 v17 v37 p j => by rw [Cert.Pay.k7_eq]; exact Cert.Pay.pay_gru3 v0 v3 v5 v8 v12 v17 v37 p j)
    (V c main_v62) (V c main_v49) (V c main_v4) (V c main_v5) b5 b6
    (iblk7 V c 0 t) (iblk7 V c 1 t) (iblk7 V c 2 t) (iblk7 V c 3 t) (iblk7 V c 4 t) (iblk7 V c 5 t) t.val ht
    (fun p k => by
      show V c main_v62 (((cfg7.win 0).blk t).view.emb (ix2 p k)) = _
      refine congrArg _ ?_
      funext a; apply Fin.ext
      match a with
      | ⟨0, _⟩ => show win7_0.index t (0 : Fin 2) * 1000 + 1 * p.val = t.val * 1000 + p.val; omega
      | ⟨1, _⟩ => show win7_0.index t (1 : Fin 2) * 128 + 1 * k.val = k.val; omega)
    (fun p k => by
      show V c main_v49 (((cfg7.win 1).blk t).view.emb (ix2 p k)) = _
      refine congrArg _ ?_
      funext a; apply Fin.ext
      match a with
      | ⟨0, _⟩ => show win7_1.index t (0 : Fin 2) * 1000 + 1 * p.val = t.val * 1000 + p.val; omega
      | ⟨1, _⟩ => show win7_1.index t (1 : Fin 2) * 128 + 1 * k.val = k.val; omega)
    (fun k q => by
      show V c main_v4 (((cfg7.win 2).blk t).view.emb (ix2 k q)) = _
      refine congrArg _ ?_
      funext a; apply Fin.ext
      match a with
      | ⟨0, _⟩ => show win7_2.index t (0 : Fin 2) * 128 + 1 * k.val = k.val; omega
      | ⟨1, _⟩ => show win7_2.index t (1 : Fin 2) * 384 + 1 * q.val = q.val; omega)
    (fun k q => by
      show V c main_v5 (((cfg7.win 3).blk t).view.emb (ix2 k q)) = _
      refine congrArg _ ?_
      funext a; apply Fin.ext
      match a with
      | ⟨0, _⟩ => show win7_3.index t (0 : Fin 2) * 128 + 1 * k.val = k.val; omega
      | ⟨1, _⟩ => show win7_3.index t (1 : Fin 2) * 384 + 1 * q.val = q.val; omega)
    (fun q => by
      refine Eq.trans ?_ (hb5 q)
      show V c main_v6 (((cfg7.win 4).blk t).view.emb (ix2 (0 : Fin 1) q)) = _
      refine congrArg _ ?_
      funext a; apply Fin.ext
      match a with
      | ⟨0, _⟩ => show win7_4.index t (0 : Fin 2) * 1 + 1 * 0 = 0; omega
      | ⟨1, _⟩ => show win7_4.index t (1 : Fin 2) * 384 + 1 * q.val = q.val; omega)
    (fun q => by
      refine Eq.trans ?_ (hb6 q)
      show V c main_v7 (((cfg7.win 5).blk t).view.emb (ix2 (0 : Fin 1) q)) = _
      refine congrArg _ ?_
      funext a; apply Fin.ext
      match a with
      | ⟨0, _⟩ => show win7_5.index t (0 : Fin 2) * 1 + 1 * 0 = 0; omega
      | ⟨1, _⟩ => show win7_5.index t (1 : Fin 2) * 384 + 1 * q.val = q.val; omega)
    (y 0) (y 1)
  rw [← hy] at key
  exact key

/-- An index of the output array is in point t's block iff its row is among the block's thousand rows. -/
theorem mem_blk (t : Fin cfg7.N) (i : S50000x128.Idx) :
    i ∈ ((cfg7.win 6).blk t).view.set ↔ ∀ a : Fin 2, win7_6.index t a * S1000x128.size a ≤ (i a).val ∧ (i a).val < win7_6.index t a * S1000x128.size a + S1000x128.size a := by
  show i ∈ ((View.whole main_v63).slice (win7_6.rect t)).set ↔ _
  rw [View.set_slice_whole, Rect.mem_set_unit]
  exact Iff.rfl

/-- Row r lies in the block of point r / 1000: the fifty blocks cover the array. -/
theorem cover (i : S50000x128.Idx) : ∃ t : Fin cfg7.N, (cfg7.win 6).flush t = true ∧ i ∈ ((cfg7.win 6).blk t).view.set := by
  have hi0 : (i 0).val < 50000 := (i 0).isLt
  have hi1 : (i 1).val < 128 := (i 1).isLt
  have hN : cfg7.N = 50 := N_7
  refine ⟨⟨(i 0).val / 1000, by rw [hN]; omega⟩, flush7_6 _, ?_⟩
  rw [mem_blk]
  obtain ⟨e00, e01, e10, e11, e20, e21, e30, e31, e40, e41, e50, e51, e60, e61⟩ := idx_facts ⟨(i 0).val / 1000, by rw [hN]; omega⟩
  intro a
  match a with
  | ⟨0, _⟩ => show win7_6.index _ (0 : Fin 2) * 1000 ≤ (i 0).val ∧ (i 0).val < win7_6.index _ (0 : Fin 2) * 1000 + 1000; rw [e60]; show (i 0).val / 1000 * 1000 ≤ _ ∧ _ < (i 0).val / 1000 * 1000 + 1000; omega
  | ⟨1, _⟩ => show win7_6.index _ (1 : Fin 2) * 128 ≤ (i 1).val ∧ (i 1).val < win7_6.index _ (1 : Fin 2) * 128 + 128; rw [e61]; omega

/-- The output array after the region: the whole-array gated update. -/
theorem final (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) :
    (dat7 (F := Ideal) V c).arrAt 6 cfg7.N
      = Cert.Arr.cellA (F := Ideal) (Cert.Arr.gates (V c main_v62) (V c main_v4) b5) (Cert.Arr.gates (V c main_v49) (V c main_v5) b6) (V c main_v49) :=
  (dat7 V c).arrAt_eq_of_cover 6 _ (fun t _ => flushed V c b5 b6 hb5 hb6 t) (cover)

end Cert.KernelIdeal.KGru7

end
-- ==== Proof.KRound3.lean ====
/-
  Round 4 of the kernel program (regions 6 and 7 and the host operations between them) computes one round of the
  specification: if the features enter the round as H, they leave it as `Cert.Arr.layer … H`.

  The message region leaves H · W_3; the host gather and scatter-add turn it into the sums over incoming edges, with
  the edge rows left by the first stretch; the update region leaves the gated update of those sums and H, with the gate
  weights and biases left by the first stretch.
-/
import proofs.«121637_j32624571580955_1_alg».proof.Proof.KBase
import proofs.«121637_j32624571580955_1_alg».proof.Proof.KLin6
import proofs.«121637_j32624571580955_1_alg».proof.Proof.KGru7
import proofs.«121637_j32624571580955_1_alg».proof.Proof.KKeepE
import proofs.«121637_j32624571580955_1_alg».proof.Proof.KKeepW
import proofs.«121637_j32624571580955_1_alg».proof.Proof.KKeepB
import proofs.«121637_j32624571580955_1_alg».proof.Proof.KKeepA
import proofs.«121637_j32624571580955_1_alg».proof.Proof.KKeepH
import proofs.«121637_j32624571580955_1_alg».proof.Proof.PayPadLayout

set_option maxRecDepth 16384

noncomputable section

namespace Cert.KernelIdeal.KRound3

open Cert.KernelIdeal Cert.KernelIdeal.Gen Cert.KernelIdeal.KBase Cert.KernelIdeal.KKeep
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The round's matrix as its message region finds it. -/
theorem wk_in : W13 m ρ c (Proc.devRef .tc main_v51) = Cert.Arr.W3 (F := Ideal) (aW m c) := by
    show StableHlo.after hostOps6 (W12 m ρ c) (Proc.devRef .tc main_v51) = _
    after_results
    rw [at12_main_arg2 m ρ c]
    rfl

/-- The messages after the message region. -/
theorem msgs (H : FVec Ideal Cert.ReferenceIdeal.S50000x128 .f32) (hH : W12 m ρ c (Proc.devRef .tc main_v49) = H) :
    W14 m ρ c (Proc.devRef .tc main_v52) = Cert.Arr.lin (F := Ideal) H (Cert.Arr.W3 (aW m c)) := by
  have h1 : W13 m ρ c (Proc.devRef .tc main_v49) = H := (at13_main_v49 m ρ c).trans hH
  have e := (W14_arr m ρ c 2).trans (Cert.KernelIdeal.KLin6.final (V13 m ρ) c)
  have h1' : V13 m ρ c main_v49 = H := h1
  have w1' : V13 m ρ c main_v51 = Cert.Arr.W3 (F := Ideal) (aW m c) := wk_in m ρ c
  rw [h1', w1'] at e
  exact e

set_option maxHeartbeats 4000000 in
/-- The sums over incoming edges after the host gather and scatter-add. -/
theorem sums (H : FVec Ideal Cert.ReferenceIdeal.S50000x128 .f32) (hH : W12 m ρ c (Proc.devRef .tc main_v49) = H) :
    W15 m ρ c (Proc.devRef .tc main_v62) = Cert.Arr.seg (F := Ideal) (aE m c) (Cert.Arr.lin H (Cert.Arr.W3 (aW m c))) := by
  have e1 : W14 m ρ c (Proc.devRef .tc main_v1) = Cert.Arr.srcRow (aE m c) := (at14_main_v1 m ρ c).trans (b_v1 m ρ c)
  have e3 : W14 m ρ c (Proc.devRef .tc main_v3) = Cert.Arr.dstRow (aE m c) := (at14_main_v3 m ρ c).trans (b_v3 m ρ c)
  have em := msgs m ρ c H hH
  show StableHlo.after hostOps7 (W14 m ρ c) (Proc.devRef .tc main_v62) = _
  after_results_simp
  rw [e1, e3, em]
  rfl

/-- The features after the round. -/
theorem step (H : FVec Ideal Cert.ReferenceIdeal.S50000x128 .f32) (hH : W12 m ρ c (Proc.devRef .tc main_v49) = H) :
    W16 m ρ c (Proc.devRef .tc main_v63)
      = Cert.Arr.layer (F := Ideal) (aE m c) (a3 m c) (a4 m c) (a5 m c) (a6 m c) (Cert.Arr.W3 (aW m c)) H := by
  have v6 : W15 m ρ c (Proc.devRef .tc main_v6) = _ := (at15_main_v6 m ρ c).trans (b_v6 m ρ c)
  have v7 : W15 m ρ c (Proc.devRef .tc main_v7) = _ := (at15_main_v7 m ρ c).trans (b_v7 m ρ c)
  have hb5 : ∀ q : Fin 384, V15 m ρ c main_v6 (ix2 (0 : Fin 1) q) = a5 m c (ix1 q) := fun q => by
    show W15 m ρ c (Proc.devRef .tc main_v6) (ix2 (0 : Fin 1) q) = _
    rw [v6]; exact Cert.Pay.biasRow_apply _ q
  have hb6 : ∀ q : Fin 384, V15 m ρ c main_v7 (ix2 (0 : Fin 1) q) = a6 m c (ix1 q) := fun q => by
    show W15 m ρ c (Proc.devRef .tc main_v7) (ix2 (0 : Fin 1) q) = _
    rw [v7]; exact Cert.Pay.biasRow_apply _ q
  have e := (W16_arr m ρ c 6).trans (Cert.KernelIdeal.KGru7.final (V15 m ρ) c (a5 m c) (a6 m c) hb5 hb6)
  have g1 : V15 m ρ c main_v62 = Cert.Arr.seg (F := Ideal) (aE m c) (Cert.Arr.lin H (Cert.Arr.W3 (aW m c))) := sums m ρ c H hH
  have g2 : V15 m ρ c main_v49 = H := (at15_main_v49 m ρ c).trans hH
  have g3 : V15 m ρ c main_v4 = Cert.Arr.wT (F := Ideal) (a3 m c) := (at15_main_v4 m ρ c).trans (b_v4 m ρ c)
  have g4 : V15 m ρ c main_v5 = Cert.Arr.wT (F := Ideal) (a4 m c) := (at15_main_v5 m ρ c).trans (b_v5 m ρ c)
  rw [g1, g2, g3, g4] at e
  exact e

end Cert.KernelIdeal.KRound3

end
-- ==== Proof.KLin8.lean ====
/-
  The message kernel of region 8: after its fifty grid points the output array holds the whole product of the
  features it found in `main_v63` with the matrix it found in `main_v65`.

  Point t fetches rows t·1000 … t·1000 + 999 of the features and the whole matrix, and writes back that block of
  rows of the product; the fifty blocks tile the 50000 rows, so the array ends at the product.
-/
import proofs.«121637_j32624571580955_1_alg».proof.Proof.Gen.KernelIdeal.Frame
import proofs.«121637_j32624571580955_1_alg».proof.Proof.Arr
import proofs.«121637_j32624571580955_1_alg».proof.Proof.KLinCore
import Idealize.ShloMosaic.Lib.ValueIdx
import Idealize.ShloMosaic.Lib.Pipeline.Value

set_option maxRecDepth 16384

noncomputable section

namespace Cert.KernelIdeal.KLin8

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KLin

variable (V : (c : Dev nD) → (b : Ref sig .tc) → Buf (Elt Ideal) ((c : Thread nD τ).loc b))

/-- The three windows' block indices at point t: the features' and the output's block is (t, 0), the matrix's (0, 0). -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point t writes back is block t of the whole product. -/
theorem flushed (c : Dev nD) (t : Fin cfg8.N) :
    (dat8 (F := Ideal) V c).flushed 2 t
      = ((cfg8.win 2).blk t).view.read (Elt Ideal) (Cert.Arr.lin (F := Ideal) (V c main_v63) (V c main_v65)) := by
  show (cfg8.win 2).cut (grid8.coords t) ((dat8 V c).after 2 t) = _
  rw [after8_2]
  unfold out8_2
  rw [View.canon_unit_zero hz]
  simp only [View.ld_unit_zero (S := S1000x128) hz, View.ld_unit_zero (S := S128x128) hz]
  funext y
  show k8_pay1 (iblk8 V c 0 t) (iblk8 V c 1 t) y
      = Cert.Arr.lin (F := Ideal) (V c main_v63) (V c main_v65) (((cfg8.win 2).blk t).view.emb y)
  obtain ⟨e0, e1, e2, e3, e4, e5⟩ := idx_facts t
  have ht : t.val < 50 := Nat.lt_of_lt_of_eq t.isLt N_8
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg8.win 2).blk t).view.emb y = ix2 (n0 := 50000) (n1 := 128) ⟨t.val * 1000 + (y 0).val, by omega⟩ (y 1) := by
    funext a; apply Fin.ext
    match a with
    | ⟨0, _⟩ => show win8_2.index t (0 : Fin 2) * 1000 + 1 * (y 0).val = t.val * 1000 + (y 0).val; omega
    | ⟨1, _⟩ => show win8_2.index t (1 : Fin 2) * 128 + 1 * (y 1).val = (y 1).val; omega
  rw [hemb]
  have key := blk_lin (k8_pay1 (F := Ideal)) (fun v0 v2 p j => by rw [Cert.Pay.k8_eq]; exact Cert.Pay.pay_lin2 v0 v2 p j)
    (V c main_v63) (V c main_v65) (iblk8 V c 0 t) (iblk8 V c 1 t) t.val ht
    (fun p k => by
      show V c main_v63 (((cfg8.win 0).blk t).view.emb (ix2 p k)) = _
      refine congrArg _ ?_
      funext a; apply Fin.ext
      match a with
      | ⟨0, _⟩ => show win8_0.index t (0 : Fin 2) * 1000 + 1 * p.val = t.val * 1000 + p.val; omega
      | ⟨1, _⟩ => show win8_0.index t (1 : Fin 2) * 128 + 1 * k.val = k.val; omega)
    (fun k j => by
      show V c main_v65 (((cfg8.win 1).blk t).view.emb (ix2 k j)) = _
      refine congrArg _ ?_
      funext a; apply Fin.ext
      match a with
      | ⟨0, _⟩ => show win8_1.index t (0 : Fin 2) * 128 + 1 * k.val = k.val; omega
      | ⟨1, _⟩ => show win8_1.index t (1 : Fin 2) * 128 + 1 * j.val = j.val; omega)
    (y 0) (y 1)
  rw [← hy] at key
  exact key

/-- An index of the output array is in point t's block iff its row is among the block's thousand rows. -/
theorem mem_blk (t : Fin cfg8.N) (i : S50000x128.Idx) :
    i ∈ ((cfg8.win 2).blk t).view.set ↔ ∀ a : Fin 2, win8_2.index t a * S1000x128.size a ≤ (i a).val ∧ (i a).val < win8_2.index t a * S1000x128.size a + S1000x128.size a := by
  show i ∈ ((View.whole main_v66).slice (win8_2.rect t)).set ↔ _
  rw [View.set_slice_whole, Rect.mem_set_unit]
  exact Iff.rfl

/-- Row r lies in the block of point r / 1000: the fifty blocks cover the array. -/
theorem cover (i : S50000x128.Idx) : ∃ t : Fin cfg8.N, (cfg8.win 2).flush t = true ∧ i ∈ ((cfg8.win 2).blk t).view.set := by
  have hi0 : (i 0).val < 50000 := (i 0).isLt
  have hi1 : (i 1).val < 128 := (i 1).isLt
  have hN : cfg8.N = 50 := N_8
  refine ⟨⟨(i 0).val / 1000, by rw [hN]; omega⟩, flush8_2 _, ?_⟩
  rw [mem_blk]
  obtain ⟨e0, e1, e2, e3, e4, e5⟩ := idx_facts ⟨(i 0).val / 1000, by rw [hN]; omega⟩
  intro a
  match a with
  | ⟨0, _⟩ => show win8_2.index _ (0 : Fin 2) * 1000 ≤ (i 0).val ∧ (i 0).val < win8_2.index _ (0 : Fin 2) * 1000 + 1000; rw [e4]; show (i 0).val / 1000 * 1000 ≤ _ ∧ _ < (i 0).val / 1000 * 1000 + 1000; omega
  | ⟨1, _⟩ => show win8_2.index _ (1 : Fin 2) * 128 ≤ (i 1).val ∧ (i 1).val < win8_2.index _ (1 : Fin 2) * 128 + 128; rw [e5]; omega

/-- The output array after the region: the whole product. -/
theorem final (c : Dev nD) :
    (dat8 (F := Ideal) V c).arrAt 2 cfg8.N = Cert.Arr.lin (F := Ideal) (V c main_v63) (V c main_v65) :=
  (dat8 V c).arrAt_eq_of_cover 2 _ (fun t _ => flushed V c t) (cover)

end Cert.KernelIdeal.KLin8

end
-- ==== Proof.KGru9.lean ====
/-
  The update kernel of region 9: after its fifty grid points the output array holds the whole-array gated update of
  the aggregated messages it found in `main_v76` and the old features it found in `main_v63`, with the transposed gate
  weights in `main_v4`, `main_v5` and the bias rows in `main_v6`, `main_v7`.

  Point t fetches rows t·1000 … t·1000 + 999 of the messages and of the features, and the weights and biases whole, and
  writes back that block of rows of the update; the fifty blocks tile the 50000 rows.
-/
import proofs.«121637_j32624571580955_1_alg».proof.Proof.Gen.KernelIdeal.Frame
import proofs.«121637_j32624571580955_1_alg».proof.Proof.Arr
import proofs.«121637_j32624571580955_1_alg».proof.Proof.KGruCore
import Idealize.ShloMosaic.Lib.ValueIdx
import Idealize.ShloMosaic.Lib.Pipeline.Value

set_option maxRecDepth 16384

noncomputable section

namespace Cert.KernelIdeal.KGru9

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.KGru

variable (V : (c : Dev nD) → (b : Ref sig .tc) → Buf (Elt Ideal) ((c : Thread nD τ).loc b))

/-- The seven windows' block indices at point t: (t, 0) for the messages, the features and the output, (0, 0) for the
    weights and the biases. -/
theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- What point t writes back is block t of the whole-array update (the bias rows given as vectors b5, b6). -/
theorem flushed (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) (t : Fin cfg9.N) :
    (dat9 (F := Ideal) V c).flushed 6 t
      = ((cfg9.win 6).blk t).view.read (Elt Ideal)
          (Cert.Arr.cellA (F := Ideal) (Cert.Arr.gates (V c main_v76) (V c main_v4) b5) (Cert.Arr.gates (V c main_v63) (V c main_v5) b6) (V c main_v63)) := by
  show (cfg9.win 6).cut (grid9.coords t) ((dat9 V c).after 6 t) = _
  rw [after9_6]
  unfold out9_6
  rw [View.canon_unit_zero hz]
  simp only [View.ld_unit_zero (S := S1000x128) hz, View.ld_unit_zero (S := S128x384) hz, View.ld_unit_zero (S := S1x384) hz]
  funext y
  show k9_pay1 (iblk9 V c 0 t) (iblk9 V c 1 t) (iblk9 V c 2 t) (iblk9 V c 3 t) (iblk9 V c 4 t) (iblk9 V c 5 t) (iblk9 V c 1 t) y
      = Cert.Arr.cellA (F := Ideal) (Cert.Arr.gates (V c main_v76) (V c main_v4) b5) (Cert.Arr.gates (V c main_v63) (V c main_v5) b6) (V c main_v63)
          (((cfg9.win 6).blk t).view.emb y)
  obtain ⟨e00, e01, e10, e11, e20, e21, e30, e31, e40, e41, e50, e51, e60, e61⟩ := idx_facts t
  have ht : t.val < 50 := Nat.lt_of_lt_of_eq t.isLt N_9
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg9.win 6).blk t).view.emb y = ix2 (n0 := 50000) (n1 := 128) ⟨t.val * 1000 + (y 0).val, by omega⟩ (y 1) := by
    funext a; apply Fin.ext
    match a with
    | ⟨0, _⟩ => show win9_6.index t (0 : Fin 2) * 1000 + 1 * (y 0).val = t.val * 1000 + (y 0).val; omega
    | ⟨1, _⟩ => show win9_6.index t (1 : Fin 2) * 128 + 1 * (y 1).val = (y 1).val; omega
  rw [hemb]
  have key := blk_gru (k9_pay1 (F := Ideal)) (fun v0 v3 v5 v8 v12 v17 v37 p j => by rw [Cert.Pay.k9_eq]; exact Cert.Pay.pay_gru3 v0 v3 v5 v8 v12 v17 v37 p j)
    (V c main_v76) (V c main_v63) (V c main_v4) (V c main_v5) b5 b6
    (iblk9 V c 0 t) (iblk9 V c 1 t) (iblk9 V c 2 t) (iblk9 V c 3 t) (iblk9 V c 4 t) (iblk9 V c 5 t) t.val ht
    (fun p k => by
      show V c main_v76 (((cfg9.win 0).blk t).view.emb (ix2 p k)) = _
      refine congrArg _ ?_
      funext a; apply Fin.ext
      match a with
      | ⟨0, _⟩ => show win9_0.index t (0 : Fin 2) * 1000 + 1 * p.val = t.val * 1000 + p.val; omega
      | ⟨1, _⟩ => show win9_0.index t (1 : Fin 2) * 128 + 1 * k.val = k.val; omega)
    (fun p k => by
      show V c main_v63 (((cfg9.win 1).blk t).view.emb (ix2 p k)) = _
      refine congrArg _ ?_
      funext a; apply Fin.ext
      match a with
      | ⟨0, _⟩ => show win9_1.index t (0 : Fin 2) * 1000 + 1 * p.val = t.val * 1000 + p.val; omega
      | ⟨1, _⟩ => show win9_1.index t (1 : Fin 2) * 128 + 1 * k.val = k.val; omega)
    (fun k q => by
      show V c main_v4 (((cfg9.win 2).blk t).view.emb (ix2 k q)) = _
      refine congrArg _ ?_
      funext a; apply Fin.ext
      match a with
      | ⟨0, _⟩ => show win9_2.index t (0 : Fin 2) * 128 + 1 * k.val = k.val; omega
      | ⟨1, _⟩ => show win9_2.index t (1 : Fin 2) * 384 + 1 * q.val = q.val; omega)
    (fun k q => by
      show V c main_v5 (((cfg9.win 3).blk t).view.emb (ix2 k q)) = _
      refine congrArg _ ?_
      funext a; apply Fin.ext
      match a with
      | ⟨0, _⟩ => show win9_3.index t (0 : Fin 2) * 128 + 1 * k.val = k.val; omega
      | ⟨1, _⟩ => show win9_3.index t (1 : Fin 2) * 384 + 1 * q.val = q.val; omega)
    (fun q => by
      refine Eq.trans ?_ (hb5 q)
      show V c main_v6 (((cfg9.win 4).blk t).view.emb (ix2 (0 : Fin 1) q)) = _
      refine congrArg _ ?_
      funext a; apply Fin.ext
      match a with
      | ⟨0, _⟩ => show win9_4.index t (0 : Fin 2) * 1 + 1 * 0 = 0; omega
      | ⟨1, _⟩ => show win9_4.index t (1 : Fin 2) * 384 + 1 * q.val = q.val; omega)
    (fun q => by
      refine Eq.trans ?_ (hb6 q)
      show V c main_v7 (((cfg9.win 5).blk t).view.emb (ix2 (0 : Fin 1) q)) = _
      refine congrArg _ ?_
      funext a; apply Fin.ext
      match a with
      | ⟨0, _⟩ => show win9_5.index t (0 : Fin 2) * 1 + 1 * 0 = 0; omega
      | ⟨1, _⟩ => show win9_5.index t (1 : Fin 2) * 384 + 1 * q.val = q.val; omega)
    (y 0) (y 1)
  rw [← hy] at key
  exact key

/-- An index of the output array is in point t's block iff its row is among the block's thousand rows. -/
theorem mem_blk (t : Fin cfg9.N) (i : S50000x128.Idx) :
    i ∈ ((cfg9.win 6).blk t).view.set ↔ ∀ a : Fin 2, win9_6.index t a * S1000x128.size a ≤ (i a).val ∧ (i a).val < win9_6.index t a * S1000x128.size a + S1000x128.size a := by
  show i ∈ ((View.whole main_v77).slice (win9_6.rect t)).set ↔ _
  rw [View.set_slice_whole, Rect.mem_set_unit]
  exact Iff.rfl

/-- Row r lies in the block of point r / 1000: the fifty blocks cover the array. -/
theorem cover (i : S50000x128.Idx) : ∃ t : Fin cfg9.N, (cfg9.win 6).flush t = true ∧ i ∈ ((cfg9.win 6).blk t).view.set := by
  have hi0 : (i 0).val < 50000 := (i 0).isLt
  have hi1 : (i 1).val < 128 := (i 1).isLt
  have hN : cfg9.N = 50 := N_9
  refine ⟨⟨(i 0).val / 1000, by rw [hN]; omega⟩, flush9_6 _, ?_⟩
  rw [mem_blk]
  obtain ⟨e00, e01, e10, e11, e20, e21, e30, e31, e40, e41, e50, e51, e60, e61⟩ := idx_facts ⟨(i 0).val / 1000, by rw [hN]; omega⟩
  intro a
  match a with
  | ⟨0, _⟩ => show win9_6.index _ (0 : Fin 2) * 1000 ≤ (i 0).val ∧ (i 0).val < win9_6.index _ (0 : Fin 2) * 1000 + 1000; rw [e60]; show (i 0).val / 1000 * 1000 ≤ _ ∧ _ < (i 0).val / 1000 * 1000 + 1000; omega
  | ⟨1, _⟩ => show win9_6.index _ (1 : Fin 2) * 128 ≤ (i 1).val ∧ (i 1).val < win9_6.index _ (1 : Fin 2) * 128 + 128; rw [e61]; omega

/-- The output array after the region: the whole-array gated update. -/
theorem final (c : Dev nD) (b5 b6 : FVec Ideal Cert.ReferenceIdeal.S384 .f32)
    (hb5 : ∀ q : Fin 384, V c main_v6 (ix2 (0 : Fin 1) q) = b5 (ix1 q))
    (hb6 : ∀ q : Fin 384, V c main_v7 (ix2 (0 : Fin 1) q) = b6 (ix1 q)) :
    (dat9 (F := Ideal) V c).arrAt 6 cfg9.N
      = Cert.Arr.cellA (F := Ideal) (Cert.Arr.gates (V c main_v76) (V c main_v4) b5) (Cert.Arr.gates (V c main_v63) (V c main_v5) b6) (V c main_v63) :=
  (dat9 V c).arrAt_eq_of_cover 6 _ (fun t _ => flushed V c b5 b6 hb5 hb6 t) (cover)

end Cert.KernelIdeal.KGru9

end
-- ==== Proof.KRound4.lean ====
/-
  Round 5 of the kernel program (regions 8 and 9 and the host operations between them) computes one round of the
  specification: if the features enter the round as H, they leave it as `Cert.Arr.layer … H`.

  The message region leaves H · W_4; the host gather and scatter-add turn it into the sums over incoming edges, with
  the edge rows left by the first stretch; the update region leaves the gated update of those sums and H, with the gate
  weights and biases left by the first stretch.
-/
import proofs.«121637_j32624571580955_1_alg».proof.Proof.KBase
import proofs.«121637_j32624571580955_1_alg».proof.Proof.KLin8
import proofs.«121637_j32624571580955_1_alg».proof.Proof.KGru9
import proofs.«121637_j32624571580955_1_alg».proof.Proof.KKeepE
import proofs.«121637_j32624571580955_1_alg».proof.Proof.KKeepW
import proofs.«121637_j32624571580955_1_alg».proof.Proof.KKeepB
import proofs.«121637_j32624571580955_1_alg».proof.Proof.KKeepA
import proofs.«121637_j32624571580955_1_alg».proof.Proof.KKeepH
import proofs.«121637_j32624571580955_1_alg».proof.Proof.PayPadLayout

set_option maxRecDepth 16384

noncomputable section

namespace Cert.KernelIdeal.KRound4

open Cert.KernelIdeal Cert.KernelIdeal.Gen Cert.KernelIdeal.KBase Cert.KernelIdeal.KKeep
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The round's matrix as its message region finds it. -/
theorem wk_in : W17 m ρ c (Proc.devRef .tc main_v65) = Cert.Arr.W4 (F := Ideal) (aW m c) := by
    show StableHlo.after hostOps8 (W16 m ρ c) (Proc.devRef .tc main_v65) = _
    after_results
    rw [at16_main_arg2 m ρ c]
    rfl

/-- The messages after the message region. -/
theorem msgs (H : FVec Ideal Cert.ReferenceIdeal.S50000x128 .f32) (hH : W16 m ρ c (Proc.devRef .tc main_v63) = H) :
    W18 m ρ c (Proc.devRef .tc main_v66) = Cert.Arr.lin (F := Ideal) H (Cert.Arr.W4 (aW m c)) := by
  have h1 : W17 m ρ c (Proc.devRef .tc main_v63) = H := (at17_main_v63 m ρ c).trans hH
  have e := (W18_arr m ρ c 2).trans (Cert.KernelIdeal.KLin8.final (V17 m ρ) c)
  have h1' : V17 m ρ c main_v63 = H := h1
  have w1' : V17 m ρ c main_v65 = Cert.Arr.W4 (F := Ideal) (aW m c) := wk_in m ρ c
  rw [h1', w1'] at e
  exact e

set_option maxHeartbeats 4000000 in
/-- The sums over incoming edges after the host gather and scatter-add. -/
theorem sums (H : FVec Ideal Cert.ReferenceIdeal.S50000x128 .f32) (hH : W16 m ρ c (Proc.devRef .tc main_v63) = H) :
    W19 m ρ c (Proc.devRef .tc main_v76) = Cert.Arr.seg (F := Ideal) (aE m c) (Cert.Arr.lin H (Cert.Arr.W4 (aW m c))) := by
  have e1 : W18 m ρ c (Proc.devRef .tc main_v1) = Cert.Arr.srcRow (aE m c) := (at18_main_v1 m ρ c).trans (b_v1 m ρ c)
  have e3 : W18 m ρ c (Proc.devRef .tc main_v3) = Cert.Arr.dstRow (aE m c) := (at18_main_v3 m ρ c).trans (b_v3 m ρ c)
  have em := msgs m ρ c H hH
  show StableHlo.after hostOps9 (W18 m ρ c) (Proc.devRef .tc main_v76) = _
  after_results_simp
  rw [e1, e3, em]
  rfl

/-- The features after the round. -/
theorem step (H : FVec Ideal Cert.ReferenceIdeal.S50000x128 .f32) (hH : W16 m ρ c (Proc.devRef .tc main_v63) = H) :
    W20 m ρ c (Proc.devRef .tc main_v77)
      = Cert.Arr.layer (F := Ideal) (aE m c) (a3 m c) (a4 m c) (a5 m c) (a6 m c) (Cert.Arr.W4 (aW m c)) H := by
  have v6 : W19 m ρ c (Proc.devRef .tc main_v6) = _ := (at19_main_v6 m ρ c).trans (b_v6 m ρ c)
  have v7 : W19 m ρ c (Proc.devRef .tc main_v7) = _ := (at19_main_v7 m ρ c).trans (b_v7 m ρ c)
  have hb5 : ∀ q : Fin 384, V19 m ρ c main_v6 (ix2 (0 : Fin 1) q) = a5 m c (ix1 q) := fun q => by
    show W19 m ρ c (Proc.devRef .tc main_v6) (ix2 (0 : Fin 1) q) = _
    rw [v6]; exact Cert.Pay.biasRow_apply _ q
  have hb6 : ∀ q : Fin 384, V19 m ρ c main_v7 (ix2 (0 : Fin 1) q) = a6 m c (ix1 q) := fun q => by
    show W19 m ρ c (Proc.devRef .tc main_v7) (ix2 (0 : Fin 1) q) = _
    rw [v7]; exact Cert.Pay.biasRow_apply _ q
  have e := (W20_arr m ρ c 6).trans (Cert.KernelIdeal.KGru9.final (V19 m ρ) c (a5 m c) (a6 m c) hb5 hb6)
  have g1 : V19 m ρ c main_v76 = Cert.Arr.seg (F := Ideal) (aE m c) (Cert.Arr.lin H (Cert.Arr.W4 (aW m c))) := sums m ρ c H hH
  have g2 : V19 m ρ c main_v63 = H := (at19_main_v63 m ρ c).trans hH
  have g3 : V19 m ρ c main_v4 = Cert.Arr.wT (F := Ideal) (a3 m c) := (at19_main_v4 m ρ c).trans (b_v4 m ρ c)
  have g4 : V19 m ρ c main_v5 = Cert.Arr.wT (F := Ideal) (a4 m c) := (at19_main_v5 m ρ c).trans (b_v5 m ρ c)
  rw [g1, g2, g3, g4] at e
  exact e

end Cert.KernelIdeal.KRound4

end
-- ==== Proof.PayHead.lean ====
/-
  The head kernel's arithmetic at an index: on a block of 1000 rows, the positive part of the features times the
  128 × 128 output matrix plus the output bias row repeated down the rows is, at row p and column j,
  the sum over k of max(v0(p, k), 0) · v5(k, j), plus v9(0, j).
-/
import proofs.«121637_j32624571580955_1_alg».proof.Proof.Gen.KernelIdeal.Skeleton
import proofs.«121637_j32624571580955_1_alg».proof.Proof.Cell
import proofs.«121637_j32624571580955_1_alg».proof.Proof.PayDot
import proofs.«121637_j32624571580955_1_alg».proof.Proof.PayLin
import Idealize.ShloMosaic.Lib.Pipeline.Value
import Idealize.ShloMosaic.Lib.ValueLayout

noncomputable section

open scoped BigOperators

namespace Cert.Pay

open Idealize.ShloMosaic Idealize.ShloMosaic.ValueIdx
open Cert.KernelIdeal Cert.KernelIdeal.Gen

/-- the head kernel's block at (p, j) -/
theorem pay_head (v0 : Vec Ideal S1000x128 .f32) (v5 : Vec Ideal S128x128 .f32) (v9 : Vec Ideal S1x128 .f32)
    (p : Fin 1000) (j : Fin 128) :
    k10_pay1 (F := Ideal) v0 v5 v9 (ix2 p j) =
      (∑ k : Fin 128, FloatOps.maximumf (v0 (ix2 p k)) Cert.Cell.zero * v5 (ix2 k j)) + v9 (ix2 (0 : Fin 1) j) := by
  unfold k10_pay1
  rw [shapeCast_self, shapeCast_self, shapeCast_self, addf_apply]
  refine congrArg₂ (· + ·) ?_ (broadcastTo_1b_ab_apply v9 broadcasts_S1x128_S1000x128 p j)
  exact Cert.PayDot.matmul_plain_apply _ dot128_plain none _ _ p j

end Cert.Pay

end
-- ==== Proof.KHead.lean ====
/-
  The head kernel of region 10: after its fifty grid points the output array holds, at row n and column j,
  Σ_k max(h[n, k], 0) · wp[k, j] + bp[0, j], for the features h it found in `main_v77`, the padded 128 × 128 weight
  wp in `main_v81` and the padded bias row bp in `main_v87`.

  Point t fetches rows t·1000 … t·1000 + 999 of the features and the padded weight and bias whole, and writes back
  that block of rows; the fifty blocks tile the 50000 rows.
-/
import proofs.«121637_j32624571580955_1_alg».proof.Proof.Gen.KernelIdeal.Frame
import proofs.«121637_j32624571580955_1_alg».proof.Proof.Arr
import proofs.«121637_j32624571580955_1_alg».proof.Proof.PayHead
import proofs.«121637_j32624571580955_1_alg».proof.Proof.Cell
import Idealize.ShloMosaic.Lib.ValueIdx
import Idealize.ShloMosaic.Lib.Pipeline.Value

set_option maxRecDepth 16384

noncomputable section

namespace Cert.KernelIdeal.KHead

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- The head's value at row n, column j. -/
def headAt (h : FVec Ideal S50000x128 .f32) (wp : FVec Ideal S128x128 .f32) (bp : FVec Ideal S1x128 .f32)
    (n : Fin 50000) (j : Fin 128) : Ideal .f32 :=
  (∑ k : Fin 128, FloatOps.maximumf (h (ix2 n k)) Cert.Cell.zero * wp (ix2 k j)) + bp (ix2 (0 : Fin 1) j)

/-- The head's whole output array. -/
def headPad (h : FVec Ideal S50000x128 .f32) (wp : FVec Ideal S128x128 .f32) (bp : FVec Ideal S1x128 .f32) :
    FVec Ideal S50000x128 .f32 :=
  fun i => headAt h wp bp ⟨(i 0).val, (i 0).isLt⟩ ⟨(i 1).val, (i 1).isLt⟩

theorem headPad_apply (h : FVec Ideal S50000x128 .f32) (wp : FVec Ideal S128x128 .f32) (bp : FVec Ideal S1x128 .f32)
    (n : Fin 50000) (j : Fin 128) : headPad h wp bp (ix2 n j) = headAt h wp bp n j := rfl

/-- On block T of the rows the body computes rows T·1000 … of the whole output. -/
theorem blk_head (h : FVec Ideal S50000x128 .f32) (wp : FVec Ideal S128x128 .f32) (bp : FVec Ideal S1x128 .f32)
    (x0 : Vec Ideal S1000x128 .f32) (x1 : Vec Ideal S128x128 .f32) (x2 : Vec Ideal S1x128 .f32) (T : Nat) (hT : T < 50)
    (hx0 : ∀ (p : Fin 1000) (k : Fin 128), x0 (ix2 p k) = h (ix2 ⟨T * 1000 + p.val, by omega⟩ k))
    (hx1 : ∀ (k j : Fin 128), x1 (ix2 k j) = wp (ix2 k j))
    (hx2 : ∀ j : Fin 128, x2 (ix2 (0 : Fin 1) j) = bp (ix2 (0 : Fin 1) j))
    (p : Fin 1000) (j : Fin 128) :
    k10_pay1 (F := Ideal) x0 x1 x2 (ix2 p j) = headPad h wp bp (ix2 ⟨T * 1000 + p.val, by omega⟩ j) := by
  rw [Cert.Pay.pay_head, headPad_apply, headAt, hx2]
  refine congrArg (· + bp (ix2 (0 : Fin 1) j)) ?_
  exact Finset.sum_congr rfl fun k _ => by rw [hx0, hx1]

variable (V : (c : Dev nD) → (b : Ref sig .tc) → Buf (Elt Ideal) ((c : Thread nD τ).loc b))

/-- The four windows' block indices at point t: (t, 0) for the features and the output, (0, 0) for weight and bias. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- What point t writes back is block t of the whole output. -/
theorem flushed (c : Dev nD) (t : Fin cfg10.N) :
    (dat10 (F := Ideal) V c).flushed 3 t
      = ((cfg10.win 3).blk t).view.read (Elt Ideal) (headPad (V c main_v77) (V c main_v81) (V c main_v87)) := by
  show (cfg10.win 3).cut (grid10.coords t) ((dat10 V c).after 3 t) = _
  rw [after10_3]
  unfold out10_3
  rw [View.canon_unit_zero hz]
  simp only [View.ld_unit_zero (S := S1000x128) hz, View.ld_unit_zero (S := S128x128) hz, View.ld_unit_zero (S := S1x128) hz]
  funext y
  show k10_pay1 (iblk10 V c 0 t) (iblk10 V c 1 t) (iblk10 V c 2 t) y
      = headPad (V c main_v77) (V c main_v81) (V c main_v87) (((cfg10.win 3).blk t).view.emb y)
  obtain ⟨e00, e01, e10, e11, e20, e21, e30, e31⟩ := idx_facts t
  have ht : t.val < 50 := Nat.lt_of_lt_of_eq t.isLt N_10
  have hy0 : (y 0).val < 1000 := (y 0).isLt
  have hy1 : (y 1).val < 128 := (y 1).isLt
  have hy : y = ix2 (n0 := 1000) (n1 := 128) (y 0) (y 1) := eq_ix2 (n0 := 1000) (n1 := 128) y
  have hemb : ((cfg10.win 3).blk t).view.emb y = ix2 (n0 := 50000) (n1 := 128) ⟨t.val * 1000 + (y 0).val, by omega⟩ (y 1) := by
    funext a; apply Fin.ext
    match a with
    | ⟨0, _⟩ => show win10_3.index t (0 : Fin 2) * 1000 + 1 * (y 0).val = t.val * 1000 + (y 0).val; omega
    | ⟨1, _⟩ => show win10_3.index t (1 : Fin 2) * 128 + 1 * (y 1).val = (y 1).val; omega
  rw [hemb]
  have key := blk_head (V c main_v77) (V c main_v81) (V c main_v87) (iblk10 V c 0 t) (iblk10 V c 1 t) (iblk10 V c 2 t) t.val ht
    (fun p k => by
      show V c main_v77 (((cfg10.win 0).blk t).view.emb (ix2 p k)) = _
      refine congrArg _ ?_
      funext a; apply Fin.ext
      match a with
      | ⟨0, _⟩ => show win10_0.index t (0 : Fin 2) * 1000 + 1 * p.val = t.val * 1000 + p.val; omega
      | ⟨1, _⟩ => show win10_0.index t (1 : Fin 2) * 128 + 1 * k.val = k.val; omega)
    (fun k j => by
      show V c main_v81 (((cfg10.win 1).blk t).view.emb (ix2 k j)) = _
      refine congrArg _ ?_
      funext a; apply Fin.ext
      match a with
      | ⟨0, _⟩ => show win10_1.index t (0 : Fin 2) * 128 + 1 * k.val = k.val; omega
      | ⟨1, _⟩ => show win10_1.index t (1 : Fin 2) * 128 + 1 * j.val = j.val; omega)
    (fun j => by
      show V c main_v87 (((cfg10.win 2).blk t).view.emb (ix2 (0 : Fin 1) j)) = _
      refine congrArg _ ?_
      funext a; apply Fin.ext
      match a with
      | ⟨0, _⟩ => show win10_2.index t (0 : Fin 2) * 1 + 1 * 0 = 0; omega
      | ⟨1, _⟩ => show win10_2.index t (1 : Fin 2) * 128 + 1 * j.val = j.val; omega)
    (y 0) (y 1)
  rw [← hy] at key
  exact key

/-- An index of the output array is in point t's block iff its row is among the block's thousand rows. -/
theorem mem_blk (t : Fin cfg10.N) (i : S50000x128.Idx) :
    i ∈ ((cfg10.win 3).blk t).view.set ↔ ∀ a : Fin 2, win10_3.index t a * S1000x128.size a ≤ (i a).val ∧ (i a).val < win10_3.index t a * S1000x128.size a + S1000x128.size a := by
  show i ∈ ((View.whole main_v88).slice (win10_3.rect t)).set ↔ _
  rw [View.set_slice_whole, Rect.mem_set_unit]
  exact Iff.rfl

/-- Row r lies in the block of point r / 1000: the fifty blocks cover the array. -/
theorem cover (i : S50000x128.Idx) : ∃ t : Fin cfg10.N, (cfg10.win 3).flush t = true ∧ i ∈ ((cfg10.win 3).blk t).view.set := by
  have hi0 : (i 0).val < 50000 := (i 0).isLt
  have hi1 : (i 1).val < 128 := (i 1).isLt
  have hN : cfg10.N = 50 := N_10
  refine ⟨⟨(i 0).val / 1000, by rw [hN]; omega⟩, flush10_3 _, ?_⟩
  rw [mem_blk]
  obtain ⟨e00, e01, e10, e11, e20, e21, e30, e31⟩ := idx_facts ⟨(i 0).val / 1000, by rw [hN]; omega⟩
  intro a
  match a with
  | ⟨0, _⟩ => show win10_3.index _ (0 : Fin 2) * 1000 ≤ (i 0).val ∧ (i 0).val < win10_3.index _ (0 : Fin 2) * 1000 + 1000; rw [e30]; show (i 0).val / 1000 * 1000 ≤ _ ∧ _ < (i 0).val / 1000 * 1000 + 1000; omega
  | ⟨1, _⟩ => show win10_3.index _ (1 : Fin 2) * 128 ≤ (i 1).val ∧ (i 1).val < win10_3.index _ (1 : Fin 2) * 128 + 128; rw [e31]; omega

/-- The output array after the region. -/
theorem final (c : Dev nD) :
    (dat10 (F := Ideal) V c).arrAt 3 cfg10.N = headPad (V c main_v77) (V c main_v81) (V c main_v87) :=
  (dat10 V c).arrAt_eq_of_cover 3 _ (fun t _ => flushed V c t) (cover)

end Cert.KernelIdeal.KHead

end
-- ==== Proof.PayPad.lean ====
/-
  The head's padded weight and bias, read where the head uses them. The host code writes the one output row into
  column 0 of a 128 × 128 array of zeros, and the output bias into entry (0, 0) of a 1 × 128 row of zeros, each by a
  scatter at constant zero indices whose body returns the update. Such a scatter is a left fold over the update
  entries: entry n replaces the array's element at its result index. When one entry's result index is i and no other
  entry's is, the fold ends with that entry at i. For the weight, update entry c lands at (c, 0); for the bias the single
  update lands at (0, 0). Hence the padded weight at (k, 0) is the output row at k, and the padded bias at (0, 0) is
  the output bias.
-/
import proofs.«121637_j32624571580955_1_alg».proof.Proof.Gen.KernelIdeal
import proofs.«121637_j32624571580955_1_alg».proof.Proof.PayPadLayout
import Idealize.ShloMosaic.Lib.ValueIdx
import Idealize.ShloMosaic.Lib.Pipeline.Value
import Idealize.ShloMosaic.Lib.ValueLayout

noncomputable section

namespace Cert.Pay

open Idealize.ShloMosaic Idealize.ShloMosaic.ValueIdx
open Cert.KernelIdeal Cert.KernelIdeal.Gen

/-! ## A fold of steps read at one index -/

section Fold
variable {ι β α : Type}

/-- a fold whose every step leaves index i alone leaves it alone -/
theorem foldl_miss (step : (ι → α) → β → ι → α) (i : ι) :
    ∀ (l : List β), (∀ n ∈ l, ∀ r, step r n i = r i) → ∀ x, (l.foldl step x) i = x i
  | [], _, _ => rfl
  | a :: t, h, x => by
    rw [List.foldl_cons, foldl_miss step i t (fun n hn => h n (List.mem_cons_of_mem _ hn)) (step x a)]
    exact h a (List.mem_cons.2 (Or.inl rfl)) x

/-- a fold in which the step of n0 sets index i to v, and no other step touches i, ends with v at i -/
theorem foldl_hit (step : (ι → α) → β → ι → α) (i : ι) (v : α) (n0 : β)
    (h0 : ∀ r, step r n0 i = v) (hne : ∀ n, n ≠ n0 → ∀ r, step r n i = r i) :
    ∀ (l : List β), n0 ∈ l → ∀ x, (l.foldl step x) i = v
  | [], hm, _ => absurd hm List.not_mem_nil
  | a :: t, hm, x => by
    rw [List.foldl_cons]
    by_cases ht : n0 ∈ t
    · exact foldl_hit step i v n0 h0 hne t ht _
    · have ha : a = n0 := by
        rcases List.mem_cons.1 hm with h | h
        · exact h.symm
        · exact absurd h ht
      subst ha
      rw [foldl_miss step i t (fun n hn r => hne n (fun e => ht (e ▸ hn)) r)]
      exact h0 x

end Fold

/-! ## The padded weight: column 0 -/

/-- with the one scatter index 0, every update starts at offset 0 on both axes -/
theorem wstart (j : S128.Idx) (idx : IVec S1 32) (hidx : ∀ i, idx i = 0#32) (a : Fin 2) :
    scatter_S128x128_S1_S128_0_1_1_0.start j idx a = 0 := by
  unfold ScatterDims.start
  split
  · rw [hidx]; rfl
  · rfl

/-- the update's one coordinate is the window coordinate on the row axis -/
theorem wwindow0 (c : Fin 128) : scatter_S128x128_S1_S128_0_1_1_0.window (ix1 c) (0 : Fin 2) = c.val := by
  unfold ScatterDims.window
  rw [dif_pos (by decide)]
  rfl

/-- the column axis is inserted: window coordinate 0 -/
theorem wwindow1 (j : S128.Idx) : scatter_S128x128_S1_S128_0_1_1_0.window j (1 : Fin 2) = 0 := by
  unfold ScatterDims.window
  rw [dif_neg (by decide)]

/-- update entry c lands at row c, column 0 -/
theorem wres (idx : IVec S1 32) (hidx : ∀ i, idx i = 0#32) (c : Fin 128) :
    scatter_S128x128_S1_S128_0_1_1_0.resultIdx? (ix1 c) idx = some (ix2 c (0 : Fin 128)) := by
  have hc : c.val < 128 := c.isLt
  have hin : ∀ a : Fin 2, 0 ≤ scatter_S128x128_S1_S128_0_1_1_0.start (ix1 c) idx a + scatter_S128x128_S1_S128_0_1_1_0.window (ix1 c) a ∧
      scatter_S128x128_S1_S128_0_1_1_0.start (ix1 c) idx a + scatter_S128x128_S1_S128_0_1_1_0.window (ix1 c) a < S128x128.size a := by
    intro a
    rw [wstart (ix1 c) idx hidx a]
    match a with
    | ⟨0, _⟩ =>
      show 0 ≤ (0 : Int) + (scatter_S128x128_S1_S128_0_1_1_0.window (ix1 c) (0 : Fin 2) : Nat) ∧
        (0 : Int) + (scatter_S128x128_S1_S128_0_1_1_0.window (ix1 c) (0 : Fin 2) : Nat) < ((128 : Nat) : Int)
      rw [wwindow0]
      omega
    | ⟨1, _⟩ =>
      show 0 ≤ (0 : Int) + (scatter_S128x128_S1_S128_0_1_1_0.window (ix1 c) (1 : Fin 2) : Nat) ∧
        (0 : Int) + (scatter_S128x128_S1_S128_0_1_1_0.window (ix1 c) (1 : Fin 2) : Nat) < ((128 : Nat) : Int)
      rw [wwindow1]
      omega
  unfold ScatterDims.resultIdx?
  rw [dif_pos hin]
  congr 1
  funext a
  apply Fin.ext
  match a with
  | ⟨0, _⟩ =>
    show (scatter_S128x128_S1_S128_0_1_1_0.start (ix1 c) idx (0 : Fin 2) + (scatter_S128x128_S1_S128_0_1_1_0.window (ix1 c) (0 : Fin 2) : Nat)).toNat = c.val
    rw [wstart (ix1 c) idx hidx, wwindow0]
    omega
  | ⟨1, _⟩ =>
    show (scatter_S128x128_S1_S128_0_1_1_0.start (ix1 c) idx (1 : Fin 2) + (scatter_S128x128_S1_S128_0_1_1_0.window (ix1 c) (1 : Fin 2) : Nat)).toNat = 0
    rw [wstart (ix1 c) idx hidx, wwindow1]
    rfl

/-- the padded weight at (k, 0) is the output row's entry k -/
theorem wpad_col0 (a7 : FVec Ideal S1x128 .f32) (k : Fin 128) :
    Host.scatter scatter_S128x128_S1_S128_0_1_1_0 (fun _ b => b)
      (broadcastInDim S128x128 ![] bcast_S_S128x128 (constant (F := Ideal) S_ .f32 0x00000000#32))
      (broadcastInDim S1 ![] bcast_S_S1 (constantI S_ 32 0#32))
      (shapeCast S128 a7 shapeCasts_S1x128_S128) (ix2 k (0 : Fin 128)) = a7 (ix2 (0 : Fin 1) k) := by
  have hidx : ∀ i, (broadcastInDim S1 ![] bcast_S_S1 (constantI S_ 32 0#32) : IVec S1 32) i = 0#32 := fun _ => rfl
  unfold Host.scatter
  refine foldl_hit _ (ix2 k (0 : Fin 128)) _ (S128.rowMajor (ix1 k)) ?_ ?_ _ (List.mem_finRange _) _
  · intro r
    simp only [Equiv.symm_apply_apply, wres _ hidx k]
    rw [if_pos trivial]
    exact shapeCast_1a_a_apply a7 shapeCasts_S1x128_S128 k
  · intro n hn r
    obtain ⟨c, hc⟩ : ∃ c : Fin 128, S128.rowMajor.symm n = ix1 c := ⟨(S128.rowMajor.symm n) 0, eq_ix1 _⟩
    simp only [hc, wres _ hidx c]
    rw [if_neg]
    intro h
    apply hn
    have hkc : k = c := congrFun h 0
    rw [hkc, ← hc, Equiv.apply_symm_apply]

/-! ## The padded bias: entry (0, 0) -/

/-- the two scatter indices, each the constant 0 -/
theorem bidx (i : S2.Idx) :
    (concatenate S2 0 [⟨S1, broadcastInDim S1 ![] bcast_S_S1 (constantI S_ 32 0#32)⟩,
      ⟨S1, broadcastInDim S1 ![] bcast_S_S1 (constantI S_ 32 0#32)⟩] concatenates_S1_S1_S2_d0 : IVec S2 32) i = 0#32 := by
  obtain ⟨c, rfl⟩ : ∃ c : Fin 2, i = ix1 c := ⟨i 0, eq_ix1 i⟩
  fin_cases c <;> rfl

/-- with both scatter indices 0, the update starts at offset 0 on both axes -/
theorem bstart (j : S_.Idx) (idx : IVec S2 32) (hidx : ∀ i, idx i = 0#32) (a : Fin 2) :
    scatter_S1x128_S2_S__n_01_01_0.start j idx a = 0 := by
  unfold ScatterDims.start
  split
  · rw [hidx]; rfl
  · rfl

/-- both axes are inserted: window coordinate 0 -/
theorem bwindow (j : S_.Idx) (a : Fin 2) : scatter_S1x128_S2_S__n_01_01_0.window j a = 0 := by
  unfold ScatterDims.window
  rw [dif_neg (by revert a; decide)]

/-- the one update lands at (0, 0) -/
theorem bres (idx : IVec S2 32) (hidx : ∀ i, idx i = 0#32) (j : S_.Idx) :
    scatter_S1x128_S2_S__n_01_01_0.resultIdx? j idx = some (ix2 (0 : Fin 1) (0 : Fin 128)) := by
  have hin : ∀ a : Fin 2, 0 ≤ scatter_S1x128_S2_S__n_01_01_0.start j idx a + scatter_S1x128_S2_S__n_01_01_0.window j a ∧
      scatter_S1x128_S2_S__n_01_01_0.start j idx a + scatter_S1x128_S2_S__n_01_01_0.window j a < S1x128.size a := by
    intro a
    rw [bstart j idx hidx a, bwindow j a]
    match a with
    | ⟨0, _⟩ => exact ⟨by omega, by show (0 : Int) + ((0 : Nat) : Int) < ((1 : Nat) : Int); omega⟩
    | ⟨1, _⟩ => exact ⟨by omega, by show (0 : Int) + ((0 : Nat) : Int) < ((128 : Nat) : Int); omega⟩
  unfold ScatterDims.resultIdx?
  rw [dif_pos hin]
  congr 1
  funext a
  apply Fin.ext
  show (scatter_S1x128_S2_S__n_01_01_0.start j idx a + (scatter_S1x128_S2_S__n_01_01_0.window j a : Nat)).toNat = _
  rw [bstart j idx hidx a, bwindow j a]
  match a with
  | ⟨0, _⟩ => rfl
  | ⟨1, _⟩ => rfl

/-- the padded bias at (0, 0) is the output bias -/
theorem bpad_00 (a8 : FVec Ideal S1 .f32) :
    Host.scatter scatter_S1x128_S2_S__n_01_01_0 (fun _ b => b)
      (broadcastInDim S1x128 ![] bcast_S_S1x128 (constant (F := Ideal) S_ .f32 0x00000000#32))
      (concatenate S2 0 [⟨S1, broadcastInDim S1 ![] bcast_S_S1 (constantI S_ 32 0#32)⟩,
        ⟨S1, broadcastInDim S1 ![] bcast_S_S1 (constantI S_ 32 0#32)⟩] concatenates_S1_S1_S2_d0)
      (shapeCast S_ a8 shapeCasts_S1_S_) (ix2 (0 : Fin 1) (0 : Fin 128)) = a8 (ix1 (0 : Fin 1)) := by
  unfold Host.scatter
  refine foldl_hit _ (ix2 (0 : Fin 1) (0 : Fin 128)) _ (S_.rowMajor ix0) ?_ ?_ _ (List.mem_finRange _) _
  · intro r
    simp only [bres _ bidx]
    rw [if_pos trivial]
    refine shapeCast_apply a8 shapeCasts_S1_S_ _ (ix1 (0 : Fin 1)) ?_
    have h1 : (S1.rowMajor (ix1 (0 : Fin 1))).val < 1 := (S1.rowMajor (ix1 (0 : Fin 1))).isLt
    have h2 : (S_.rowMajor (S_.rowMajor.symm (S_.rowMajor ix0))).val < 1 := (S_.rowMajor (S_.rowMajor.symm (S_.rowMajor ix0))).isLt
    omega
  · intro n hn r
    exfalso
    apply hn
    apply Fin.ext
    have h1 : n.val < 1 := n.isLt
    have h2 : (S_.rowMajor ix0).val < 1 := (S_.rowMajor ix0).isLt
    omega

end Cert.Pay

end
-- ==== Proof.ArrAtHead.lean ====
/-
  The reference's head at an index: the positive part of the features times the one output row (transposed to a column)
  plus the output bias is, at node n, the sum over k of max(h(n, k), 0) · a7(0, k), plus a8(0).
-/
import proofs.«121637_j32624571580955_1_alg».proof.Proof.Arr
import proofs.«121637_j32624571580955_1_alg».proof.Proof.Cell
import proofs.«121637_j32624571580955_1_alg».proof.Proof.PayDot
import Idealize.ShloMosaic.Lib.Pipeline.Value
import Idealize.ShloMosaic.Lib.ValueLayout

noncomputable section

open scoped BigOperators

namespace Cert.ArrAt

open Idealize.ShloMosaic Idealize.ShloMosaic.ValueIdx
open Cert.ReferenceIdeal Cert.ReferenceIdeal.Gen

/-- the output bias, made a 1 × 1 array and repeated down the rows, at (n, 0) is a8(0) -/
theorem biasCol_apply (a8 : FVec Ideal S1 .f32) (n : Fin 50000) :
    broadcastInDim S50000x1 ![0, 1] bcast_S1x1_S50000x1_0_1 (broadcastInDim S1x1 ![1] bcast_S1_S1x1_1 a8) (ix2 n (0 : Fin 1))
      = a8 (ix1 (0 : Fin 1)) := by
  refine (broadcastInDim_apply _ _ _ (ix2 n (0 : Fin 1)) (ix2 (0 : Fin 1) (0 : Fin 1)) fun a => ?_).trans ?_
  · match a with
    | ⟨0, _⟩ => rfl
    | ⟨1, _⟩ => rfl
  · refine broadcastInDim_apply _ _ a8 (ix2 (0 : Fin 1) (0 : Fin 1)) (ix1 (0 : Fin 1)) fun a => ?_
    match a with
    | ⟨0, _⟩ => rfl

/-- the head at (n, 0) -/
theorem head_apply (h : FVec Ideal S50000x128 .f32) (a7 : FVec Ideal S1x128 .f32) (a8 : FVec Ideal S1 .f32) (n : Fin 50000) :
    Cert.Arr.head (F := Ideal) h a7 a8 (ix2 n (0 : Fin 1)) =
      (∑ k : Fin 128, FloatOps.maximumf (h (ix2 n k)) Cert.Cell.zero * a7 (ix2 (0 : Fin 1) k)) + a8 (ix1 (0 : Fin 1)) := by
  unfold Cert.Arr.head
  rw [addf_apply]
  refine congrArg₂ (· + ·) ?_ (biasCol_apply a8 n)
  refine (Cert.PayDot.dotGeneral_plain_apply _ rfl none _ _ n (0 : Fin 1)).trans ?_
  refine Finset.sum_congr rfl fun k _ => ?_
  rw [transpose_ix2_apply a7 transposes_S1x128_S128x1_1_0 k (0 : Fin 1)]
  rfl

end Cert.ArrAt

end
-- ==== Proof.KTail.lean ====
/-
  The end of the kernel program: the padded head.

  The last host stretch writes the head's one weight row into column 0 of a zero 128 × 128 matrix and its one bias
  into entry (0, 0) of a zero row. The head region then leaves, at row n and column j,
  Σ_k max(H[n, k], 0) · wp[k, j] + bp[0, j]; the final slice keeps column 0, where wp[k, 0] is the weight row's
  entry k and bp[0, 0] the bias: the specification's head.
-/
import proofs.«121637_j32624571580955_1_alg».proof.Proof.KBase
import proofs.«121637_j32624571580955_1_alg».proof.Proof.KHead
import proofs.«121637_j32624571580955_1_alg».proof.Proof.KKeepA
import proofs.«121637_j32624571580955_1_alg».proof.Proof.KKeepH
import proofs.«121637_j32624571580955_1_alg».proof.Proof.PayPad
import proofs.«121637_j32624571580955_1_alg».proof.Proof.ArrAtHead

set_option maxRecDepth 16384

noncomputable section

namespace Cert.KernelIdeal.KTail

open Cert.KernelIdeal Cert.KernelIdeal.Gen Cert.KernelIdeal.KBase Cert.KernelIdeal.KKeep
open Idealize.ShloMosaic Idealize.ShloMosaic.TcCoe Idealize.ShloMosaic.StableHlo Idealize.ShloMosaic.ValueIdx
open Idealize.SL.Sem

variable (m : (ℓ : Loc nD τ sig) → Buf (Elt Ideal) ℓ) (ρ : Dev nD → PrngReg) (c : Dev nD)

/-- The padded weight: the weight row written into column 0 of zeros. -/
def wpad : FVec Ideal S128x128 .f32 :=
  Host.scatter scatter_S128x128_S1_S128_0_1_1_0 (fun _ b => b)
    (broadcastInDim S128x128 ![] bcast_S_S128x128 (constant (F := Ideal) S_ .f32 0x00000000#32))
    (broadcastInDim S1 ![] bcast_S_S1 (constantI S_ 32 0#32))
    (shapeCast S128 (m ((c.tc : Thread nD τ).loc main_arg7) : FVec Ideal S1x128 .f32) shapeCasts_S1x128_S128)

/-- The padded bias: the bias written into entry (0, 0) of a zero row. -/
def bpad : FVec Ideal S1x128 .f32 :=
  Host.scatter scatter_S1x128_S2_S__n_01_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (shapeCast S_ (m ((c.tc : Thread nD τ).loc main_arg8) : FVec Ideal S1 .f32) shapeCasts_S1_S_)

set_option maxHeartbeats 4000000 in
theorem pad_w : W21 m ρ c (Proc.devRef .tc main_v81) = wpad m c := by
  show StableHlo.after hostOps10 (W20 m ρ c) (Proc.devRef .tc main_v81) = _
  after_results_simp
  rw [at20_main_arg7 m ρ c]
  rfl

set_option maxHeartbeats 4000000 in
theorem pad_b : W21 m ρ c (Proc.devRef .tc main_v87) = bpad m c := by
  show StableHlo.after hostOps10 (W20 m ρ c) (Proc.devRef .tc main_v87) = _
  after_results_simp
  rw [at20_main_arg8 m ρ c]
  rfl

/-- The head region's output array. -/
theorem out_pad (H : FVec Ideal Cert.ReferenceIdeal.S50000x128 .f32) (hH : W20 m ρ c (Proc.devRef .tc main_v77) = H) :
    W22 m ρ c (Proc.devRef .tc main_v88) = Cert.KernelIdeal.KHead.headPad H (wpad m c) (bpad m c) := by
  have e := (W22_arr m ρ c 3).trans (Cert.KernelIdeal.KHead.final (V21 m ρ) c)
  have g1 : V21 m ρ c main_v77 = H := (at21_main_v77 m ρ c).trans hH
  have g2 : V21 m ρ c main_v81 = wpad m c := pad_w m ρ c
  have g3 : V21 m ρ c main_v87 = bpad m c := pad_b m ρ c
  rw [g1, g2, g3] at e
  exact e

/-- The program's result: the specification's head of the features H. -/
theorem result (H : FVec Ideal Cert.ReferenceIdeal.S50000x128 .f32) (hH : W20 m ρ c (Proc.devRef .tc main_v77) = H) :
    W23 m ρ c (Proc.devRef .tc main_v89) = Cert.Arr.head (F := Ideal) H (a7 m c) (a8 m c) := by
  have e88 := out_pad m ρ c H hH
  have e89 : W23 m ρ c (Proc.devRef .tc main_v89)
      = (extractStridedSlice S50000x1 ![0, 0] (W22 m ρ c (Proc.devRef .tc main_v88)) slices_S50000x128_S50000x1_0_0 : FVec Ideal S50000x1 .f32) := by
    show StableHlo.after hostOps11 (W22 m ρ c) (Proc.devRef .tc main_v89) = _
    after_results
  rw [e89, e88]
  funext i
  obtain ⟨n, z, rfl⟩ : ∃ (n : Fin 50000) (z : Fin 1), i = ix2 n z := ⟨i 0, i 1, eq_ix2 (n0 := 50000) (n1 := 1) i⟩
  have hz : z = 0 := Subsingleton.elim _ _
  subst hz
  rw [Cert.Pay.col0_apply, Cert.KernelIdeal.KHead.headPad_apply, Cert.ArrAt.head_apply]
  unfold Cert.KernelIdeal.KHead.headAt
  have hb : bpad m c (ix2 (0 : Fin 1) (0 : Fin 128)) = a8 m c (ix1 (0 : Fin 1)) := Cert.Pay.bpad_00 _
  rw [hb]
  refine congrArg (· + a8 m c (ix1 (0 : Fin 1))) ?_
  refine Finset.sum_congr rfl fun k _ => ?_
  have hw : wpad m c (ix2 k (0 : Fin 128)) = a7 m c (ix2 (0 : Fin 1) k) := Cert.Pay.wpad_col0 _ k
  rw [hw]

end Cert.KernelIdeal.KTail

end
-- ==== Proof.KValue.lean ====
/-
  The idealized kernel program's result is the specification's.

  The features enter round 1 as launched and pass through the five rounds, each one round of the specification; the
  head of the last round's features is the result buffer's final contents. With the program's run, every weakly fair
  execution ends with the result buffer at the specification of the launch contents of the arguments, and the
  arguments unchanged.
-/
import proofs.«121637_j32624571580955_1_alg».proof.Proof.KRun
import proofs.«121637_j32624571580955_1_alg».proof.Proof.KRound0
import proofs.«121637_j32624571580955_1_alg».proof.Proof.KRound1
import proofs.«121637_j32624571580955_1_alg».proof.Proof.KRound2
import proofs.«121637_j32624571580955_1_alg».proof.Proof.KRound3
import proofs.«121637_j32624571580955_1_alg».proof.Proof.KRound4
import proofs.«121637_j32624571580955_1_alg».proof.Proof.KTail

set_option maxRecDepth 16384

noncomputable section

namespace Cert.KernelIdeal.KValue

open Cert.KernelIdeal Cert.KernelIdeal.Gen Cert.KernelIdeal.KBase
open Idealize.ShloMosaic Idealize.ShloMosaic.TcCoe
open Idealize.SL.Sem

variable (m : (ℓ : Loc nD τ sig) → Buf (Elt Ideal) ℓ) (ρ : Dev nD → PrngReg) (c : Dev nD)

/-- The features after the five rounds. -/
theorem feats : W20 m ρ c (Proc.devRef .tc main_v77)
    = Cert.Arr.feats (F := Ideal) (aX m c) (aE m c) (aW m c) (a3 m c) (a4 m c) (a5 m c) (a6 m c) :=
  Cert.KernelIdeal.KRound4.step m ρ c _ (Cert.KernelIdeal.KRound3.step m ρ c _ (Cert.KernelIdeal.KRound2.step m ρ c _
    (Cert.KernelIdeal.KRound1.step m ρ c _ (Cert.KernelIdeal.KRound0.step m ρ c (aX m c) rfl))))

/-- The result buffer's final contents. -/
theorem value : W23 m ρ c (Proc.devRef .tc main_v89)
    = Cert.Arr.res (F := Ideal) (aX m c) (aE m c) (aW m c) (a3 m c) (a4 m c) (a5 m c) (a6 m c) (a7 m c) (a8 m c) :=
  Cert.KernelIdeal.KTail.result m ρ c _ (feats m ρ c)

/-- Every weakly fair execution ends with the result at the specification of the arguments, the arguments unchanged. -/
theorem run : θ_run defs (onTc (τ := τ) (main (F := Ideal))) ⟨m, fun _ => 0, ρ⟩ (fun r => ∀ c : Dev nD,
      r.2.mem ((c.tc : Thread nD τ).loc main_v89)
        = Cert.Arr.res (F := Ideal) (aX m c) (aE m c) (aW m c) (a3 m c) (a4 m c) (a5 m c) (a6 m c) (a7 m c) (a8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (value m ρ c), (h c).2⟩) (Cert.KernelIdeal.KRun.run m ρ)

end Cert.KernelIdeal.KValue

end
-- ==== Proof.RefValue.lean ====
/-
  The reference program's run, read as the array computation it spells.

  The reference is a straight line of 307 whole-array operations: four that cut the edge list into its source row and
  its target row; five rounds of 59 operations each, every round reading the features the round before left (the first
  reads the input features) and the round's own 128 × 128 matrix; and eight for the head. What a buffer holds at the end
  is the fold of the operations over the launch contents. The fold is read block by block, each block from ARBITRARY
  contents V: a block's last buffer is the block's array function of V at the buffers the block reads, and a block leaves
  alone every buffer it does not write. Composing the seven blocks, with the arguments and the two rows carried along
  unchanged, gives the whole result as five rounds and the head applied to the launch contents of the arguments.
-/
import proofs.«121637_j32624571580955_1_alg».proof.Proof.RefOps
import proofs.«121637_j32624571580955_1_alg».proof.Proof.Arr

noncomputable section

namespace Cert.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Folding a concatenation is folding the first list, then the second from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The seven blocks -/

/-- The edge list cut into its two rows. -/
abbrev blk0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000 ]

/-- Round 1. -/
abbrev blk1 : List (HloOp τ sig (Elt F)) :=
  [ unary main_arg2 main_v4 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v4 main_v5 rfl shapeCasts_S1x128x128_S128x128,
    binary main_arg0 main_v5 main_v6 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v7 (broadcastInDim S640000 ![] bcast_S_S640000 : (⟨S_, .i32⟩ : BufTy).Contents (Elt F) → (⟨S640000, .i32⟩ : BufTy).Contents (Elt F)),
    binary main_v1 main_v7 main_v8 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v9 (broadcastInDim S640000 ![] bcast_S_S640000 : (⟨S_, .i32⟩ : BufTy).Contents (Elt F) → (⟨S640000, .i32⟩ : BufTy).Contents (Elt F)),
    binary main_v1 main_v9 main_v10 (addi : (⟨S640000, .i32⟩ : BufTy).Contents (Elt F) → (⟨S640000, .i32⟩ : BufTy).Contents (Elt F) → (⟨S640000, .i32⟩ : BufTy).Contents (Elt F)),
    ternary main_v8 main_v10 main_v1 main_v11 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v11 main_v12 (broadcastInDim S640000x1 ![0] bcast_S640000_S640000x1_0 : (⟨S640000, .i32⟩ : BufTy).Contents (Elt F) → (⟨S640000x1, .i32⟩ : BufTy).Contents (Elt F)),
    binary main_v6 main_v12 main_v13 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v14 (broadcastInDim S50000x128 ![] bcast_S_S50000x128 : (⟨S_, .f32⟩ : BufTy).Contents (Elt F) → (⟨S50000x128, .f32⟩ : BufTy).Contents (Elt F)),
    unary main_v3 main_v15 (broadcastInDim S640000x1 ![0] bcast_S640000_S640000x1_0 : (⟨S640000, .i32⟩ : BufTy).Contents (Elt F) → (⟨S640000x1, .i32⟩ : BufTy).Contents (Elt F)),
    ternary main_v14 main_v15 main_v13 main_v16 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_arg3 main_v17 ((transpose S128x384 [1, 0] · transposes_S384x128_S128x384_1_0) : (⟨S384x128, .f32⟩ : BufTy).Contents (Elt F) → (⟨S128x384, .f32⟩ : BufTy).Contents (Elt F)),
    binary main_v16 main_v17 main_v18 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg5 main_v19 (broadcastInDim S1x384 ![1] bcast_S384_S1x384_1 : (⟨S384, .f32⟩ : BufTy).Contents (Elt F) → (⟨S1x384, .f32⟩ : BufTy).Contents (Elt F)),
    unary main_v19 main_v20 (broadcastInDim S50000x384 ![0, 1] bcast_S1x384_S50000x384_0_1 : (⟨S1x384, .f32⟩ : BufTy).Contents (Elt F) → (⟨S50000x384, .f32⟩ : BufTy).Contents (Elt F)),
    binary main_v18 main_v20 main_v21 (addf : (⟨S50000x384, .f32⟩ : BufTy).Contents (Elt F) → (⟨S50000x384, .f32⟩ : BufTy).Contents (Elt F) → (⟨S50000x384, .f32⟩ : BufTy).Contents (Elt F)),
    unary main_arg4 main_v22 ((transpose S128x384 [1, 0] · transposes_S384x128_S128x384_1_0) : (⟨S384x128, .f32⟩ : BufTy).Contents (Elt F) → (⟨S128x384, .f32⟩ : BufTy).Contents (Elt F)),
    binary main_arg0 main_v22 main_v23 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg6 main_v24 (broadcastInDim S1x384 ![1] bcast_S384_S1x384_1 : (⟨S384, .f32⟩ : BufTy).Contents (Elt F) → (⟨S1x384, .f32⟩ : BufTy).Contents (Elt F)),
    unary main_v24 main_v25 (broadcastInDim S50000x384 ![0, 1] bcast_S1x384_S50000x384_0_1 : (⟨S1x384, .f32⟩ : BufTy).Contents (Elt F) → (⟨S50000x384, .f32⟩ : BufTy).Contents (Elt F)),
    binary main_v23 main_v25 main_v26 (addf : (⟨S50000x384, .f32⟩ : BufTy).Contents (Elt F) → (⟨S50000x384, .f32⟩ : BufTy).Contents (Elt F) → (⟨S50000x384, .f32⟩ : BufTy).Contents (Elt F)),
    unary main_v21 main_v27 ((extractStridedSlice S50000x128 ![0, 0] · slices_S50000x384_S50000x128_0_0) : (⟨S50000x384, .f32⟩ : BufTy).Contents (Elt F) → (⟨S50000x128, .f32⟩ : BufTy).Contents (Elt F)),
    unary main_v21 main_v28 ((extractStridedSlice S50000x128 ![0, 128] · slices_S50000x384_S50000x128_0_128) : (⟨S50000x384, .f32⟩ : BufTy).Contents (Elt F) → (⟨S50000x128, .f32⟩ : BufTy).Contents (Elt F)),
    unary main_v21 main_v29 ((extractStridedSlice S50000x128 ![0, 256] · slices_S50000x384_S50000x128_0_256) : (⟨S50000x384, .f32⟩ : BufTy).Contents (Elt F) → (⟨S50000x128, .f32⟩ : BufTy).Contents (Elt F)),
    unary main_v26 main_v30 ((extractStridedSlice S50000x128 ![0, 0] · slices_S50000x384_S50000x128_0_0) : (⟨S50000x384, .f32⟩ : BufTy).Contents (Elt F) → (⟨S50000x128, .f32⟩ : BufTy).Contents (Elt F)),
    unary main_v26 main_v31 ((extractStridedSlice S50000x128 ![0, 128] · slices_S50000x384_S50000x128_0_128) : (⟨S50000x384, .f32⟩ : BufTy).Contents (Elt F) → (⟨S50000x128, .f32⟩ : BufTy).Contents (Elt F)),
    unary main_v26 main_v32 ((extractStridedSlice S50000x128 ![0, 256] · slices_S50000x384_S50000x128_0_256) : (⟨S50000x384, .f32⟩ : BufTy).Contents (Elt F) → (⟨S50000x128, .f32⟩ : BufTy).Contents (Elt F)),
    binary main_v27 main_v30 main_v33 (addf : (⟨S50000x128, .f32⟩ : BufTy).Contents (Elt F) → (⟨S50000x128, .f32⟩ : BufTy).Contents (Elt F) → (⟨S50000x128, .f32⟩ : BufTy).Contents (Elt F)),
    unary main_v33 main_v34 (Host.negf : (⟨S50000x128, .f32⟩ : BufTy).Contents (Elt F) → (⟨S50000x128, .f32⟩ : BufTy).Contents (Elt F)),
    unary main_v34 main_v35 (Host.exp : (⟨S50000x128, .f32⟩ : BufTy).Contents (Elt F) → (⟨S50000x128, .f32⟩ : BufTy).Contents (Elt F)),
    nullary main_cst_1 (constant S_ .f32 0x3F800000#32),
    unary main_cst_1 main_v36 (broadcastInDim S50000x128 ![] bcast_S_S50000x128 : (⟨S_, .f32⟩ : BufTy).Contents (Elt F) → (⟨S50000x128, .f32⟩ : BufTy).Contents (Elt F)),
    binary main_v36 main_v35 main_v37 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3F800000#32),
    unary main_cst_2 main_v38 (broadcastInDim S50000x128 ![] bcast_S_S50000x128 : (⟨S_, .f32⟩ : BufTy).Contents (Elt F) → (⟨S50000x128, .f32⟩ : BufTy).Contents (Elt F)),
    binary main_v38 main_v37 main_v39 (Host.divf : (⟨S50000x128, .f32⟩ : BufTy).Contents (Elt F) → (⟨S50000x128, .f32⟩ : BufTy).Contents (Elt F) → (⟨S50000x128, .f32⟩ : BufTy).Contents (Elt F)),
    binary main_v28 main_v31 main_v40 (addf : (⟨S50000x128, .f32⟩ : BufTy).Contents (Elt F) → (⟨S50000x128, .f32⟩ : BufTy).Contents (Elt F) → (⟨S50000x128, .f32⟩ : BufTy).Contents (Elt F)),
    unary main_v40 main_v41 (Host.negf : (⟨S50000x128, .f32⟩ : BufTy).Contents (Elt F) → (⟨S50000x128, .f32⟩ : BufTy).Contents (Elt F)),
    unary main_v41 main_v42 (Host.exp : (⟨S50000x128, .f32⟩ : BufTy).Contents (Elt F) → (⟨S50000x128, .f32⟩ : BufTy).Contents (Elt F)),
    nullary main_cst_3 (constant S_ .f32 0x3F800000#32),
    unary main_cst_3 main_v43 (broadcastInDim S50000x128 ![] bcast_S_S50000x128 : (⟨S_, .f32⟩ : BufTy).Contents (Elt F) → (⟨S50000x128, .f32⟩ : BufTy).Contents (Elt F)),
    binary main_v43 main_v42 main_v44 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3F800000#32),
    unary main_cst_4 main_v45 (broadcastInDim S50000x128 ![] bcast_S_S50000x128 : (⟨S_, .f32⟩ : BufTy).Contents (Elt F) → (⟨S50000x128, .f32⟩ : BufTy).Contents (Elt F)),
    binary main_v45 main_v44 main_v46 (Host.divf : (⟨S50000x128, .f32⟩ : BufTy).Contents (Elt F) → (⟨S50000x128, .f32⟩ : BufTy).Contents (Elt F) → (⟨S50000x128, .f32⟩ : BufTy).Contents (Elt F)),
    binary main_v39 main_v32 main_v47 (mulf : (⟨S50000x128, .f32⟩ : BufTy).Contents (Elt F) → (⟨S50000x128, .f32⟩ : BufTy).Contents (Elt F) → (⟨S50000x128, .f32⟩ : BufTy).Contents (Elt F)),
    binary main_v29 main_v47 main_v48 (addf : (⟨S50000x128, .f32⟩ : BufTy).Contents (Elt F) → (⟨S50000x128, .f32⟩ : BufTy).Contents (Elt F) → (⟨S50000x128, .f32⟩ : BufTy).Contents (Elt F)),
    unary main_v48 main_v49 (Host.tanh : (⟨S50000x128, .f32⟩ : BufTy).Contents (Elt F) → (⟨S50000x128, .f32⟩ : BufTy).Contents (Elt F)),
    nullary main_cst_5 (constant S_ .f32 0x3F800000#32),
    unary main_cst_5 main_v50 (broadcastInDim S50000x128 ![] bcast_S_S50000x128 : (⟨S_, .f32⟩ : BufTy).Contents (Elt F) → (⟨S50000x128, .f32⟩ : BufTy).Contents (Elt F)),
    binary main_v50 main_v46 main_v51 (subf : (⟨S50000x128, .f32⟩ : BufTy).Contents (Elt F) → (⟨S50000x128, .f32⟩ : BufTy).Contents (Elt F) → (⟨S50000x128, .f32⟩ : BufTy).Contents (Elt F)),
    binary main_v51 main_v49 main_v52 (mulf : (⟨S50000x128, .f32⟩ : BufTy).Contents (Elt F) → (⟨S50000x128, .f32⟩ : BufTy).Contents (Elt F) → (⟨S50000x128, .f32⟩ : BufTy).Contents (Elt F)),
    binary main_v46 main_arg0 main_v53 (mulf : (⟨S50000x128, .f32⟩ : BufTy).Contents (Elt F) → (⟨S50000x128, .f32⟩ : BufTy).Contents (Elt F) → (⟨S50000x128, .f32⟩ : BufTy).Contents (Elt F)),
    binary main_v52 main_v53 main_v54 (addf : (⟨S50000x128, .f32⟩ : BufTy).Contents (Elt F) → (⟨S50000x128, .f32⟩ : BufTy).Contents (Elt F) → (⟨S50000x128, .f32⟩ : BufTy).Contents (Elt F)) ]

/-- Round 2. -/
abbrev blk2 : List (HloOp τ sig (Elt F)) :=
  [ unary main_arg2 main_v55 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v55 main_v56 rfl shapeCasts_S1x128x128_S128x128,
    binary main_v54 main_v56 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v58 (broadcastInDim S640000 ![] bcast_S_S640000 : (⟨S_, .i32⟩ : BufTy).Contents (Elt F) → (⟨S640000, .i32⟩ : BufTy).Contents (Elt F)),
    binary main_v1 main_v58 main_v59 (cmpi .slt : (⟨S640000, .i32⟩ : BufTy).Contents (Elt F) → (⟨S640000, .i32⟩ : BufTy).Contents (Elt F) → (⟨S640000, .i1⟩ : BufTy).Contents (Elt F)),
    nullary main_c_7 (constantI S_ 32 50000#32),
    unary main_c_7 main_v60 (broadcastInDim S640000 ![] bcast_S_S640000 : (⟨S_, .i32⟩ : BufTy).Contents (Elt F) → (⟨S640000, .i32⟩ : BufTy).Contents (Elt F)),
    binary main_v1 main_v60 main_v61 (addi : (⟨S640000, .i32⟩ : BufTy).Contents (Elt F) → (⟨S640000, .i32⟩ : BufTy).Contents (Elt F) → (⟨S640000, .i32⟩ : BufTy).Contents (Elt F)),
    ternary main_v59 main_v61 main_v1 main_v62 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v62 main_v63 (broadcastInDim S640000x1 ![0] bcast_S640000_S640000x1_0 : (⟨S640000, .i32⟩ : BufTy).Contents (Elt F) → (⟨S640000x1, .i32⟩ : BufTy).Contents (Elt F)),
    binary main_v57 main_v63 main_v64 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_8 (constant S_ .f32 0x00000000#32),
    unary main_cst_8 main_v65 (broadcastInDim S50000x128 ![] bcast_S_S50000x128 : (⟨S_, .f32⟩ : BufTy).Contents (Elt F) → (⟨S50000x128, .f32⟩ : BufTy).Contents (Elt F)),
    unary main_v3 main_v66 (broadcastInDim S640000x1 ![0] bcast_S640000_S640000x1_0 : (⟨S640000, .i32⟩ : BufTy).Contents (Elt F) → (⟨S640000x1, .i32⟩ : BufTy).Contents (Elt F)),
    ternary main_v65 main_v66 main_v64 main_v67 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_arg3 main_v68 ((transpose S128x384 [1, 0] · transposes_S384x128_S128x384_1_0) : (⟨S384x128, .f32⟩ : BufTy).Contents (Elt F) → (⟨S128x384, .f32⟩ : BufTy).Contents (Elt F)),
    binary main_v67 main_v68 main_v69 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg5 main_v70 (broadcastInDim S1x384 ![1] bcast_S384_S1x384_1 : (⟨S384, .f32⟩ : BufTy).Contents (Elt F) → (⟨S1x384, .f32⟩ : BufTy).Contents (Elt F)),
    unary main_v70 main_v71 (broadcastInDim S50000x384 ![0, 1] bcast_S1x384_S50000x384_0_1 : (⟨S1x384, .f32⟩ : BufTy).Contents (Elt F) → (⟨S50000x384, .f32⟩ : BufTy).Contents (Elt F)),
    binary main_v69 main_v71 main_v72 (addf : (⟨S50000x384, .f32⟩ : BufTy).Contents (Elt F) → (⟨S50000x384, .f32⟩ : BufTy).Contents (Elt F) → (⟨S50000x384, .f32⟩ : BufTy).Contents (Elt F)),
    unary main_arg4 main_v73 ((transpose S128x384 [1, 0] · transposes_S384x128_S128x384_1_0) : (⟨S384x128, .f32⟩ : BufTy).Contents (Elt F) → (⟨S128x384, .f32⟩ : BufTy).Contents (Elt F)),
    binary main_v54 main_v73 main_v74 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg6 main_v75 (broadcastInDim S1x384 ![1] bcast_S384_S1x384_1 : (⟨S384, .f32⟩ : BufTy).Contents (Elt F) → (⟨S1x384, .f32⟩ : BufTy).Contents (Elt F)),
    unary main_v75 main_v76 (broadcastInDim S50000x384 ![0, 1] bcast_S1x384_S50000x384_0_1 : (⟨S1x384, .f32⟩ : BufTy).Contents (Elt F) → (⟨S50000x384, .f32⟩ : BufTy).Contents (Elt F)),
    binary main_v74 main_v76 main_v77 (addf : (⟨S50000x384, .f32⟩ : BufTy).Contents (Elt F) → (⟨S50000x384, .f32⟩ : BufTy).Contents (Elt F) → (⟨S50000x384, .f32⟩ : BufTy).Contents (Elt F)),
    unary main_v72 main_v78 ((extractStridedSlice S50000x128 ![0, 0] · slices_S50000x384_S50000x128_0_0) : (⟨S50000x384, .f32⟩ : BufTy).Contents (Elt F) → (⟨S50000x128, .f32⟩ : BufTy).Contents (Elt F)),
    unary main_v72 main_v79 ((extractStridedSlice S50000x128 ![0, 128] · slices_S50000x384_S50000x128_0_128) : (⟨S50000x384, .f32⟩ : BufTy).Contents (Elt F) → (⟨S50000x128, .f32⟩ : BufTy).Contents (Elt F)),
    unary main_v72 main_v80 ((extractStridedSlice S50000x128 ![0, 256] · slices_S50000x384_S50000x128_0_256) : (⟨S50000x384, .f32⟩ : BufTy).Contents (Elt F) → (⟨S50000x128, .f32⟩ : BufTy).Contents (Elt F)),
    unary main_v77 main_v81 ((extractStridedSlice S50000x128 ![0, 0] · slices_S50000x384_S50000x128_0_0) : (⟨S50000x384, .f32⟩ : BufTy).Contents (Elt F) → (⟨S50000x128, .f32⟩ : BufTy).Contents (Elt F)),
    unary main_v77 main_v82 ((extractStridedSlice S50000x128 ![0, 128] · slices_S50000x384_S50000x128_0_128) : (⟨S50000x384, .f32⟩ : BufTy).Contents (Elt F) → (⟨S50000x128, .f32⟩ : BufTy).Contents (Elt F)),
    unary main_v77 main_v83 ((extractStridedSlice S50000x128 ![0, 256] · slices_S50000x384_S50000x128_0_256) : (⟨S50000x384, .f32⟩ : BufTy).Contents (Elt F) → (⟨S50000x128, .f32⟩ : BufTy).Contents (Elt F)),
    binary main_v78 main_v81 main_v84 (addf : (⟨S50000x128, .f32⟩ : BufTy).Contents (Elt F) → (⟨S50000x128, .f32⟩ : BufTy).Contents (Elt F) → (⟨S50000x128, .f32⟩ : BufTy).Contents (Elt F)),
    unary main_v84 main_v85 (Host.negf : (⟨S50000x128, .f32⟩ : BufTy).Contents (Elt F) → (⟨S50000x128, .f32⟩ : BufTy).Contents (Elt F)),
    unary main_v85 main_v86 (Host.exp : (⟨S50000x128, .f32⟩ : BufTy).Contents (Elt F) → (⟨S50000x128, .f32⟩ : BufTy).Contents (Elt F)),
    nullary main_cst_9 (constant S_ .f32 0x3F800000#32),
    unary main_cst_9 main_v87 (broadcastInDim S50000x128 ![] bcast_S_S50000x128 : (⟨S_, .f32⟩ : BufTy).Contents (Elt F) → (⟨S50000x128, .f32⟩ : BufTy).Contents (Elt F)),
    binary main_v87 main_v86 main_v88 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3F800000#32),
    unary main_cst_10 main_v89 (broadcastInDim S50000x128 ![] bcast_S_S50000x128 : (⟨S_, .f32⟩ : BufTy).Contents (Elt F) → (⟨S50000x128, .f32⟩ : BufTy).Contents (Elt F)),
    binary main_v89 main_v88 main_v90 (Host.divf : (⟨S50000x128, .f32⟩ : BufTy).Contents (Elt F) → (⟨S50000x128, .f32⟩ : BufTy).Contents (Elt F) → (⟨S50000x128, .f32⟩ : BufTy).Contents (Elt F)),
    binary main_v79 main_v82 main_v91 (addf : (⟨S50000x128, .f32⟩ : BufTy).Contents (Elt F) → (⟨S50000x128, .f32⟩ : BufTy).Contents (Elt F) → (⟨S50000x128, .f32⟩ : BufTy).Contents (Elt F)),
    unary main_v91 main_v92 (Host.negf : (⟨S50000x128, .f32⟩ : BufTy).Contents (Elt F) → (⟨S50000x128, .f32⟩ : BufTy).Contents (Elt F)),
    unary main_v92 main_v93 (Host.exp : (⟨S50000x128, .f32⟩ : BufTy).Contents (Elt F) → (⟨S50000x128, .f32⟩ : BufTy).Contents (Elt F)),
    nullary main_cst_11 (constant S_ .f32 0x3F800000#32),
    unary main_cst_11 main_v94 (broadcastInDim S50000x128 ![] bcast_S_S50000x128 : (⟨S_, .f32⟩ : BufTy).Contents (Elt F) → (⟨S50000x128, .f32⟩ : BufTy).Contents (Elt F)),
    binary main_v94 main_v93 main_v95 (addf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3F800000#32),
    unary main_cst_12 main_v96 (broadcastInDim S50000x128 ![] bcast_S_S50000x128 : (⟨S_, .f32⟩ : BufTy).Contents (Elt F) → (⟨S50000x128, .f32⟩ : BufTy).Contents (Elt F)),
    binary main_v96 main_v95 main_v97 (Host.divf : (⟨S50000x128, .f32⟩ : BufTy).Contents (Elt F) → (⟨S50000x128, .f32⟩ : BufTy).Contents (Elt F) → (⟨S50000x128, .f32⟩ : BufTy).Contents (Elt F)),
    binary main_v90 main_v83 main_v98 (mulf : (⟨S50000x128, .f32⟩ : BufTy).Contents (Elt F) → (⟨S50000x128, .f32⟩ : BufTy).Contents (Elt F) → (⟨S50000x128, .f32⟩ : BufTy).Contents (Elt F)),
    binary main_v80 main_v98 main_v99 (addf : (⟨S50000x128, .f32⟩ : BufTy).Contents (Elt F) → (⟨S50000x128, .f32⟩ : BufTy).Contents (Elt F) → (⟨S50000x128, .f32⟩ : BufTy).Contents (Elt F)),
    unary main_v99 main_v100 (Host.tanh : (⟨S50000x128, .f32⟩ : BufTy).Contents (Elt F) → (⟨S50000x128, .f32⟩ : BufTy).Contents (Elt F)),
    nullary main_cst_13 (constant S_ .f32 0x3F800000#32),
    unary main_cst_13 main_v101 (broadcastInDim S50000x128 ![] bcast_S_S50000x128 : (⟨S_, .f32⟩ : BufTy).Contents (Elt F) → (⟨S50000x128, .f32⟩ : BufTy).Contents (Elt F)),
    binary main_v101 main_v97 main_v102 (subf : (⟨S50000x128, .f32⟩ : BufTy).Contents (Elt F) → (⟨S50000x128, .f32⟩ : BufTy).Contents (Elt F) → (⟨S50000x128, .f32⟩ : BufTy).Contents (Elt F)),
    binary main_v102 main_v100 main_v103 (mulf : (⟨S50000x128, .f32⟩ : BufTy).Contents (Elt F) → (⟨S50000x128, .f32⟩ : BufTy).Contents (Elt F) → (⟨S50000x128, .f32⟩ : BufTy).Contents (Elt F)),
    binary main_v97 main_v54 main_v104 (mulf : (⟨S50000x128, .f32⟩ : BufTy).Contents (Elt F) → (⟨S50000x128, .f32⟩ : BufTy).Contents (Elt F) → (⟨S50000x128, .f32⟩ : BufTy).Contents (Elt F)),
    binary main_v103 main_v104 main_v105 (addf : (⟨S50000x128, .f32⟩ : BufTy).Contents (Elt F) → (⟨S50000x128, .f32⟩ : BufTy).Contents (Elt F) → (⟨S50000x128, .f32⟩ : BufTy).Contents (Elt F)) ]

/-- Round 3. -/
abbrev blk3 : List (HloOp τ sig (Elt F)) :=
  [ unary main_arg2 main_v106 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v106 main_v107 rfl shapeCasts_S1x128x128_S128x128,
    binary main_v105 main_v107 main_v108 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_14 (constantI S_ 32 0#32),
    unary main_c_14 main_v109 (broadcastInDim S640000 ![] bcast_S_S640000 : (⟨S_, .i32⟩ : BufTy).Contents (Elt F) → (⟨S640000, .i32⟩ : BufTy).Contents (Elt F)),
    binary main_v1 main_v109 main_v110 (cmpi .slt : (⟨S640000, .i32⟩ : BufTy).Contents (Elt F) → (⟨S640000, .i32⟩ : BufTy).Contents (Elt F) → (⟨S640000, .i1⟩ : BufTy).Contents (Elt F)),
    nullary main_c_15 (constantI S_ 32 50000#32),
    unary main_c_15 main_v111 (broadcastInDim S640000 ![] bcast_S_S640000 : (⟨S_, .i32⟩ : BufTy).Contents (Elt F) → (⟨S640000, .i32⟩ : BufTy).Contents (Elt F)),
    binary main_v1 main_v111 main_v112 (addi : (⟨S640000, .i32⟩ : BufTy).Contents (Elt F) → (⟨S640000, .i32⟩ : BufTy).Contents (Elt F) → (⟨S640000, .i32⟩ : BufTy).Contents (Elt F)),
    ternary main_v110 main_v112 main_v1 main_v113 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v113 main_v114 (broadcastInDim S640000x1 ![0] bcast_S640000_S640000x1_0 : (⟨S640000, .i32⟩ : BufTy).Contents (Elt F) → (⟨S640000x1, .i32⟩ : BufTy).Contents (Elt F)),
    binary main_v108 main_v114 main_v115 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_16 (constant S_ .f32 0x00000000#32),
    unary main_cst_16 main_v116 (broadcastInDim S50000x128 ![] bcast_S_S50000x128 : (⟨S_, .f32⟩ : BufTy).Contents (Elt F) → (⟨S50000x128, .f32⟩ : BufTy).Contents (Elt F)),
    unary main_v3 main_v117 (broadcastInDim S640000x1 ![0] bcast_S640000_S640000x1_0 : (⟨S640000, .i32⟩ : BufTy).Contents (Elt F) → (⟨S640000x1, .i32⟩ : BufTy).Contents (Elt F)),
    ternary main_v116 main_v117 main_v115 main_v118 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_arg3 main_v119 ((transpose S128x384 [1, 0] · transposes_S384x128_S128x384_1_0) : (⟨S384x128, .f32⟩ : BufTy).Contents (Elt F) → (⟨S128x384, .f32⟩ : BufTy).Contents (Elt F)),
    binary main_v118 main_v119 main_v120 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg5 main_v121 (broadcastInDim S1x384 ![1] bcast_S384_S1x384_1 : (⟨S384, .f32⟩ : BufTy).Contents (Elt F) → (⟨S1x384, .f32⟩ : BufTy).Contents (Elt F)),
    unary main_v121 main_v122 (broadcastInDim S50000x384 ![0, 1] bcast_S1x384_S50000x384_0_1 : (⟨S1x384, .f32⟩ : BufTy).Contents (Elt F) → (⟨S50000x384, .f32⟩ : BufTy).Contents (Elt F)),
    binary main_v120 main_v122 main_v123 (addf : (⟨S50000x384, .f32⟩ : BufTy).Contents (Elt F) → (⟨S50000x384, .f32⟩ : BufTy).Contents (Elt F) → (⟨S50000x384, .f32⟩ : BufTy).Contents (Elt F)),
    unary main_arg4 main_v124 ((transpose S128x384 [1, 0] · transposes_S384x128_S128x384_1_0) : (⟨S384x128, .f32⟩ : BufTy).Contents (Elt F) → (⟨S128x384, .f32⟩ : BufTy).Contents (Elt F)),
    binary main_v105 main_v124 main_v125 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg6 main_v126 (broadcastInDim S1x384 ![1] bcast_S384_S1x384_1 : (⟨S384, .f32⟩ : BufTy).Contents (Elt F) → (⟨S1x384, .f32⟩ : BufTy).Contents (Elt F)),
    unary main_v126 main_v127 (broadcastInDim S50000x384 ![0, 1] bcast_S1x384_S50000x384_0_1 : (⟨S1x384, .f32⟩ : BufTy).Contents (Elt F) → (⟨S50000x384, .f32⟩ : BufTy).Contents (Elt F)),
    binary main_v125 main_v127 main_v128 (addf : (⟨S50000x384, .f32⟩ : BufTy).Contents (Elt F) → (⟨S50000x384, .f32⟩ : BufTy).Contents (Elt F) → (⟨S50000x384, .f32⟩ : BufTy).Contents (Elt F)),
    unary main_v123 main_v129 ((extractStridedSlice S50000x128 ![0, 0] · slices_S50000x384_S50000x128_0_0) : (⟨S50000x384, .f32⟩ : BufTy).Contents (Elt F) → (⟨S50000x128, .f32⟩ : BufTy).Contents (Elt F)),
    unary main_v123 main_v130 ((extractStridedSlice S50000x128 ![0, 128] · slices_S50000x384_S50000x128_0_128) : (⟨S50000x384, .f32⟩ : BufTy).Contents (Elt F) → (⟨S50000x128, .f32⟩ : BufTy).Contents (Elt F)),
    unary main_v123 main_v131 ((extractStridedSlice S50000x128 ![0, 256] · slices_S50000x384_S50000x128_0_256) : (⟨S50000x384, .f32⟩ : BufTy).Contents (Elt F) → (⟨S50000x128, .f32⟩ : BufTy).Contents (Elt F)),
    unary main_v128 main_v132 ((extractStridedSlice S50000x128 ![0, 0] · slices_S50000x384_S50000x128_0_0) : (⟨S50000x384, .f32⟩ : BufTy).Contents (Elt F) → (⟨S50000x128, .f32⟩ : BufTy).Contents (Elt F)),
    unary main_v128 main_v133 ((extractStridedSlice S50000x128 ![0, 128] · slices_S50000x384_S50000x128_0_128) : (⟨S50000x384, .f32⟩ : BufTy).Contents (Elt F) → (⟨S50000x128, .f32⟩ : BufTy).Contents (Elt F)),
    unary main_v128 main_v134 ((extractStridedSlice S50000x128 ![0, 256] · slices_S50000x384_S50000x128_0_256) : (⟨S50000x384, .f32⟩ : BufTy).Contents (Elt F) → (⟨S50000x128, .f32⟩ : BufTy).Contents (Elt F)),
    binary main_v129 main_v132 main_v135 (addf : (⟨S50000x128, .f32⟩ : BufTy).Contents (Elt F) → (⟨S50000x128, .f32⟩ : BufTy).Contents (Elt F) → (⟨S50000x128, .f32⟩ : BufTy).Contents (Elt F)),
    unary main_v135 main_v136 (Host.negf : (⟨S50000x128, .f32⟩ : BufTy).Contents (Elt F) → (⟨S50000x128, .f32⟩ : BufTy).Contents (Elt F)),
    unary main_v136 main_v137 (Host.exp : (⟨S50000x128, .f32⟩ : BufTy).Contents (Elt F) → (⟨S50000x128, .f32⟩ : BufTy).Contents (Elt F)),
    nullary main_cst_17 (constant S_ .f32 0x3F800000#32),
    unary main_cst_17 main_v138 (broadcastInDim S50000x128 ![] bcast_S_S50000x128 : (⟨S_, .f32⟩ : BufTy).Contents (Elt F) → (⟨S50000x128, .f32⟩ : BufTy).Contents (Elt F)),
    binary main_v138 main_v137 main_v139 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3F800000#32),
    unary main_cst_18 main_v140 (broadcastInDim S50000x128 ![] bcast_S_S50000x128 : (⟨S_, .f32⟩ : BufTy).Contents (Elt F) → (⟨S50000x128, .f32⟩ : BufTy).Contents (Elt F)),
    binary main_v140 main_v139 main_v141 (Host.divf : (⟨S50000x128, .f32⟩ : BufTy).Contents (Elt F) → (⟨S50000x128, .f32⟩ : BufTy).Contents (Elt F) → (⟨S50000x128, .f32⟩ : BufTy).Contents (Elt F)),
    binary main_v130 main_v133 main_v142 (addf : (⟨S50000x128, .f32⟩ : BufTy).Contents (Elt F) → (⟨S50000x128, .f32⟩ : BufTy).Contents (Elt F) → (⟨S50000x128, .f32⟩ : BufTy).Contents (Elt F)),
    unary main_v142 main_v143 (Host.negf : (⟨S50000x128, .f32⟩ : BufTy).Contents (Elt F) → (⟨S50000x128, .f32⟩ : BufTy).Contents (Elt F)),
    unary main_v143 main_v144 (Host.exp : (⟨S50000x128, .f32⟩ : BufTy).Contents (Elt F) → (⟨S50000x128, .f32⟩ : BufTy).Contents (Elt F)),
    nullary main_cst_19 (constant S_ .f32 0x3F800000#32),
    unary main_cst_19 main_v145 (broadcastInDim S50000x128 ![] bcast_S_S50000x128 : (⟨S_, .f32⟩ : BufTy).Contents (Elt F) → (⟨S50000x128, .f32⟩ : BufTy).Contents (Elt F)),
    binary main_v145 main_v144 main_v146 (addf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x3F800000#32),
    unary main_cst_20 main_v147 (broadcastInDim S50000x128 ![] bcast_S_S50000x128 : (⟨S_, .f32⟩ : BufTy).Contents (Elt F) → (⟨S50000x128, .f32⟩ : BufTy).Contents (Elt F)),
    binary main_v147 main_v146 main_v148 (Host.divf : (⟨S50000x128, .f32⟩ : BufTy).Contents (Elt F) → (⟨S50000x128, .f32⟩ : BufTy).Contents (Elt F) → (⟨S50000x128, .f32⟩ : BufTy).Contents (Elt F)),
    binary main_v141 main_v134 main_v149 (mulf : (⟨S50000x128, .f32⟩ : BufTy).Contents (Elt F) → (⟨S50000x128, .f32⟩ : BufTy).Contents (Elt F) → (⟨S50000x128, .f32⟩ : BufTy).Contents (Elt F)),
    binary main_v131 main_v149 main_v150 (addf : (⟨S50000x128, .f32⟩ : BufTy).Contents (Elt F) → (⟨S50000x128, .f32⟩ : BufTy).Contents (Elt F) → (⟨S50000x128, .f32⟩ : BufTy).Contents (Elt F)),
    unary main_v150 main_v151 (Host.tanh : (⟨S50000x128, .f32⟩ : BufTy).Contents (Elt F) → (⟨S50000x128, .f32⟩ : BufTy).Contents (Elt F)),
    nullary main_cst_21 (constant S_ .f32 0x3F800000#32),
    unary main_cst_21 main_v152 (broadcastInDim S50000x128 ![] bcast_S_S50000x128 : (⟨S_, .f32⟩ : BufTy).Contents (Elt F) → (⟨S50000x128, .f32⟩ : BufTy).Contents (Elt F)),
    binary main_v152 main_v148 main_v153 (subf : (⟨S50000x128, .f32⟩ : BufTy).Contents (Elt F) → (⟨S50000x128, .f32⟩ : BufTy).Contents (Elt F) → (⟨S50000x128, .f32⟩ : BufTy).Contents (Elt F)),
    binary main_v153 main_v151 main_v154 (mulf : (⟨S50000x128, .f32⟩ : BufTy).Contents (Elt F) → (⟨S50000x128, .f32⟩ : BufTy).Contents (Elt F) → (⟨S50000x128, .f32⟩ : BufTy).Contents (Elt F)),
    binary main_v148 main_v105 main_v155 (mulf : (⟨S50000x128, .f32⟩ : BufTy).Contents (Elt F) → (⟨S50000x128, .f32⟩ : BufTy).Contents (Elt F) → (⟨S50000x128, .f32⟩ : BufTy).Contents (Elt F)),
    binary main_v154 main_v155 main_v156 (addf : (⟨S50000x128, .f32⟩ : BufTy).Contents (Elt F) → (⟨S50000x128, .f32⟩ : BufTy).Contents (Elt F) → (⟨S50000x128, .f32⟩ : BufTy).Contents (Elt F)) ]

/-- Round 4. -/
abbrev blk4 : List (HloOp τ sig (Elt F)) :=
  [ unary main_arg2 main_v157 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v157 main_v158 rfl shapeCasts_S1x128x128_S128x128,
    binary main_v156 main_v158 main_v159 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_22 (constantI S_ 32 0#32),
    unary main_c_22 main_v160 (broadcastInDim S640000 ![] bcast_S_S640000 : (⟨S_, .i32⟩ : BufTy).Contents (Elt F) → (⟨S640000, .i32⟩ : BufTy).Contents (Elt F)),
    binary main_v1 main_v160 main_v161 (cmpi .slt : (⟨S640000, .i32⟩ : BufTy).Contents (Elt F) → (⟨S640000, .i32⟩ : BufTy).Contents (Elt F) → (⟨S640000, .i1⟩ : BufTy).Contents (Elt F)),
    nullary main_c_23 (constantI S_ 32 50000#32),
    unary main_c_23 main_v162 (broadcastInDim S640000 ![] bcast_S_S640000 : (⟨S_, .i32⟩ : BufTy).Contents (Elt F) → (⟨S640000, .i32⟩ : BufTy).Contents (Elt F)),
    binary main_v1 main_v162 main_v163 (addi : (⟨S640000, .i32⟩ : BufTy).Contents (Elt F) → (⟨S640000, .i32⟩ : BufTy).Contents (Elt F) → (⟨S640000, .i32⟩ : BufTy).Contents (Elt F)),
    ternary main_v161 main_v163 main_v1 main_v164 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v164 main_v165 (broadcastInDim S640000x1 ![0] bcast_S640000_S640000x1_0 : (⟨S640000, .i32⟩ : BufTy).Contents (Elt F) → (⟨S640000x1, .i32⟩ : BufTy).Contents (Elt F)),
    binary main_v159 main_v165 main_v166 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_24 (constant S_ .f32 0x00000000#32),
    unary main_cst_24 main_v167 (broadcastInDim S50000x128 ![] bcast_S_S50000x128 : (⟨S_, .f32⟩ : BufTy).Contents (Elt F) → (⟨S50000x128, .f32⟩ : BufTy).Contents (Elt F)),
    unary main_v3 main_v168 (broadcastInDim S640000x1 ![0] bcast_S640000_S640000x1_0 : (⟨S640000, .i32⟩ : BufTy).Contents (Elt F) → (⟨S640000x1, .i32⟩ : BufTy).Contents (Elt F)),
    ternary main_v167 main_v168 main_v166 main_v169 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_arg3 main_v170 ((transpose S128x384 [1, 0] · transposes_S384x128_S128x384_1_0) : (⟨S384x128, .f32⟩ : BufTy).Contents (Elt F) → (⟨S128x384, .f32⟩ : BufTy).Contents (Elt F)),
    binary main_v169 main_v170 main_v171 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg5 main_v172 (broadcastInDim S1x384 ![1] bcast_S384_S1x384_1 : (⟨S384, .f32⟩ : BufTy).Contents (Elt F) → (⟨S1x384, .f32⟩ : BufTy).Contents (Elt F)),
    unary main_v172 main_v173 (broadcastInDim S50000x384 ![0, 1] bcast_S1x384_S50000x384_0_1 : (⟨S1x384, .f32⟩ : BufTy).Contents (Elt F) → (⟨S50000x384, .f32⟩ : BufTy).Contents (Elt F)),
    binary main_v171 main_v173 main_v174 (addf : (⟨S50000x384, .f32⟩ : BufTy).Contents (Elt F) → (⟨S50000x384, .f32⟩ : BufTy).Contents (Elt F) → (⟨S50000x384, .f32⟩ : BufTy).Contents (Elt F)),
    unary main_arg4 main_v175 ((transpose S128x384 [1, 0] · transposes_S384x128_S128x384_1_0) : (⟨S384x128, .f32⟩ : BufTy).Contents (Elt F) → (⟨S128x384, .f32⟩ : BufTy).Contents (Elt F)),
    binary main_v156 main_v175 main_v176 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg6 main_v177 (broadcastInDim S1x384 ![1] bcast_S384_S1x384_1 : (⟨S384, .f32⟩ : BufTy).Contents (Elt F) → (⟨S1x384, .f32⟩ : BufTy).Contents (Elt F)),
    unary main_v177 main_v178 (broadcastInDim S50000x384 ![0, 1] bcast_S1x384_S50000x384_0_1 : (⟨S1x384, .f32⟩ : BufTy).Contents (Elt F) → (⟨S50000x384, .f32⟩ : BufTy).Contents (Elt F)),
    binary main_v176 main_v178 main_v179 (addf : (⟨S50000x384, .f32⟩ : BufTy).Contents (Elt F) → (⟨S50000x384, .f32⟩ : BufTy).Contents (Elt F) → (⟨S50000x384, .f32⟩ : BufTy).Contents (Elt F)),
    unary main_v174 main_v180 ((extractStridedSlice S50000x128 ![0, 0] · slices_S50000x384_S50000x128_0_0) : (⟨S50000x384, .f32⟩ : BufTy).Contents (Elt F) → (⟨S50000x128, .f32⟩ : BufTy).Contents (Elt F)),
    unary main_v174 main_v181 ((extractStridedSlice S50000x128 ![0, 128] · slices_S50000x384_S50000x128_0_128) : (⟨S50000x384, .f32⟩ : BufTy).Contents (Elt F) → (⟨S50000x128, .f32⟩ : BufTy).Contents (Elt F)),
    unary main_v174 main_v182 ((extractStridedSlice S50000x128 ![0, 256] · slices_S50000x384_S50000x128_0_256) : (⟨S50000x384, .f32⟩ : BufTy).Contents (Elt F) → (⟨S50000x128, .f32⟩ : BufTy).Contents (Elt F)),
    unary main_v179 main_v183 ((extractStridedSlice S50000x128 ![0, 0] · slices_S50000x384_S50000x128_0_0) : (⟨S50000x384, .f32⟩ : BufTy).Contents (Elt F) → (⟨S50000x128, .f32⟩ : BufTy).Contents (Elt F)),
    unary main_v179 main_v184 ((extractStridedSlice S50000x128 ![0, 128] · slices_S50000x384_S50000x128_0_128) : (⟨S50000x384, .f32⟩ : BufTy).Contents (Elt F) → (⟨S50000x128, .f32⟩ : BufTy).Contents (Elt F)),
    unary main_v179 main_v185 ((extractStridedSlice S50000x128 ![0, 256] · slices_S50000x384_S50000x128_0_256) : (⟨S50000x384, .f32⟩ : BufTy).Contents (Elt F) → (⟨S50000x128, .f32⟩ : BufTy).Contents (Elt F)),
    binary main_v180 main_v183 main_v186 (addf : (⟨S50000x128, .f32⟩ : BufTy).Contents (Elt F) → (⟨S50000x128, .f32⟩ : BufTy).Contents (Elt F) → (⟨S50000x128, .f32⟩ : BufTy).Contents (Elt F)),
    unary main_v186 main_v187 (Host.negf : (⟨S50000x128, .f32⟩ : BufTy).Contents (Elt F) → (⟨S50000x128, .f32⟩ : BufTy).Contents (Elt F)),
    unary main_v187 main_v188 (Host.exp : (⟨S50000x128, .f32⟩ : BufTy).Contents (Elt F) → (⟨S50000x128, .f32⟩ : BufTy).Contents (Elt F)),
    nullary main_cst_25 (constant S_ .f32 0x3F800000#32),
    unary main_cst_25 main_v189 (broadcastInDim S50000x128 ![] bcast_S_S50000x128 : (⟨S_, .f32⟩ : BufTy).Contents (Elt F) → (⟨S50000x128, .f32⟩ : BufTy).Contents (Elt F)),
    binary main_v189 main_v188 main_v190 (addf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x3F800000#32),
    unary main_cst_26 main_v191 (broadcastInDim S50000x128 ![] bcast_S_S50000x128 : (⟨S_, .f32⟩ : BufTy).Contents (Elt F) → (⟨S50000x128, .f32⟩ : BufTy).Contents (Elt F)),
    binary main_v191 main_v190 main_v192 (Host.divf : (⟨S50000x128, .f32⟩ : BufTy).Contents (Elt F) → (⟨S50000x128, .f32⟩ : BufTy).Contents (Elt F) → (⟨S50000x128, .f32⟩ : BufTy).Contents (Elt F)),
    binary main_v181 main_v184 main_v193 (addf : (⟨S50000x128, .f32⟩ : BufTy).Contents (Elt F) → (⟨S50000x128, .f32⟩ : BufTy).Contents (Elt F) → (⟨S50000x128, .f32⟩ : BufTy).Contents (Elt F)),
    unary main_v193 main_v194 (Host.negf : (⟨S50000x128, .f32⟩ : BufTy).Contents (Elt F) → (⟨S50000x128, .f32⟩ : BufTy).Contents (Elt F)),
    unary main_v194 main_v195 (Host.exp : (⟨S50000x128, .f32⟩ : BufTy).Contents (Elt F) → (⟨S50000x128, .f32⟩ : BufTy).Contents (Elt F)),
    nullary main_cst_27 (constant S_ .f32 0x3F800000#32),
    unary main_cst_27 main_v196 (broadcastInDim S50000x128 ![] bcast_S_S50000x128 : (⟨S_, .f32⟩ : BufTy).Contents (Elt F) → (⟨S50000x128, .f32⟩ : BufTy).Contents (Elt F)),
    binary main_v196 main_v195 main_v197 (addf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x3F800000#32),
    unary main_cst_28 main_v198 (broadcastInDim S50000x128 ![] bcast_S_S50000x128 : (⟨S_, .f32⟩ : BufTy).Contents (Elt F) → (⟨S50000x128, .f32⟩ : BufTy).Contents (Elt F)),
    binary main_v198 main_v197 main_v199 (Host.divf : (⟨S50000x128, .f32⟩ : BufTy).Contents (Elt F) → (⟨S50000x128, .f32⟩ : BufTy).Contents (Elt F) → (⟨S50000x128, .f32⟩ : BufTy).Contents (Elt F)),
    binary main_v192 main_v185 main_v200 (mulf : (⟨S50000x128, .f32⟩ : BufTy).Contents (Elt F) → (⟨S50000x128, .f32⟩ : BufTy).Contents (Elt F) → (⟨S50000x128, .f32⟩ : BufTy).Contents (Elt F)),
    binary main_v182 main_v200 main_v201 (addf : (⟨S50000x128, .f32⟩ : BufTy).Contents (Elt F) → (⟨S50000x128, .f32⟩ : BufTy).Contents (Elt F) → (⟨S50000x128, .f32⟩ : BufTy).Contents (Elt F)),
    unary main_v201 main_v202 (Host.tanh : (⟨S50000x128, .f32⟩ : BufTy).Contents (Elt F) → (⟨S50000x128, .f32⟩ : BufTy).Contents (Elt F)),
    nullary main_cst_29 (constant S_ .f32 0x3F800000#32),
    unary main_cst_29 main_v203 (broadcastInDim S50000x128 ![] bcast_S_S50000x128 : (⟨S_, .f32⟩ : BufTy).Contents (Elt F) → (⟨S50000x128, .f32⟩ : BufTy).Contents (Elt F)),
    binary main_v203 main_v199 main_v204 (subf : (⟨S50000x128, .f32⟩ : BufTy).Contents (Elt F) → (⟨S50000x128, .f32⟩ : BufTy).Contents (Elt F) → (⟨S50000x128, .f32⟩ : BufTy).Contents (Elt F)),
    binary main_v204 main_v202 main_v205 (mulf : (⟨S50000x128, .f32⟩ : BufTy).Contents (Elt F) → (⟨S50000x128, .f32⟩ : BufTy).Contents (Elt F) → (⟨S50000x128, .f32⟩ : BufTy).Contents (Elt F)),
    binary main_v199 main_v156 main_v206 (mulf : (⟨S50000x128, .f32⟩ : BufTy).Contents (Elt F) → (⟨S50000x128, .f32⟩ : BufTy).Contents (Elt F) → (⟨S50000x128, .f32⟩ : BufTy).Contents (Elt F)),
    binary main_v205 main_v206 main_v207 (addf : (⟨S50000x128, .f32⟩ : BufTy).Contents (Elt F) → (⟨S50000x128, .f32⟩ : BufTy).Contents (Elt F) → (⟨S50000x128, .f32⟩ : BufTy).Contents (Elt F)) ]

/-- Round 5. -/
abbrev blk5 : List (HloOp τ sig (Elt F)) :=
  [ unary main_arg2 main_v208 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v208 main_v209 rfl shapeCasts_S1x128x128_S128x128,
    binary main_v207 main_v209 main_v210 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_30 (constantI S_ 32 0#32),
    unary main_c_30 main_v211 (broadcastInDim S640000 ![] bcast_S_S640000 : (⟨S_, .i32⟩ : BufTy).Contents (Elt F) → (⟨S640000, .i32⟩ : BufTy).Contents (Elt F)),
    binary main_v1 main_v211 main_v212 (cmpi .slt : (⟨S640000, .i32⟩ : BufTy).Contents (Elt F) → (⟨S640000, .i32⟩ : BufTy).Contents (Elt F) → (⟨S640000, .i1⟩ : BufTy).Contents (Elt F)),
    nullary main_c_31 (constantI S_ 32 50000#32),
    unary main_c_31 main_v213 (broadcastInDim S640000 ![] bcast_S_S640000 : (⟨S_, .i32⟩ : BufTy).Contents (Elt F) → (⟨S640000, .i32⟩ : BufTy).Contents (Elt F)),
    binary main_v1 main_v213 main_v214 (addi : (⟨S640000, .i32⟩ : BufTy).Contents (Elt F) → (⟨S640000, .i32⟩ : BufTy).Contents (Elt F) → (⟨S640000, .i32⟩ : BufTy).Contents (Elt F)),
    ternary main_v212 main_v214 main_v1 main_v215 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v215 main_v216 (broadcastInDim S640000x1 ![0] bcast_S640000_S640000x1_0 : (⟨S640000, .i32⟩ : BufTy).Contents (Elt F) → (⟨S640000x1, .i32⟩ : BufTy).Contents (Elt F)),
    binary main_v210 main_v216 main_v217 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_32 (constant S_ .f32 0x00000000#32),
    unary main_cst_32 main_v218 (broadcastInDim S50000x128 ![] bcast_S_S50000x128 : (⟨S_, .f32⟩ : BufTy).Contents (Elt F) → (⟨S50000x128, .f32⟩ : BufTy).Contents (Elt F)),
    unary main_v3 main_v219 (broadcastInDim S640000x1 ![0] bcast_S640000_S640000x1_0 : (⟨S640000, .i32⟩ : BufTy).Contents (Elt F) → (⟨S640000x1, .i32⟩ : BufTy).Contents (Elt F)),
    ternary main_v218 main_v219 main_v217 main_v220 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_arg3 main_v221 ((transpose S128x384 [1, 0] · transposes_S384x128_S128x384_1_0) : (⟨S384x128, .f32⟩ : BufTy).Contents (Elt F) → (⟨S128x384, .f32⟩ : BufTy).Contents (Elt F)),
    binary main_v220 main_v221 main_v222 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg5 main_v223 (broadcastInDim S1x384 ![1] bcast_S384_S1x384_1 : (⟨S384, .f32⟩ : BufTy).Contents (Elt F) → (⟨S1x384, .f32⟩ : BufTy).Contents (Elt F)),
    unary main_v223 main_v224 (broadcastInDim S50000x384 ![0, 1] bcast_S1x384_S50000x384_0_1 : (⟨S1x384, .f32⟩ : BufTy).Contents (Elt F) → (⟨S50000x384, .f32⟩ : BufTy).Contents (Elt F)),
    binary main_v222 main_v224 main_v225 (addf : (⟨S50000x384, .f32⟩ : BufTy).Contents (Elt F) → (⟨S50000x384, .f32⟩ : BufTy).Contents (Elt F) → (⟨S50000x384, .f32⟩ : BufTy).Contents (Elt F)),
    unary main_arg4 main_v226 ((transpose S128x384 [1, 0] · transposes_S384x128_S128x384_1_0) : (⟨S384x128, .f32⟩ : BufTy).Contents (Elt F) → (⟨S128x384, .f32⟩ : BufTy).Contents (Elt F)),
    binary main_v207 main_v226 main_v227 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg6 main_v228 (broadcastInDim S1x384 ![1] bcast_S384_S1x384_1 : (⟨S384, .f32⟩ : BufTy).Contents (Elt F) → (⟨S1x384, .f32⟩ : BufTy).Contents (Elt F)),
    unary main_v228 main_v229 (broadcastInDim S50000x384 ![0, 1] bcast_S1x384_S50000x384_0_1 : (⟨S1x384, .f32⟩ : BufTy).Contents (Elt F) → (⟨S50000x384, .f32⟩ : BufTy).Contents (Elt F)),
    binary main_v227 main_v229 main_v230 (addf : (⟨S50000x384, .f32⟩ : BufTy).Contents (Elt F) → (⟨S50000x384, .f32⟩ : BufTy).Contents (Elt F) → (⟨S50000x384, .f32⟩ : BufTy).Contents (Elt F)),
    unary main_v225 main_v231 ((extractStridedSlice S50000x128 ![0, 0] · slices_S50000x384_S50000x128_0_0) : (⟨S50000x384, .f32⟩ : BufTy).Contents (Elt F) → (⟨S50000x128, .f32⟩ : BufTy).Contents (Elt F)),
    unary main_v225 main_v232 ((extractStridedSlice S50000x128 ![0, 128] · slices_S50000x384_S50000x128_0_128) : (⟨S50000x384, .f32⟩ : BufTy).Contents (Elt F) → (⟨S50000x128, .f32⟩ : BufTy).Contents (Elt F)),
    unary main_v225 main_v233 ((extractStridedSlice S50000x128 ![0, 256] · slices_S50000x384_S50000x128_0_256) : (⟨S50000x384, .f32⟩ : BufTy).Contents (Elt F) → (⟨S50000x128, .f32⟩ : BufTy).Contents (Elt F)),
    unary main_v230 main_v234 ((extractStridedSlice S50000x128 ![0, 0] · slices_S50000x384_S50000x128_0_0) : (⟨S50000x384, .f32⟩ : BufTy).Contents (Elt F) → (⟨S50000x128, .f32⟩ : BufTy).Contents (Elt F)),
    unary main_v230 main_v235 ((extractStridedSlice S50000x128 ![0, 128] · slices_S50000x384_S50000x128_0_128) : (⟨S50000x384, .f32⟩ : BufTy).Contents (Elt F) → (⟨S50000x128, .f32⟩ : BufTy).Contents (Elt F)),
    unary main_v230 main_v236 ((extractStridedSlice S50000x128 ![0, 256] · slices_S50000x384_S50000x128_0_256) : (⟨S50000x384, .f32⟩ : BufTy).Contents (Elt F) → (⟨S50000x128, .f32⟩ : BufTy).Contents (Elt F)),
    binary main_v231 main_v234 main_v237 (addf : (⟨S50000x128, .f32⟩ : BufTy).Contents (Elt F) → (⟨S50000x128, .f32⟩ : BufTy).Contents (Elt F) → (⟨S50000x128, .f32⟩ : BufTy).Contents (Elt F)),
    unary main_v237 main_v238 (Host.negf : (⟨S50000x128, .f32⟩ : BufTy).Contents (Elt F) → (⟨S50000x128, .f32⟩ : BufTy).Contents (Elt F)),
    unary main_v238 main_v239 (Host.exp : (⟨S50000x128, .f32⟩ : BufTy).Contents (Elt F) → (⟨S50000x128, .f32⟩ : BufTy).Contents (Elt F)),
    nullary main_cst_33 (constant S_ .f32 0x3F800000#32),
    unary main_cst_33 main_v240 (broadcastInDim S50000x128 ![] bcast_S_S50000x128 : (⟨S_, .f32⟩ : BufTy).Contents (Elt F) → (⟨S50000x128, .f32⟩ : BufTy).Contents (Elt F)),
    binary main_v240 main_v239 main_v241 (addf : (⟨S50000x128, .f32⟩ : BufTy).Contents (Elt F) → (⟨S50000x128, .f32⟩ : BufTy).Contents (Elt F) → (⟨S50000x128, .f32⟩ : BufTy).Contents (Elt F)),
    nullary main_cst_34 (constant S_ .f32 0x3F800000#32),
    unary main_cst_34 main_v242 (broadcastInDim S50000x128 ![] bcast_S_S50000x128 : (⟨S_, .f32⟩ : BufTy).Contents (Elt F) → (⟨S50000x128, .f32⟩ : BufTy).Contents (Elt F)),
    binary main_v242 main_v241 main_v243 (Host.divf : (⟨S50000x128, .f32⟩ : BufTy).Contents (Elt F) → (⟨S50000x128, .f32⟩ : BufTy).Contents (Elt F) → (⟨S50000x128, .f32⟩ : BufTy).Contents (Elt F)),
    binary main_v232 main_v235 main_v244 (addf : (⟨S50000x128, .f32⟩ : BufTy).Contents (Elt F) → (⟨S50000x128, .f32⟩ : BufTy).Contents (Elt F) → (⟨S50000x128, .f32⟩ : BufTy).Contents (Elt F)),
    unary main_v244 main_v245 (Host.negf : (⟨S50000x128, .f32⟩ : BufTy).Contents (Elt F) → (⟨S50000x128, .f32⟩ : BufTy).Contents (Elt F)),
    unary main_v245 main_v246 (Host.exp : (⟨S50000x128, .f32⟩ : BufTy).Contents (Elt F) → (⟨S50000x128, .f32⟩ : BufTy).Contents (Elt F)),
    nullary main_cst_35 (constant S_ .f32 0x3F800000#32),
    unary main_cst_35 main_v247 (broadcastInDim S50000x128 ![] bcast_S_S50000x128 : (⟨S_, .f32⟩ : BufTy).Contents (Elt F) → (⟨S50000x128, .f32⟩ : BufTy).Contents (Elt F)),
    binary main_v247 main_v246 main_v248 (addf : (⟨S50000x128, .f32⟩ : BufTy).Contents (Elt F) → (⟨S50000x128, .f32⟩ : BufTy).Contents (Elt F) → (⟨S50000x128, .f32⟩ : BufTy).Contents (Elt F)),
    nullary main_cst_36 (constant S_ .f32 0x3F800000#32),
    unary main_cst_36 main_v249 (broadcastInDim S50000x128 ![] bcast_S_S50000x128 : (⟨S_, .f32⟩ : BufTy).Contents (Elt F) → (⟨S50000x128, .f32⟩ : BufTy).Contents (Elt F)),
    binary main_v249 main_v248 main_v250 (Host.divf : (⟨S50000x128, .f32⟩ : BufTy).Contents (Elt F) → (⟨S50000x128, .f32⟩ : BufTy).Contents (Elt F) → (⟨S50000x128, .f32⟩ : BufTy).Contents (Elt F)),
    binary main_v243 main_v236 main_v251 (mulf : (⟨S50000x128, .f32⟩ : BufTy).Contents (Elt F) → (⟨S50000x128, .f32⟩ : BufTy).Contents (Elt F) → (⟨S50000x128, .f32⟩ : BufTy).Contents (Elt F)),
    binary main_v233 main_v251 main_v252 (addf : (⟨S50000x128, .f32⟩ : BufTy).Contents (Elt F) → (⟨S50000x128, .f32⟩ : BufTy).Contents (Elt F) → (⟨S50000x128, .f32⟩ : BufTy).Contents (Elt F)),
    unary main_v252 main_v253 (Host.tanh : (⟨S50000x128, .f32⟩ : BufTy).Contents (Elt F) → (⟨S50000x128, .f32⟩ : BufTy).Contents (Elt F)),
    nullary main_cst_37 (constant S_ .f32 0x3F800000#32),
    unary main_cst_37 main_v254 (broadcastInDim S50000x128 ![] bcast_S_S50000x128 : (⟨S_, .f32⟩ : BufTy).Contents (Elt F) → (⟨S50000x128, .f32⟩ : BufTy).Contents (Elt F)),
    binary main_v254 main_v250 main_v255 (subf : (⟨S50000x128, .f32⟩ : BufTy).Contents (Elt F) → (⟨S50000x128, .f32⟩ : BufTy).Contents (Elt F) → (⟨S50000x128, .f32⟩ : BufTy).Contents (Elt F)),
    binary main_v255 main_v253 main_v256 (mulf : (⟨S50000x128, .f32⟩ : BufTy).Contents (Elt F) → (⟨S50000x128, .f32⟩ : BufTy).Contents (Elt F) → (⟨S50000x128, .f32⟩ : BufTy).Contents (Elt F)),
    binary main_v250 main_v207 main_v257 (mulf : (⟨S50000x128, .f32⟩ : BufTy).Contents (Elt F) → (⟨S50000x128, .f32⟩ : BufTy).Contents (Elt F) → (⟨S50000x128, .f32⟩ : BufTy).Contents (Elt F)),
    binary main_v256 main_v257 main_v258 (addf : (⟨S50000x128, .f32⟩ : BufTy).Contents (Elt F) → (⟨S50000x128, .f32⟩ : BufTy).Contents (Elt F) → (⟨S50000x128, .f32⟩ : BufTy).Contents (Elt F)) ]

/-- The head. -/
abbrev blk6 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v258) (TRef.of (T := ⟨S50000x128, .f32⟩) main_call0_v0) (TRef.of (T := ⟨S50000x128, .f32⟩) main_v259) maximumf,
    unary main_arg7 main_v260 ((transpose S128x1 [1, 0] · transposes_S1x128_S128x1_1_0) : (⟨S1x128, .f32⟩ : BufTy).Contents (Elt F) → (⟨S128x1, .f32⟩ : BufTy).Contents (Elt F)),
    binary main_v259 main_v260 main_v261 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg8 main_v262 (broadcastInDim S1x1 ![1] bcast_S1_S1x1_1 : (⟨S1, .f32⟩ : BufTy).Contents (Elt F) → (⟨S1x1, .f32⟩ : BufTy).Contents (Elt F)),
    unary main_v262 main_v263 (broadcastInDim S50000x1 ![0, 1] bcast_S1x1_S50000x1_0_1 : (⟨S1x1, .f32⟩ : BufTy).Contents (Elt F) → (⟨S50000x1, .f32⟩ : BufTy).Contents (Elt F)),
    binary main_v261 main_v263 main_v264 (addf : (⟨S50000x1, .f32⟩ : BufTy).Contents (Elt F) → (⟨S50000x1, .f32⟩ : BufTy).Contents (Elt F) → (⟨S50000x1, .f32⟩ : BufTy).Contents (Elt F)) ]

set_option maxRecDepth 8192 in
set_option maxHeartbeats 4000000 in
/-- The 307 operations are the seven blocks in order. -/
theorem ops_eq : (ops : List (HloOp τ sig (Elt F))) = blk0 ++ (blk1 ++ (blk2 ++ (blk3 ++ (blk4 ++ (blk5 ++ blk6))))) := rfl

/-! ## What a block leaves alone -/

/-- The buffers the blocks carry along: the nine arguments and the two rows of the edge list. -/
abbrev carried : List (Ref sig .tc) := [main_arg0, main_arg1, main_arg2, main_arg3, main_arg4, main_arg5, main_arg6, main_arg7, main_arg8, main_v1, main_v3]

/-- The buffers block 0 writes. -/
abbrev blk0_W : List (Ref sig .tc) := [main_v0, main_v1, main_v2, main_v3]

set_option maxRecDepth 8192 in
set_option maxHeartbeats 4000000 in
theorem blk0_writes : (blk0 : List (HloOp τ sig (Elt F))).Forall fun op => op.writes ⊆ (blk0_W.map (Proc.devRef (τ := τ) .tc)).toFinset := by
  simp only [blk0, List.Forall]
  repeat' apply And.intro
  all_goals
    simp only [nullary_writes, unary_writes, binary_writes, ternary_writes, reshape_writes, Finset.singleton_subset_iff, List.mem_toFinset]
    exact List.mem_map_of_mem (by decide)

/-- A buffer block 0 does not write keeps its contents through it. -/
theorem blk0_keep (V : Valuation τ sig (Elt F)) (r : Ref sig .tc) (h : r ∉ blk0_W) :
    after blk0 V (Proc.devRef .tc r) = V (Proc.devRef .tc r) :=
  after_of_writes_sub blk0 V blk0_writes h

/-- The buffers block 1 writes. -/
abbrev blk1_W : List (Ref sig .tc) := [main_v4, main_v5, main_v6, main_c, main_v7, main_v8, main_c_0, main_v9, main_v10, main_v11, main_v12, main_v13, main_cst, main_v14, main_v15, main_v16, main_v17, main_v18, main_v19, main_v20, main_v21, main_v22, main_v23, main_v24, main_v25, main_v26, main_v27, main_v28, main_v29, main_v30, main_v31, main_v32, main_v33, main_v34, main_v35, main_cst_1, main_v36, main_v37, main_cst_2, main_v38, main_v39, main_v40, main_v41, main_v42, main_cst_3, main_v43, main_v44, main_cst_4, main_v45, main_v46, main_v47, main_v48, main_v49, main_cst_5, main_v50, main_v51, main_v52, main_v53, main_v54]

set_option maxRecDepth 8192 in
set_option maxHeartbeats 4000000 in
theorem blk1_writes : (blk1 : List (HloOp τ sig (Elt F))).Forall fun op => op.writes ⊆ (blk1_W.map (Proc.devRef (τ := τ) .tc)).toFinset := by
  simp only [blk1, List.Forall]
  repeat' apply And.intro
  all_goals
    simp only [nullary_writes, unary_writes, binary_writes, ternary_writes, reshape_writes, Finset.singleton_subset_iff, List.mem_toFinset]
    exact List.mem_map_of_mem (by decide)

/-- A buffer block 1 does not write keeps its contents through it. -/
theorem blk1_keep (V : Valuation τ sig (Elt F)) (r : Ref sig .tc) (h : r ∉ blk1_W) :
    after blk1 V (Proc.devRef .tc r) = V (Proc.devRef .tc r) :=
  after_of_writes_sub blk1 V blk1_writes h

set_option maxRecDepth 8192 in
theorem blk1_carried (V : Valuation τ sig (Elt F)) :
    ∀ r ∈ (carried : List (Ref sig .tc)), after blk1 V (Proc.devRef .tc r) = V (Proc.devRef .tc r) :=
  fun r hr => blk1_keep V r ((by decide : ∀ r ∈ (carried : List (Ref sig .tc)), r ∉ blk1_W) r hr)

/-- The buffers block 2 writes. -/
abbrev blk2_W : List (Ref sig .tc) := [main_v55, main_v56, main_v57, main_c_6, main_v58, main_v59, main_c_7, main_v60, main_v61, main_v62, main_v63, main_v64, main_cst_8, main_v65, main_v66, main_v67, main_v68, main_v69, main_v70, main_v71, main_v72, main_v73, main_v74, main_v75, main_v76, main_v77, main_v78, main_v79, main_v80, main_v81, main_v82, main_v83, main_v84, main_v85, main_v86, main_cst_9, main_v87, main_v88, main_cst_10, main_v89, main_v90, main_v91, main_v92, main_v93, main_cst_11, main_v94, main_v95, main_cst_12, main_v96, main_v97, main_v98, main_v99, main_v100, main_cst_13, main_v101, main_v102, main_v103, main_v104, main_v105]

set_option maxRecDepth 8192 in
set_option maxHeartbeats 4000000 in
theorem blk2_writes : (blk2 : List (HloOp τ sig (Elt F))).Forall fun op => op.writes ⊆ (blk2_W.map (Proc.devRef (τ := τ) .tc)).toFinset := by
  simp only [blk2, List.Forall]
  repeat' apply And.intro
  all_goals
    simp only [nullary_writes, unary_writes, binary_writes, ternary_writes, reshape_writes, Finset.singleton_subset_iff, List.mem_toFinset]
    exact List.mem_map_of_mem (by decide)

/-- A buffer block 2 does not write keeps its contents through it. -/
theorem blk2_keep (V : Valuation τ sig (Elt F)) (r : Ref sig .tc) (h : r ∉ blk2_W) :
    after blk2 V (Proc.devRef .tc r) = V (Proc.devRef .tc r) :=
  after_of_writes_sub blk2 V blk2_writes h

set_option maxRecDepth 8192 in
theorem blk2_carried (V : Valuation τ sig (Elt F)) :
    ∀ r ∈ (carried : List (Ref sig .tc)), after blk2 V (Proc.devRef .tc r) = V (Proc.devRef .tc r) :=
  fun r hr => blk2_keep V r ((by decide : ∀ r ∈ (carried : List (Ref sig .tc)), r ∉ blk2_W) r hr)

/-- The buffers block 3 writes. -/
abbrev blk3_W : List (Ref sig .tc) := [main_v106, main_v107, main_v108, main_c_14, main_v109, main_v110, main_c_15, main_v111, main_v112, main_v113, main_v114, main_v115, main_cst_16, main_v116, main_v117, main_v118, main_v119, main_v120, main_v121, main_v122, main_v123, main_v124, main_v125, main_v126, main_v127, main_v128, main_v129, main_v130, main_v131, main_v132, main_v133, main_v134, main_v135, main_v136, main_v137, main_cst_17, main_v138, main_v139, main_cst_18, main_v140, main_v141, main_v142, main_v143, main_v144, main_cst_19, main_v145, main_v146, main_cst_20, main_v147, main_v148, main_v149, main_v150, main_v151, main_cst_21, main_v152, main_v153, main_v154, main_v155, main_v156]

set_option maxRecDepth 8192 in
set_option maxHeartbeats 4000000 in
theorem blk3_writes : (blk3 : List (HloOp τ sig (Elt F))).Forall fun op => op.writes ⊆ (blk3_W.map (Proc.devRef (τ := τ) .tc)).toFinset := by
  simp only [blk3, List.Forall]
  repeat' apply And.intro
  all_goals
    simp only [nullary_writes, unary_writes, binary_writes, ternary_writes, reshape_writes, Finset.singleton_subset_iff, List.mem_toFinset]
    exact List.mem_map_of_mem (by decide)

/-- A buffer block 3 does not write keeps its contents through it. -/
theorem blk3_keep (V : Valuation τ sig (Elt F)) (r : Ref sig .tc) (h : r ∉ blk3_W) :
    after blk3 V (Proc.devRef .tc r) = V (Proc.devRef .tc r) :=
  after_of_writes_sub blk3 V blk3_writes h

set_option maxRecDepth 8192 in
theorem blk3_carried (V : Valuation τ sig (Elt F)) :
    ∀ r ∈ (carried : List (Ref sig .tc)), after blk3 V (Proc.devRef .tc r) = V (Proc.devRef .tc r) :=
  fun r hr => blk3_keep V r ((by decide : ∀ r ∈ (carried : List (Ref sig .tc)), r ∉ blk3_W) r hr)

/-- The buffers block 4 writes. -/
abbrev blk4_W : List (Ref sig .tc) := [main_v157, main_v158, main_v159, main_c_22, main_v160, main_v161, main_c_23, main_v162, main_v163, main_v164, main_v165, main_v166, main_cst_24, main_v167, main_v168, main_v169, main_v170, main_v171, main_v172, main_v173, main_v174, main_v175, main_v176, main_v177, main_v178, main_v179, main_v180, main_v181, main_v182, main_v183, main_v184, main_v185, main_v186, main_v187, main_v188, main_cst_25, main_v189, main_v190, main_cst_26, main_v191, main_v192, main_v193, main_v194, main_v195, main_cst_27, main_v196, main_v197, main_cst_28, main_v198, main_v199, main_v200, main_v201, main_v202, main_cst_29, main_v203, main_v204, main_v205, main_v206, main_v207]

set_option maxRecDepth 8192 in
set_option maxHeartbeats 4000000 in
theorem blk4_writes : (blk4 : List (HloOp τ sig (Elt F))).Forall fun op => op.writes ⊆ (blk4_W.map (Proc.devRef (τ := τ) .tc)).toFinset := by
  simp only [blk4, List.Forall]
  repeat' apply And.intro
  all_goals
    simp only [nullary_writes, unary_writes, binary_writes, ternary_writes, reshape_writes, Finset.singleton_subset_iff, List.mem_toFinset]
    exact List.mem_map_of_mem (by decide)

/-- A buffer block 4 does not write keeps its contents through it. -/
theorem blk4_keep (V : Valuation τ sig (Elt F)) (r : Ref sig .tc) (h : r ∉ blk4_W) :
    after blk4 V (Proc.devRef .tc r) = V (Proc.devRef .tc r) :=
  after_of_writes_sub blk4 V blk4_writes h

set_option maxRecDepth 8192 in
theorem blk4_carried (V : Valuation τ sig (Elt F)) :
    ∀ r ∈ (carried : List (Ref sig .tc)), after blk4 V (Proc.devRef .tc r) = V (Proc.devRef .tc r) :=
  fun r hr => blk4_keep V r ((by decide : ∀ r ∈ (carried : List (Ref sig .tc)), r ∉ blk4_W) r hr)

/-- The buffers block 5 writes. -/
abbrev blk5_W : List (Ref sig .tc) := [main_v208, main_v209, main_v210, main_c_30, main_v211, main_v212, main_c_31, main_v213, main_v214, main_v215, main_v216, main_v217, main_cst_32, main_v218, main_v219, main_v220, main_v221, main_v222, main_v223, main_v224, main_v225, main_v226, main_v227, main_v228, main_v229, main_v230, main_v231, main_v232, main_v233, main_v234, main_v235, main_v236, main_v237, main_v238, main_v239, main_cst_33, main_v240, main_v241, main_cst_34, main_v242, main_v243, main_v244, main_v245, main_v246, main_cst_35, main_v247, main_v248, main_cst_36, main_v249, main_v250, main_v251, main_v252, main_v253, main_cst_37, main_v254, main_v255, main_v256, main_v257, main_v258]

set_option maxRecDepth 8192 in
set_option maxHeartbeats 4000000 in
theorem blk5_writes : (blk5 : List (HloOp τ sig (Elt F))).Forall fun op => op.writes ⊆ (blk5_W.map (Proc.devRef (τ := τ) .tc)).toFinset := by
  simp only [blk5, List.Forall]
  repeat' apply And.intro
  all_goals
    simp only [nullary_writes, unary_writes, binary_writes, ternary_writes, reshape_writes, Finset.singleton_subset_iff, List.mem_toFinset]
    exact List.mem_map_of_mem (by decide)

/-- A buffer block 5 does not write keeps its contents through it. -/
theorem blk5_keep (V : Valuation τ sig (Elt F)) (r : Ref sig .tc) (h : r ∉ blk5_W) :
    after blk5 V (Proc.devRef .tc r) = V (Proc.devRef .tc r) :=
  after_of_writes_sub blk5 V blk5_writes h

set_option maxRecDepth 8192 in
theorem blk5_carried (V : Valuation τ sig (Elt F)) :
    ∀ r ∈ (carried : List (Ref sig .tc)), after blk5 V (Proc.devRef .tc r) = V (Proc.devRef .tc r) :=
  fun r hr => blk5_keep V r ((by decide : ∀ r ∈ (carried : List (Ref sig .tc)), r ∉ blk5_W) r hr)

/-- The buffers block 6 writes. -/
abbrev blk6_W : List (Ref sig .tc) := [main_call0_cst, main_call0_v0, main_v259, main_v260, main_v261, main_v262, main_v263, main_v264]

set_option maxRecDepth 8192 in
set_option maxHeartbeats 4000000 in
theorem blk6_writes : (blk6 : List (HloOp τ sig (Elt F))).Forall fun op => op.writes ⊆ (blk6_W.map (Proc.devRef (τ := τ) .tc)).toFinset := by
  simp only [blk6, List.Forall]
  repeat' apply And.intro
  all_goals
    simp only [nullary_writes, unary_writes, binary_writes, ternary_writes, reshape_writes, Finset.singleton_subset_iff, List.mem_toFinset]
    exact List.mem_map_of_mem (by decide)

/-- A buffer block 6 does not write keeps its contents through it. -/
theorem blk6_keep (V : Valuation τ sig (Elt F)) (r : Ref sig .tc) (h : r ∉ blk6_W) :
    after blk6 V (Proc.devRef .tc r) = V (Proc.devRef .tc r) :=
  after_of_writes_sub blk6 V blk6_writes h

set_option maxRecDepth 8192 in
theorem blk6_carried (V : Valuation τ sig (Elt F)) :
    ∀ r ∈ (carried : List (Ref sig .tc)), after blk6 V (Proc.devRef .tc r) = V (Proc.devRef .tc r) :=
  fun r hr => blk6_keep V r ((by decide : ∀ r ∈ (carried : List (Ref sig .tc)), r ∉ blk6_W) r hr)

/-! ## What a block computes -/

/-- One round with the two rows of the edge list given: the messages `h · W`, gathered along the source row (a negative
    index counted from the end), summed into the rows the target row names, then the gated update. -/
def layerRows (src dst : IVec S640000 32) (a3 a4 : FVec F S384x128 .f32) (a5 a6 : FVec F S384 .f32)
    (W : FVec F S128x128 .f32) (h : FVec F S50000x128 .f32) : FVec F S50000x128 .f32 :=
  Arr.gru
    (Host.scatterAdd scatter_S50000x128_S640000x1_S640000x128_1_0_0_1 Arr.zeros
      (broadcastInDim S640000x1 ![0] bcast_S640000_S640000x1_0 dst)
      (Host.gather gather_S50000x128_S640000x1_S640000x128_1_0_n_n_0_1_1128 (Arr.lin h W)
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))))
    h a3 a4 a5 a6

/-- A round over the edge list is the round over its two rows. -/
theorem layer_eq (e : IVec S2x640000 32) (a3 a4 : FVec F S384x128 .f32) (a5 a6 : FVec F S384 .f32)
    (W : FVec F S128x128 .f32) (h : FVec F S50000x128 .f32) :
    Arr.layer e a3 a4 a5 a6 W h = layerRows (Arr.srcRow e) (Arr.dstRow e) a3 a4 a5 a6 W h := rfl

/-- The source row. -/
theorem blk0_src (V : Valuation τ sig (Elt F)) :
    after blk0 V (Proc.devRef .tc main_v1) = Arr.srcRow (V (Proc.devRef .tc main_arg1)) := by
  after_results_simp <;> rfl

/-- The target row. -/
theorem blk0_dst (V : Valuation τ sig (Elt F)) :
    after blk0 V (Proc.devRef .tc main_v3) = Arr.dstRow (V (Proc.devRef .tc main_arg1)) := by
  after_results_simp <;> rfl

set_option maxRecDepth 8192 in
set_option maxHeartbeats 4000000 in
/-- Round 1, from arbitrary contents: its last buffer is the round's function of the two rows, the gate weights and
    biases, the round's matrix and the features it reads. -/
theorem round1 (V : Valuation τ sig (Elt F)) :
    after blk1 V (Proc.devRef .tc main_v54) =
      layerRows (V (Proc.devRef .tc main_v1)) (V (Proc.devRef .tc main_v3)) (V (Proc.devRef .tc main_arg3)) (V (Proc.devRef .tc main_arg4))
        (V (Proc.devRef .tc main_arg5)) (V (Proc.devRef .tc main_arg6)) (Arr.W0 (V (Proc.devRef .tc main_arg2))) (V (Proc.devRef .tc main_arg0)) := by
  after_results_simp <;> rfl

set_option maxRecDepth 8192 in
set_option maxHeartbeats 4000000 in
/-- Round 2, from arbitrary contents: its last buffer is the round's function of the two rows, the gate weights and
    biases, the round's matrix and the features it reads. -/
theorem round2 (V : Valuation τ sig (Elt F)) :
    after blk2 V (Proc.devRef .tc main_v105) =
      layerRows (V (Proc.devRef .tc main_v1)) (V (Proc.devRef .tc main_v3)) (V (Proc.devRef .tc main_arg3)) (V (Proc.devRef .tc main_arg4))
        (V (Proc.devRef .tc main_arg5)) (V (Proc.devRef .tc main_arg6)) (Arr.W1 (V (Proc.devRef .tc main_arg2))) (V (Proc.devRef .tc main_v54)) := by
  after_results_simp <;> rfl

set_option maxRecDepth 8192 in
set_option maxHeartbeats 4000000 in
/-- Round 3, from arbitrary contents: its last buffer is the round's function of the two rows, the gate weights and
    biases, the round's matrix and the features it reads. -/
theorem round3 (V : Valuation τ sig (Elt F)) :
    after blk3 V (Proc.devRef .tc main_v156) =
      layerRows (V (Proc.devRef .tc main_v1)) (V (Proc.devRef .tc main_v3)) (V (Proc.devRef .tc main_arg3)) (V (Proc.devRef .tc main_arg4))
        (V (Proc.devRef .tc main_arg5)) (V (Proc.devRef .tc main_arg6)) (Arr.W2 (V (Proc.devRef .tc main_arg2))) (V (Proc.devRef .tc main_v105)) := by
  after_results_simp <;> rfl

set_option maxRecDepth 8192 in
set_option maxHeartbeats 4000000 in
/-- Round 4, from arbitrary contents: its last buffer is the round's function of the two rows, the gate weights and
    biases, the round's matrix and the features it reads. -/
theorem round4 (V : Valuation τ sig (Elt F)) :
    after blk4 V (Proc.devRef .tc main_v207) =
      layerRows (V (Proc.devRef .tc main_v1)) (V (Proc.devRef .tc main_v3)) (V (Proc.devRef .tc main_arg3)) (V (Proc.devRef .tc main_arg4))
        (V (Proc.devRef .tc main_arg5)) (V (Proc.devRef .tc main_arg6)) (Arr.W3 (V (Proc.devRef .tc main_arg2))) (V (Proc.devRef .tc main_v156)) := by
  after_results_simp <;> rfl

set_option maxRecDepth 8192 in
set_option maxHeartbeats 4000000 in
/-- Round 5, from arbitrary contents: its last buffer is the round's function of the two rows, the gate weights and
    biases, the round's matrix and the features it reads. -/
theorem round5 (V : Valuation τ sig (Elt F)) :
    after blk5 V (Proc.devRef .tc main_v258) =
      layerRows (V (Proc.devRef .tc main_v1)) (V (Proc.devRef .tc main_v3)) (V (Proc.devRef .tc main_arg3)) (V (Proc.devRef .tc main_arg4))
        (V (Proc.devRef .tc main_arg5)) (V (Proc.devRef .tc main_arg6)) (Arr.W4 (V (Proc.devRef .tc main_arg2))) (V (Proc.devRef .tc main_v207)) := by
  after_results_simp <;> rfl

/-- The head, from arbitrary contents. -/
theorem head_out (V : Valuation τ sig (Elt F)) :
    after blk6 V (Proc.devRef .tc main_v264) =
      Arr.head (V (Proc.devRef .tc main_v258)) (V (Proc.devRef .tc main_arg7)) (V (Proc.devRef .tc main_arg8)) := by
  after_results_simp <;> rfl

/-! ## The blocks composed -/

/-- Contents `V'` hold the nine arguments as `V` does, and the two rows of `V`'s edge list. -/
structure Inv (V V' : Valuation τ sig (Elt F)) : Prop where
  a0 : V' (Proc.devRef .tc main_arg0) = V (Proc.devRef .tc main_arg0)
  a1 : V' (Proc.devRef .tc main_arg1) = V (Proc.devRef .tc main_arg1)
  a2 : V' (Proc.devRef .tc main_arg2) = V (Proc.devRef .tc main_arg2)
  a3 : V' (Proc.devRef .tc main_arg3) = V (Proc.devRef .tc main_arg3)
  a4 : V' (Proc.devRef .tc main_arg4) = V (Proc.devRef .tc main_arg4)
  a5 : V' (Proc.devRef .tc main_arg5) = V (Proc.devRef .tc main_arg5)
  a6 : V' (Proc.devRef .tc main_arg6) = V (Proc.devRef .tc main_arg6)
  a7 : V' (Proc.devRef .tc main_arg7) = V (Proc.devRef .tc main_arg7)
  a8 : V' (Proc.devRef .tc main_arg8) = V (Proc.devRef .tc main_arg8)
  src : V' (Proc.devRef .tc main_v1) = Arr.srcRow (V (Proc.devRef .tc main_arg1))
  dst : V' (Proc.devRef .tc main_v3) = Arr.dstRow (V (Proc.devRef .tc main_arg1))

/-- After the edge list is cut. -/
theorem inv0 (V : Valuation τ sig (Elt F)) : Inv V (after blk0 V) where
  a0 := blk0_keep V main_arg0 (by decide)
  a1 := blk0_keep V main_arg1 (by decide)
  a2 := blk0_keep V main_arg2 (by decide)
  a3 := blk0_keep V main_arg3 (by decide)
  a4 := blk0_keep V main_arg4 (by decide)
  a5 := blk0_keep V main_arg5 (by decide)
  a6 := blk0_keep V main_arg6 (by decide)
  a7 := blk0_keep V main_arg7 (by decide)
  a8 := blk0_keep V main_arg8 (by decide)
  src := blk0_src V
  dst := blk0_dst V

/-- A block that leaves the carried buffers alone preserves the invariant. -/
theorem Inv.step {V V' V'' : Valuation τ sig (Elt F)} (h : Inv V V')
    (k : ∀ r ∈ (carried : List (Ref sig .tc)), V'' (Proc.devRef .tc r) = V' (Proc.devRef .tc r)) : Inv V V'' where
  a0 := (k main_arg0 (by decide)).trans h.a0
  a1 := (k main_arg1 (by decide)).trans h.a1
  a2 := (k main_arg2 (by decide)).trans h.a2
  a3 := (k main_arg3 (by decide)).trans h.a3
  a4 := (k main_arg4 (by decide)).trans h.a4
  a5 := (k main_arg5 (by decide)).trans h.a5
  a6 := (k main_arg6 (by decide)).trans h.a6
  a7 := (k main_arg7 (by decide)).trans h.a7
  a8 := (k main_arg8 (by decide)).trans h.a8
  src := (k main_v1 (by decide)).trans h.src
  dst := (k main_v3 (by decide)).trans h.dst

/-- Round 1 under the invariant: from features `x` it leaves the round over the edge list applied to `x`. -/
theorem round1_inv {V V' : Valuation τ sig (Elt F)} (h : Inv V V') {x : FVec F S50000x128 .f32}
    (hx : V' (Proc.devRef .tc main_arg0) = x) :
    after blk1 V' (Proc.devRef .tc main_v54) =
      Arr.layer (V (Proc.devRef .tc main_arg1)) (V (Proc.devRef .tc main_arg3)) (V (Proc.devRef .tc main_arg4)) (V (Proc.devRef .tc main_arg5))
        (V (Proc.devRef .tc main_arg6)) (Arr.W0 (V (Proc.devRef .tc main_arg2))) x := by
  rw [round1 V', h.src, h.dst, h.a2, h.a3, h.a4, h.a5, h.a6, hx, layer_eq]

/-- Round 2 under the invariant: from features `x` it leaves the round over the edge list applied to `x`. -/
theorem round2_inv {V V' : Valuation τ sig (Elt F)} (h : Inv V V') {x : FVec F S50000x128 .f32}
    (hx : V' (Proc.devRef .tc main_v54) = x) :
    after blk2 V' (Proc.devRef .tc main_v105) =
      Arr.layer (V (Proc.devRef .tc main_arg1)) (V (Proc.devRef .tc main_arg3)) (V (Proc.devRef .tc main_arg4)) (V (Proc.devRef .tc main_arg5))
        (V (Proc.devRef .tc main_arg6)) (Arr.W1 (V (Proc.devRef .tc main_arg2))) x := by
  rw [round2 V', h.src, h.dst, h.a2, h.a3, h.a4, h.a5, h.a6, hx, layer_eq]

/-- Round 3 under the invariant: from features `x` it leaves the round over the edge list applied to `x`. -/
theorem round3_inv {V V' : Valuation τ sig (Elt F)} (h : Inv V V') {x : FVec F S50000x128 .f32}
    (hx : V' (Proc.devRef .tc main_v105) = x) :
    after blk3 V' (Proc.devRef .tc main_v156) =
      Arr.layer (V (Proc.devRef .tc main_arg1)) (V (Proc.devRef .tc main_arg3)) (V (Proc.devRef .tc main_arg4)) (V (Proc.devRef .tc main_arg5))
        (V (Proc.devRef .tc main_arg6)) (Arr.W2 (V (Proc.devRef .tc main_arg2))) x := by
  rw [round3 V', h.src, h.dst, h.a2, h.a3, h.a4, h.a5, h.a6, hx, layer_eq]

/-- Round 4 under the invariant: from features `x` it leaves the round over the edge list applied to `x`. -/
theorem round4_inv {V V' : Valuation τ sig (Elt F)} (h : Inv V V') {x : FVec F S50000x128 .f32}
    (hx : V' (Proc.devRef .tc main_v156) = x) :
    after blk4 V' (Proc.devRef .tc main_v207) =
      Arr.layer (V (Proc.devRef .tc main_arg1)) (V (Proc.devRef .tc main_arg3)) (V (Proc.devRef .tc main_arg4)) (V (Proc.devRef .tc main_arg5))
        (V (Proc.devRef .tc main_arg6)) (Arr.W3 (V (Proc.devRef .tc main_arg2))) x := by
  rw [round4 V', h.src, h.dst, h.a2, h.a3, h.a4, h.a5, h.a6, hx, layer_eq]

/-- Round 5 under the invariant: from features `x` it leaves the round over the edge list applied to `x`. -/
theorem round5_inv {V V' : Valuation τ sig (Elt F)} (h : Inv V V') {x : FVec F S50000x128 .f32}
    (hx : V' (Proc.devRef .tc main_v207) = x) :
    after blk5 V' (Proc.devRef .tc main_v258) =
      Arr.layer (V (Proc.devRef .tc main_arg1)) (V (Proc.devRef .tc main_arg3)) (V (Proc.devRef .tc main_arg4)) (V (Proc.devRef .tc main_arg5))
        (V (Proc.devRef .tc main_arg6)) (Arr.W4 (V (Proc.devRef .tc main_arg2))) x := by
  rw [round5 V', h.src, h.dst, h.a2, h.a3, h.a4, h.a5, h.a6, hx, layer_eq]

/-- The fold over the seven blocks, nested. -/
theorem after_blocks (V : Valuation τ sig (Elt F)) :
    after (blk0 ++ (blk1 ++ (blk2 ++ (blk3 ++ (blk4 ++ (blk5 ++ blk6)))))) V =
      after blk6 (after blk5 (after blk4 (after blk3 (after blk2 (after blk1 (after blk0 V)))))) := by
  simp only [after_append]

/-- All seven blocks keep the arguments. -/
theorem blocks_inv (V : Valuation τ sig (Elt F)) :
    Inv V (after blk6 (after blk5 (after blk4 (after blk3 (after blk2 (after blk1 (after blk0 V))))))) :=
  ((((((inv0 V).step (blk1_carried _)).step (blk2_carried _)).step (blk3_carried _)).step (blk4_carried _)).step
    (blk5_carried _)).step (blk6_carried _)

/-- All seven blocks: the result buffer holds the five rounds and the head applied to the arguments. -/
theorem blocks_out (V : Valuation τ sig (Elt F)) :
    after blk6 (after blk5 (after blk4 (after blk3 (after blk2 (after blk1 (after blk0 V)))))) (Proc.devRef .tc main_v264) =
      Arr.res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  have i0 := inv0 V
  have f1 := round1_inv i0 i0.a0
  have i1 := i0.step (blk1_carried _)
  have f2 := round2_inv i1 f1
  have i2 := i1.step (blk2_carried _)
  have f3 := round3_inv i2 f2
  have i3 := i2.step (blk3_carried _)
  have f4 := round4_inv i3 f3
  have i4 := i3.step (blk4_carried _)
  have f5 := round5_inv i4 f4
  have i5 := i4.step (blk5_carried _)
  rw [head_out, f5, i5.a7, i5.a8]
  rfl

/-- The result buffer after the 307 operations, from arbitrary contents. -/
theorem ops_out (V : Valuation τ sig (Elt F)) :
    after ops V (Proc.devRef .tc main_v264) = Arr.res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_eq, after_blocks]; exact blocks_out V

/-- The arguments after the 307 operations, from arbitrary contents. -/
theorem ops_inv (V : Valuation τ sig (Elt F)) : Inv V (after ops V) := by
  rw [ops_eq, after_blocks]; exact blocks_inv V

/-- Every weakly fair execution of the reference terminates with the result buffer at the five rounds and the head
    applied to the launch contents of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v264) =
        Arr.res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v264).trans (ops_out (launchContents m c)),
       (h c main_arg0).trans (ops_inv (launchContents m c)).a0,
       (h c main_arg1).trans (ops_inv (launchContents m c)).a1,
       (h c main_arg2).trans (ops_inv (launchContents m c)).a2,
       (h c main_arg3).trans (ops_inv (launchContents m c)).a3,
       (h c main_arg4).trans (ops_inv (launchContents m c)).a4,
       (h c main_arg5).trans (ops_inv (launchContents m c)).a5,
       (h c main_arg6).trans (ops_inv (launchContents m c)).a6,
       (h c main_arg7).trans (ops_inv (launchContents m c)).a7,
       (h c main_arg8).trans (ops_inv (launchContents m c)).a8⟩)
    (run_fold m ρ)

end Cert.RefValue

end
-- ==== Proof.lean ====
/-
  The proof of `Cert.Claim`: a five-round gated graph network, its Pallas program against its jnp reference.

  Both programs compute, for node features x : [50000, 128] and 640000 edges, five rounds of
    m = h · W_k,  agg[d] = Σ_{edges s → d} m[s],  h ← (1 − z) · n + z · h
  with r = σ(gi_r + gh_r), z = σ(gi_z + gh_z), n = tanh(gi_n + r · gh_n), gi = agg · w_ihᵀ + b_ih, gh = h · w_hhᵀ + b_hh,
  and a head max(h, 0) · lin_wᵀ + lin_b. `Cert.Arr.res` states that computation once, array by array.

  The reference is that composition read off its operations (Proof/RefValue.lean). The kernel program tiles the two
  matrix-bearing steps of every round, and the head, over fifty blocks of 1000 rows; a block of rows of a row-wise
  computation is the computation of the block of rows, at the exact instance rounding to bf16 is the identity, the
  kernel's logistic is 1 / (1 + e^(−x)) as the reference spells it, and the head's weight padded with zero columns
  agrees with the one output column on column 0 (Proof/KLin*.lean, KGru*.lean, KHead.lean, KRound*.lean, KTail.lean,
  KValue.lean). No law that needs finite inputs is used: the two sides are the same operations in the same order.
  The three frames are the generated ones (the reference's from its run); the idealization rewrote nothing.
-/
import proofs.«121637_j32624571580955_1_alg».proof.Defs
import proofs.«121637_j32624571580955_1_alg».proof.Proof.Gen.Kernel
import proofs.«121637_j32624571580955_1_alg».proof.Proof.Gen.Kernel.Frame
import proofs.«121637_j32624571580955_1_alg».proof.Proof.Gen.KernelIdeal
import proofs.«121637_j32624571580955_1_alg».proof.Proof.Gen.KernelIdeal.Frame
import proofs.«121637_j32624571580955_1_alg».proof.Proof.Gen.ReferenceIdeal
import proofs.«121637_j32624571580955_1_alg».proof.Proof.Gen.Pre_finite_inputs
import proofs.«121637_j32624571580955_1_alg».proof.Proof.KValue
import proofs.«121637_j32624571580955_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefValue.run (F := Ideal) m ρ)

theorem preserves : Cert.preserves_Kernel_KernelIdeal := trivial

/-- Both programs end with the result at the specification of the arguments, and the arguments agree. -/
theorem algebraic : Cert.algebraic_KernelIdeal_ReferenceIdeal := by
  intro m ρ m' ρ' _ hagree
  refine ⟨fun c => Cert.Arr.res (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KValue.run m ρ, ?_⟩
  refine (θ_run Cert.ReferenceIdeal.defs _ _).mono (fun _ h c => ⟨(h c).1.trans ?_, (h c).2⟩)
    (Cert.RefValue.run (F := Ideal) m' ρ')
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
